-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S100000x6 : Shape := ⟨2, ![100000, 6]⟩
abbrev S800000x4 : Shape := ⟨2, ![800000, 4]⟩
abbrev S100000 : Shape := ⟨1, ![100000]⟩
abbrev S800000 : Shape := ⟨1, ![800000]⟩
abbrev S8x128 : Shape := ⟨2, ![8, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S262x128 : Shape := ⟨2, ![262, 128]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S800000x4 : S_.BroadcastsInDim S800000x4 (![] : Fin 0 → Fin S800000x4.rank)
  reducesTo_S800000x4_S_d0_1 : S800000x4.ReducesTo [0, 1] S_
  bcast_S_S100000 : S_.BroadcastsInDim S100000 (![] : Fin 0 → Fin S100000.rank)
  reducesTo_S100000_S_d0 : S100000.ReducesTo [0] S_
  bcast_S_S800000 : S_.BroadcastsInDim S800000 (![] : Fin 0 → Fin S800000.rank)
  reducesTo_S800000_S_d0 : S800000.ReducesTo [0] S_
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S262x128 : S_.BroadcastsInDim S262x128 (![] : Fin 0 → Fin S262x128.rank)
  reducesTo_S262x128_S_d0_1 : S262x128.ReducesTo [0, 1] S_

variable [Facts]

def fn_part4 {F : FTy → Type} [FloatOps F] (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg18
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg19
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg14 : FVec F S128x1 .f32) (main_arg15 : FVec F S1 .f32) (main_arg16 : FVec F S262x128 .f32) (main_arg17 : FVec F S128 .f32) (main_arg18 : FVec F S128x1 .f32) (main_arg19 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg14
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S262x128 .f32 := Host.absf main_arg16
  let main_cst_24 : FVec F S_ .f32 := constant S_ .f32 0x7F800000#32
  let main_v65 : FVec F S262x128 .f32 := broadcastInDim S262x128 ![] bcast_S_S262x128 main_cst_24
  let main_v66 : IVec S262x128 1 := cmpf .olt main_v64 main_v65
  let main_c_25 : IVec S_ 1 := constantI S_ 1 1#1
  let main_v67 : IVec S_ 1 := (fun x v => Host.reduce IntOp.andi x v reducesTo_S262x128_S_d0_1 h_S_) main_v66 main_c_25
  fn_part4 (F := F) main_arg17 main_arg18 main_arg19 main_v63 main_v67

def fn_part2 {F : FTy → Type} [FloatOps F] (main_arg10 : FVec F S3x128x128 .f32) (main_arg11 : FVec F S3x128 .f32) (main_arg12 : FVec F S128x128 .f32) (main_arg13 : FVec F S128 .f32) (main_arg14 : FVec F S128x1 .f32) (main_arg15 : FVec F S1 .f32) (main_arg16 : FVec F S262x128 .f32) (main_arg17 : FVec F S128 .f32) (main_arg18 : FVec F S128x1 .f32) (main_arg19 : FVec F S1 .f32) (main_v33 : IVec S_ 1) : IVec S_ 1 :=
  let main_v34 : FVec F S3x128x128 .f32 := Host.absf main_arg10
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg11
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_v48 main_v49 main_v50

def fn_part1 {F : FTy → Type} [FloatOps F] (main_arg7 : FVec F S8x128 .f32) (main_arg8 : FVec F S128 .f32) (main_arg9 : FVec F S3x128x128 .f32) (main_arg10 : FVec F S3x128x128 .f32) (main_arg11 : FVec F S3x128 .f32) (main_arg12 : FVec F S128x128 .f32) (main_arg13 : FVec F S128 .f32) (main_arg14 : FVec F S128x1 .f32) (main_arg15 : FVec F S1 .f32) (main_arg16 : FVec F S262x128 .f32) (main_arg17 : FVec F S128 .f32) (main_arg18 : FVec F S128x1 .f32) (main_arg19 : FVec F S1 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S8x128 .f32 := Host.absf main_arg7
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg9
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : IVec S2x800000 32) (main_arg1 : FVec F S100000x6 .f32) (main_arg2 : FVec F S800000x4 .f32) (main_arg3 : FVec F S100000 .f32) (main_arg4 : FVec F S800000 .f32) (main_arg5 : IVec S100000 1) (main_arg6 : IVec S800000 1) (main_arg7 : FVec F S8x128 .f32) (main_arg8 : FVec F S128 .f32) (main_arg9 : FVec F S3x128x128 .f32) (main_arg10 : FVec F S3x128x128 .f32) (main_arg11 : FVec F S3x128 .f32) (main_arg12 : FVec F S128x128 .f32) (main_arg13 : FVec F S128 .f32) (main_arg14 : FVec F S128x1 .f32) (main_arg15 : FVec F S1 .f32) (main_arg16 : FVec F S262x128 .f32) (main_arg17 : FVec F S128 .f32) (main_arg18 : FVec F S128x1 .f32) (main_arg19 : FVec F S1 .f32) : IVec S_ 1 :=
  let main_v0 : FVec F S100000x6 .f32 := Host.absf main_arg1
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S800000x4 .f32 := Host.absf main_arg2
  let main_cst_0 : FVec F S_ .f32 := constant S_ .f32 0x7F800000#32
  let main_v5 : FVec F S800000x4 .f32 := broadcastInDim S800000x4 ![] bcast_S_S800000x4 main_cst_0
  let main_v6 : IVec S800000x4 1 := cmpf .olt main_v4 main_v5
  let main_c_1 : IVec S_ 1 := constantI S_ 1 1#1
  let main_v7 : IVec S_ 1 := (fun x v => Host.reduce IntOp.andi x v reducesTo_S800000x4_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S800000 .f32 := Host.absf main_arg4
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S2x800000 : Shape := ⟨2, ![2, 800000]⟩
abbrev S100000x6 : Shape := ⟨2, ![100000, 6]⟩
abbrev S800000x4 : Shape := ⟨2, ![800000, 4]⟩
abbrev S100000 : Shape := ⟨1, ![100000]⟩
abbrev S800000 : Shape := ⟨1, ![800000]⟩
abbrev S8x128 : Shape := ⟨2, ![8, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S262x128 : Shape := ⟨2, ![262, 128]⟩
abbrev S1x800000 : Shape := ⟨2, ![1, 800000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x8 : Shape := ⟨2, ![100000, 8]⟩
abbrev S100000x128 : Shape := ⟨2, ![100000, 128]⟩
abbrev S2000x8 : Shape := ⟨2, ![2000, 8]⟩
abbrev S2000x128 : Shape := ⟨2, ![2000, 128]⟩
abbrev S1x128 : Shape := ⟨2, ![1, 128]⟩
abbrev S1600000x128 : Shape := ⟨2, ![1600000, 128]⟩
abbrev S1x128x128 : Shape := ⟨3, ![1, 128, 128]⟩
abbrev S2000x1 : Shape := ⟨2, ![2000, 1]⟩
abbrev S1x1 : Shape := ⟨2, ![1, 1]⟩
abbrev S800000x1 : Shape := ⟨2, ![800000, 1]⟩
abbrev S800000x128 : Shape := ⟨2, ![800000, 128]⟩
abbrev S800000x6 : Shape := ⟨2, ![800000, 6]⟩
abbrev S6x128 : Shape := ⟨2, ![6, 128]⟩
abbrev S2000x6 : Shape := ⟨2, ![2000, 6]⟩

abbrev nBuf : Space → Nat
  | .hbm => 136
  | .vmem => 59
  | .smem => 0
  | _ => 0

abbrev hbmTy0_0 (i : Nat) : BufTy := match i % 128 with
  | 0 => ⟨S2x800000, .i32⟩
  | 1 => ⟨S100000x6, .f32⟩
  | 2 => ⟨S800000x4, .f32⟩
  | 3 => ⟨S100000, .f32⟩
  | 4 => ⟨S800000, .f32⟩
  | 5 => ⟨S100000, .i1⟩
  | 6 => ⟨S800000, .i1⟩
  | 7 => ⟨S8x128, .f32⟩
  | 8 => ⟨S128, .f32⟩
  | 9 => ⟨S3x128x128, .f32⟩
  | 10 => ⟨S3x128x128, .f32⟩
  | 11 => ⟨S3x128, .f32⟩
  | 12 => ⟨S128x128, .f32⟩
  | 13 => ⟨S128, .f32⟩
  | 14 => ⟨S128x1, .f32⟩
  | 15 => ⟨S1, .f32⟩
  | 16 => ⟨S262x128, .f32⟩
  | 17 => ⟨S128, .f32⟩
  | 18 => ⟨S128x1, .f32⟩
  | 19 => ⟨S1, .f32⟩
  | 20 => ⟨S1x800000, .i32⟩
  | 21 => ⟨S800000, .i32⟩
  | 22 => ⟨S1x800000, .i32⟩
  | 23 => ⟨S800000, .i32⟩
  | 24 => ⟨S1600000, .i32⟩
  | 25 => ⟨S1600000, .i32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x1, .f32⟩
  | 40 => ⟨S100000x1, .i1⟩
  | 41 => ⟨S100000x1, .f32⟩
  | 42 => ⟨S100000x8, .f32⟩
  | 43 => ⟨S100000x128, .bf16⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .bf16⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S1x128x128, .f32⟩
  | 59 => ⟨S128x128, .f32⟩
  | 60 => ⟨S1x128x128, .f32⟩
  | 61 => ⟨S128x128, .f32⟩
  | 62 => ⟨S1x128, .f32⟩
  | 63 => ⟨S128, .f32⟩
  | 64 => ⟨S100000x128, .bf16⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .bf16⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S1x128x128, .f32⟩
  | 80 => ⟨S128x128, .f32⟩
  | 81 => ⟨S1x128x128, .f32⟩
  | 82 => ⟨S128x128, .f32⟩
  | 83 => ⟨S1x128, .f32⟩
  | 84 => ⟨S128, .f32⟩
  | 85 => ⟨S100000x128, .bf16⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .bf16⟩
  | 95 => ⟨S1600000x128, .f32⟩
  | 96 => ⟨S_, .f32⟩
  | 97 => ⟨S100000x128, .f32⟩
  | 98 => ⟨S1600000x1, .i32⟩
  | 99 => ⟨S100000x128, .f32⟩
  | 100 => ⟨S1x128x128, .f32⟩
  | 101 => ⟨S128x128, .f32⟩
  | 102 => ⟨S1x128x128, .f32⟩
  | 103 => ⟨S128x128, .f32⟩
  | 104 => ⟨S1x128, .f32⟩
  | 105 => ⟨S128, .f32⟩
  | 106 => ⟨S100000x128, .bf16⟩
  | 107 => ⟨S100000x1, .f32⟩
  | 108 => ⟨S100000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .bf16⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .bf16⟩
  | 127 => ⟨S800000x1, .f32⟩
  | _ => ⟨S2x800000, .i32⟩

abbrev hbmTy0_1 (i : Nat) : BufTy := match i % 128 with
  | 0 => ⟨S800000x1, .i1⟩
  | 1 => ⟨S800000x1, .f32⟩
  | 2 => ⟨S800000x6, .f32⟩
  | 3 => ⟨S128x128, .f32⟩
  | 4 => ⟨S128x128, .f32⟩
  | 5 => ⟨S6x128, .f32⟩
  | 6 => ⟨S800000x1, .f32⟩
  | 7 => ⟨S800000, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | .local _ .vmem, ⟨0, _⟩ => ⟨S2000x8, .f32⟩
  | .local _ .vmem, ⟨1, _⟩ => ⟨S2000x8, .f32⟩
  | .local _ .vmem, ⟨2, _⟩ => ⟨S8x128, .f32⟩
  | .local _ .vmem, ⟨3, _⟩ => ⟨S128, .f32⟩
  | .local _ .vmem, ⟨4, _⟩ => ⟨S2000x128, .bf16⟩
  | .local _ .vmem, ⟨5, _⟩ => ⟨S2000x128, .bf16⟩
  | .local _ .vmem, ⟨6, _⟩ => ⟨S2000x128, .bf16⟩
  | .local _ .vmem, ⟨7, _⟩ => ⟨S2000x128, .bf16⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S2000x128, .bf16⟩
  | .local _ .vmem, ⟨16, _⟩ => ⟨S2000x128, .bf16⟩
  | .local _ .vmem, ⟨17, _⟩ => ⟨S2000x128, .bf16⟩
  | .local _ .vmem, ⟨18, _⟩ => ⟨S2000x128, .bf16⟩
  | .local _ .vmem, ⟨19, _⟩ => ⟨S2000x128, .f32⟩
  | .local _ .vmem, ⟨20, _⟩ => ⟨S2000x128, .f32⟩
  | .local _ .vmem, ⟨21, _⟩ => ⟨S2000x1, .f32⟩
  | .local _ .vmem, ⟨22, _⟩ => ⟨S2000x1, .f32⟩
  | .local _ .vmem, ⟨23, _⟩ => ⟨S128x128, .f32⟩
  | .local _ .vmem, ⟨24, _⟩ => ⟨S128x128, .f32⟩
  | .local _ .vmem, ⟨25, _⟩ => ⟨S128, .f32⟩
  | .local _ .vmem, ⟨26, _⟩ => ⟨S2000x128, .bf16⟩
  | .local _ .vmem, ⟨27, _⟩ => ⟨S2000x128, .bf16⟩
  | .local _ .vmem, ⟨28, _⟩ => ⟨S2000x128, .bf16⟩
  | .local _ .vmem, ⟨29, _⟩ => ⟨S2000x128, .bf16⟩
  | .local _ .vmem, ⟨30, _⟩ => ⟨S2000x128, .f32⟩
  | .local _ .vmem, ⟨31, _⟩ => ⟨S2000x128, .f32⟩
  | .local _ .vmem, ⟨32, _⟩ => ⟨S2000x1, .f32⟩
  | .local _ .vmem, ⟨33, _⟩ => ⟨S2000x1, .f32⟩
  | .local _ .vmem, ⟨34, _⟩ => ⟨S128x128, .f32⟩
  | .local _ .vmem, ⟨35, _⟩ => ⟨S128x128, .f32⟩
  | .local _ .vmem, ⟨36, _⟩ => ⟨S128, .f32⟩
  | .local _ .vmem, ⟨37, _⟩ => ⟨S128x128, .f32⟩
  | .local _ .vmem, ⟨38, _⟩ => ⟨S128, .f32⟩
  | .local _ .vmem, ⟨39, _⟩ => ⟨S128x1, .f32⟩
  | .local _ .vmem, ⟨40, _⟩ => ⟨S1, .f32⟩
  | .local _ .vmem, ⟨41, _⟩ => ⟨S2000x128, .bf16⟩
  | .local _ .vmem, ⟨42, _⟩ => ⟨S2000x128, .bf16⟩
  | .local _ .vmem, ⟨43, _⟩ => ⟨S2000x1, .f32⟩
  | .local _ .vmem, ⟨44, _⟩ => ⟨S2000x1, .f32⟩
  | .local _ .vmem, ⟨45, _⟩ => ⟨S2000x128, .bf16⟩
  | .local _ .vmem, ⟨46, _⟩ => ⟨S2000x128, .bf16⟩
  | .local _ .vmem, ⟨47, _⟩ => ⟨S2000x128, .bf16⟩
  | .local _ .vmem, ⟨48, _⟩ => ⟨S2000x128, .bf16⟩
  | .local _ .vmem, ⟨49, _⟩ => ⟨S2000x6, .f32⟩
  | .local _ .vmem, ⟨50, _⟩ => ⟨S2000x6, .f32⟩
  | .local _ .vmem, ⟨51, _⟩ => ⟨S128x128, .f32⟩
  | .local _ .vmem, ⟨52, _⟩ => ⟨S128x128, .f32⟩
  | .local _ .vmem, ⟨53, _⟩ => ⟨S6x128, .f32⟩
  | .local _ .vmem, ⟨54, _⟩ => ⟨S128, .f32⟩
  | .local _ .vmem, ⟨55, _⟩ => ⟨S128x1, .f32⟩
  | .local _ .vmem, ⟨56, _⟩ => ⟨S1, .f32⟩
  | .local _ .vmem, ⟨57, _⟩ => ⟨S2000x1, .f32⟩
  | .local _ .vmem, ⟨58, _⟩ => ⟨S2000x1, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_cst_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c : Ref sig .tc := ⟨.hbm, 44, rfl⟩
abbrev main_v20 : Ref sig .tc := ⟨.hbm, 45, rfl⟩
abbrev main_v21 : Ref sig .tc := ⟨.hbm, 46, rfl⟩
abbrev main_c_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_5 : Ref sig .tc := ⟨.hbm, 65, rfl⟩
abbrev main_v38 : Ref sig .tc := ⟨.hbm, 66, rfl⟩
abbrev main_v39 : Ref sig .tc := ⟨.hbm, 67, rfl⟩
abbrev main_c_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_8 : Ref sig .tc := ⟨.hbm, 86, rfl⟩
abbrev main_v56 : Ref sig .tc := ⟨.hbm, 87, rfl⟩
abbrev main_v57 : Ref sig .tc := ⟨.hbm, 88, rfl⟩
abbrev main_c_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73_0 : Ref sig .tc := ⟨.hbm, 106, rfl⟩
abbrev main_v73_1 : Ref sig .tc := ⟨.hbm, 107, rfl⟩
abbrev main_v74 : Ref sig .tc := ⟨.hbm, 108, rfl⟩
abbrev main_c_11 : Ref sig .tc := ⟨.hbm, 109, rfl⟩
abbrev main_v75 : Ref sig .tc := ⟨.hbm, 110, rfl⟩
abbrev main_v76 : Ref sig .tc := ⟨.hbm, 111, rfl⟩
abbrev main_c_12 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_13 : Ref sig .tc := ⟨.hbm, 118, rfl⟩
abbrev main_v82 : Ref sig .tc := ⟨.hbm, 119, rfl⟩
abbrev main_v83 : Ref sig .tc := ⟨.hbm, 120, rfl⟩
abbrev main_c_14 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg10_0 : Ref sig .tc := ⟨.vmem, 41, rfl⟩
abbrev cc3_stg10_1 : Ref sig .tc := ⟨.vmem, 42, rfl⟩
abbrev cc3_stg11_0 : Ref sig .tc := ⟨.vmem, 43, rfl⟩
abbrev cc3_stg11_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc4_stg8_0 : Ref sig .tc := ⟨.vmem, 56, rfl⟩
abbrev cc4_stg9_0 : Ref sig .tc := ⟨.vmem, 57, rfl⟩
abbrev cc4_stg9_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem10_0 : DmaSem sig := 41
abbrev cc3_sem10_1 : DmaSem sig := 42
abbrev cc3_sem11_0 : DmaSem sig := 43
abbrev cc3_sem11_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem2_1 : DmaSem sig := 50
abbrev cc4_sem3_0 : DmaSem sig := 51
abbrev cc4_sem4_0 : DmaSem sig := 52
abbrev cc4_sem5_0 : DmaSem sig := 53
abbrev cc4_sem6_0 : DmaSem sig := 54
abbrev cc4_sem7_0 : DmaSem sig := 55
abbrev cc4_sem8_0 : DmaSem sig := 56
abbrev cc4_sem9_0 : DmaSem sig := 57
abbrev cc4_sem9_1 : DmaSem sig := 58

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S2000x128 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S2000x1 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![400], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x6 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S6x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S2000x1 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S800000_S1600000_d0 : Shape.Concatenates [S800000, S800000] S1600000 0
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S100000_S100000x1_0 : S100000.BroadcastsInDim S100000x1 (![0] : Fin 1 → Fin S100000x1.rank)
  concatenates_S100000x6_S100000x1_S100000x1_S100000x8_d1 : Shape.Concatenates [S100000x6, S100000x1, S100000x1] S100000x8 1
  inb_S2000x8_S2000x8_0_0 : ∀ a, (![0, 0] : Fin 2 → Nat) a + S2000x8.size a ≤ S2000x8.size a
  h_S2000x8 : 0 < S2000x8.numel
  shapeCasts_S2000x8_S2000x8 : S2000x8.ShapeCasts S2000x8
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  shapeCasts_S100000x1_S100000 : S100000x1.ShapeCasts S100000
  bcast_S_S800000 : S_.BroadcastsInDim S800000 (![] : Fin 0 → Fin S800000.rank)
  bcast_S800000_S800000x1_0 : S800000.BroadcastsInDim S800000x1 (![0] : Fin 1 → Fin S800000x1.rank)
  concatenates_S800000x4_S800000x1_S800000x1_S800000x6_d1 : Shape.Concatenates [S800000x4, S800000x1, S800000x1] S800000x6 1
  slices_S262x128_S128x128_0_0 : S262x128.Slices ![0, 0] S128x128
  slices_S262x128_S128x128_128_0 : S262x128.Slices ![128, 0] S128x128
  slices_S262x128_S6x128_256_0 : S262x128.Slices ![256, 0] S6x128
  inb_S2000x6_S2000x6_0_0 : ∀ a, (![0, 0] : Fin 2 → Nat) a + S2000x6.size a ≤ S2000x6.size a
  h_S2000x6 : 0 < S2000x6.numel
  shapeCasts_S2000x6_S2000x6 : S2000x6.ShapeCasts S2000x6
  inb_S6x128_S6x128_0_0 : ∀ a, (![0, 0] : Fin 2 → Nat) a + S6x128.size a ≤ S6x128.size a
  h_S6x128 : 0 < S6x128.numel
  shapeCasts_S6x128_S6x128 : S6x128.ShapeCasts S6x128
  shapeCasts_S800000x1_S800000 : S800000x1.ShapeCasts S800000
  scatter_S100000_S1600000x1_S1600000_n_0_0_1_wf : ScatterDims.WF S100000 S1600000x1 S1600000 [] [0] [0] 1
  dot_S2000x8_S8x128_S2000x128_1_0_0_1_n_n_wf : DotDims.WF S2000x8 S8x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  gather_S100000x128_S800000x1_S800000x128_1_0_n_n_0_1_1128_wf : GatherDims.WF S100000x128 S800000x1 S800000x128 [1] [0] [] [0] [] 1 ![1, 128]
  dot_S2000x6_S6x128_S2000x128_1_0_0_1_n_n_wf : DotDims.WF S2000x6 S6x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S100000x8.size a
  hwx0_0 : ∀ i : grid0.Coords, EltTy.bits .f32 = 32 ∨ (Rect.block (s := S100000x8) S2000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .bf16 = 32 ∨ (Rect.block (s := S100000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .bf16 = 32 ∨ (Rect.block (s := S100000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .bf16 = 32 ∨ (Rect.block (s := S100000x128) S2000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .bf16 = 32 ∨ (Rect.block (s := S100000x128) S2000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .bf16 = 32 ∨ (Rect.block (s := S100000x128) S2000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .bf16 = 32 ∨ (Rect.block (s := S100000x128) S2000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x1.size a ≤ S128x1.size a
  hwx3_8 : ∀ i : grid3.Coords, EltTy.bits .f32 = 32 ∨ (Rect.block (s := S128x1) S128x1.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1.size a ≤ S1.size a
  hwx3_9 : ∀ i : grid3.Coords, EltTy.bits .f32 = 32 ∨ (Rect.block (s := S1) S1.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x128.size a ≤ S100000x128.size a
  hwx3_10 : ∀ i : grid3.Coords, EltTy.bits .bf16 = 32 ∨ (Rect.block (s := S100000x128) S2000x128.size (cc3_transform_10 i) (hinb3_10 i)).WholeWords (EltTy.packing .bf16)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S2000x1.size a ≤ S100000x1.size a
  hwx3_11 : ∀ i : grid3.Coords, EltTy.bits .f32 = 32 ∨ (Rect.block (s := S100000x1) S2000x1.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S800000x128.size a
  hwx4_0 : ∀ i : grid4.Coords, EltTy.bits .bf16 = 32 ∨ (Rect.block (s := S800000x128) S2000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S800000x128.size a
  hwx4_1 : ∀ i : grid4.Coords, EltTy.bits .bf16 = 32 ∨ (Rect.block (s := S800000x128) S2000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x6.size a ≤ S800000x6.size a
  hwx4_2 : ∀ i : grid4.Coords, EltTy.bits .f32 = 32 ∨ (Rect.block (s := S800000x6) S2000x6.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S6x128.size a ≤ S6x128.size a
  hwx4_5 : ∀ i : grid4.Coords, EltTy.bits .f32 = 32 ∨ (Rect.block (s := S6x128) S6x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x1.size a ≤ S128x1.size a
  hwx4_7 : ∀ i : grid4.Coords, EltTy.bits .f32 = 32 ∨ (Rect.block (s := S128x1) S128x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1.size a ≤ S1.size a
  hwx4_8 : ∀ i : grid4.Coords, EltTy.bits .f32 = 32 ∨ (Rect.block (s := S1) S1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x1.size a ≤ S800000x1.size a
  hwx4_9 : ∀ i : grid4.Coords, EltTy.bits .f32 = 32 ∨ (Rect.block (s := S800000x1) S2000x1.size (cc4_transform_9 i) (hinb4_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x8_S8x128_S2000x128_1_0_0_1_n_n : DotDims S2000x8 S8x128 S2000x128 where
  lhsContracting := [1]
  rhsContracting := [0]
  lhsNonContracting := [0]
  rhsNonContracting := [1]
  lhsBatch := []
  rhsBatch := []
  wf := dot_S2000x8_S8x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S2000x6_S6x128_S2000x128_1_0_0_1_n_n : DotDims S2000x6 S6x128 S2000x128 where
  lhsContracting := [1]
  rhsContracting := [0]
  lhsNonContracting := [0]
  rhsNonContracting := [1]
  lhsBatch := []
  rhsBatch := []
  wf := dot_S2000x6_S6x128_S2000x128_1_0_0_1_n_n_wf

abbrev win0_0 : Pipeline.Window sig grid0 :=
  Pipeline.Window.ofSpec (Memref.whole main_v18) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v55) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v68) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg12) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg13) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg14) S128x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg15) S1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v73_0) S2000x128.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v73_1) S2000x1.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v81) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S2000x6.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v93) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v95) S6x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg17) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg18) S128x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg19) S1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v96) S2000x1.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S2x800000 : Shape := ⟨2, ![2, 800000]⟩
abbrev S100000x6 : Shape := ⟨2, ![100000, 6]⟩
abbrev S800000x4 : Shape := ⟨2, ![800000, 4]⟩
abbrev S100000 : Shape := ⟨1, ![100000]⟩
abbrev S800000 : Shape := ⟨1, ![800000]⟩
abbrev S8x128 : Shape := ⟨2, ![8, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S262x128 : Shape := ⟨2, ![262, 128]⟩
abbrev S100000x1 : Shape := ⟨2, ![100000, 1]⟩
abbrev S100000x8 : Shape := ⟨2, ![100000, 8]⟩
abbrev S100000x128 : Shape := ⟨2, ![100000, 128]⟩
abbrev S1x128 : Shape := ⟨2, ![1, 128]⟩
abbrev S1x800000 : Shape := ⟨2, ![1, 800000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x1 : Shape := ⟨2, ![1, 1]⟩
abbrev S800000x1 : Shape := ⟨2, ![800000, 1]⟩
abbrev S800000x128 : Shape := ⟨2, ![800000, 128]⟩
abbrev S800000x262 : Shape := ⟨2, ![800000, 262]⟩

abbrev nBuf : Space → Nat
  | .hbm => 182
  | .vmem => 0
  | .smem => 0
  | _ => 0

abbrev hbmTy0_0 (i : Nat) : BufTy := match i % 128 with
  | 0 => ⟨S2x800000, .i32⟩
  | 1 => ⟨S100000x6, .f32⟩
  | 2 => ⟨S800000x4, .f32⟩
  | 3 => ⟨S100000, .f32⟩
  | 4 => ⟨S800000, .f32⟩
  | 5 => ⟨S100000, .i1⟩
  | 6 => ⟨S800000, .i1⟩
  | 7 => ⟨S8x128, .f32⟩
  | 8 => ⟨S128, .f32⟩
  | 9 => ⟨S3x128x128, .f32⟩
  | 10 => ⟨S3x128x128, .f32⟩
  | 11 => ⟨S3x128, .f32⟩
  | 12 => ⟨S128x128, .f32⟩
  | 13 => ⟨S128, .f32⟩
  | 14 => ⟨S128x1, .f32⟩
  | 15 => ⟨S1, .f32⟩
  | 16 => ⟨S262x128, .f32⟩
  | 17 => ⟨S128, .f32⟩
  | 18 => ⟨S128x1, .f32⟩
  | 19 => ⟨S1, .f32⟩
  | 20 => ⟨S100000x1, .f32⟩
  | 21 => ⟨S100000x1, .i1⟩
  | 22 => ⟨S100000x1, .f32⟩
  | 23 => ⟨S100000x8, .f32⟩
  | 24 => ⟨S100000x128, .f32⟩
  | 25 => ⟨S1x128, .f32⟩
  | 26 => ⟨S100000x128, .f32⟩
  | 27 => ⟨S100000x128, .f32⟩
  | 28 => ⟨S1x800000, .i32⟩
  | 29 => ⟨S800000, .i32⟩
  | 30 => ⟨S1x800000, .i32⟩
  | 31 => ⟨S800000, .i32⟩
  | 32 => ⟨S1600000, .i32⟩
  | 33 => ⟨S1600000, .i32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S100000x1, .f32⟩
  | 60 => ⟨S100000x128, .f32⟩
  | 61 => ⟨S100000x128, .f32⟩
  | 62 => ⟨S1x128x128, .f32⟩
  | 63 => ⟨S128x128, .f32⟩
  | 64 => ⟨S100000x128, .f32⟩
  | 65 => ⟨S1x128x128, .f32⟩
  | 66 => ⟨S128x128, .f32⟩
  | 67 => ⟨S100000x128, .f32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S100000x1, .f32⟩
  | 91 => ⟨S100000x128, .f32⟩
  | 92 => ⟨S100000x128, .f32⟩
  | 93 => ⟨S1x128x128, .f32⟩
  | 94 => ⟨S128x128, .f32⟩
  | 95 => ⟨S100000x128, .f32⟩
  | 96 => ⟨S1x128x128, .f32⟩
  | 97 => ⟨S128x128, .f32⟩
  | 98 => ⟨S100000x128, .f32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S100000x1, .f32⟩
  | 122 => ⟨S100000x128, .f32⟩
  | 123 => ⟨S100000x128, .f32⟩
  | 124 => ⟨S1x128x128, .f32⟩
  | 125 => ⟨S128x128, .f32⟩
  | 126 => ⟨S100000x128, .f32⟩
  | 127 => ⟨S1x128x128, .f32⟩
  | _ => ⟨S2x800000, .i32⟩

abbrev hbmTy0_1 (i : Nat) : BufTy := match i % 128 with
  | 0 => ⟨S128x128, .f32⟩
  | 1 => ⟨S100000x128, .f32⟩
  | 2 => ⟨S100000x128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x1, .f32⟩
  | 16 => ⟨S1x1, .f32⟩
  | 17 => ⟨S100000x1, .f32⟩
  | 18 => ⟨S100000x1, .f32⟩
  | 19 => ⟨S100000, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S800000x1, .f32⟩
  | 39 => ⟨S800000x1, .i1⟩
  | 40 => ⟨S800000x1, .f32⟩
  | 41 => ⟨S800000x262, .f32⟩
  | 42 => ⟨S800000x128, .f32⟩
  | 43 => ⟨S1x128, .f32⟩
  | 44 => ⟨S800000x128, .f32⟩
  | 45 => ⟨S800000x128, .f32⟩
  | 46 => ⟨S_, .f32⟩
  | 47 => ⟨S800000x128, .f32⟩
  | 48 => ⟨S800000x128, .f32⟩
  | 49 => ⟨S800000x1, .f32⟩
  | 50 => ⟨S1x1, .f32⟩
  | 51 => ⟨S800000x1, .f32⟩
  | 52 => ⟨S800000x1, .f32⟩
  | 53 => ⟨S800000, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_c : Ref sig .tc := ⟨.hbm, 46, rfl⟩
abbrev main_v22 : Ref sig .tc := ⟨.hbm, 47, rfl⟩
abbrev main_v23 : Ref sig .tc := ⟨.hbm, 48, rfl⟩
abbrev main_c_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call0_cst : Ref sig .tc := ⟨.hbm, 74, rfl⟩
abbrev main_call0_v0 : Ref sig .tc := ⟨.hbm, 75, rfl⟩
abbrev main_v47 : Ref sig .tc := ⟨.hbm, 76, rfl⟩
abbrev main_c_5 : Ref sig .tc := ⟨.hbm, 77, rfl⟩
abbrev main_v48 : Ref sig .tc := ⟨.hbm, 78, rfl⟩
abbrev main_v49 : Ref sig .tc := ⟨.hbm, 79, rfl⟩
abbrev main_c_6 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_7 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call1_cst : Ref sig .tc := ⟨.hbm, 105, rfl⟩
abbrev main_call1_v0 : Ref sig .tc := ⟨.hbm, 106, rfl⟩
abbrev main_v73 : Ref sig .tc := ⟨.hbm, 107, rfl⟩
abbrev main_c_8 : Ref sig .tc := ⟨.hbm, 108, rfl⟩
abbrev main_v74 : Ref sig .tc := ⟨.hbm, 109, rfl⟩
abbrev main_v75 : Ref sig .tc := ⟨.hbm, 110, rfl⟩
abbrev main_c_9 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_10 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_call2_cst : Ref sig .tc := ⟨.hbm, 140, rfl⟩
abbrev main_call2_v0 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_11 : Ref sig .tc := ⟨.hbm, 148, rfl⟩
abbrev main_v109 : Ref sig .tc := ⟨.hbm, 149, rfl⟩
abbrev main_v110 : Ref sig .tc := ⟨.hbm, 150, rfl⟩
abbrev main_c_12 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_13 : Ref sig .tc := ⟨.hbm, 157, rfl⟩
abbrev main_v116 : Ref sig .tc := ⟨.hbm, 158, rfl⟩
abbrev main_v117 : Ref sig .tc := ⟨.hbm, 159, rfl⟩
abbrev main_c_14 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_call3_cst : Ref sig .tc := ⟨.hbm, 174, rfl⟩
abbrev main_call3_v0 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  concatenates_S100000x6_S100000x1_S100000x1_S100000x8_d1 : Shape.Concatenates [S100000x6, S100000x1, S100000x1] S100000x8 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S800000_S1600000_d0 : Shape.Concatenates [S800000, S800000] S1600000 0
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x4_S800000x1_S800000x1_S800000x262_d1 : Shape.Concatenates [S800000x128, S800000x128, S800000x4, S800000x1, S800000x1] S800000x262 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1x1_S800000x1_0_1 : S1x1.BroadcastsInDim S800000x1 (![0, 1] : Fin 2 → Fin S800000x1.rank)
  shapeCasts_S800000x1_S800000 : S800000x1.ShapeCasts S800000
  dot_S100000x8_S8x128_S100000x128_1_0_0_1_n_n_wf : DotDims.WF S100000x8 S8x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  gather_S100000x128_S800000x1_S800000x128_1_0_n_n_0_1_1128_wf : GatherDims.WF S100000x128 S800000x1 S800000x128 [1] [0] [] [0] [] 1 ![1, 128]
  dot_S800000x262_S262x128_S800000x128_1_0_0_1_n_n_wf : DotDims.WF S800000x262 S262x128 S800000x128 [1] [0] [0] [1] [] []
  dot_S800000x128_S128x1_S800000x1_1_0_0_1_n_n_wf : DotDims.WF S800000x128 S128x1 S800000x1 [1] [0] [0] [1] [] []

variable [Facts₀]

def dot_S100000x8_S8x128_S100000x128_1_0_0_1_n_n : DotDims S100000x8 S8x128 S100000x128 where
  lhsContracting := [1]
  rhsContracting := [0]
  lhsNonContracting := [0]
  rhsNonContracting := [1]
  lhsBatch := []
  rhsBatch := []
  wf := dot_S100000x8_S8x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x262_S262x128_S800000x128_1_0_0_1_n_n : DotDims S800000x262 S262x128 S800000x128 where
  lhsContracting := [1]
  rhsContracting := [0]
  lhsNonContracting := [0]
  rhsNonContracting := [1]
  lhsBatch := []
  rhsBatch := []
  wf := dot_S800000x262_S262x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.FrameK0.lean ====
/-
  Launch 0 of the kernel program (the node encoder: a 2000-row tile of the node features against the resident weights and bias): the part of its frame proof that is about the body.

  A grid point hands the body one staging buffer per window. Each input buffer holds that window's block of
  its array as the launch found it; the body reads them whole, computes one value per output and stores it
  whole. So after the body every input buffer is as it was and each output buffer holds the stored value, a
  pure function of the input blocks. This module names the blocks, states that function, proves the body's
  triple by running it symbolically, and packages the result as the pipeline's proof data and its body
  obligation, at any float instance and for any contents `V` the launch may find.
-/
import proofs.«175741_j7894149890553_2_alg».proof.Proof.Gen.KernelIdeal.Launch
import proofs.«175741_j7894149890553_2_alg».proof.Proof.Gen.KernelIdeal.Skeleton
import proofs.«175741_j7894149890553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not
    fetched its block index has not moved, and the body left the block in place. -/
theorem before0_0_of {c : Dev nD} (dat : Dat τ (Elt F) Unit ℕ (Pipeline.UD sig nD τ) ℕ cfg0 c)
    (hA : dat.A 0 = V c (Pipeline.arrRef spec0 0)) (hafter : ∀ t, dat.after 0 t = iblk0 V c 0 t)
    (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

/-- Input window 1's staging buffer holds its block at every point, fetched there or not: where it is not
    fetched its block index has not moved, and the body left the block in place. -/
theorem before0_1_of {c : Dev nD} (dat : Dat τ (Elt F) Unit ℕ (Pipeline.UD sig nD τ) ℕ cfg0 c)
    (hA : dat.A 1 = V c (Pipeline.arrRef spec0 1)) (hafter : ∀ t, dat.after 1 t = iblk0 V c 1 t)
    (t : Fin cfg0.N) (d) : dat.before 1 t d = iblk0 V c 1 t :=
  (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

/-- Input window 2's staging buffer holds its block at every point, fetched there or not: where it is not
    fetched its block index has not moved, and the body left the block in place. -/
theorem before0_2_of {c : Dev nD} (dat : Dat τ (Elt F) Unit ℕ (Pipeline.UD sig nD τ) ℕ cfg0 c)
    (hA : dat.A 2 = V c (Pipeline.arrRef spec0 2)) (hafter : ∀ t, dat.after 2 t = iblk0 V c 2 t)
    (t : Fin cfg0.N) (d) : dat.before 2 t d = iblk0 V c 2 t :=
  (dat.before_in_eq_fetched 2 rfl (fun _ => rfl) (fun _ _ _ => rfl)
    (fun t => by rw [hafter]; unfold Dat.blockOf iblk0; rw [hA]; try rfl) t d).trans
    (by unfold Dat.fetched Dat.blockOf iblk0; rw [hA]; try rfl)

/-! ## What the body leaves in the output buffer -/

/-- The whole-buffer rectangles the body loads and stores through. -/
abbrev rF0 : Rect S2000x8 := Rect.unit (s := S2000x8) ![0, 0] S2000x8.size inb_S2000x8_S2000x8_0_0
abbrev rW0 : Rect S8x128 := Rect.unit (s := S8x128) ![0, 0] S8x128.size inb_S8x128_S8x128_0_0
abbrev rB0 : Rect S128 := Rect.unit (s := S128) ![0] S128.size inb_S128_S128_0
abbrev rO0 : Rect S2000x128 := Rect.unit (s := S2000x128) ![0, 0] S2000x128.size inb_S2000x128_S2000x128_0_0

/-- The output buffer after the body: its one store, of the encoder's value of the three loads. -/
def out0_3 (x0 : Vec F S2000x8 .f32) (x1 : Vec F S8x128 .f32) (x2 : Vec F S128 .f32) : Vec F S2000x128 .bf16 :=
  View.canon [⟨rO0, k0_pay1 (View.ld x0 rF0) (View.ld x1 rW0) (View.ld x2 rB0)⟩]

theorem zero2_0 : (![0, 0] : Fin 2 → Nat) = fun _ => 0 := funext fun a => by fin_cases a <;> rfl
theorem zero1_0 : (![0] : Fin 1 → Nat) = fun _ => 0 := funext fun a => by fin_cases a; rfl

/-- Loads and store are of whole buffers, so the output buffer holds exactly the value computed from the
    input buffers. -/
theorem out0_3_eq (x0 : Vec F S2000x8 .f32) (x1 : Vec F S8x128 .f32) (x2 : Vec F S128 .f32) :
    out0_3 x0 x1 x2 = k0_pay1 x0 x1 x2 := by
  unfold out0_3
  rw [View.canon_unit_zero zero2_0]
  simp only [View.ld_unit_zero (S := S2000x8) zero2_0, View.ld_unit_zero (S := S8x128) zero2_0,
    View.ld_unit_zero (S := S128) zero1_0]

/-- The one store covers the buffer. -/
theorem cover0_3 (p0 : Vec F S2000x128 .bf16) (y : S2000x128.Idx) :
    ∃ pc ∈ ([⟨rO0, p0⟩] : List (View.Piece (Elt F) S2000x128 .bf16)), y ∈ pc.1.set :=
  View.cover_of_tiled [⟨rO0, p0⟩] S2000x128.size (by rfl) y

/-! ## The body's triple -/

set_option maxHeartbeats 1000000 in
/-- On whole staging buffers, the inputs' at contents `x0 x1 x2` and the output's at anything, the body runs to
    its continuation with the inputs' as they were and the output's at `out0_3 x0 x1 x2`. -/
theorem sound_kernel0 (c : Dev nD) (E : Set ℕ) (i : grid0.Coords)
    (arg1 : Memref sig .tc .vmem S2000x8 .f32) (harg1 : arg1.IsWhole) (arg2 : Memref sig .tc .vmem S8x128 .f32) (harg2 : arg2.IsWhole)
    (arg3 : Memref sig .tc .vmem S128 .f32) (harg3 : arg3.IsWhole) (arg4 : Memref sig .tc .vmem S2000x128 .bf16) (harg4 : arg4.IsWhole)
    (x0 : Vec F S2000x8 .f32) (x1 : Vec F S8x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__encode_kernel i arg1 harg1 arg2 harg2 arg3 harg3 arg4 harg4) K := by
  simp only [cc0__encode_kernel_eq_skeleton]; unfold cc0__encode_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the launch finds them; after the body at point `t` each input buffer at its block and the
    output buffer at the encoder's value of the input blocks; the invariant keeps the scoped rest and the
    generator register untouched; nothing is owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3' (c : Dev nD) (t : Fin cfg0.N) :
    (dat0 V c).after 3 t = out0_3 (iblk0 V c 0 t) (iblk0 V c 1 t) (iblk0 V c 2 t) := by dsimp only [dat0]
/-- The output buffer after point `t`: the encoder's value of the three input blocks. -/
theorem after0_3 (c : Dev nD) (t : Fin cfg0.N) :
    (dat0 V c).after 3 t = k0_pay1 (iblk0 V c 0 t) (iblk0 V c 1 t) (iblk0 V c 2 t) := by
  rw [after0_3', out0_3_eq]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the input buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3']
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameK1.lean ====
/- Launch 1 of the kernel program (`cc1__sage_relu_kernel`: a 2000-row tile of the previous layer's features and of the
   summed neighbour features, the inverse degrees, and the resident weights and bias of one mean-aggregation layer with
   a rectifier): the part of its frame proof that is about the body.

   A grid point hands the body one staging buffer per window, six inputs and one output. Each input buffer holds that
   window's block of its array as the launch found it; the body reads them whole, computes one value and stores it
   whole. So after the body every input buffer is as it was and the output buffer holds the stored value, a pure
   function of the six input blocks. This module names the blocks, proves the body's triple by running it
   symbolically, and packages the result as the pipeline's proof data and its body obligation, at any float instance
   and for any contents `V` the launch may find. -/
import proofs.«175741_j7894149890553_2_alg».proof.Proof.Gen.KernelIdeal.Launch
import proofs.«175741_j7894149890553_2_alg».proof.Proof.Gen.KernelIdeal.Skeleton
import proofs.«175741_j7894149890553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of the long extents recurses once per coordinate
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffers' contents when the launch is entered: the parameter everything below is stated at
variable (V : (c : Dev nD) → (b : Ref sig .tc) → Buf (Elt F) ((c : Thread nD τ).loc b))

/-! ## The windows' blocks -/

/-- Window `w`'s block at point `t`, read off its array as the launch finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for ANY proof
    data whose array is `V`'s (`hA`) and whose body leaves the block in place (`hafter`): where it is not fetched
    the block index has not moved (for windows 3, 4, 5 it never moves). The windows are uncut and never idle. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The offsets of a whole-buffer access are all zero. -/
theorem off2_zero_1 : (![0, 0] : Fin 2 → Nat) = fun _ => 0 := funext fun a => by fin_cases a <;> rfl
theorem off1_zero_1 : (![0] : Fin 1 → Nat) = fun _ => 0 := funext fun a => by fin_cases a <;> rfl

/-- A load of a whole buffer (the whole-shape rectangle at zero offsets) reads its contents. -/
theorem readAt_unit_zero_1 {κ : Kind} {sp : Space} {e : EltTy} (S : Shape) {off : Fin S.rank → Nat} (h : off = fun _ => 0)
    (inb : ∀ a, off a + S.size a ≤ S.size a) (v : View sig κ sp S e) (f : v.ty.Contents (Elt F)) :
    v.readAt (Elt F) (Rect.unit off S.size inb).toLoadRect f = v.read (Elt F) f :=
  View.ld_unit_zero h inb _

/-- The output buffer's one store: the whole buffer. -/
abbrev r1_0 : Rect S2000x128 := Rect.unit (s := S2000x128) ![0, 0] S2000x128.size inb_S2000x128_S2000x128_0_0

/-- The one store covers the buffer. -/
theorem cover1_6 (p0 : Vec F S2000x128 .bf16) (y : S2000x128.Idx) :
    ∃ pc ∈ ([⟨r1_0, p0⟩] : List (View.Piece (Elt F) S2000x128 .bf16)), y ∈ pc.1.set :=
  ⟨_, List.mem_singleton_self _, View.mem_set_unit_zero off2_zero_1 inb_S2000x128_S2000x128_0_0 y⟩

/-! ## The body's triple -/

set_option maxHeartbeats 4000000 in
/-- The kernel body on whole staging memrefs, the inputs' at read contents `xW` and the output's at anything, runs to
    the continuation holding the inputs' as they were and the output's at the layer's value of the inputs: the printed
    function is its skeleton, which is run symbolically; the load of the output buffer before its store reads a
    value nothing uses; the one whole-buffer store leaves its payload, and the whole-buffer loads read the contents. -/
theorem sound_kernel1 (c : Dev nD) (E : Set ℕ) (i : grid1.Coords) (arg1 : Memref sig .tc .vmem S2000x128 .bf16) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .bf16) (harg7 : arg7.IsWhole)
    (x0 : Vec F S2000x128 .bf16) (x1 : Vec F S2000x128 .f32) (x2 : Vec F S2000x1 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay1 x0 x1 x2 x3 x4 x5)) -∗ K ⟨⟩))
      ⊢ wp frame (wpE (defs₀ (F := F)) Variants.none c none) E (cc1__sage_relu_kernel i arg1 harg1 arg2 harg2 arg3 harg3 arg4 harg4 arg5 harg5 arg6 harg6 arg7 harg7) K := by
  simp only [cc1__sage_relu_kernel_eq_skeleton]; unfold cc1__sage_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover1_6 _)).trans ?_
  rw [View.canon_unit_zero off2_zero_1]
  simp only [readAt_unit_zero_1 S2000x128 off2_zero_1, readAt_unit_zero_1 S2000x1 off2_zero_1,
    readAt_unit_zero_1 S128x128 off2_zero_1, readAt_unit_zero_1 S128 off1_zero_1]

/-! ## The pipeline's proof data -/

/-- The proof data of the launch's pipeline on core `c`: the arrays as the launch finds them (`V`); after the body at
    point `t` each input's buffer at its block and the output's at the layer's value of the six input blocks; the
    invariant keeps the scoped rest and the generator register untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay1 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the launch-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = k1_pay1 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrameK2.lean ====
/-
  Launch 2 of the kernel program (a graph layer with its rectifier: a 2000-node tile of the rows, the neighbour sums and the reciprocal degrees against the two resident weight matrices and the bias): the part of its frame proof that is about the body.

  A grid point hands the body one staging buffer per window. Each input buffer holds that window's block of
  its array as the launch found it; the body reads them whole, computes one value per output and stores it
  whole. So after the body every input buffer is as it was and each output buffer holds the stored value, a
  pure function of the input blocks. This module names the blocks, states that function, proves the body's
  triple by running it symbolically, and packages the result as the pipeline's proof data and its body
  obligation, at any float instance and for any contents `V` the launch may find.
-/
import proofs.«175741_j7894149890553_2_alg».proof.Proof.Gen.KernelIdeal.Launch
import proofs.«175741_j7894149890553_2_alg».proof.Proof.Gen.KernelIdeal.Skeleton
import proofs.«175741_j7894149890553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the launch finds it. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not
    fetched its block index has not moved, and the body left the block in place. -/
theorem before2_0_of {c : Dev nD} (dat : Dat τ (Elt F) Unit ℕ (Pipeline.UD sig nD τ) ℕ cfg2 c)
    (hA : dat.A 0 = V c (Pipeline.arrRef spec2 0)) (hafter : ∀ t, dat.after 0 t = iblk2 V c 0 t)
    (t : Fin cfg2.N) (d) : dat.before 0 t d = iblk2 V c 0 t :=
  (dat.before_in_eq_fetched 0 rfl (fun _ => rfl) (fun _ _ _ => rfl)
    (fun t => by rw [hafter]; unfold Dat.blockOf iblk2; rw [hA]; try rfl) t d).trans
    (by unfold Dat.fetched Dat.blockOf iblk2; rw [hA]; try rfl)

/-- Input window 1's staging buffer holds its block at every point, fetched there or not: where it is not
    fetched its block index has not moved, and the body left the block in place. -/
theorem before2_1_of {c : Dev nD} (dat : Dat τ (Elt F) Unit ℕ (Pipeline.UD sig nD τ) ℕ cfg2 c)
    (hA : dat.A 1 = V c (Pipeline.arrRef spec2 1)) (hafter : ∀ t, dat.after 1 t = iblk2 V c 1 t)
    (t : Fin cfg2.N) (d) : dat.before 1 t d = iblk2 V c 1 t :=
  (dat.before_in_eq_fetched 1 rfl (fun _ => rfl) (fun _ _ _ => rfl)
    (fun t => by rw [hafter]; unfold Dat.blockOf iblk2; rw [hA]; try rfl) t d).trans
    (by unfold Dat.fetched Dat.blockOf iblk2; rw [hA]; try rfl)

/-- Input window 2's staging buffer holds its block at every point, fetched there or not: where it is not
    fetched its block index has not moved, and the body left the block in place. -/
theorem before2_2_of {c : Dev nD} (dat : Dat τ (Elt F) Unit ℕ (Pipeline.UD sig nD τ) ℕ cfg2 c)
    (hA : dat.A 2 = V c (Pipeline.arrRef spec2 2)) (hafter : ∀ t, dat.after 2 t = iblk2 V c 2 t)
    (t : Fin cfg2.N) (d) : dat.before 2 t d = iblk2 V c 2 t :=
  (dat.before_in_eq_fetched 2 rfl (fun _ => rfl) (fun _ _ _ => rfl)
    (fun t => by rw [hafter]; unfold Dat.blockOf iblk2; rw [hA]; try rfl) t d).trans
    (by unfold Dat.fetched Dat.blockOf iblk2; rw [hA]; try rfl)

/-- Input window 3's staging buffer holds its block at every point, fetched there or not: where it is not
    fetched its block index has not moved, and the body left the block in place. -/
theorem before2_3_of {c : Dev nD} (dat : Dat τ (Elt F) Unit ℕ (Pipeline.UD sig nD τ) ℕ cfg2 c)
    (hA : dat.A 3 = V c (Pipeline.arrRef spec2 3)) (hafter : ∀ t, dat.after 3 t = iblk2 V c 3 t)
    (t : Fin cfg2.N) (d) : dat.before 3 t d = iblk2 V c 3 t :=
  (dat.before_in_eq_fetched 3 rfl (fun _ => rfl) (fun _ _ _ => rfl)
    (fun t => by rw [hafter]; unfold Dat.blockOf iblk2; rw [hA]; try rfl) t d).trans
    (by unfold Dat.fetched Dat.blockOf iblk2; rw [hA]; try rfl)

/-- Input window 4's staging buffer holds its block at every point, fetched there or not: where it is not
    fetched its block index has not moved, and the body left the block in place. -/
theorem before2_4_of {c : Dev nD} (dat : Dat τ (Elt F) Unit ℕ (Pipeline.UD sig nD τ) ℕ cfg2 c)
    (hA : dat.A 4 = V c (Pipeline.arrRef spec2 4)) (hafter : ∀ t, dat.after 4 t = iblk2 V c 4 t)
    (t : Fin cfg2.N) (d) : dat.before 4 t d = iblk2 V c 4 t :=
  (dat.before_in_eq_fetched 4 rfl (fun _ => rfl) (fun _ _ _ => rfl)
    (fun t => by rw [hafter]; unfold Dat.blockOf iblk2; rw [hA]; try rfl) t d).trans
    (by unfold Dat.fetched Dat.blockOf iblk2; rw [hA]; try rfl)

/-- Input window 5's staging buffer holds its block at every point, fetched there or not: where it is not
    fetched its block index has not moved, and the body left the block in place. -/
theorem before2_5_of {c : Dev nD} (dat : Dat τ (Elt F) Unit ℕ (Pipeline.UD sig nD τ) ℕ cfg2 c)
    (hA : dat.A 5 = V c (Pipeline.arrRef spec2 5)) (hafter : ∀ t, dat.after 5 t = iblk2 V c 5 t)
    (t : Fin cfg2.N) (d) : dat.before 5 t d = iblk2 V c 5 t :=
  (dat.before_in_eq_fetched 5 rfl (fun _ => rfl) (fun _ _ _ => rfl)
    (fun t => by rw [hafter]; unfold Dat.blockOf iblk2; rw [hA]; try rfl) t d).trans
    (by unfold Dat.fetched Dat.blockOf iblk2; rw [hA]; try rfl)

/-! ## What the body leaves in the output buffer -/

/-- The whole-buffer rectangles the body loads and stores through. -/
abbrev r2_0 : Rect S2000x128 := Rect.unit (s := S2000x128) ![0, 0] S2000x128.size inb_S2000x128_S2000x128_0_0
abbrev r2_1 : Rect S2000x128 := Rect.unit (s := S2000x128) ![0, 0] S2000x128.size inb_S2000x128_S2000x128_0_0
abbrev r2_2 : Rect S2000x1 := Rect.unit (s := S2000x1) ![0, 0] S2000x1.size inb_S2000x1_S2000x1_0_0
abbrev r2_3 : Rect S128x128 := Rect.unit (s := S128x128) ![0, 0] S128x128.size inb_S128x128_S128x128_0_0
abbrev r2_4 : Rect S128x128 := Rect.unit (s := S128x128) ![0, 0] S128x128.size inb_S128x128_S128x128_0_0
abbrev r2_5 : Rect S128 := Rect.unit (s := S128) ![0] S128.size inb_S128_S128_0
abbrev r2_6 : Rect S2000x128 := Rect.unit (s := S2000x128) ![0, 0] S2000x128.size inb_S2000x128_S2000x128_0_0

/-- The output buffer after the body: its one store, of the body's value of the loads. -/
def out2_6 (x0 : Vec F S2000x128 .bf16) (x1 : Vec F S2000x128 .f32) (x2 : Vec F S2000x1 .f32) (x3 : Vec F S128x128 .f32) (x4 : Vec F S128x128 .f32) (x5 : Vec F S128 .f32) : Vec F S2000x128 .bf16 :=
  View.canon [⟨r2_6, k2_pay1 (View.ld x0 r2_0) (View.ld x1 r2_1) (View.ld x2 r2_2) (View.ld x3 r2_3) (View.ld x4 r2_4) (View.ld x5 r2_5)⟩]

theorem zero2_2 : (![0, 0] : Fin 2 → Nat) = fun _ => 0 := funext fun a => by fin_cases a <;> rfl
theorem zero1_2 : (![0] : Fin 1 → Nat) = fun _ => 0 := funext fun a => by fin_cases a; rfl

/-- Loads and store are of whole buffers, so the output buffer holds exactly the value computed from the
    input buffers. -/
theorem out2_6_eq (x0 : Vec F S2000x128 .bf16) (x1 : Vec F S2000x128 .f32) (x2 : Vec F S2000x1 .f32) (x3 : Vec F S128x128 .f32) (x4 : Vec F S128x128 .f32) (x5 : Vec F S128 .f32) :
    out2_6 x0 x1 x2 x3 x4 x5 = k2_pay1 x0 x1 x2 x3 x4 x5 := by
  unfold out2_6
  rw [View.canon_unit_zero zero2_2]
  simp only [View.ld_unit_zero (S := S2000x128) zero2_2, View.ld_unit_zero (S := S2000x1) zero2_2, View.ld_unit_zero (S := S128x128) zero2_2, View.ld_unit_zero (S := S128) zero1_2]

/-- The one store covers the buffer. -/
theorem cover2_6 (p0 : Vec F S2000x128 .bf16) (y : S2000x128.Idx) :
    ∃ pc ∈ ([⟨r2_6, p0⟩] : List (View.Piece (Elt F) S2000x128 .bf16)), y ∈ pc.1.set :=
  View.cover_of_tiled [⟨r2_6, p0⟩] S2000x128.size (by rfl) y

/-! ## The body's triple -/

set_option maxHeartbeats 1000000 in
/-- On whole staging buffers, the inputs' at given contents and the output's at anything, the body runs to its
    continuation with the inputs' as they were and the output's at `out2_6` of the inputs'. -/
theorem sound_kernel2 (c : Dev nD) (E : Set ℕ) (i : grid2.Coords)
    (arg1 : Memref sig .tc .vmem S2000x128 .bf16) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .bf16) (harg7 : arg7.IsWhole)
    (x0 : Vec F S2000x128 .bf16) (x1 : Vec F S2000x128 .f32) (x2 : Vec F S2000x1 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__sage_relu_kernel i arg1 harg1 arg2 harg2 arg3 harg3 arg4 harg4 arg5 harg5 arg6 harg6 arg7 harg7) K := by
  simp only [cc2__sage_relu_kernel_eq_skeleton]; unfold cc2__sage_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover2_6 _)

/-! ## The pipeline's proof data -/

/-- The arrays as the launch finds them; after the body at point `t` each input buffer at its block and the
    output buffer at the body's value of the input blocks; the invariant keeps the scoped rest and the
    generator register untouched; nothing is owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6' (c : Dev nD) (t : Fin cfg2.N) :
    (dat2 V c).after 6 t = out2_6 (iblk2 V c 0 t) (iblk2 V c 1 t) (iblk2 V c 2 t) (iblk2 V c 3 t) (iblk2 V c 4 t) (iblk2 V c 5 t) := by dsimp only [dat2]
/-- The output buffer after point `t`: the body's value of the input blocks. -/
theorem after2_6 (c : Dev nD) (t : Fin cfg2.N) :
    (dat2 V c).after 6 t = k2_pay1 (iblk2 V c 0 t) (iblk2 V c 1 t) (iblk2 V c 2 t) (iblk2 V c 3 t) (iblk2 V c 4 t) (iblk2 V c 5 t) := by
  rw [after2_6', out2_6_eq]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- At any point the input buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6']
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrameK3.lean ====
/- Launch 3 of the kernel program (`cc3__sage_final_head_kernel`: a 2000-row tile of the previous layer's features and of the summed
   neighbour features, the inverse degrees, the resident weights and bias of the last mean-aggregation layer, and the
   resident weights and biases of the two layers of the node head): the part of its frame proof that is about the body.

   A grid point hands the body one staging buffer per window, ten inputs and two outputs. Each input buffer holds
   that window's block of its array as the launch found it; the body reads them whole, computes the layer's value and
   stores it whole into the first output buffer, then computes the head's value of it and stores that whole into the
   second. So after the body every input buffer is as it was and each output buffer holds its stored value, a pure
   function of the input blocks. This module names the blocks, proves the body's triple by running it symbolically,
   and packages the result as the pipeline's proof data and its body obligation, at any float instance and for any
   contents `V` the launch may find. -/
import proofs.«175741_j7894149890553_2_alg».proof.Proof.Gen.KernelIdeal.Launch
import proofs.«175741_j7894149890553_2_alg».proof.Proof.Gen.KernelIdeal.Skeleton
import proofs.«175741_j7894149890553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of the long extents recurses once per coordinate
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffers' contents when the launch is entered: the parameter everything below is stated at
variable (V : (c : Dev nD) → (b : Ref sig .tc) → Buf (Elt F) ((c : Thread nD τ).loc b))

/-! ## The windows' blocks -/

/-- Window `w`'s block at point `t`, read off its array as the launch finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point, fetched there or not, for ANY proof
    data whose array is `V`'s (`hA`) and whose body leaves the block in place (`hafter`): where it is not fetched
    the block index has not moved (for windows 3 to 9 it never moves). The windows are uncut and never idle. -/

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (Pipeline.UD sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (Pipeline.UD sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (Pipeline.UD sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

theorem before3_9_of {c : Dev nD} (dat : Dat τ (Elt F) Unit ℕ (Pipeline.UD sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The offsets of a whole-buffer access are all zero. -/
theorem off2_zero_3 : (![0, 0] : Fin 2 → Nat) = fun _ => 0 := funext fun a => by fin_cases a <;> rfl
theorem off1_zero_3 : (![0] : Fin 1 → Nat) = fun _ => 0 := funext fun a => by fin_cases a <;> rfl

/-- A load of a whole buffer (the whole-shape rectangle at zero offsets) reads its contents. -/
theorem readAt_unit_zero_3 {κ : Kind} {sp : Space} {e : EltTy} (S : Shape) {off : Fin S.rank → Nat} (h : off = fun _ => 0)
    (inb : ∀ a, off a + S.size a ≤ S.size a) (v : View sig κ sp S e) (f : v.ty.Contents (Elt F)) :
    v.readAt (Elt F) (Rect.unit off S.size inb).toLoadRect f = v.read (Elt F) f :=
  View.ld_unit_zero h inb _

/-- Each output buffer's one store: the whole buffer. -/
abbrev r3_10 : Rect S2000x128 := Rect.unit (s := S2000x128) ![0, 0] S2000x128.size inb_S2000x128_S2000x128_0_0
abbrev r3_11 : Rect S2000x1 := Rect.unit (s := S2000x1) ![0, 0] S2000x1.size inb_S2000x1_S2000x1_0_0

/-- The one store of each output covers its buffer. -/
theorem cover3_10 (p0 : Vec F S2000x128 .bf16) (y : S2000x128.Idx) :
    ∃ pc ∈ ([⟨r3_10, p0⟩] : List (View.Piece (Elt F) S2000x128 .bf16)), y ∈ pc.1.set :=
  ⟨_, List.mem_singleton_self _, View.mem_set_unit_zero off2_zero_3 inb_S2000x128_S2000x128_0_0 y⟩
theorem cover3_11 (p0 : Vec F S2000x1 .f32) (y : S2000x1.Idx) :
    ∃ pc ∈ ([⟨r3_11, p0⟩] : List (View.Piece (Elt F) S2000x1 .f32)), y ∈ pc.1.set :=
  ⟨_, List.mem_singleton_self _, View.mem_set_unit_zero off2_zero_3 inb_S2000x1_S2000x1_0_0 y⟩

/-! ## The body's triple -/

set_option maxHeartbeats 4000000 in
/-- The kernel body on whole staging memrefs, the inputs' at read contents `xW` and the outputs' at anything, runs to
    the continuation holding the inputs' as they were, the first output's at the layer's value of inputs 0 to 5 and the
    second's at the head's value of inputs 0 to 9: the printed function and the part it calls are their skeletons,
    which are run symbolically; each output buffer's load before its store reads a value nothing uses; each
    whole-buffer store leaves its payload, and the whole-buffer loads read the contents. -/
theorem sound_kernel3 (c : Dev nD) (E : Set ℕ) (i : grid3.Coords) (arg1 : Memref sig .tc .vmem S2000x128 .bf16) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x1 .f32) (harg9 : arg9.IsWhole) (arg10 : Memref sig .tc .vmem S1 .f32) (harg10 : arg10.IsWhole) (arg11 : Memref sig .tc .vmem S2000x128 .bf16) (harg11 : arg11.IsWhole) (arg12 : Memref sig .tc .vmem S2000x1 .f32) (harg12 : arg12.IsWhole)
    (x0 : Vec F S2000x128 .bf16) (x1 : Vec F S2000x128 .f32) (x2 : Vec F S2000x1 .f32) (x3 : Vec F S128x128 .f32) (x4 : Vec F S128x128 .f32) (x5 : Vec F S128 .f32) (x6 : Vec F S128x128 .f32) (x7 : Vec F S128 .f32) (x8 : Vec F S128x1 .f32) (x9 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k3_pay2 x0 x1 x2 x3 x4 x5)
            ∗ owns (c : Thread nD τ) arg12 fullShare (k3_pay1 (k3_pay3 x0 x1 x2 x3 x4 x5 x6 x7) x8 x9)) -∗ K ⟨⟩))
      ⊢ wp frame (wpE (defs₀ (F := F)) Variants.none c none) E (cc3__sage_final_head_kernel i arg1 harg1 arg2 harg2 arg3 harg3 arg4 harg4 arg5 harg5 arg6 harg6 arg7 harg7 arg8 harg8 arg9 harg9 arg10 harg10 arg11 harg11 arg12 harg12) K := by
  simp only [cc3__sage_final_head_kernel_eq_skeleton]; unfold cc3__sage_final_head_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover3_10 _)).trans ?_
    rw [View.canon_unit_zero off2_zero_3]
    simp only [readAt_unit_zero_3 S2000x128 off2_zero_3, readAt_unit_zero_3 S2000x1 off2_zero_3,
      readAt_unit_zero_3 S128x128 off2_zero_3, readAt_unit_zero_3 S128 off1_zero_3]
  iexists _; isplitr
  swap; · iexact H11
  ipureintro
  refine (View.read_writes_eq_canon _ _ _ (cover3_11 _)).trans ?_
  rw [View.canon_unit_zero off2_zero_3]
  simp only [readAt_unit_zero_3 S2000x128 off2_zero_3, readAt_unit_zero_3 S2000x1 off2_zero_3,
    readAt_unit_zero_3 S128x128 off2_zero_3, readAt_unit_zero_3 S128 off1_zero_3,
    readAt_unit_zero_3 S128x1 off2_zero_3, readAt_unit_zero_3 S1 off1_zero_3]

/-! ## The pipeline's proof data -/

/-- The proof data of the launch's pipeline on core `c`: the arrays as the launch finds them (`V`); after the body at
    point `t` each input's buffer at its block, the first output's at the layer's value of input blocks 0 to 5 and the
    second's at the head's value of input blocks 0 to 9; the invariant keeps the scoped rest and the generator register
    untouched; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => k3_pay2 (iblk3 V c 0 t) (iblk3 V c 1 t) (iblk3 V c 2 t) (iblk3 V c 3 t) (iblk3 V c 4 t) (iblk3 V c 5 t)
    | ⟨11, _⟩ => k3_pay1 (k3_pay3 (iblk3 V c 0 t) (iblk3 V c 1 t) (iblk3 V c 2 t) (iblk3 V c 3 t) (iblk3 V c 4 t) (iblk3 V c 5 t) (iblk3 V c 6 t) (iblk3 V c 7 t)) (iblk3 V c 8 t) (iblk3 V c 9 t)
  Φ _ := Pipeline.ΦA spec3 c
  q _ := fullShare
  owed _ := 0

/-- The proof data's arrays are the launch-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) :
    (dat3 V c).after 10 t = k3_pay2 (iblk3 V c 0 t) (iblk3 V c 1 t) (iblk3 V c 2 t) (iblk3 V c 3 t) (iblk3 V c 4 t) (iblk3 V c 5 t) := by dsimp only [dat3]
theorem after3_11 (c : Dev nD) (t : Fin cfg3.N) :
    (dat3 V c).after 11 t = k3_pay1 (k3_pay3 (iblk3 V c 0 t) (iblk3 V c 1 t) (iblk3 V c 2 t) (iblk3 V c 3 t) (iblk3 V c 4 t) (iblk3 V c 5 t) (iblk3 V c 6 t) (iblk3 V c 7 t)) (iblk3 V c 8 t) (iblk3 V c 9 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

set_option maxHeartbeats 1000000 in
/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ (grid3.coords t) _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.FrameK4.lean ====
/-
  Launch 4 of the kernel program (the edge head: a 2000-edge tile of the two end points' rows and the six edge features against the resident weights): the part of its frame proof that is about the body.

  A grid point hands the body one staging buffer per window. Each input buffer holds that window's block of
  its array as the launch found it; the body reads them whole, computes one value per output and stores it
  whole. So after the body every input buffer is as it was and each output buffer holds the stored value, a
  pure function of the input blocks. This module names the blocks, states that function, proves the body's
  triple by running it symbolically, and packages the result as the pipeline's proof data and its body
  obligation, at any float instance and for any contents `V` the launch may find.
-/
import proofs.«175741_j7894149890553_2_alg».proof.Proof.Gen.KernelIdeal.Launch
import proofs.«175741_j7894149890553_2_alg».proof.Proof.Gen.KernelIdeal.Skeleton
import proofs.«175741_j7894149890553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the launch finds it. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- Input window 0's staging buffer holds its block at every point, fetched there or not: where it is not
    fetched its block index has not moved, and the body left the block in place. -/
theorem before4_0_of {c : Dev nD} (dat : Dat τ (Elt F) Unit ℕ (Pipeline.UD sig nD τ) ℕ cfg4 c)
    (hA : dat.A 0 = V c (Pipeline.arrRef spec4 0)) (hafter : ∀ t, dat.after 0 t = iblk4 V c 0 t)
    (t : Fin cfg4.N) (d) : dat.before 0 t d = iblk4 V c 0 t :=
  (dat.before_in_eq_fetched 0 rfl (fun _ => rfl) (fun _ _ _ => rfl)
    (fun t => by rw [hafter]; unfold Dat.blockOf iblk4; rw [hA]; try rfl) t d).trans
    (by unfold Dat.fetched Dat.blockOf iblk4; rw [hA]; try rfl)

/-- Input window 1's staging buffer holds its block at every point, fetched there or not: where it is not
    fetched its block index has not moved, and the body left the block in place. -/
theorem before4_1_of {c : Dev nD} (dat : Dat τ (Elt F) Unit ℕ (Pipeline.UD sig nD τ) ℕ cfg4 c)
    (hA : dat.A 1 = V c (Pipeline.arrRef spec4 1)) (hafter : ∀ t, dat.after 1 t = iblk4 V c 1 t)
    (t : Fin cfg4.N) (d) : dat.before 1 t d = iblk4 V c 1 t :=
  (dat.before_in_eq_fetched 1 rfl (fun _ => rfl) (fun _ _ _ => rfl)
    (fun t => by rw [hafter]; unfold Dat.blockOf iblk4; rw [hA]; try rfl) t d).trans
    (by unfold Dat.fetched Dat.blockOf iblk4; rw [hA]; try rfl)

/-- Input window 2's staging buffer holds its block at every point, fetched there or not: where it is not
    fetched its block index has not moved, and the body left the block in place. -/
theorem before4_2_of {c : Dev nD} (dat : Dat τ (Elt F) Unit ℕ (Pipeline.UD sig nD τ) ℕ cfg4 c)
    (hA : dat.A 2 = V c (Pipeline.arrRef spec4 2)) (hafter : ∀ t, dat.after 2 t = iblk4 V c 2 t)
    (t : Fin cfg4.N) (d) : dat.before 2 t d = iblk4 V c 2 t :=
  (dat.before_in_eq_fetched 2 rfl (fun _ => rfl) (fun _ _ _ => rfl)
    (fun t => by rw [hafter]; unfold Dat.blockOf iblk4; rw [hA]; try rfl) t d).trans
    (by unfold Dat.fetched Dat.blockOf iblk4; rw [hA]; try rfl)

/-- Input window 3's staging buffer holds its block at every point, fetched there or not: where it is not
    fetched its block index has not moved, and the body left the block in place. -/
theorem before4_3_of {c : Dev nD} (dat : Dat τ (Elt F) Unit ℕ (Pipeline.UD sig nD τ) ℕ cfg4 c)
    (hA : dat.A 3 = V c (Pipeline.arrRef spec4 3)) (hafter : ∀ t, dat.after 3 t = iblk4 V c 3 t)
    (t : Fin cfg4.N) (d) : dat.before 3 t d = iblk4 V c 3 t :=
  (dat.before_in_eq_fetched 3 rfl (fun _ => rfl) (fun _ _ _ => rfl)
    (fun t => by rw [hafter]; unfold Dat.blockOf iblk4; rw [hA]; try rfl) t d).trans
    (by unfold Dat.fetched Dat.blockOf iblk4; rw [hA]; try rfl)

/-- Input window 4's staging buffer holds its block at every point, fetched there or not: where it is not
    fetched its block index has not moved, and the body left the block in place. -/
theorem before4_4_of {c : Dev nD} (dat : Dat τ (Elt F) Unit ℕ (Pipeline.UD sig nD τ) ℕ cfg4 c)
    (hA : dat.A 4 = V c (Pipeline.arrRef spec4 4)) (hafter : ∀ t, dat.after 4 t = iblk4 V c 4 t)
    (t : Fin cfg4.N) (d) : dat.before 4 t d = iblk4 V c 4 t :=
  (dat.before_in_eq_fetched 4 rfl (fun _ => rfl) (fun _ _ _ => rfl)
    (fun t => by rw [hafter]; unfold Dat.blockOf iblk4; rw [hA]; try rfl) t d).trans
    (by unfold Dat.fetched Dat.blockOf iblk4; rw [hA]; try rfl)

/-- Input window 5's staging buffer holds its block at every point, fetched there or not: where it is not
    fetched its block index has not moved, and the body left the block in place. -/
theorem before4_5_of {c : Dev nD} (dat : Dat τ (Elt F) Unit ℕ (Pipeline.UD sig nD τ) ℕ cfg4 c)
    (hA : dat.A 5 = V c (Pipeline.arrRef spec4 5)) (hafter : ∀ t, dat.after 5 t = iblk4 V c 5 t)
    (t : Fin cfg4.N) (d) : dat.before 5 t d = iblk4 V c 5 t :=
  (dat.before_in_eq_fetched 5 rfl (fun _ => rfl) (fun _ _ _ => rfl)
    (fun t => by rw [hafter]; unfold Dat.blockOf iblk4; rw [hA]; try rfl) t d).trans
    (by unfold Dat.fetched Dat.blockOf iblk4; rw [hA]; try rfl)

/-- Input window 6's staging buffer holds its block at every point, fetched there or not: where it is not
    fetched its block index has not moved, and the body left the block in place. -/
theorem before4_6_of {c : Dev nD} (dat : Dat τ (Elt F) Unit ℕ (Pipeline.UD sig nD τ) ℕ cfg4 c)
    (hA : dat.A 6 = V c (Pipeline.arrRef spec4 6)) (hafter : ∀ t, dat.after 6 t = iblk4 V c 6 t)
    (t : Fin cfg4.N) (d) : dat.before 6 t d = iblk4 V c 6 t :=
  (dat.before_in_eq_fetched 6 rfl (fun _ => rfl) (fun _ _ _ => rfl)
    (fun t => by rw [hafter]; unfold Dat.blockOf iblk4; rw [hA]; try rfl) t d).trans
    (by unfold Dat.fetched Dat.blockOf iblk4; rw [hA]; try rfl)

/-- Input window 7's staging buffer holds its block at every point, fetched there or not: where it is not
    fetched its block index has not moved, and the body left the block in place. -/
theorem before4_7_of {c : Dev nD} (dat : Dat τ (Elt F) Unit ℕ (Pipeline.UD sig nD τ) ℕ cfg4 c)
    (hA : dat.A 7 = V c (Pipeline.arrRef spec4 7)) (hafter : ∀ t, dat.after 7 t = iblk4 V c 7 t)
    (t : Fin cfg4.N) (d) : dat.before 7 t d = iblk4 V c 7 t :=
  (dat.before_in_eq_fetched 7 rfl (fun _ => rfl) (fun _ _ _ => rfl)
    (fun t => by rw [hafter]; unfold Dat.blockOf iblk4; rw [hA]; try rfl) t d).trans
    (by unfold Dat.fetched Dat.blockOf iblk4; rw [hA]; try rfl)

/-- Input window 8's staging buffer holds its block at every point, fetched there or not: where it is not
    fetched its block index has not moved, and the body left the block in place. -/
theorem before4_8_of {c : Dev nD} (dat : Dat τ (Elt F) Unit ℕ (Pipeline.UD sig nD τ) ℕ cfg4 c)
    (hA : dat.A 8 = V c (Pipeline.arrRef spec4 8)) (hafter : ∀ t, dat.after 8 t = iblk4 V c 8 t)
    (t : Fin cfg4.N) (d) : dat.before 8 t d = iblk4 V c 8 t :=
  (dat.before_in_eq_fetched 8 rfl (fun _ => rfl) (fun _ _ _ => rfl)
    (fun t => by rw [hafter]; unfold Dat.blockOf iblk4; rw [hA]; try rfl) t d).trans
    (by unfold Dat.fetched Dat.blockOf iblk4; rw [hA]; try rfl)

/-! ## What the body leaves in the output buffer -/

/-- The whole-buffer rectangles the body loads and stores through. -/
abbrev r4_0 : Rect S2000x128 := Rect.unit (s := S2000x128) ![0, 0] S2000x128.size inb_S2000x128_S2000x128_0_0
abbrev r4_1 : Rect S2000x128 := Rect.unit (s := S2000x128) ![0, 0] S2000x128.size inb_S2000x128_S2000x128_0_0
abbrev r4_2 : Rect S2000x6 := Rect.unit (s := S2000x6) ![0, 0] S2000x6.size inb_S2000x6_S2000x6_0_0
abbrev r4_3 : Rect S128x128 := Rect.unit (s := S128x128) ![0, 0] S128x128.size inb_S128x128_S128x128_0_0
abbrev r4_4 : Rect S128x128 := Rect.unit (s := S128x128) ![0, 0] S128x128.size inb_S128x128_S128x128_0_0
abbrev r4_5 : Rect S6x128 := Rect.unit (s := S6x128) ![0, 0] S6x128.size inb_S6x128_S6x128_0_0
abbrev r4_6 : Rect S128 := Rect.unit (s := S128) ![0] S128.size inb_S128_S128_0
abbrev r4_7 : Rect S128x1 := Rect.unit (s := S128x1) ![0, 0] S128x1.size inb_S128x1_S128x1_0_0
abbrev r4_8 : Rect S1 := Rect.unit (s := S1) ![0] S1.size inb_S1_S1_0
abbrev r4_9 : Rect S2000x1 := Rect.unit (s := S2000x1) ![0, 0] S2000x1.size inb_S2000x1_S2000x1_0_0

/-- The output buffer after the body: its one store, of the body's value of the loads. -/
def out4_9 (x0 : Vec F S2000x128 .bf16) (x1 : Vec F S2000x128 .bf16) (x2 : Vec F S2000x6 .f32) (x3 : Vec F S128x128 .f32) (x4 : Vec F S128x128 .f32) (x5 : Vec F S6x128 .f32) (x6 : Vec F S128 .f32) (x7 : Vec F S128x1 .f32) (x8 : Vec F S1 .f32) : Vec F S2000x1 .f32 :=
  View.canon [⟨r4_9, k4_pay1 (View.ld x0 r4_0) (View.ld x1 r4_1) (View.ld x2 r4_2) (View.ld x3 r4_3) (View.ld x4 r4_4) (View.ld x5 r4_5) (View.ld x6 r4_6) (View.ld x7 r4_7) (View.ld x8 r4_8)⟩]

theorem zero2_4 : (![0, 0] : Fin 2 → Nat) = fun _ => 0 := funext fun a => by fin_cases a <;> rfl
theorem zero1_4 : (![0] : Fin 1 → Nat) = fun _ => 0 := funext fun a => by fin_cases a; rfl

/-- Loads and store are of whole buffers, so the output buffer holds exactly the value computed from the
    input buffers. -/
theorem out4_9_eq (x0 : Vec F S2000x128 .bf16) (x1 : Vec F S2000x128 .bf16) (x2 : Vec F S2000x6 .f32) (x3 : Vec F S128x128 .f32) (x4 : Vec F S128x128 .f32) (x5 : Vec F S6x128 .f32) (x6 : Vec F S128 .f32) (x7 : Vec F S128x1 .f32) (x8 : Vec F S1 .f32) :
    out4_9 x0 x1 x2 x3 x4 x5 x6 x7 x8 = k4_pay1 x0 x1 x2 x3 x4 x5 x6 x7 x8 := by
  unfold out4_9
  rw [View.canon_unit_zero zero2_4]
  simp only [View.ld_unit_zero (S := S2000x128) zero2_4, View.ld_unit_zero (S := S2000x6) zero2_4, View.ld_unit_zero (S := S128x128) zero2_4, View.ld_unit_zero (S := S6x128) zero2_4, View.ld_unit_zero (S := S128) zero1_4, View.ld_unit_zero (S := S128x1) zero2_4, View.ld_unit_zero (S := S1) zero1_4]

/-- The one store covers the buffer. -/
theorem cover4_9 (p0 : Vec F S2000x1 .f32) (y : S2000x1.Idx) :
    ∃ pc ∈ ([⟨r4_9, p0⟩] : List (View.Piece (Elt F) S2000x1 .f32)), y ∈ pc.1.set :=
  View.cover_of_tiled [⟨r4_9, p0⟩] S2000x1.size (by rfl) y

/-! ## The body's triple -/

set_option maxHeartbeats 1000000 in
/-- On whole staging buffers, the inputs' at given contents and the output's at anything, the body runs to its
    continuation with the inputs' as they were and the output's at `out4_9` of the inputs'. -/
theorem sound_kernel4 (c : Dev nD) (E : Set ℕ) (i : grid4.Coords)
    (arg1 : Memref sig .tc .vmem S2000x128 .bf16) (harg1 : arg1.IsWhole) (arg2 : Memref sig .tc .vmem S2000x128 .bf16) (harg2 : arg2.IsWhole) (arg3 : Memref sig .tc .vmem S2000x6 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S6x128 .f32) (harg6 : arg6.IsWhole) (arg7 : Memref sig .tc .vmem S128 .f32) (harg7 : arg7.IsWhole) (arg8 : Memref sig .tc .vmem S128x1 .f32) (harg8 : arg8.IsWhole) (arg9 : Memref sig .tc .vmem S1 .f32) (harg9 : arg9.IsWhole) (arg10 : Memref sig .tc .vmem S2000x1 .f32) (harg10 : arg10.IsWhole)
    (x0 : Vec F S2000x128 .bf16) (x1 : Vec F S2000x128 .bf16) (x2 : Vec F S2000x6 .f32) (x3 : Vec F S128x128 .f32) (x4 : Vec F S128x128 .f32) (x5 : Vec F S6x128 .f32) (x6 : Vec F S128 .f32) (x7 : Vec F S128x1 .f32) (x8 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out4_9 x0 x1 x2 x3 x4 x5 x6 x7 x8)) -∗ K ⟨⟩))
      ⊢ wp frame (wpE (defs₀ (F := F)) Variants.none c none) E (cc4__edge_head_kernel i arg1 harg1 arg2 harg2 arg3 harg3 arg4 harg4 arg5 harg5 arg6 harg6 arg7 harg7 arg8 harg8 arg9 harg9 arg10 harg10) K := by
  simp only [cc4__edge_head_kernel_eq_skeleton]; unfold cc4__edge_head_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO, %fO, -, HO⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact HO
  ipureintro
  exact View.read_writes_eq_canon _ _ _ (cover4_9 _)

/-! ## The pipeline's proof data -/

/-- The arrays as the launch finds them; after the body at point `t` each input buffer at its block and the
    output buffer at the body's value of the input blocks; the invariant keeps the scoped rest and the
    generator register untouched; nothing is owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9' (c : Dev nD) (t : Fin cfg4.N) :
    (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]
/-- The output buffer after point `t`: the body's value of the input blocks. -/
theorem after4_9 (c : Dev nD) (t : Fin cfg4.N) :
    (dat4 V c).after 9 t = k4_pay1 (iblk4 V c 0 t) (iblk4 V c 1 t) (iblk4 V c 2 t) (iblk4 V c 3 t) (iblk4 V c 4 t) (iblk4 V c 5 t) (iblk4 V c 6 t) (iblk4 V c 7 t) (iblk4 V c 8 t) := by
  rw [after4_9', out4_9_eq]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation -/

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- At any point the input buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9']
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ (grid4.coords t) _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.RunAll.lean ====
/-
  The kernel program's run, from the launch memory to the return, over its five kernel launches.

  Between two items of the program a core's unscoped buffers are all held at known contents. A stretch of
  host operations takes them to the operations' fold. A kernel launch changes only its output arrays: its
  input arrays come back as they went in, each output array comes back as the fold of the grid points'
  write-backs, every other buffer is not touched. Naming these contents one item after the other from the
  launch memory gives, at the end, every unscoped buffer of every core as a function of the launch memory:
  the arguments unchanged, and the two results at the values the last stretch leaves.
-/
import proofs.«175741_j7894149890553_2_alg».proof.Proof.Gen.KernelIdeal.Regions
import proofs.«175741_j7894149890553_2_alg».proof.Proof.FrameK0
import proofs.«175741_j7894149890553_2_alg».proof.Proof.FrameK1
import proofs.«175741_j7894149890553_2_alg».proof.Proof.FrameK2
import proofs.«175741_j7894149890553_2_alg».proof.Proof.FrameK3
import proofs.«175741_j7894149890553_2_alg».proof.Proof.FrameK4

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## A launch's exit, at any entry contents -/

/-- At launch 0's exit, for ANY entry contents `V` and any valuation `Y` that agrees with them off the output
    array and holds the write-backs' fold there: each of the launch's arrays holds what the pipeline leaves. -/
theorem exit0 (V : (c : Dev nD) → (b : Ref sig .tc) → Buf (Elt F) ((c : Thread nD τ).loc b)) (c : Dev nD)
    (Y : Valuation τ sig (Elt F)) (hne : ∀ b : Ref sig .tc, b ≠ main_v19 → Y b = V c b)
    (hout : Y main_v19 = (dat0 V c).arrAt 3 cfg0.N) (w : Fin cfg0.W) :
    (dat0 V c).arrAt w cfg0.N = Y (Pipeline.arrRef spec0 w) := by
  match w with
  | ⟨0, _⟩ => exact ((dat0 V c).arrAt_in 0 rfl _).trans ((A_eq0 V c 0).trans (hne _ (by decide)).symm)
  | ⟨1, _⟩ => exact ((dat0 V c).arrAt_in 1 rfl _).trans ((A_eq0 V c 1).trans (hne _ (by decide)).symm)
  | ⟨2, _⟩ => exact ((dat0 V c).arrAt_in 2 rfl _).trans ((A_eq0 V c 2).trans (hne _ (by decide)).symm)
  | ⟨3, _⟩ => exact hout.symm

set_option maxHeartbeats 4000000 in
/-- At launch 1's exit, for ANY entry contents `V` and any valuation `Y` that agrees with them off the output
    array and holds the write-backs' fold there: each of the launch's arrays holds what the pipeline leaves. -/
theorem exit1 (V : (c : Dev nD) → (b : Ref sig .tc) → Buf (Elt F) ((c : Thread nD τ).loc b)) (c : Dev nD)
    (Y : Valuation τ sig (Elt F)) (hne : ∀ b : Ref sig .tc, b ≠ main_v37 → Y b = V c b)
    (hout : Y main_v37 = (dat1 V c).arrAt 6 cfg1.N) : ∀ w : Fin 7,
    (dat1 V c).arrAt w cfg1.N = Y (Pipeline.arrRef spec1 w)
  | 0 => ((dat1 V c).arrAt_in 0 rfl _).trans ((A_eq1 V c 0).trans (hne _ (by decide)).symm)
  | 1 => ((dat1 V c).arrAt_in 1 rfl _).trans ((A_eq1 V c 1).trans (hne _ (by decide)).symm)
  | 2 => ((dat1 V c).arrAt_in 2 rfl _).trans ((A_eq1 V c 2).trans (hne _ (by decide)).symm)
  | 3 => ((dat1 V c).arrAt_in 3 rfl _).trans ((A_eq1 V c 3).trans (hne _ (by decide)).symm)
  | 4 => ((dat1 V c).arrAt_in 4 rfl _).trans ((A_eq1 V c 4).trans (hne _ (by decide)).symm)
  | 5 => ((dat1 V c).arrAt_in 5 rfl _).trans ((A_eq1 V c 5).trans (hne _ (by decide)).symm)
  | 6 => hout.symm

set_option maxHeartbeats 4000000 in
/-- At launch 2's exit, for ANY entry contents `V` and any valuation `Y` that agrees with them off the output
    array and holds the write-backs' fold there: each of the launch's arrays holds what the pipeline leaves. -/
theorem exit2 (V : (c : Dev nD) → (b : Ref sig .tc) → Buf (Elt F) ((c : Thread nD τ).loc b)) (c : Dev nD)
    (Y : Valuation τ sig (Elt F)) (hne : ∀ b : Ref sig .tc, b ≠ main_v55 → Y b = V c b)
    (hout : Y main_v55 = (dat2 V c).arrAt 6 cfg2.N) : ∀ w : Fin 7,
    (dat2 V c).arrAt w cfg2.N = Y (Pipeline.arrRef spec2 w)
  | 0 => ((dat2 V c).arrAt_in 0 rfl _).trans ((A_eq2 V c 0).trans (hne _ (by decide)).symm)
  | 1 => ((dat2 V c).arrAt_in 1 rfl _).trans ((A_eq2 V c 1).trans (hne _ (by decide)).symm)
  | 2 => ((dat2 V c).arrAt_in 2 rfl _).trans ((A_eq2 V c 2).trans (hne _ (by decide)).symm)
  | 3 => ((dat2 V c).arrAt_in 3 rfl _).trans ((A_eq2 V c 3).trans (hne _ (by decide)).symm)
  | 4 => ((dat2 V c).arrAt_in 4 rfl _).trans ((A_eq2 V c 4).trans (hne _ (by decide)).symm)
  | 5 => ((dat2 V c).arrAt_in 5 rfl _).trans ((A_eq2 V c 5).trans (hne _ (by decide)).symm)
  | 6 => hout.symm

set_option maxHeartbeats 8000000 in
theorem exit3 (V : (c : Dev nD) → (b : Ref sig .tc) → Buf (Elt F) ((c : Thread nD τ).loc b)) (c : Dev nD)
    (Y : Valuation τ sig (Elt F)) (hne : ∀ b : Ref sig .tc, b ≠ main_v73_0 → b ≠ main_v73_1 → Y b = V c b)
    (hout0 : Y main_v73_0 = (dat3 V c).arrAt 10 cfg3.N) (hout1 : Y main_v73_1 = (dat3 V c).arrAt 11 cfg3.N) : ∀ w : Fin 12,
    (dat3 V c).arrAt w cfg3.N = Y (Pipeline.arrRef spec3 w)
  | 0 => ((dat3 V c).arrAt_in 0 rfl _).trans ((A_eq3 V c 0).trans (hne _ (by decide) (by decide)).symm)
  | 1 => ((dat3 V c).arrAt_in 1 rfl _).trans ((A_eq3 V c 1).trans (hne _ (by decide) (by decide)).symm)
  | 2 => ((dat3 V c).arrAt_in 2 rfl _).trans ((A_eq3 V c 2).trans (hne _ (by decide) (by decide)).symm)
  | 3 => ((dat3 V c).arrAt_in 3 rfl _).trans ((A_eq3 V c 3).trans (hne _ (by decide) (by decide)).symm)
  | 4 => ((dat3 V c).arrAt_in 4 rfl _).trans ((A_eq3 V c 4).trans (hne _ (by decide) (by decide)).symm)
  | 5 => ((dat3 V c).arrAt_in 5 rfl _).trans ((A_eq3 V c 5).trans (hne _ (by decide) (by decide)).symm)
  | 6 => ((dat3 V c).arrAt_in 6 rfl _).trans ((A_eq3 V c 6).trans (hne _ (by decide) (by decide)).symm)
  | 7 => ((dat3 V c).arrAt_in 7 rfl _).trans ((A_eq3 V c 7).trans (hne _ (by decide) (by decide)).symm)
  | 8 => ((dat3 V c).arrAt_in 8 rfl _).trans ((A_eq3 V c 8).trans (hne _ (by decide) (by decide)).symm)
  | 9 => ((dat3 V c).arrAt_in 9 rfl _).trans ((A_eq3 V c 9).trans (hne _ (by decide) (by decide)).symm)
  | 10 => hout0.symm
  | 11 => hout1.symm

set_option maxHeartbeats 4000000 in
/-- At launch 4's exit, for ANY entry contents `V` and any valuation `Y` that agrees with them off the output
    array and holds the write-backs' fold there: each of the launch's arrays holds what the pipeline leaves. -/
theorem exit4 (V : (c : Dev nD) → (b : Ref sig .tc) → Buf (Elt F) ((c : Thread nD τ).loc b)) (c : Dev nD)
    (Y : Valuation τ sig (Elt F)) (hne : ∀ b : Ref sig .tc, b ≠ main_v96 → Y b = V c b)
    (hout : Y main_v96 = (dat4 V c).arrAt 9 cfg4.N) : ∀ w : Fin 10,
    (dat4 V c).arrAt w cfg4.N = Y (Pipeline.arrRef spec4 w)
  | 0 => ((dat4 V c).arrAt_in 0 rfl _).trans ((A_eq4 V c 0).trans (hne _ (by decide)).symm)
  | 1 => ((dat4 V c).arrAt_in 1 rfl _).trans ((A_eq4 V c 1).trans (hne _ (by decide)).symm)
  | 2 => ((dat4 V c).arrAt_in 2 rfl _).trans ((A_eq4 V c 2).trans (hne _ (by decide)).symm)
  | 3 => ((dat4 V c).arrAt_in 3 rfl _).trans ((A_eq4 V c 3).trans (hne _ (by decide)).symm)
  | 4 => ((dat4 V c).arrAt_in 4 rfl _).trans ((A_eq4 V c 4).trans (hne _ (by decide)).symm)
  | 5 => ((dat4 V c).arrAt_in 5 rfl _).trans ((A_eq4 V c 5).trans (hne _ (by decide)).symm)
  | 6 => ((dat4 V c).arrAt_in 6 rfl _).trans ((A_eq4 V c 6).trans (hne _ (by decide)).symm)
  | 7 => ((dat4 V c).arrAt_in 7 rfl _).trans ((A_eq4 V c 7).trans (hne _ (by decide)).symm)
  | 8 => ((dat4 V c).arrAt_in 8 rfl _).trans ((A_eq4 V c 8).trans (hne _ (by decide)).symm)
  | 9 => hout.symm

variable (m : (ℓ : Loc nD τ sig) → Buf (Elt F) ℓ)

/-! ## The buffers' contents, item after item -/

/-- A family of valuations read at the TensorCore's references: the form a launch's proof data take. -/
abbrev asV (W : Dev nD → Valuation τ sig (Elt F)) :
    (c : Dev nD) → (b : Ref sig .tc) → Buf (Elt F) ((c : Thread nD τ).loc b) := fun c b => W c b

/-- Before launch 0: the launch memory after the first host stretch. -/
def X0 (c : Dev nD) : Valuation τ sig (Elt F) := StableHlo.after hostOps0 (fun b => m (c, b))
/-- After launch 0: its output array at what the write-backs leave. -/
def Y0 (c : Dev nD) : Valuation τ sig (Elt F) :=
  Function.update (X0 m c) main_v19 ((dat0 (asV (X0 m)) c).arrAt 3 cfg0.N)
def X1 (c : Dev nD) : Valuation τ sig (Elt F) := StableHlo.after hostOps1 (Y0 m c)
def Y1 (c : Dev nD) : Valuation τ sig (Elt F) :=
  Function.update (X1 m c) main_v37 ((dat1 (asV (X1 m)) c).arrAt 6 cfg1.N)
def X2 (c : Dev nD) : Valuation τ sig (Elt F) := StableHlo.after hostOps2 (Y1 m c)
def Y2 (c : Dev nD) : Valuation τ sig (Elt F) :=
  Function.update (X2 m c) main_v55 ((dat2 (asV (X2 m)) c).arrAt 6 cfg2.N)
def X3 (c : Dev nD) : Valuation τ sig (Elt F) := StableHlo.after hostOps3 (Y2 m c)
/-- After launch 3: its two output arrays, the embedding and the node output. -/
def Y3 (c : Dev nD) : Valuation τ sig (Elt F) :=
  Function.update (Function.update (X3 m c) main_v73_0 ((dat3 (asV (X3 m)) c).arrAt 10 cfg3.N))
    main_v73_1 ((dat3 (asV (X3 m)) c).arrAt 11 cfg3.N)
def X4 (c : Dev nD) : Valuation τ sig (Elt F) := StableHlo.after hostOps4 (Y3 m c)
def Y4 (c : Dev nD) : Valuation τ sig (Elt F) :=
  Function.update (X4 m c) main_v96 ((dat4 (asV (X4 m)) c).arrAt 9 cfg4.N)
/-- At the return: after the last host stretch. -/
def X5 (c : Dev nD) : Valuation τ sig (Elt F) := StableHlo.after hostOps5 (Y4 m c)

/-- What the launches leave, in the form the conditional frame's valuations take them. -/
def outs : Gen.Outs (F := F) := fun J r c =>
  match J with
  | 2 => Y0 m c r
  | 4 => Y1 m c r
  | 6 => Y2 m c r
  | 8 => Y3 m c r
  | 10 => Y4 m c r
  | _ => m (c, r)

theorem V1_eq (c : Dev nD) : Gen.V1 m c = X0 m c := rfl
theorem V2_eq (c : Dev nD) : Gen.V2 m (outs m) c = Y0 m c := by
  show Function.update (X0 m c) (Proc.devRef .tc main_v19) (Y0 m c (Proc.devRef .tc main_v19)) = Y0 m c
  unfold Y0; rw [Function.update_self]
theorem V3_eq (c : Dev nD) : Gen.V3 m (outs m) c = X1 m c := by
  show StableHlo.after hostOps1 (Gen.V2 m (outs m) c) = _; rw [V2_eq]; rfl
theorem V4_eq (c : Dev nD) : Gen.V4 m (outs m) c = Y1 m c := by
  show Function.update (Gen.V3 m (outs m) c) (Proc.devRef .tc main_v37) (Y1 m c (Proc.devRef .tc main_v37)) = Y1 m c
  rw [V3_eq]; unfold Y1; rw [Function.update_self]
theorem V5_eq (c : Dev nD) : Gen.V5 m (outs m) c = X2 m c := by
  show StableHlo.after hostOps2 (Gen.V4 m (outs m) c) = _; rw [V4_eq]; rfl
theorem V6_eq (c : Dev nD) : Gen.V6 m (outs m) c = Y2 m c := by
  show Function.update (Gen.V5 m (outs m) c) (Proc.devRef .tc main_v55) (Y2 m c (Proc.devRef .tc main_v55)) = Y2 m c
  rw [V5_eq]; unfold Y2; rw [Function.update_self]
theorem V7_eq (c : Dev nD) : Gen.V7 m (outs m) c = X3 m c := by
  show StableHlo.after hostOps3 (Gen.V6 m (outs m) c) = _; rw [V6_eq]; rfl
theorem ne_73 : (Proc.devRef (τ := τ) .tc main_v73_0 : DevRef τ sig) ≠ Proc.devRef .tc main_v73_1 :=
  StableHlo.devRef_ne_of_ne (by decide)
theorem V8_eq (c : Dev nD) : Gen.V8 m (outs m) c = Y3 m c := by
  show Function.update (Function.update (Gen.V7 m (outs m) c) (Proc.devRef .tc main_v73_0) (Y3 m c (Proc.devRef .tc main_v73_0)))
    (Proc.devRef .tc main_v73_1) (Y3 m c (Proc.devRef .tc main_v73_1)) = Y3 m c
  rw [V7_eq]; unfold Y3; rw [Function.update_self, Function.update_of_ne ne_73, Function.update_self]
theorem V9_eq (c : Dev nD) : Gen.V9 m (outs m) c = X4 m c := by
  show StableHlo.after hostOps4 (Gen.V8 m (outs m) c) = _; rw [V8_eq]; rfl
theorem V10_eq (c : Dev nD) : Gen.V10 m (outs m) c = Y4 m c := by
  show Function.update (Gen.V9 m (outs m) c) (Proc.devRef .tc main_v96) (Y4 m c (Proc.devRef .tc main_v96)) = Y4 m c
  rw [V9_eq]; unfold Y4; rw [Function.update_self]
theorem V11_eq (c : Dev nD) : Gen.V11 m (outs m) c = X5 m c := by
  show StableHlo.after hostOps5 (Gen.V10 m (outs m) c) = _; rw [V10_eq]; rfl

/-! ## The proof data family and what rides beside the buffers -/

/-- Every launch's proof data, each at the contents its launch is entered from. -/
def pdats : (p : Fin 5) → (c : Dev nD) → Dat τ (Elt F) Unit ℕ (Pipeline.UD sig nD τ) ℕ (cfgs p) c
  | ⟨0, _⟩ => fun c => dat0 (asV (X0 m)) c
  | ⟨1, _⟩ => fun c => dat1 (asV (X1 m)) c
  | ⟨2, _⟩ => fun c => dat2 (asV (X2 m)) c
  | ⟨3, _⟩ => fun c => dat3 (asV (X3 m)) c
  | ⟨4, _⟩ => fun c => dat4 (asV (X4 m)) c

abbrev 𝒱₀ : Variants := Variants.none
/-- No core owes another anything: no level is assigned. -/
abbrev L0 : GSem nD τ sig → Finset Unit := fun _ => ∅
abbrev lv0 : GSem nD τ sig → Unit → ℕ := fun _ _ => 0
/-- Beside the buffers every item carries the core's generator register, at some state, and its dues, none. -/
abbrev Rr (c : Dev nD) : sProp 𝕄 :=
  iprop((∃ r, prngReg c r) ∗ ∃ W, owes (c : Thread nD τ) (0 : CellTallies nD τ sig Unit) W)
abbrev Es : Fin 6 → Dev nD → sProp 𝕄 := fun _ c => Rr c

theorem Y0_of_ne (c : Dev nD) (b : Ref sig .tc) (h : b ≠ main_v19) : Y0 m c b = X0 m c b := by
  unfold Y0
  simp only [Function.update_of_ne (StableHlo.devRef_ne_of_ne h : (Proc.devRef .tc b : DevRef τ sig) ≠ Proc.devRef .tc main_v19)]
theorem Y0_out (c : Dev nD) : Y0 m c main_v19 = (dat0 (asV (X0 m)) c).arrAt 3 cfg0.N := by
  unfold Y0
  exact Function.update_self _ _ _

theorem hF0 (c : Dev nD) (w : Fin cfg0.W) :
    (dat0 (asV (X0 m)) c).arrAt w cfg0.N = asV (Y0 m) c (Pipeline.arrRef spec0 w) :=
  exit0 (asV (X0 m)) c (Y0 m c) (Y0_of_ne m c) (Y0_out m c) w
/-- and every other buffer what it held at entry. -/
theorem hrest0 (c : Dev nD) : ∀ b, b ∉ Finset.univ.image (Pipeline.arrRef spec0) → asV (Y0 m) c b = asV (X0 m) c b :=
  fun b hb => Y0_of_ne m c b fun e => hb (Finset.mem_image.mpr ⟨3, Finset.mem_univ _, e.symm⟩)

theorem Y1_of_ne (c : Dev nD) (b : Ref sig .tc) (h : b ≠ main_v37) : Y1 m c b = X1 m c b := by
  unfold Y1
  simp only [Function.update_of_ne (StableHlo.devRef_ne_of_ne h : (Proc.devRef .tc b : DevRef τ sig) ≠ Proc.devRef .tc main_v37)]
theorem Y1_out (c : Dev nD) : Y1 m c main_v37 = (dat1 (asV (X1 m)) c).arrAt 6 cfg1.N := by
  unfold Y1
  exact Function.update_self _ _ _

theorem hF1 (c : Dev nD) (w : Fin cfg1.W) :
    (dat1 (asV (X1 m)) c).arrAt w cfg1.N = asV (Y1 m) c (Pipeline.arrRef spec1 w) :=
  exit1 (asV (X1 m)) c (Y1 m c) (Y1_of_ne m c) (Y1_out m c) w
/-- and every other buffer what it held at entry. -/
theorem hrest1 (c : Dev nD) : ∀ b, b ∉ Finset.univ.image (Pipeline.arrRef spec1) → asV (Y1 m) c b = asV (X1 m) c b :=
  fun b hb => Y1_of_ne m c b fun e => hb (Finset.mem_image.mpr ⟨6, Finset.mem_univ _, e.symm⟩)

theorem Y2_of_ne (c : Dev nD) (b : Ref sig .tc) (h : b ≠ main_v55) : Y2 m c b = X2 m c b := by
  unfold Y2
  simp only [Function.update_of_ne (StableHlo.devRef_ne_of_ne h : (Proc.devRef .tc b : DevRef τ sig) ≠ Proc.devRef .tc main_v55)]
theorem Y2_out (c : Dev nD) : Y2 m c main_v55 = (dat2 (asV (X2 m)) c).arrAt 6 cfg2.N := by
  unfold Y2
  exact Function.update_self _ _ _

theorem hF2 (c : Dev nD) (w : Fin cfg2.W) :
    (dat2 (asV (X2 m)) c).arrAt w cfg2.N = asV (Y2 m) c (Pipeline.arrRef spec2 w) :=
  exit2 (asV (X2 m)) c (Y2 m c) (Y2_of_ne m c) (Y2_out m c) w
/-- and every other buffer what it held at entry. -/
theorem hrest2 (c : Dev nD) : ∀ b, b ∉ Finset.univ.image (Pipeline.arrRef spec2) → asV (Y2 m) c b = asV (X2 m) c b :=
  fun b hb => Y2_of_ne m c b fun e => hb (Finset.mem_image.mpr ⟨6, Finset.mem_univ _, e.symm⟩)

theorem Y3_of_ne (c : Dev nD) (b : Ref sig .tc) (h0 : b ≠ main_v73_0) (h1 : b ≠ main_v73_1) : Y3 m c b = X3 m c b := by
  unfold Y3
  simp only [Function.update_of_ne (StableHlo.devRef_ne_of_ne h1 : (Proc.devRef .tc b : DevRef τ sig) ≠ Proc.devRef .tc main_v73_1),
    Function.update_of_ne (StableHlo.devRef_ne_of_ne h0 : (Proc.devRef .tc b : DevRef τ sig) ≠ Proc.devRef .tc main_v73_0)]
theorem Y3_out0 (c : Dev nD) : Y3 m c main_v73_0 = (dat3 (asV (X3 m)) c).arrAt 10 cfg3.N := by
  unfold Y3
  exact (Function.update_of_ne ne_73 _ _).trans (Function.update_self _ _ _)
theorem Y3_out1 (c : Dev nD) : Y3 m c main_v73_1 = (dat3 (asV (X3 m)) c).arrAt 11 cfg3.N := by
  unfold Y3
  exact Function.update_self _ _ _

theorem hF3 (c : Dev nD) (w : Fin cfg3.W) :
    (dat3 (asV (X3 m)) c).arrAt w cfg3.N = asV (Y3 m) c (Pipeline.arrRef spec3 w) :=
  exit3 (asV (X3 m)) c (Y3 m c) (Y3_of_ne m c) (Y3_out0 m c) (Y3_out1 m c) w
theorem hrest3 (c : Dev nD) : ∀ b, b ∉ Finset.univ.image (Pipeline.arrRef spec3) → asV (Y3 m) c b = asV (X3 m) c b :=
  fun b hb => Y3_of_ne m c b (fun e => hb (Finset.mem_image.mpr ⟨10, Finset.mem_univ _, e.symm⟩))
    (fun e => hb (Finset.mem_image.mpr ⟨11, Finset.mem_univ _, e.symm⟩))

theorem Y4_of_ne (c : Dev nD) (b : Ref sig .tc) (h : b ≠ main_v96) : Y4 m c b = X4 m c b := by
  unfold Y4
  simp only [Function.update_of_ne (StableHlo.devRef_ne_of_ne h : (Proc.devRef .tc b : DevRef τ sig) ≠ Proc.devRef .tc main_v96)]
theorem Y4_out (c : Dev nD) : Y4 m c main_v96 = (dat4 (asV (X4 m)) c).arrAt 9 cfg4.N := by
  unfold Y4
  exact Function.update_self _ _ _

theorem hF4 (c : Dev nD) (w : Fin cfg4.W) :
    (dat4 (asV (X4 m)) c).arrAt w cfg4.N = asV (Y4 m) c (Pipeline.arrRef spec4 w) :=
  exit4 (asV (X4 m)) c (Y4 m c) (Y4_of_ne m c) (Y4_out m c) w
/-- and every other buffer what it held at entry. -/
theorem hrest4 (c : Dev nD) : ∀ b, b ∉ Finset.univ.image (Pipeline.arrRef spec4) → asV (Y4 m) c b = asV (X4 m) c b :=
  fun b hb => Y4_of_ne m c b fun e => hb (Finset.mem_image.mpr ⟨9, Finset.mem_univ _, e.symm⟩)

/-! ## The launches as segments -/

-- the library's lemmas are stated over the pinned configuration; unifying them with the printed one takes
-- unfolding plain definitions in a metavariable's type
set_option backward.isDefEq.respectTransparency.types false in
/-- Launch 0 as a segment: entered with every unscoped buffer at `X0`, left with them at `Y0`. Its arrays are
    split out of the unscoped buffers at entry and put back, at their final contents, at exit; the generator
    register goes into the launch's invariant and comes back; nothing is owed; the kernel has no semaphore
    of its own. -/
def reg0 : Pipeline.RegionSeg (pcfgs (F := F)) Gen.adm (pdats m) () defs₀ 𝒱₀ L0 lv0 0 where
  win := launch0.win.to₀
  block_pos := launch0.block_pos
  stage_whole := launch0.stage_whole
  K := PEmpty
  osem k := k.elim
  ho := Pipeline.OwnSemFacts.none _
  hbody c := (body_obligation0 (asV (X0 m)) c).loose
  hwaits := Pipeline.hwaits_of_owed_zero _ _ _ _ L0 lv0 0 fun _ _ => rfl
  pre c := iprop(StableHlo.held (c : Thread nD τ) (Pipeline.ucRefs τ sig) (X0 m c) ∗ Rr c)
  post c := iprop(StableHlo.held (c : Thread nD τ) (Pipeline.ucRefs τ sig) (Y0 m c) ∗ Rr c)
  X c := iprop(∃ r, prngReg c r)
  Y c := iprop(∃ r, prngReg c r)
  Z c := Pipeline.unscopedRest (Ix := Unit) (Name := ℕ) (U := Pipeline.UD sig nD τ) (Lvl := ℕ) spec0 c (asV (X0 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (asV (X0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (asV (X0 m) c) (asV (Y0 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying them with the printed one takes
-- unfolding plain definitions in a metavariable's type
set_option backward.isDefEq.respectTransparency.types false in
/-- Launch 1 as a segment: entered with every unscoped buffer at `X1`, left with them at `Y1`. Its arrays are
    split out of the unscoped buffers at entry and put back, at their final contents, at exit; the generator
    register goes into the launch's invariant and comes back; nothing is owed; the kernel has no semaphore
    of its own. -/
def reg1 : Pipeline.RegionSeg (pcfgs (F := F)) Gen.adm (pdats m) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (asV (X1 m)) c).loose
  hwaits := Pipeline.hwaits_of_owed_zero _ _ _ _ L0 lv0 1 fun _ _ => rfl
  pre c := iprop(StableHlo.held (c : Thread nD τ) (Pipeline.ucRefs τ sig) (X1 m c) ∗ Rr c)
  post c := iprop(StableHlo.held (c : Thread nD τ) (Pipeline.ucRefs τ sig) (Y1 m c) ∗ Rr c)
  X c := iprop(∃ r, prngReg c r)
  Y c := iprop(∃ r, prngReg c r)
  Z c := Pipeline.unscopedRest (Ix := Unit) (Name := ℕ) (U := Pipeline.UD sig nD τ) (Lvl := ℕ) spec1 c (asV (X1 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (asV (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (asV (X1 m) c) (asV (Y1 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying them with the printed one takes
-- unfolding plain definitions in a metavariable's type
set_option backward.isDefEq.respectTransparency.types false in
/-- Launch 2 as a segment: entered with every unscoped buffer at `X2`, left with them at `Y2`. Its arrays are
    split out of the unscoped buffers at entry and put back, at their final contents, at exit; the generator
    register goes into the launch's invariant and comes back; nothing is owed; the kernel has no semaphore
    of its own. -/
def reg2 : Pipeline.RegionSeg (pcfgs (F := F)) Gen.adm (pdats m) () defs₀ 𝒱₀ L0 lv0 2 where
  win := launch2.win.to₀
  block_pos := launch2.block_pos
  stage_whole := launch2.stage_whole
  K := PEmpty
  osem k := k.elim
  ho := Pipeline.OwnSemFacts.none _
  hbody c := (body_obligation2 (asV (X2 m)) c).loose
  hwaits := Pipeline.hwaits_of_owed_zero _ _ _ _ L0 lv0 2 fun _ _ => rfl
  pre c := iprop(StableHlo.held (c : Thread nD τ) (Pipeline.ucRefs τ sig) (X2 m c) ∗ Rr c)
  post c := iprop(StableHlo.held (c : Thread nD τ) (Pipeline.ucRefs τ sig) (Y2 m c) ∗ Rr c)
  X c := iprop(∃ r, prngReg c r)
  Y c := iprop(∃ r, prngReg c r)
  Z c := Pipeline.unscopedRest (Ix := Unit) (Name := ℕ) (U := Pipeline.UD sig nD τ) (Lvl := ℕ) spec2 c (asV (X2 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (asV (X2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := Pipeline.UD sig nD τ) (Lvl := ℕ)
      launch2.win launch2.arr_whole c (pdats m) ((pdats m 2 c).share_full fun _ => rfl)
      (asV (X2 m) c) (asV (Y2 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying them with the printed one takes
-- unfolding plain definitions in a metavariable's type
set_option backward.isDefEq.respectTransparency.types false in
/-- Launch 3 as a segment: entered with every unscoped buffer at `X3`, left with them at `Y3`. Its arrays are
    split out of the unscoped buffers at entry and put back, at their final contents, at exit; the generator
    register goes into the launch's invariant and comes back; nothing is owed; the kernel has no semaphore
    of its own. -/
def reg3 : Pipeline.RegionSeg (pcfgs (F := F)) Gen.adm (pdats m) () defs₀ 𝒱₀ L0 lv0 3 where
  win := launch3.win.to₀
  block_pos := launch3.block_pos
  stage_whole := launch3.stage_whole
  K := PEmpty
  osem k := k.elim
  ho := Pipeline.OwnSemFacts.none _
  hbody c := (body_obligation3 (asV (X3 m)) c).loose
  hwaits := Pipeline.hwaits_of_owed_zero _ _ _ _ L0 lv0 3 fun _ _ => rfl
  pre c := iprop(StableHlo.held (c : Thread nD τ) (Pipeline.ucRefs τ sig) (X3 m c) ∗ Rr c)
  post c := iprop(StableHlo.held (c : Thread nD τ) (Pipeline.ucRefs τ sig) (Y3 m c) ∗ Rr c)
  X c := iprop(∃ r, prngReg c r)
  Y c := iprop(∃ r, prngReg c r)
  Z c := Pipeline.unscopedRest (Ix := Unit) (Name := ℕ) (U := Pipeline.UD sig nD τ) (Lvl := ℕ) spec3 c (asV (X3 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (asV (X3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := Pipeline.UD sig nD τ) (Lvl := ℕ)
      launch3.win launch3.arr_whole c (pdats m) ((pdats m 3 c).share_full fun _ => rfl)
      (asV (X3 m) c) (asV (Y3 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying them with the printed one takes
-- unfolding plain definitions in a metavariable's type
set_option backward.isDefEq.respectTransparency.types false in
/-- Launch 4 as a segment: entered with every unscoped buffer at `X4`, left with them at `Y4`. Its arrays are
    split out of the unscoped buffers at entry and put back, at their final contents, at exit; the generator
    register goes into the launch's invariant and comes back; nothing is owed; the kernel has no semaphore
    of its own. -/
def reg4 : Pipeline.RegionSeg (pcfgs (F := F)) Gen.adm (pdats m) () defs₀ 𝒱₀ L0 lv0 4 where
  win := launch4.win.to₀
  block_pos := launch4.block_pos
  stage_whole := launch4.stage_whole
  K := PEmpty
  osem k := k.elim
  ho := Pipeline.OwnSemFacts.none _
  hbody c := (body_obligation4 (asV (X4 m)) c).loose
  hwaits := Pipeline.hwaits_of_owed_zero _ _ _ _ L0 lv0 4 fun _ _ => rfl
  pre c := iprop(StableHlo.held (c : Thread nD τ) (Pipeline.ucRefs τ sig) (X4 m c) ∗ Rr c)
  post c := iprop(StableHlo.held (c : Thread nD τ) (Pipeline.ucRefs τ sig) (Y4 m c) ∗ Rr c)
  X c := iprop(∃ r, prngReg c r)
  Y c := iprop(∃ r, prngReg c r)
  Z c := Pipeline.unscopedRest (Ix := Unit) (Name := ℕ) (U := Pipeline.UD sig nD τ) (Lvl := ℕ) spec4 c (asV (X4 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (asV (X4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := Pipeline.UD sig nD τ) (Lvl := ℕ)
      launch4.win launch4.arr_whole c (pdats m) ((pdats m 4 c).share_full fun _ => rfl)
      (asV (X4 m) c) (asV (Y4 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Two names of one valuation hold the same buffers. -/
theorem held_congr {c : Dev nD} {W W' : Valuation τ sig (Elt F)} (h : W' = W) :
    (iprop(StableHlo.held (c : Thread nD τ) (Pipeline.ucRefs τ sig) W ∗ Rr c) : sProp 𝕄)
      ⊢ iprop(StableHlo.held (c : Thread nD τ) (Pipeline.ucRefs τ sig) W' ∗ Rr c) := by
  subst h; exact .rfl

/-! ## The run -/

-- the launch theorem's implicit arguments are found by unifying its conclusion with this one, which takes
-- unfolding plain definitions in a metavariable's type
set_option backward.isDefEq.respectTransparency.types false in
/-- From any launch memory with zero counters, every weakly fair execution of the program terminates, nothing
    faulting, and at the end every unscoped buffer of every core holds what the last item leaves there:
    `X5`, the launch memory carried through six host stretches and five kernel launches. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = X5 m c b) := by
  refine Pipeline.θ_run_regions_kit_dev (pcfgs (F := F)) Gen.adm (pdats m) () cellOf_inj embL defs₀ 𝒱₀ L0 lv0 m ρ main
    (Gen.segs m (outs m) 𝒱₀ L0 lv0 Es () (pdats m) (reg0 m) (reg1 m) (reg2 m) (reg3 m) (reg4 m))
    (fun c Q => ?hmain) (fun c => ?hnd) (O₀ := 0) (hL := fun _ _ => rfl) (G := fun _ => iprop(emp))
    (u₀ := (initOf (Pipeline.cells cfgs cellOf_inj) (Pipeline.launchToks cfgs cellOf_inj), 1)) (hu₀ := ?hu)
    (T₀ := fun c => iprop(StableHlo.held (c : Thread nD τ) (Pipeline.ucRefs τ sig) (Gen.V0 m c) ∗ Rr c))
    (Tₙ := fun c => iprop(StableHlo.held (c : Thread nD τ) (Pipeline.ucRefs τ sig) (X5 m c) ∗ ∃ r, prngReg c r))
    (hch := fun c => ?hch) (hinit := ?hinit)
    (QY := fun c s => ∀ b ∈ Pipeline.ucRefs τ sig, s.mem ((c : Thread nD τ).1, b) = X5 m c b)
    (hfin := fun c s' => ?hfin) (hQ := fun _ h => h)
  case hmain =>
    -- the program is the run of its items, in order
    rw [main_chain c, Pipeline.Seg.run_eq_chain]
    exact .rfl
  case hnd =>
    simp only [Gen.segs, Pipeline.Seg.pipes_host, Pipeline.Seg.pipes_region, Pipeline.Seg.pipes_nil]; decide
  case hu =>
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case hch =>
    -- each item is entered from what the one before it leaves
    refine ⟨.rfl, .rfl, held_congr (V2_eq m c), held_congr (V3_eq m c).symm, held_congr (V4_eq m c), held_congr (V5_eq m c).symm,
      held_congr (V6_eq m c), held_congr (V7_eq m c).symm, held_congr (V8_eq m c), held_congr (V9_eq m c).symm, held_congr (V10_eq m c), ?_⟩
    show (iprop(StableHlo.held (c : Thread nD τ) (Pipeline.ucRefs τ sig) (Gen.V11 m (outs m) c) ∗ Rr c) : sProp 𝕄) ⊢ _
    rw [V11_eq]
    iintro ⟨Hh, Hp, Ho⟩
    isplitr [Ho]
    · isplitl [Hh]; · iexact Hh
      iexact Hp
    iexact Ho
  case hinit =>
    refine Pipeline.initEach L0 lv0 fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  case hfin =>
    iintro ⟨⟨Hh, -⟩, HSI⟩
    unfold StableHlo.held
    imodintro
    iapply (pointsTo_read_all (Pipeline.ucRefs τ sig) (fun b => (((c : Thread nD τ)).1, b)) (X5 m c) s')
    isplitl [Hh] <;> iassumption

/-- An unscoped TensorCore reference is among those the last state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- An argument array reaches the end as launched: no host stretch writes it and no launch may change it. -/
theorem X5_of_V11 (c : Dev nD) (b : Ref sig .tc) (h : Gen.V11 m (outs m) c b = m ((c : Thread nD τ).loc b)) :
    X5 m c b = m ((c : Thread nD τ).loc b) := by rw [← V11_eq]; exact h

end Cert.KernelIdeal.Fr

end
-- ==== Proof.FrameB0.lean ====
/-
  Launch 0 of the kernel program (the node encoder: a 2000-row tile of the node features against the resident weights and bias): the part of its frame proof that is about the body.

  A grid point hands the body one staging buffer per window. Each input buffer holds that window's block of
  its array as the launch found it; the body reads them whole, computes one value per output and stores it
  whole. So after the body every input buffer is as it was and each output buffer holds the stored value, a
  pure function of the input blocks. This module names the blocks, states that function, proves the body's
  triple by running it symbolically, and packages the result as the pipeline's proof data and its body
  obligation, at any float instance and for any contents `V` the launch may find.
-/
import proofs.«175741_j7894149890553_2_alg».proof.Proof.Gen.Kernel.Launch
import proofs.«175741_j7894149890553_2_alg».proof.Proof.Gen.Kernel.Skeleton
import proofs.«175741_j7894149890553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not
    fetched its block index has not moved, and the body left the block in place. -/
theorem before0_0_of {c : Dev nD} (dat : Dat τ (Elt F) Unit ℕ (Pipeline.UD sig nD τ) ℕ cfg0 c)
    (hA : dat.A 0 = V c (Pipeline.arrRef spec0 0)) (hafter : ∀ t, dat.after 0 t = iblk0 V c 0 t)
    (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

/-- Input window 1's staging buffer holds its block at every point, fetched there or not: where it is not
    fetched its block index has not moved, and the body left the block in place. -/
theorem before0_1_of {c : Dev nD} (dat : Dat τ (Elt F) Unit ℕ (Pipeline.UD sig nD τ) ℕ cfg0 c)
    (hA : dat.A 1 = V c (Pipeline.arrRef spec0 1)) (hafter : ∀ t, dat.after 1 t = iblk0 V c 1 t)
    (t : Fin cfg0.N) (d) : dat.before 1 t d = iblk0 V c 1 t :=
  (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

/-- Input window 2's staging buffer holds its block at every point, fetched there or not: where it is not
    fetched its block index has not moved, and the body left the block in place. -/
theorem before0_2_of {c : Dev nD} (dat : Dat τ (Elt F) Unit ℕ (Pipeline.UD sig nD τ) ℕ cfg0 c)
    (hA : dat.A 2 = V c (Pipeline.arrRef spec0 2)) (hafter : ∀ t, dat.after 2 t = iblk0 V c 2 t)
    (t : Fin cfg0.N) (d) : dat.before 2 t d = iblk0 V c 2 t :=
  (dat.before_in_eq_fetched 2 rfl (fun _ => rfl) (fun _ _ _ => rfl)
    (fun t => by rw [hafter]; unfold Dat.blockOf iblk0; rw [hA]; try rfl) t d).trans
    (by unfold Dat.fetched Dat.blockOf iblk0; rw [hA]; try rfl)

/-! ## What the body leaves in the output buffer -/

/-- The whole-buffer rectangles the body loads and stores through. -/
abbrev rF0 : Rect S2000x8 := Rect.unit (s := S2000x8) ![0, 0] S2000x8.size inb_S2000x8_S2000x8_0_0
abbrev rW0 : Rect S8x128 := Rect.unit (s := S8x128) ![0, 0] S8x128.size inb_S8x128_S8x128_0_0
abbrev rB0 : Rect S128 := Rect.unit (s := S128) ![0] S128.size inb_S128_S128_0
abbrev rO0 : Rect S2000x128 := Rect.unit (s := S2000x128) ![0, 0] S2000x128.size inb_S2000x128_S2000x128_0_0

/-- The output buffer after the body: its one store, of the encoder's value of the three loads. -/
def out0_3 (x0 : Vec F S2000x8 .f32) (x1 : Vec F S8x128 .f32) (x2 : Vec F S128 .f32) : Vec F S2000x128 .bf16 :=
  View.canon [⟨rO0, k0_pay1 (View.ld x0 rF0) (View.ld x1 rW0) (View.ld x2 rB0)⟩]

theorem zero2_0 : (![0, 0] : Fin 2 → Nat) = fun _ => 0 := funext fun a => by fin_cases a <;> rfl
theorem zero1_0 : (![0] : Fin 1 → Nat) = fun _ => 0 := funext fun a => by fin_cases a; rfl

/-- Loads and store are of whole buffers, so the output buffer holds exactly the value computed from the
    input buffers. -/
theorem out0_3_eq (x0 : Vec F S2000x8 .f32) (x1 : Vec F S8x128 .f32) (x2 : Vec F S128 .f32) :
    out0_3 x0 x1 x2 = k0_pay1 x0 x1 x2 := by
  unfold out0_3
  rw [View.canon_unit_zero zero2_0]
  simp only [View.ld_unit_zero (S := S2000x8) zero2_0, View.ld_unit_zero (S := S8x128) zero2_0,
    View.ld_unit_zero (S := S128) zero1_0]

/-- The one store covers the buffer. -/
theorem cover0_3 (p0 : Vec F S2000x128 .bf16) (y : S2000x128.Idx) :
    ∃ pc ∈ ([⟨rO0, p0⟩] : List (View.Piece (Elt F) S2000x128 .bf16)), y ∈ pc.1.set :=
  View.cover_of_tiled [⟨rO0, p0⟩] S2000x128.size (by rfl) y

/-! ## The body's triple -/

set_option maxHeartbeats 1000000 in
/-- On whole staging buffers, the inputs' at contents `x0 x1 x2` and the output's at anything, the body runs to
    its continuation with the inputs' as they were and the output's at `out0_3 x0 x1 x2`. -/
theorem sound_kernel0 (c : Dev nD) (E : Set ℕ) (i : grid0.Coords)
    (arg1 : Memref sig .tc .vmem S2000x8 .f32) (harg1 : arg1.IsWhole) (arg2 : Memref sig .tc .vmem S8x128 .f32) (harg2 : arg2.IsWhole)
    (arg3 : Memref sig .tc .vmem S128 .f32) (harg3 : arg3.IsWhole) (arg4 : Memref sig .tc .vmem S2000x128 .bf16) (harg4 : arg4.IsWhole)
    (x0 : Vec F S2000x8 .f32) (x1 : Vec F S8x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__encode_kernel i arg1 harg1 arg2 harg2 arg3 harg3 arg4 harg4) K := by
  simp only [cc0__encode_kernel_eq_skeleton]; unfold cc0__encode_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the launch finds them; after the body at point `t` each input buffer at its block and the
    output buffer at the encoder's value of the input blocks; the invariant keeps the scoped rest and the
    generator register untouched; nothing is owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3' (c : Dev nD) (t : Fin cfg0.N) :
    (dat0 V c).after 3 t = out0_3 (iblk0 V c 0 t) (iblk0 V c 1 t) (iblk0 V c 2 t) := by dsimp only [dat0]
/-- The output buffer after point `t`: the encoder's value of the three input blocks. -/
theorem after0_3 (c : Dev nD) (t : Fin cfg0.N) :
    (dat0 V c).after 3 t = k0_pay1 (iblk0 V c 0 t) (iblk0 V c 1 t) (iblk0 V c 2 t) := by
  rw [after0_3', out0_3_eq]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the input buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3']
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrameB1.lean ====
/- Launch 1 of the kernel program (`cc1__sage_relu_kernel`: a 2000-row tile of the previous layer's features and of the
   summed neighbour features, the inverse degrees, and the resident weights and bias of one mean-aggregation layer with
   a rectifier): the part of its frame proof that is about the body.

   A grid point hands the body one staging buffer per window, six inputs and one output. Each input buffer holds that
   window's block of its array as the launch found it; the body reads them whole, computes one value and stores it
   whole. So after the body every input buffer is as it was and the output buffer holds the stored value, a pure
   function of the six input blocks. This module names the blocks, proves the body's triple by running it
   symbolically, and packages the result as the pipeline's proof data and its body obligation, at any float instance
   and for any contents `V` the launch may find. -/
import proofs.«175741_j7894149890553_2_alg».proof.Proof.Gen.Kernel.Launch
import proofs.«175741_j7894149890553_2_alg».proof.Proof.Gen.Kernel.Skeleton
import proofs.«175741_j7894149890553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of the long extents recurses once per coordinate
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffers' contents when the launch is entered: the parameter everything below is stated at
variable (V : (c : Dev nD) → (b : Ref sig .tc) → Buf (Elt F) ((c : Thread nD τ).loc b))

/-! ## The windows' blocks -/

/-- Window `w`'s block at point `t`, read off its array as the launch finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for ANY proof
    data whose array is `V`'s (`hA`) and whose body leaves the block in place (`hafter`): where it is not fetched
    the block index has not moved (for windows 3, 4, 5 it never moves). The windows are uncut and never idle. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The offsets of a whole-buffer access are all zero. -/
theorem off2_zero_1 : (![0, 0] : Fin 2 → Nat) = fun _ => 0 := funext fun a => by fin_cases a <;> rfl
theorem off1_zero_1 : (![0] : Fin 1 → Nat) = fun _ => 0 := funext fun a => by fin_cases a <;> rfl

/-- A load of a whole buffer (the whole-shape rectangle at zero offsets) reads its contents. -/
theorem readAt_unit_zero_1 {κ : Kind} {sp : Space} {e : EltTy} (S : Shape) {off : Fin S.rank → Nat} (h : off = fun _ => 0)
    (inb : ∀ a, off a + S.size a ≤ S.size a) (v : View sig κ sp S e) (f : v.ty.Contents (Elt F)) :
    v.readAt (Elt F) (Rect.unit off S.size inb).toLoadRect f = v.read (Elt F) f :=
  View.ld_unit_zero h inb _

/-- The output buffer's one store: the whole buffer. -/
abbrev r1_0 : Rect S2000x128 := Rect.unit (s := S2000x128) ![0, 0] S2000x128.size inb_S2000x128_S2000x128_0_0

/-- The one store covers the buffer. -/
theorem cover1_6 (p0 : Vec F S2000x128 .bf16) (y : S2000x128.Idx) :
    ∃ pc ∈ ([⟨r1_0, p0⟩] : List (View.Piece (Elt F) S2000x128 .bf16)), y ∈ pc.1.set :=
  ⟨_, List.mem_singleton_self _, View.mem_set_unit_zero off2_zero_1 inb_S2000x128_S2000x128_0_0 y⟩

/-! ## The body's triple -/

set_option maxHeartbeats 4000000 in
/-- The kernel body on whole staging memrefs, the inputs' at read contents `xW` and the output's at anything, runs to
    the continuation holding the inputs' as they were and the output's at the layer's value of the inputs: the printed
    function is its skeleton, which is run symbolically; the load of the output buffer before its store reads a
    value nothing uses; the one whole-buffer store leaves its payload, and the whole-buffer loads read the contents. -/
theorem sound_kernel1 (c : Dev nD) (E : Set ℕ) (i : grid1.Coords) (arg1 : Memref sig .tc .vmem S2000x128 .bf16) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .bf16) (harg7 : arg7.IsWhole)
    (x0 : Vec F S2000x128 .bf16) (x1 : Vec F S2000x128 .f32) (x2 : Vec F S2000x1 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay1 x0 x1 x2 x3 x4 x5)) -∗ K ⟨⟩))
      ⊢ wp frame (wpE (defs₀ (F := F)) Variants.none c none) E (cc1__sage_relu_kernel i arg1 harg1 arg2 harg2 arg3 harg3 arg4 harg4 arg5 harg5 arg6 harg6 arg7 harg7) K := by
  simp only [cc1__sage_relu_kernel_eq_skeleton]; unfold cc1__sage_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover1_6 _)).trans ?_
  rw [View.canon_unit_zero off2_zero_1]
  simp only [readAt_unit_zero_1 S2000x128 off2_zero_1, readAt_unit_zero_1 S2000x1 off2_zero_1,
    readAt_unit_zero_1 S128x128 off2_zero_1, readAt_unit_zero_1 S128 off1_zero_1]

/-! ## The pipeline's proof data -/

/-- The proof data of the launch's pipeline on core `c`: the arrays as the launch finds them (`V`); after the body at
    point `t` each input's buffer at its block and the output's at the layer's value of the six input blocks; the
    invariant keeps the scoped rest and the generator register untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay1 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the launch-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = k1_pay1 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrameB2.lean ====
/-
  Launch 2 of the kernel program (a graph layer with its rectifier: a 2000-node tile of the rows, the neighbour sums and the reciprocal degrees against the two resident weight matrices and the bias): the part of its frame proof that is about the body.

  A grid point hands the body one staging buffer per window. Each input buffer holds that window's block of
  its array as the launch found it; the body reads them whole, computes one value per output and stores it
  whole. So after the body every input buffer is as it was and each output buffer holds the stored value, a
  pure function of the input blocks. This module names the blocks, states that function, proves the body's
  triple by running it symbolically, and packages the result as the pipeline's proof data and its body
  obligation, at any float instance and for any contents `V` the launch may find.
-/
import proofs.«175741_j7894149890553_2_alg».proof.Proof.Gen.Kernel.Launch
import proofs.«175741_j7894149890553_2_alg».proof.Proof.Gen.Kernel.Skeleton
import proofs.«175741_j7894149890553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the launch finds it. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not
    fetched its block index has not moved, and the body left the block in place. -/
theorem before2_0_of {c : Dev nD} (dat : Dat τ (Elt F) Unit ℕ (Pipeline.UD sig nD τ) ℕ cfg2 c)
    (hA : dat.A 0 = V c (Pipeline.arrRef spec2 0)) (hafter : ∀ t, dat.after 0 t = iblk2 V c 0 t)
    (t : Fin cfg2.N) (d) : dat.before 0 t d = iblk2 V c 0 t :=
  (dat.before_in_eq_fetched 0 rfl (fun _ => rfl) (fun _ _ _ => rfl)
    (fun t => by rw [hafter]; unfold Dat.blockOf iblk2; rw [hA]; try rfl) t d).trans
    (by unfold Dat.fetched Dat.blockOf iblk2; rw [hA]; try rfl)

/-- Input window 1's staging buffer holds its block at every point, fetched there or not: where it is not
    fetched its block index has not moved, and the body left the block in place. -/
theorem before2_1_of {c : Dev nD} (dat : Dat τ (Elt F) Unit ℕ (Pipeline.UD sig nD τ) ℕ cfg2 c)
    (hA : dat.A 1 = V c (Pipeline.arrRef spec2 1)) (hafter : ∀ t, dat.after 1 t = iblk2 V c 1 t)
    (t : Fin cfg2.N) (d) : dat.before 1 t d = iblk2 V c 1 t :=
  (dat.before_in_eq_fetched 1 rfl (fun _ => rfl) (fun _ _ _ => rfl)
    (fun t => by rw [hafter]; unfold Dat.blockOf iblk2; rw [hA]; try rfl) t d).trans
    (by unfold Dat.fetched Dat.blockOf iblk2; rw [hA]; try rfl)

/-- Input window 2's staging buffer holds its block at every point, fetched there or not: where it is not
    fetched its block index has not moved, and the body left the block in place. -/
theorem before2_2_of {c : Dev nD} (dat : Dat τ (Elt F) Unit ℕ (Pipeline.UD sig nD τ) ℕ cfg2 c)
    (hA : dat.A 2 = V c (Pipeline.arrRef spec2 2)) (hafter : ∀ t, dat.after 2 t = iblk2 V c 2 t)
    (t : Fin cfg2.N) (d) : dat.before 2 t d = iblk2 V c 2 t :=
  (dat.before_in_eq_fetched 2 rfl (fun _ => rfl) (fun _ _ _ => rfl)
    (fun t => by rw [hafter]; unfold Dat.blockOf iblk2; rw [hA]; try rfl) t d).trans
    (by unfold Dat.fetched Dat.blockOf iblk2; rw [hA]; try rfl)

/-- Input window 3's staging buffer holds its block at every point, fetched there or not: where it is not
    fetched its block index has not moved, and the body left the block in place. -/
theorem before2_3_of {c : Dev nD} (dat : Dat τ (Elt F) Unit ℕ (Pipeline.UD sig nD τ) ℕ cfg2 c)
    (hA : dat.A 3 = V c (Pipeline.arrRef spec2 3)) (hafter : ∀ t, dat.after 3 t = iblk2 V c 3 t)
    (t : Fin cfg2.N) (d) : dat.before 3 t d = iblk2 V c 3 t :=
  (dat.before_in_eq_fetched 3 rfl (fun _ => rfl) (fun _ _ _ => rfl)
    (fun t => by rw [hafter]; unfold Dat.blockOf iblk2; rw [hA]; try rfl) t d).trans
    (by unfold Dat.fetched Dat.blockOf iblk2; rw [hA]; try rfl)

/-- Input window 4's staging buffer holds its block at every point, fetched there or not: where it is not
    fetched its block index has not moved, and the body left the block in place. -/
theorem before2_4_of {c : Dev nD} (dat : Dat τ (Elt F) Unit ℕ (Pipeline.UD sig nD τ) ℕ cfg2 c)
    (hA : dat.A 4 = V c (Pipeline.arrRef spec2 4)) (hafter : ∀ t, dat.after 4 t = iblk2 V c 4 t)
    (t : Fin cfg2.N) (d) : dat.before 4 t d = iblk2 V c 4 t :=
  (dat.before_in_eq_fetched 4 rfl (fun _ => rfl) (fun _ _ _ => rfl)
    (fun t => by rw [hafter]; unfold Dat.blockOf iblk2; rw [hA]; try rfl) t d).trans
    (by unfold Dat.fetched Dat.blockOf iblk2; rw [hA]; try rfl)

/-- Input window 5's staging buffer holds its block at every point, fetched there or not: where it is not
    fetched its block index has not moved, and the body left the block in place. -/
theorem before2_5_of {c : Dev nD} (dat : Dat τ (Elt F) Unit ℕ (Pipeline.UD sig nD τ) ℕ cfg2 c)
    (hA : dat.A 5 = V c (Pipeline.arrRef spec2 5)) (hafter : ∀ t, dat.after 5 t = iblk2 V c 5 t)
    (t : Fin cfg2.N) (d) : dat.before 5 t d = iblk2 V c 5 t :=
  (dat.before_in_eq_fetched 5 rfl (fun _ => rfl) (fun _ _ _ => rfl)
    (fun t => by rw [hafter]; unfold Dat.blockOf iblk2; rw [hA]; try rfl) t d).trans
    (by unfold Dat.fetched Dat.blockOf iblk2; rw [hA]; try rfl)

/-! ## What the body leaves in the output buffer -/

/-- The whole-buffer rectangles the body loads and stores through. -/
abbrev r2_0 : Rect S2000x128 := Rect.unit (s := S2000x128) ![0, 0] S2000x128.size inb_S2000x128_S2000x128_0_0
abbrev r2_1 : Rect S2000x128 := Rect.unit (s := S2000x128) ![0, 0] S2000x128.size inb_S2000x128_S2000x128_0_0
abbrev r2_2 : Rect S2000x1 := Rect.unit (s := S2000x1) ![0, 0] S2000x1.size inb_S2000x1_S2000x1_0_0
abbrev r2_3 : Rect S128x128 := Rect.unit (s := S128x128) ![0, 0] S128x128.size inb_S128x128_S128x128_0_0
abbrev r2_4 : Rect S128x128 := Rect.unit (s := S128x128) ![0, 0] S128x128.size inb_S128x128_S128x128_0_0
abbrev r2_5 : Rect S128 := Rect.unit (s := S128) ![0] S128.size inb_S128_S128_0
abbrev r2_6 : Rect S2000x128 := Rect.unit (s := S2000x128) ![0, 0] S2000x128.size inb_S2000x128_S2000x128_0_0

/-- The output buffer after the body: its one store, of the body's value of the loads. -/
def out2_6 (x0 : Vec F S2000x128 .bf16) (x1 : Vec F S2000x128 .f32) (x2 : Vec F S2000x1 .f32) (x3 : Vec F S128x128 .f32) (x4 : Vec F S128x128 .f32) (x5 : Vec F S128 .f32) : Vec F S2000x128 .bf16 :=
  View.canon [⟨r2_6, k2_pay1 (View.ld x0 r2_0) (View.ld x1 r2_1) (View.ld x2 r2_2) (View.ld x3 r2_3) (View.ld x4 r2_4) (View.ld x5 r2_5)⟩]

theorem zero2_2 : (![0, 0] : Fin 2 → Nat) = fun _ => 0 := funext fun a => by fin_cases a <;> rfl
theorem zero1_2 : (![0] : Fin 1 → Nat) = fun _ => 0 := funext fun a => by fin_cases a; rfl

/-- Loads and store are of whole buffers, so the output buffer holds exactly the value computed from the
    input buffers. -/
theorem out2_6_eq (x0 : Vec F S2000x128 .bf16) (x1 : Vec F S2000x128 .f32) (x2 : Vec F S2000x1 .f32) (x3 : Vec F S128x128 .f32) (x4 : Vec F S128x128 .f32) (x5 : Vec F S128 .f32) :
    out2_6 x0 x1 x2 x3 x4 x5 = k2_pay1 x0 x1 x2 x3 x4 x5 := by
  unfold out2_6
  rw [View.canon_unit_zero zero2_2]
  simp only [View.ld_unit_zero (S := S2000x128) zero2_2, View.ld_unit_zero (S := S2000x1) zero2_2, View.ld_unit_zero (S := S128x128) zero2_2, View.ld_unit_zero (S := S128) zero1_2]

/-- The one store covers the buffer. -/
theorem cover2_6 (p0 : Vec F S2000x128 .bf16) (y : S2000x128.Idx) :
    ∃ pc ∈ ([⟨r2_6, p0⟩] : List (View.Piece (Elt F) S2000x128 .bf16)), y ∈ pc.1.set :=
  View.cover_of_tiled [⟨r2_6, p0⟩] S2000x128.size (by rfl) y

/-! ## The body's triple -/

set_option maxHeartbeats 1000000 in
/-- On whole staging buffers, the inputs' at given contents and the output's at anything, the body runs to its
    continuation with the inputs' as they were and the output's at `out2_6` of the inputs'. -/
theorem sound_kernel2 (c : Dev nD) (E : Set ℕ) (i : grid2.Coords)
    (arg1 : Memref sig .tc .vmem S2000x128 .bf16) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .bf16) (harg7 : arg7.IsWhole)
    (x0 : Vec F S2000x128 .bf16) (x1 : Vec F S2000x128 .f32) (x2 : Vec F S2000x1 .f32) (x3 : Vec F S128x128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__sage_relu_kernel i arg1 harg1 arg2 harg2 arg3 harg3 arg4 harg4 arg5 harg5 arg6 harg6 arg7 harg7) K := by
  simp only [cc2__sage_relu_kernel_eq_skeleton]; unfold cc2__sage_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover2_6 _)

/-! ## The pipeline's proof data -/

/-- The arrays as the launch finds them; after the body at point `t` each input buffer at its block and the
    output buffer at the body's value of the input blocks; the invariant keeps the scoped rest and the
    generator register untouched; nothing is owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6' (c : Dev nD) (t : Fin cfg2.N) :
    (dat2 V c).after 6 t = out2_6 (iblk2 V c 0 t) (iblk2 V c 1 t) (iblk2 V c 2 t) (iblk2 V c 3 t) (iblk2 V c 4 t) (iblk2 V c 5 t) := by dsimp only [dat2]
/-- The output buffer after point `t`: the body's value of the input blocks. -/
theorem after2_6 (c : Dev nD) (t : Fin cfg2.N) :
    (dat2 V c).after 6 t = k2_pay1 (iblk2 V c 0 t) (iblk2 V c 1 t) (iblk2 V c 2 t) (iblk2 V c 3 t) (iblk2 V c 4 t) (iblk2 V c 5 t) := by
  rw [after2_6', out2_6_eq]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- At any point the input buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6']
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.FrameB3.lean ====
/- Launch 3 of the kernel program (`cc3__sage_final_head_kernel`: a 2000-row tile of the previous layer's features and of the summed
   neighbour features, the inverse degrees, the resident weights and bias of the last mean-aggregation layer, and the
   resident weights and biases of the two layers of the node head): the part of its frame proof that is about the body.

   A grid point hands the body one staging buffer per window, ten inputs and two outputs. Each input buffer holds
   that window's block of its array as the launch found it; the body reads them whole, computes the layer's value and
   stores it whole into the first output buffer, then computes the head's value of it and stores that whole into the
   second. So after the body every input buffer is as it was and each output buffer holds its stored value, a pure
   function of the input blocks. This module names the blocks, proves the body's triple by running it symbolically,
   and packages the result as the pipeline's proof data and its body obligation, at any float instance and for any
   contents `V` the launch may find. -/
import proofs.«175741_j7894149890553_2_alg».proof.Proof.Gen.Kernel.Launch
import proofs.«175741_j7894149890553_2_alg».proof.Proof.Gen.Kernel.Skeleton
import proofs.«175741_j7894149890553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of the long extents recurses once per coordinate
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffers' contents when the launch is entered: the parameter everything below is stated at
variable (V : (c : Dev nD) → (b : Ref sig .tc) → Buf (Elt F) ((c : Thread nD τ).loc b))

/-! ## The windows' blocks -/

/-- Window `w`'s block at point `t`, read off its array as the launch finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point, fetched there or not, for ANY proof
    data whose array is `V`'s (`hA`) and whose body leaves the block in place (`hafter`): where it is not fetched
    the block index has not moved (for windows 3 to 9 it never moves). The windows are uncut and never idle. -/

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (Pipeline.UD sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (Pipeline.UD sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (Pipeline.UD sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

theorem before3_9_of {c : Dev nD} (dat : Dat τ (Elt F) Unit ℕ (Pipeline.UD sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The offsets of a whole-buffer access are all zero. -/
theorem off2_zero_3 : (![0, 0] : Fin 2 → Nat) = fun _ => 0 := funext fun a => by fin_cases a <;> rfl
theorem off1_zero_3 : (![0] : Fin 1 → Nat) = fun _ => 0 := funext fun a => by fin_cases a <;> rfl

/-- A load of a whole buffer (the whole-shape rectangle at zero offsets) reads its contents. -/
theorem readAt_unit_zero_3 {κ : Kind} {sp : Space} {e : EltTy} (S : Shape) {off : Fin S.rank → Nat} (h : off = fun _ => 0)
    (inb : ∀ a, off a + S.size a ≤ S.size a) (v : View sig κ sp S e) (f : v.ty.Contents (Elt F)) :
    v.readAt (Elt F) (Rect.unit off S.size inb).toLoadRect f = v.read (Elt F) f :=
  View.ld_unit_zero h inb _

/-- Each output buffer's one store: the whole buffer. -/
abbrev r3_10 : Rect S2000x128 := Rect.unit (s := S2000x128) ![0, 0] S2000x128.size inb_S2000x128_S2000x128_0_0
abbrev r3_11 : Rect S2000x1 := Rect.unit (s := S2000x1) ![0, 0] S2000x1.size inb_S2000x1_S2000x1_0_0

/-- The one store of each output covers its buffer. -/
theorem cover3_10 (p0 : Vec F S2000x128 .bf16) (y : S2000x128.Idx) :
    ∃ pc ∈ ([⟨r3_10, p0⟩] : List (View.Piece (Elt F) S2000x128 .bf16)), y ∈ pc.1.set :=
  ⟨_, List.mem_singleton_self _, View.mem_set_unit_zero off2_zero_3 inb_S2000x128_S2000x128_0_0 y⟩
theorem cover3_11 (p0 : Vec F S2000x1 .f32) (y : S2000x1.Idx) :
    ∃ pc ∈ ([⟨r3_11, p0⟩] : List (View.Piece (Elt F) S2000x1 .f32)), y ∈ pc.1.set :=
  ⟨_, List.mem_singleton_self _, View.mem_set_unit_zero off2_zero_3 inb_S2000x1_S2000x1_0_0 y⟩

/-! ## The body's triple -/

set_option maxHeartbeats 4000000 in
/-- The kernel body on whole staging memrefs, the inputs' at read contents `xW` and the outputs' at anything, runs to
    the continuation holding the inputs' as they were, the first output's at the layer's value of inputs 0 to 5 and the
    second's at the head's value of inputs 0 to 9: the printed function and the part it calls are their skeletons,
    which are run symbolically; each output buffer's load before its store reads a value nothing uses; each
    whole-buffer store leaves its payload, and the whole-buffer loads read the contents. -/
theorem sound_kernel3 (c : Dev nD) (E : Set ℕ) (i : grid3.Coords) (arg1 : Memref sig .tc .vmem S2000x128 .bf16) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x1 .f32) (harg9 : arg9.IsWhole) (arg10 : Memref sig .tc .vmem S1 .f32) (harg10 : arg10.IsWhole) (arg11 : Memref sig .tc .vmem S2000x128 .bf16) (harg11 : arg11.IsWhole) (arg12 : Memref sig .tc .vmem S2000x1 .f32) (harg12 : arg12.IsWhole)
    (x0 : Vec F S2000x128 .bf16) (x1 : Vec F S2000x128 .f32) (x2 : Vec F S2000x1 .f32) (x3 : Vec F S128x128 .f32) (x4 : Vec F S128x128 .f32) (x5 : Vec F S128 .f32) (x6 : Vec F S128x128 .f32) (x7 : Vec F S128 .f32) (x8 : Vec F S128x1 .f32) (x9 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k3_pay2 x0 x1 x2 x3 x4 x5)
            ∗ owns (c : Thread nD τ) arg12 fullShare (k3_pay1 (k3_pay3 x0 x1 x2 x3 x4 x5 x6 x7) x8 x9)) -∗ K ⟨⟩))
      ⊢ wp frame (wpE (defs₀ (F := F)) Variants.none c none) E (cc3__sage_final_head_kernel i arg1 harg1 arg2 harg2 arg3 harg3 arg4 harg4 arg5 harg5 arg6 harg6 arg7 harg7 arg8 harg8 arg9 harg9 arg10 harg10 arg11 harg11 arg12 harg12) K := by
  simp only [cc3__sage_final_head_kernel_eq_skeleton]; unfold cc3__sage_final_head_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover3_10 _)).trans ?_
    rw [View.canon_unit_zero off2_zero_3]
    simp only [readAt_unit_zero_3 S2000x128 off2_zero_3, readAt_unit_zero_3 S2000x1 off2_zero_3,
      readAt_unit_zero_3 S128x128 off2_zero_3, readAt_unit_zero_3 S128 off1_zero_3]
  iexists _; isplitr
  swap; · iexact H11
  ipureintro
  refine (View.read_writes_eq_canon _ _ _ (cover3_11 _)).trans ?_
  rw [View.canon_unit_zero off2_zero_3]
  simp only [readAt_unit_zero_3 S2000x128 off2_zero_3, readAt_unit_zero_3 S2000x1 off2_zero_3,
    readAt_unit_zero_3 S128x128 off2_zero_3, readAt_unit_zero_3 S128 off1_zero_3,
    readAt_unit_zero_3 S128x1 off2_zero_3, readAt_unit_zero_3 S1 off1_zero_3]

/-! ## The pipeline's proof data -/

/-- The proof data of the launch's pipeline on core `c`: the arrays as the launch finds them (`V`); after the body at
    point `t` each input's buffer at its block, the first output's at the layer's value of input blocks 0 to 5 and the
    second's at the head's value of input blocks 0 to 9; the invariant keeps the scoped rest and the generator register
    untouched; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => k3_pay2 (iblk3 V c 0 t) (iblk3 V c 1 t) (iblk3 V c 2 t) (iblk3 V c 3 t) (iblk3 V c 4 t) (iblk3 V c 5 t)
    | ⟨11, _⟩ => k3_pay1 (k3_pay3 (iblk3 V c 0 t) (iblk3 V c 1 t) (iblk3 V c 2 t) (iblk3 V c 3 t) (iblk3 V c 4 t) (iblk3 V c 5 t) (iblk3 V c 6 t) (iblk3 V c 7 t)) (iblk3 V c 8 t) (iblk3 V c 9 t)
  Φ _ := Pipeline.ΦA spec3 c
  q _ := fullShare
  owed _ := 0

/-- The proof data's arrays are the launch-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) :
    (dat3 V c).after 10 t = k3_pay2 (iblk3 V c 0 t) (iblk3 V c 1 t) (iblk3 V c 2 t) (iblk3 V c 3 t) (iblk3 V c 4 t) (iblk3 V c 5 t) := by dsimp only [dat3]
theorem after3_11 (c : Dev nD) (t : Fin cfg3.N) :
    (dat3 V c).after 11 t = k3_pay1 (k3_pay3 (iblk3 V c 0 t) (iblk3 V c 1 t) (iblk3 V c 2 t) (iblk3 V c 3 t) (iblk3 V c 4 t) (iblk3 V c 5 t) (iblk3 V c 6 t) (iblk3 V c 7 t)) (iblk3 V c 8 t) (iblk3 V c 9 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

set_option maxHeartbeats 1000000 in
/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ (grid3.coords t) _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.FrameB4.lean ====
/-
  Launch 4 of the kernel program (the edge head: a 2000-edge tile of the two end points' rows and the six edge features against the resident weights): the part of its frame proof that is about the body.

  A grid point hands the body one staging buffer per window. Each input buffer holds that window's block of
  its array as the launch found it; the body reads them whole, computes one value per output and stores it
  whole. So after the body every input buffer is as it was and each output buffer holds the stored value, a
  pure function of the input blocks. This module names the blocks, states that function, proves the body's
  triple by running it symbolically, and packages the result as the pipeline's proof data and its body
  obligation, at any float instance and for any contents `V` the launch may find.
-/
import proofs.«175741_j7894149890553_2_alg».proof.Proof.Gen.Kernel.Launch
import proofs.«175741_j7894149890553_2_alg».proof.Proof.Gen.Kernel.Skeleton
import proofs.«175741_j7894149890553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the launch finds it. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- Input window 0's staging buffer holds its block at every point, fetched there or not: where it is not
    fetched its block index has not moved, and the body left the block in place. -/
theorem before4_0_of {c : Dev nD} (dat : Dat τ (Elt F) Unit ℕ (Pipeline.UD sig nD τ) ℕ cfg4 c)
    (hA : dat.A 0 = V c (Pipeline.arrRef spec4 0)) (hafter : ∀ t, dat.after 0 t = iblk4 V c 0 t)
    (t : Fin cfg4.N) (d) : dat.before 0 t d = iblk4 V c 0 t :=
  (dat.before_in_eq_fetched 0 rfl (fun _ => rfl) (fun _ _ _ => rfl)
    (fun t => by rw [hafter]; unfold Dat.blockOf iblk4; rw [hA]; try rfl) t d).trans
    (by unfold Dat.fetched Dat.blockOf iblk4; rw [hA]; try rfl)

/-- Input window 1's staging buffer holds its block at every point, fetched there or not: where it is not
    fetched its block index has not moved, and the body left the block in place. -/
theorem before4_1_of {c : Dev nD} (dat : Dat τ (Elt F) Unit ℕ (Pipeline.UD sig nD τ) ℕ cfg4 c)
    (hA : dat.A 1 = V c (Pipeline.arrRef spec4 1)) (hafter : ∀ t, dat.after 1 t = iblk4 V c 1 t)
    (t : Fin cfg4.N) (d) : dat.before 1 t d = iblk4 V c 1 t :=
  (dat.before_in_eq_fetched 1 rfl (fun _ => rfl) (fun _ _ _ => rfl)
    (fun t => by rw [hafter]; unfold Dat.blockOf iblk4; rw [hA]; try rfl) t d).trans
    (by unfold Dat.fetched Dat.blockOf iblk4; rw [hA]; try rfl)

/-- Input window 2's staging buffer holds its block at every point, fetched there or not: where it is not
    fetched its block index has not moved, and the body left the block in place. -/
theorem before4_2_of {c : Dev nD} (dat : Dat τ (Elt F) Unit ℕ (Pipeline.UD sig nD τ) ℕ cfg4 c)
    (hA : dat.A 2 = V c (Pipeline.arrRef spec4 2)) (hafter : ∀ t, dat.after 2 t = iblk4 V c 2 t)
    (t : Fin cfg4.N) (d) : dat.before 2 t d = iblk4 V c 2 t :=
  (dat.before_in_eq_fetched 2 rfl (fun _ => rfl) (fun _ _ _ => rfl)
    (fun t => by rw [hafter]; unfold Dat.blockOf iblk4; rw [hA]; try rfl) t d).trans
    (by unfold Dat.fetched Dat.blockOf iblk4; rw [hA]; try rfl)

/-- Input window 3's staging buffer holds its block at every point, fetched there or not: where it is not
    fetched its block index has not moved, and the body left the block in place. -/
theorem before4_3_of {c : Dev nD} (dat : Dat τ (Elt F) Unit ℕ (Pipeline.UD sig nD τ) ℕ cfg4 c)
    (hA : dat.A 3 = V c (Pipeline.arrRef spec4 3)) (hafter : ∀ t, dat.after 3 t = iblk4 V c 3 t)
    (t : Fin cfg4.N) (d) : dat.before 3 t d = iblk4 V c 3 t :=
  (dat.before_in_eq_fetched 3 rfl (fun _ => rfl) (fun _ _ _ => rfl)
    (fun t => by rw [hafter]; unfold Dat.blockOf iblk4; rw [hA]; try rfl) t d).trans
    (by unfold Dat.fetched Dat.blockOf iblk4; rw [hA]; try rfl)

/-- Input window 4's staging buffer holds its block at every point, fetched there or not: where it is not
    fetched its block index has not moved, and the body left the block in place. -/
theorem before4_4_of {c : Dev nD} (dat : Dat τ (Elt F) Unit ℕ (Pipeline.UD sig nD τ) ℕ cfg4 c)
    (hA : dat.A 4 = V c (Pipeline.arrRef spec4 4)) (hafter : ∀ t, dat.after 4 t = iblk4 V c 4 t)
    (t : Fin cfg4.N) (d) : dat.before 4 t d = iblk4 V c 4 t :=
  (dat.before_in_eq_fetched 4 rfl (fun _ => rfl) (fun _ _ _ => rfl)
    (fun t => by rw [hafter]; unfold Dat.blockOf iblk4; rw [hA]; try rfl) t d).trans
    (by unfold Dat.fetched Dat.blockOf iblk4; rw [hA]; try rfl)

/-- Input window 5's staging buffer holds its block at every point, fetched there or not: where it is not
    fetched its block index has not moved, and the body left the block in place. -/
theorem before4_5_of {c : Dev nD} (dat : Dat τ (Elt F) Unit ℕ (Pipeline.UD sig nD τ) ℕ cfg4 c)
    (hA : dat.A 5 = V c (Pipeline.arrRef spec4 5)) (hafter : ∀ t, dat.after 5 t = iblk4 V c 5 t)
    (t : Fin cfg4.N) (d) : dat.before 5 t d = iblk4 V c 5 t :=
  (dat.before_in_eq_fetched 5 rfl (fun _ => rfl) (fun _ _ _ => rfl)
    (fun t => by rw [hafter]; unfold Dat.blockOf iblk4; rw [hA]; try rfl) t d).trans
    (by unfold Dat.fetched Dat.blockOf iblk4; rw [hA]; try rfl)

/-- Input window 6's staging buffer holds its block at every point, fetched there or not: where it is not
    fetched its block index has not moved, and the body left the block in place. -/
theorem before4_6_of {c : Dev nD} (dat : Dat τ (Elt F) Unit ℕ (Pipeline.UD sig nD τ) ℕ cfg4 c)
    (hA : dat.A 6 = V c (Pipeline.arrRef spec4 6)) (hafter : ∀ t, dat.after 6 t = iblk4 V c 6 t)
    (t : Fin cfg4.N) (d) : dat.before 6 t d = iblk4 V c 6 t :=
  (dat.before_in_eq_fetched 6 rfl (fun _ => rfl) (fun _ _ _ => rfl)
    (fun t => by rw [hafter]; unfold Dat.blockOf iblk4; rw [hA]; try rfl) t d).trans
    (by unfold Dat.fetched Dat.blockOf iblk4; rw [hA]; try rfl)

/-- Input window 7's staging buffer holds its block at every point, fetched there or not: where it is not
    fetched its block index has not moved, and the body left the block in place. -/
theorem before4_7_of {c : Dev nD} (dat : Dat τ (Elt F) Unit ℕ (Pipeline.UD sig nD τ) ℕ cfg4 c)
    (hA : dat.A 7 = V c (Pipeline.arrRef spec4 7)) (hafter : ∀ t, dat.after 7 t = iblk4 V c 7 t)
    (t : Fin cfg4.N) (d) : dat.before 7 t d = iblk4 V c 7 t :=
  (dat.before_in_eq_fetched 7 rfl (fun _ => rfl) (fun _ _ _ => rfl)
    (fun t => by rw [hafter]; unfold Dat.blockOf iblk4; rw [hA]; try rfl) t d).trans
    (by unfold Dat.fetched Dat.blockOf iblk4; rw [hA]; try rfl)

/-- Input window 8's staging buffer holds its block at every point, fetched there or not: where it is not
    fetched its block index has not moved, and the body left the block in place. -/
theorem before4_8_of {c : Dev nD} (dat : Dat τ (Elt F) Unit ℕ (Pipeline.UD sig nD τ) ℕ cfg4 c)
    (hA : dat.A 8 = V c (Pipeline.arrRef spec4 8)) (hafter : ∀ t, dat.after 8 t = iblk4 V c 8 t)
    (t : Fin cfg4.N) (d) : dat.before 8 t d = iblk4 V c 8 t :=
  (dat.before_in_eq_fetched 8 rfl (fun _ => rfl) (fun _ _ _ => rfl)
    (fun t => by rw [hafter]; unfold Dat.blockOf iblk4; rw [hA]; try rfl) t d).trans
    (by unfold Dat.fetched Dat.blockOf iblk4; rw [hA]; try rfl)

/-! ## What the body leaves in the output buffer -/

/-- The whole-buffer rectangles the body loads and stores through. -/
abbrev r4_0 : Rect S2000x128 := Rect.unit (s := S2000x128) ![0, 0] S2000x128.size inb_S2000x128_S2000x128_0_0
abbrev r4_1 : Rect S2000x128 := Rect.unit (s := S2000x128) ![0, 0] S2000x128.size inb_S2000x128_S2000x128_0_0
abbrev r4_2 : Rect S2000x6 := Rect.unit (s := S2000x6) ![0, 0] S2000x6.size inb_S2000x6_S2000x6_0_0
abbrev r4_3 : Rect S128x128 := Rect.unit (s := S128x128) ![0, 0] S128x128.size inb_S128x128_S128x128_0_0
abbrev r4_4 : Rect S128x128 := Rect.unit (s := S128x128) ![0, 0] S128x128.size inb_S128x128_S128x128_0_0
abbrev r4_5 : Rect S6x128 := Rect.unit (s := S6x128) ![0, 0] S6x128.size inb_S6x128_S6x128_0_0
abbrev r4_6 : Rect S128 := Rect.unit (s := S128) ![0] S128.size inb_S128_S128_0
abbrev r4_7 : Rect S128x1 := Rect.unit (s := S128x1) ![0, 0] S128x1.size inb_S128x1_S128x1_0_0
abbrev r4_8 : Rect S1 := Rect.unit (s := S1) ![0] S1.size inb_S1_S1_0
abbrev r4_9 : Rect S2000x1 := Rect.unit (s := S2000x1) ![0, 0] S2000x1.size inb_S2000x1_S2000x1_0_0

/-- The output buffer after the body: its one store, of the body's value of the loads. -/
def out4_9 (x0 : Vec F S2000x128 .bf16) (x1 : Vec F S2000x128 .bf16) (x2 : Vec F S2000x6 .f32) (x3 : Vec F S128x128 .f32) (x4 : Vec F S128x128 .f32) (x5 : Vec F S6x128 .f32) (x6 : Vec F S128 .f32) (x7 : Vec F S128x1 .f32) (x8 : Vec F S1 .f32) : Vec F S2000x1 .f32 :=
  View.canon [⟨r4_9, k4_pay1 (View.ld x0 r4_0) (View.ld x1 r4_1) (View.ld x2 r4_2) (View.ld x3 r4_3) (View.ld x4 r4_4) (View.ld x5 r4_5) (View.ld x6 r4_6) (View.ld x7 r4_7) (View.ld x8 r4_8)⟩]

theorem zero2_4 : (![0, 0] : Fin 2 → Nat) = fun _ => 0 := funext fun a => by fin_cases a <;> rfl
theorem zero1_4 : (![0] : Fin 1 → Nat) = fun _ => 0 := funext fun a => by fin_cases a; rfl

/-- Loads and store are of whole buffers, so the output buffer holds exactly the value computed from the
    input buffers. -/
theorem out4_9_eq (x0 : Vec F S2000x128 .bf16) (x1 : Vec F S2000x128 .bf16) (x2 : Vec F S2000x6 .f32) (x3 : Vec F S128x128 .f32) (x4 : Vec F S128x128 .f32) (x5 : Vec F S6x128 .f32) (x6 : Vec F S128 .f32) (x7 : Vec F S128x1 .f32) (x8 : Vec F S1 .f32) :
    out4_9 x0 x1 x2 x3 x4 x5 x6 x7 x8 = k4_pay1 x0 x1 x2 x3 x4 x5 x6 x7 x8 := by
  unfold out4_9
  rw [View.canon_unit_zero zero2_4]
  simp only [View.ld_unit_zero (S := S2000x128) zero2_4, View.ld_unit_zero (S := S2000x6) zero2_4, View.ld_unit_zero (S := S128x128) zero2_4, View.ld_unit_zero (S := S6x128) zero2_4, View.ld_unit_zero (S := S128) zero1_4, View.ld_unit_zero (S := S128x1) zero2_4, View.ld_unit_zero (S := S1) zero1_4]

/-- The one store covers the buffer. -/
theorem cover4_9 (p0 : Vec F S2000x1 .f32) (y : S2000x1.Idx) :
    ∃ pc ∈ ([⟨r4_9, p0⟩] : List (View.Piece (Elt F) S2000x1 .f32)), y ∈ pc.1.set :=
  View.cover_of_tiled [⟨r4_9, p0⟩] S2000x1.size (by rfl) y

/-! ## The body's triple -/

set_option maxHeartbeats 1000000 in
/-- On whole staging buffers, the inputs' at given contents and the output's at anything, the body runs to its
    continuation with the inputs' as they were and the output's at `out4_9` of the inputs'. -/
theorem sound_kernel4 (c : Dev nD) (E : Set ℕ) (i : grid4.Coords)
    (arg1 : Memref sig .tc .vmem S2000x128 .bf16) (harg1 : arg1.IsWhole) (arg2 : Memref sig .tc .vmem S2000x128 .bf16) (harg2 : arg2.IsWhole) (arg3 : Memref sig .tc .vmem S2000x6 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S6x128 .f32) (harg6 : arg6.IsWhole) (arg7 : Memref sig .tc .vmem S128 .f32) (harg7 : arg7.IsWhole) (arg8 : Memref sig .tc .vmem S128x1 .f32) (harg8 : arg8.IsWhole) (arg9 : Memref sig .tc .vmem S1 .f32) (harg9 : arg9.IsWhole) (arg10 : Memref sig .tc .vmem S2000x1 .f32) (harg10 : arg10.IsWhole)
    (x0 : Vec F S2000x128 .bf16) (x1 : Vec F S2000x128 .bf16) (x2 : Vec F S2000x6 .f32) (x3 : Vec F S128x128 .f32) (x4 : Vec F S128x128 .f32) (x5 : Vec F S6x128 .f32) (x6 : Vec F S128 .f32) (x7 : Vec F S128x1 .f32) (x8 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out4_9 x0 x1 x2 x3 x4 x5 x6 x7 x8)) -∗ K ⟨⟩))
      ⊢ wp frame (wpE (defs₀ (F := F)) Variants.none c none) E (cc4__edge_head_kernel i arg1 harg1 arg2 harg2 arg3 harg3 arg4 harg4 arg5 harg5 arg6 harg6 arg7 harg7 arg8 harg8 arg9 harg9 arg10 harg10) K := by
  simp only [cc4__edge_head_kernel_eq_skeleton]; unfold cc4__edge_head_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO, %fO, -, HO⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact HO
  ipureintro
  exact View.read_writes_eq_canon _ _ _ (cover4_9 _)

/-! ## The pipeline's proof data -/

/-- The arrays as the launch finds them; after the body at point `t` each input buffer at its block and the
    output buffer at the body's value of the input blocks; the invariant keeps the scoped rest and the
    generator register untouched; nothing is owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9' (c : Dev nD) (t : Fin cfg4.N) :
    (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]
/-- The output buffer after point `t`: the body's value of the input blocks. -/
theorem after4_9 (c : Dev nD) (t : Fin cfg4.N) :
    (dat4 V c).after 9 t = k4_pay1 (iblk4 V c 0 t) (iblk4 V c 1 t) (iblk4 V c 2 t) (iblk4 V c 3 t) (iblk4 V c 4 t) (iblk4 V c 5 t) (iblk4 V c 6 t) (iblk4 V c 7 t) (iblk4 V c 8 t) := by
  rw [after4_9', out4_9_eq]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation -/

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- At any point the input buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9']
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ (grid4.coords t) _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.RunAllB.lean ====
/-
  The kernel program's run, from the launch memory to the return, over its five kernel launches.

  Between two items of the program a core's unscoped buffers are all held at known contents. A stretch of
  host operations takes them to the operations' fold. A kernel launch changes only its output arrays: its
  input arrays come back as they went in, each output array comes back as the fold of the grid points'
  write-backs, every other buffer is not touched. Naming these contents one item after the other from the
  launch memory gives, at the end, every unscoped buffer of every core as a function of the launch memory:
  the arguments unchanged, and the two results at the values the last stretch leaves.
-/
import proofs.«175741_j7894149890553_2_alg».proof.Proof.Gen.Kernel.Regions
import proofs.«175741_j7894149890553_2_alg».proof.Proof.FrameB0
import proofs.«175741_j7894149890553_2_alg».proof.Proof.FrameB1
import proofs.«175741_j7894149890553_2_alg».proof.Proof.FrameB2
import proofs.«175741_j7894149890553_2_alg».proof.Proof.FrameB3
import proofs.«175741_j7894149890553_2_alg».proof.Proof.FrameB4

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## A launch's exit, at any entry contents -/

/-- At launch 0's exit, for ANY entry contents `V` and any valuation `Y` that agrees with them off the output
    array and holds the write-backs' fold there: each of the launch's arrays holds what the pipeline leaves. -/
theorem exit0 (V : (c : Dev nD) → (b : Ref sig .tc) → Buf (Elt F) ((c : Thread nD τ).loc b)) (c : Dev nD)
    (Y : Valuation τ sig (Elt F)) (hne : ∀ b : Ref sig .tc, b ≠ main_v19 → Y b = V c b)
    (hout : Y main_v19 = (dat0 V c).arrAt 3 cfg0.N) (w : Fin cfg0.W) :
    (dat0 V c).arrAt w cfg0.N = Y (Pipeline.arrRef spec0 w) := by
  match w with
  | ⟨0, _⟩ => exact ((dat0 V c).arrAt_in 0 rfl _).trans ((A_eq0 V c 0).trans (hne _ (by decide)).symm)
  | ⟨1, _⟩ => exact ((dat0 V c).arrAt_in 1 rfl _).trans ((A_eq0 V c 1).trans (hne _ (by decide)).symm)
  | ⟨2, _⟩ => exact ((dat0 V c).arrAt_in 2 rfl _).trans ((A_eq0 V c 2).trans (hne _ (by decide)).symm)
  | ⟨3, _⟩ => exact hout.symm

set_option maxHeartbeats 4000000 in
/-- At launch 1's exit, for ANY entry contents `V` and any valuation `Y` that agrees with them off the output
    array and holds the write-backs' fold there: each of the launch's arrays holds what the pipeline leaves. -/
theorem exit1 (V : (c : Dev nD) → (b : Ref sig .tc) → Buf (Elt F) ((c : Thread nD τ).loc b)) (c : Dev nD)
    (Y : Valuation τ sig (Elt F)) (hne : ∀ b : Ref sig .tc, b ≠ main_v37 → Y b = V c b)
    (hout : Y main_v37 = (dat1 V c).arrAt 6 cfg1.N) : ∀ w : Fin 7,
    (dat1 V c).arrAt w cfg1.N = Y (Pipeline.arrRef spec1 w)
  | 0 => ((dat1 V c).arrAt_in 0 rfl _).trans ((A_eq1 V c 0).trans (hne _ (by decide)).symm)
  | 1 => ((dat1 V c).arrAt_in 1 rfl _).trans ((A_eq1 V c 1).trans (hne _ (by decide)).symm)
  | 2 => ((dat1 V c).arrAt_in 2 rfl _).trans ((A_eq1 V c 2).trans (hne _ (by decide)).symm)
  | 3 => ((dat1 V c).arrAt_in 3 rfl _).trans ((A_eq1 V c 3).trans (hne _ (by decide)).symm)
  | 4 => ((dat1 V c).arrAt_in 4 rfl _).trans ((A_eq1 V c 4).trans (hne _ (by decide)).symm)
  | 5 => ((dat1 V c).arrAt_in 5 rfl _).trans ((A_eq1 V c 5).trans (hne _ (by decide)).symm)
  | 6 => hout.symm

set_option maxHeartbeats 4000000 in
/-- At launch 2's exit, for ANY entry contents `V` and any valuation `Y` that agrees with them off the output
    array and holds the write-backs' fold there: each of the launch's arrays holds what the pipeline leaves. -/
theorem exit2 (V : (c : Dev nD) → (b : Ref sig .tc) → Buf (Elt F) ((c : Thread nD τ).loc b)) (c : Dev nD)
    (Y : Valuation τ sig (Elt F)) (hne : ∀ b : Ref sig .tc, b ≠ main_v55 → Y b = V c b)
    (hout : Y main_v55 = (dat2 V c).arrAt 6 cfg2.N) : ∀ w : Fin 7,
    (dat2 V c).arrAt w cfg2.N = Y (Pipeline.arrRef spec2 w)
  | 0 => ((dat2 V c).arrAt_in 0 rfl _).trans ((A_eq2 V c 0).trans (hne _ (by decide)).symm)
  | 1 => ((dat2 V c).arrAt_in 1 rfl _).trans ((A_eq2 V c 1).trans (hne _ (by decide)).symm)
  | 2 => ((dat2 V c).arrAt_in 2 rfl _).trans ((A_eq2 V c 2).trans (hne _ (by decide)).symm)
  | 3 => ((dat2 V c).arrAt_in 3 rfl _).trans ((A_eq2 V c 3).trans (hne _ (by decide)).symm)
  | 4 => ((dat2 V c).arrAt_in 4 rfl _).trans ((A_eq2 V c 4).trans (hne _ (by decide)).symm)
  | 5 => ((dat2 V c).arrAt_in 5 rfl _).trans ((A_eq2 V c 5).trans (hne _ (by decide)).symm)
  | 6 => hout.symm

set_option maxHeartbeats 8000000 in
theorem exit3 (V : (c : Dev nD) → (b : Ref sig .tc) → Buf (Elt F) ((c : Thread nD τ).loc b)) (c : Dev nD)
    (Y : Valuation τ sig (Elt F)) (hne : ∀ b : Ref sig .tc, b ≠ main_v73_0 → b ≠ main_v73_1 → Y b = V c b)
    (hout0 : Y main_v73_0 = (dat3 V c).arrAt 10 cfg3.N) (hout1 : Y main_v73_1 = (dat3 V c).arrAt 11 cfg3.N) : ∀ w : Fin 12,
    (dat3 V c).arrAt w cfg3.N = Y (Pipeline.arrRef spec3 w)
  | 0 => ((dat3 V c).arrAt_in 0 rfl _).trans ((A_eq3 V c 0).trans (hne _ (by decide) (by decide)).symm)
  | 1 => ((dat3 V c).arrAt_in 1 rfl _).trans ((A_eq3 V c 1).trans (hne _ (by decide) (by decide)).symm)
  | 2 => ((dat3 V c).arrAt_in 2 rfl _).trans ((A_eq3 V c 2).trans (hne _ (by decide) (by decide)).symm)
  | 3 => ((dat3 V c).arrAt_in 3 rfl _).trans ((A_eq3 V c 3).trans (hne _ (by decide) (by decide)).symm)
  | 4 => ((dat3 V c).arrAt_in 4 rfl _).trans ((A_eq3 V c 4).trans (hne _ (by decide) (by decide)).symm)
  | 5 => ((dat3 V c).arrAt_in 5 rfl _).trans ((A_eq3 V c 5).trans (hne _ (by decide) (by decide)).symm)
  | 6 => ((dat3 V c).arrAt_in 6 rfl _).trans ((A_eq3 V c 6).trans (hne _ (by decide) (by decide)).symm)
  | 7 => ((dat3 V c).arrAt_in 7 rfl _).trans ((A_eq3 V c 7).trans (hne _ (by decide) (by decide)).symm)
  | 8 => ((dat3 V c).arrAt_in 8 rfl _).trans ((A_eq3 V c 8).trans (hne _ (by decide) (by decide)).symm)
  | 9 => ((dat3 V c).arrAt_in 9 rfl _).trans ((A_eq3 V c 9).trans (hne _ (by decide) (by decide)).symm)
  | 10 => hout0.symm
  | 11 => hout1.symm

set_option maxHeartbeats 4000000 in
/-- At launch 4's exit, for ANY entry contents `V` and any valuation `Y` that agrees with them off the output
    array and holds the write-backs' fold there: each of the launch's arrays holds what the pipeline leaves. -/
theorem exit4 (V : (c : Dev nD) → (b : Ref sig .tc) → Buf (Elt F) ((c : Thread nD τ).loc b)) (c : Dev nD)
    (Y : Valuation τ sig (Elt F)) (hne : ∀ b : Ref sig .tc, b ≠ main_v96 → Y b = V c b)
    (hout : Y main_v96 = (dat4 V c).arrAt 9 cfg4.N) : ∀ w : Fin 10,
    (dat4 V c).arrAt w cfg4.N = Y (Pipeline.arrRef spec4 w)
  | 0 => ((dat4 V c).arrAt_in 0 rfl _).trans ((A_eq4 V c 0).trans (hne _ (by decide)).symm)
  | 1 => ((dat4 V c).arrAt_in 1 rfl _).trans ((A_eq4 V c 1).trans (hne _ (by decide)).symm)
  | 2 => ((dat4 V c).arrAt_in 2 rfl _).trans ((A_eq4 V c 2).trans (hne _ (by decide)).symm)
  | 3 => ((dat4 V c).arrAt_in 3 rfl _).trans ((A_eq4 V c 3).trans (hne _ (by decide)).symm)
  | 4 => ((dat4 V c).arrAt_in 4 rfl _).trans ((A_eq4 V c 4).trans (hne _ (by decide)).symm)
  | 5 => ((dat4 V c).arrAt_in 5 rfl _).trans ((A_eq4 V c 5).trans (hne _ (by decide)).symm)
  | 6 => ((dat4 V c).arrAt_in 6 rfl _).trans ((A_eq4 V c 6).trans (hne _ (by decide)).symm)
  | 7 => ((dat4 V c).arrAt_in 7 rfl _).trans ((A_eq4 V c 7).trans (hne _ (by decide)).symm)
  | 8 => ((dat4 V c).arrAt_in 8 rfl _).trans ((A_eq4 V c 8).trans (hne _ (by decide)).symm)
  | 9 => hout.symm

variable (m : (ℓ : Loc nD τ sig) → Buf (Elt F) ℓ)

/-! ## The buffers' contents, item after item -/

/-- A family of valuations read at the TensorCore's references: the form a launch's proof data take. -/
abbrev asV (W : Dev nD → Valuation τ sig (Elt F)) :
    (c : Dev nD) → (b : Ref sig .tc) → Buf (Elt F) ((c : Thread nD τ).loc b) := fun c b => W c b

/-- Before launch 0: the launch memory after the first host stretch. -/
def X0 (c : Dev nD) : Valuation τ sig (Elt F) := StableHlo.after hostOps0 (fun b => m (c, b))
/-- After launch 0: its output array at what the write-backs leave. -/
def Y0 (c : Dev nD) : Valuation τ sig (Elt F) :=
  Function.update (X0 m c) main_v19 ((dat0 (asV (X0 m)) c).arrAt 3 cfg0.N)
def X1 (c : Dev nD) : Valuation τ sig (Elt F) := StableHlo.after hostOps1 (Y0 m c)
def Y1 (c : Dev nD) : Valuation τ sig (Elt F) :=
  Function.update (X1 m c) main_v37 ((dat1 (asV (X1 m)) c).arrAt 6 cfg1.N)
def X2 (c : Dev nD) : Valuation τ sig (Elt F) := StableHlo.after hostOps2 (Y1 m c)
def Y2 (c : Dev nD) : Valuation τ sig (Elt F) :=
  Function.update (X2 m c) main_v55 ((dat2 (asV (X2 m)) c).arrAt 6 cfg2.N)
def X3 (c : Dev nD) : Valuation τ sig (Elt F) := StableHlo.after hostOps3 (Y2 m c)
/-- After launch 3: its two output arrays, the embedding and the node output. -/
def Y3 (c : Dev nD) : Valuation τ sig (Elt F) :=
  Function.update (Function.update (X3 m c) main_v73_0 ((dat3 (asV (X3 m)) c).arrAt 10 cfg3.N))
    main_v73_1 ((dat3 (asV (X3 m)) c).arrAt 11 cfg3.N)
def X4 (c : Dev nD) : Valuation τ sig (Elt F) := StableHlo.after hostOps4 (Y3 m c)
def Y4 (c : Dev nD) : Valuation τ sig (Elt F) :=
  Function.update (X4 m c) main_v96 ((dat4 (asV (X4 m)) c).arrAt 9 cfg4.N)
/-- At the return: after the last host stretch. -/
def X5 (c : Dev nD) : Valuation τ sig (Elt F) := StableHlo.after hostOps5 (Y4 m c)

/-- What the launches leave, in the form the conditional frame's valuations take them. -/
def outs : Gen.Outs (F := F) := fun J r c =>
  match J with
  | 2 => Y0 m c r
  | 4 => Y1 m c r
  | 6 => Y2 m c r
  | 8 => Y3 m c r
  | 10 => Y4 m c r
  | _ => m (c, r)

theorem V1_eq (c : Dev nD) : Gen.V1 m c = X0 m c := rfl
theorem V2_eq (c : Dev nD) : Gen.V2 m (outs m) c = Y0 m c := by
  show Function.update (X0 m c) (Proc.devRef .tc main_v19) (Y0 m c (Proc.devRef .tc main_v19)) = Y0 m c
  unfold Y0; rw [Function.update_self]
theorem V3_eq (c : Dev nD) : Gen.V3 m (outs m) c = X1 m c := by
  show StableHlo.after hostOps1 (Gen.V2 m (outs m) c) = _; rw [V2_eq]; rfl
theorem V4_eq (c : Dev nD) : Gen.V4 m (outs m) c = Y1 m c := by
  show Function.update (Gen.V3 m (outs m) c) (Proc.devRef .tc main_v37) (Y1 m c (Proc.devRef .tc main_v37)) = Y1 m c
  rw [V3_eq]; unfold Y1; rw [Function.update_self]
theorem V5_eq (c : Dev nD) : Gen.V5 m (outs m) c = X2 m c := by
  show StableHlo.after hostOps2 (Gen.V4 m (outs m) c) = _; rw [V4_eq]; rfl
theorem V6_eq (c : Dev nD) : Gen.V6 m (outs m) c = Y2 m c := by
  show Function.update (Gen.V5 m (outs m) c) (Proc.devRef .tc main_v55) (Y2 m c (Proc.devRef .tc main_v55)) = Y2 m c
  rw [V5_eq]; unfold Y2; rw [Function.update_self]
theorem V7_eq (c : Dev nD) : Gen.V7 m (outs m) c = X3 m c := by
  show StableHlo.after hostOps3 (Gen.V6 m (outs m) c) = _; rw [V6_eq]; rfl
theorem ne_73 : (Proc.devRef (τ := τ) .tc main_v73_0 : DevRef τ sig) ≠ Proc.devRef .tc main_v73_1 :=
  StableHlo.devRef_ne_of_ne (by decide)
theorem V8_eq (c : Dev nD) : Gen.V8 m (outs m) c = Y3 m c := by
  show Function.update (Function.update (Gen.V7 m (outs m) c) (Proc.devRef .tc main_v73_0) (Y3 m c (Proc.devRef .tc main_v73_0)))
    (Proc.devRef .tc main_v73_1) (Y3 m c (Proc.devRef .tc main_v73_1)) = Y3 m c
  rw [V7_eq]; unfold Y3; rw [Function.update_self, Function.update_of_ne ne_73, Function.update_self]
theorem V9_eq (c : Dev nD) : Gen.V9 m (outs m) c = X4 m c := by
  show StableHlo.after hostOps4 (Gen.V8 m (outs m) c) = _; rw [V8_eq]; rfl
theorem V10_eq (c : Dev nD) : Gen.V10 m (outs m) c = Y4 m c := by
  show Function.update (Gen.V9 m (outs m) c) (Proc.devRef .tc main_v96) (Y4 m c (Proc.devRef .tc main_v96)) = Y4 m c
  rw [V9_eq]; unfold Y4; rw [Function.update_self]
theorem V11_eq (c : Dev nD) : Gen.V11 m (outs m) c = X5 m c := by
  show StableHlo.after hostOps5 (Gen.V10 m (outs m) c) = _; rw [V10_eq]; rfl

/-! ## The proof data family and what rides beside the buffers -/

/-- Every launch's proof data, each at the contents its launch is entered from. -/
def pdats : (p : Fin 5) → (c : Dev nD) → Dat τ (Elt F) Unit ℕ (Pipeline.UD sig nD τ) ℕ (cfgs p) c
  | ⟨0, _⟩ => fun c => dat0 (asV (X0 m)) c
  | ⟨1, _⟩ => fun c => dat1 (asV (X1 m)) c
  | ⟨2, _⟩ => fun c => dat2 (asV (X2 m)) c
  | ⟨3, _⟩ => fun c => dat3 (asV (X3 m)) c
  | ⟨4, _⟩ => fun c => dat4 (asV (X4 m)) c

abbrev 𝒱₀ : Variants := Variants.none
/-- No core owes another anything: no level is assigned. -/
abbrev L0 : GSem nD τ sig → Finset Unit := fun _ => ∅
abbrev lv0 : GSem nD τ sig → Unit → ℕ := fun _ _ => 0
/-- Beside the buffers every item carries the core's generator register, at some state, and its dues, none. -/
abbrev Rr (c : Dev nD) : sProp 𝕄 :=
  iprop((∃ r, prngReg c r) ∗ ∃ W, owes (c : Thread nD τ) (0 : CellTallies nD τ sig Unit) W)
abbrev Es : Fin 6 → Dev nD → sProp 𝕄 := fun _ c => Rr c

theorem Y0_of_ne (c : Dev nD) (b : Ref sig .tc) (h : b ≠ main_v19) : Y0 m c b = X0 m c b := by
  unfold Y0
  simp only [Function.update_of_ne (StableHlo.devRef_ne_of_ne h : (Proc.devRef .tc b : DevRef τ sig) ≠ Proc.devRef .tc main_v19)]
theorem Y0_out (c : Dev nD) : Y0 m c main_v19 = (dat0 (asV (X0 m)) c).arrAt 3 cfg0.N := by
  unfold Y0
  exact Function.update_self _ _ _

theorem hF0 (c : Dev nD) (w : Fin cfg0.W) :
    (dat0 (asV (X0 m)) c).arrAt w cfg0.N = asV (Y0 m) c (Pipeline.arrRef spec0 w) :=
  exit0 (asV (X0 m)) c (Y0 m c) (Y0_of_ne m c) (Y0_out m c) w
/-- and every other buffer what it held at entry. -/
theorem hrest0 (c : Dev nD) : ∀ b, b ∉ Finset.univ.image (Pipeline.arrRef spec0) → asV (Y0 m) c b = asV (X0 m) c b :=
  fun b hb => Y0_of_ne m c b fun e => hb (Finset.mem_image.mpr ⟨3, Finset.mem_univ _, e.symm⟩)

theorem Y1_of_ne (c : Dev nD) (b : Ref sig .tc) (h : b ≠ main_v37) : Y1 m c b = X1 m c b := by
  unfold Y1
  simp only [Function.update_of_ne (StableHlo.devRef_ne_of_ne h : (Proc.devRef .tc b : DevRef τ sig) ≠ Proc.devRef .tc main_v37)]
theorem Y1_out (c : Dev nD) : Y1 m c main_v37 = (dat1 (asV (X1 m)) c).arrAt 6 cfg1.N := by
  unfold Y1
  exact Function.update_self _ _ _

theorem hF1 (c : Dev nD) (w : Fin cfg1.W) :
    (dat1 (asV (X1 m)) c).arrAt w cfg1.N = asV (Y1 m) c (Pipeline.arrRef spec1 w) :=
  exit1 (asV (X1 m)) c (Y1 m c) (Y1_of_ne m c) (Y1_out m c) w
/-- and every other buffer what it held at entry. -/
theorem hrest1 (c : Dev nD) : ∀ b, b ∉ Finset.univ.image (Pipeline.arrRef spec1) → asV (Y1 m) c b = asV (X1 m) c b :=
  fun b hb => Y1_of_ne m c b fun e => hb (Finset.mem_image.mpr ⟨6, Finset.mem_univ _, e.symm⟩)

theorem Y2_of_ne (c : Dev nD) (b : Ref sig .tc) (h : b ≠ main_v55) : Y2 m c b = X2 m c b := by
  unfold Y2
  simp only [Function.update_of_ne (StableHlo.devRef_ne_of_ne h : (Proc.devRef .tc b : DevRef τ sig) ≠ Proc.devRef .tc main_v55)]
theorem Y2_out (c : Dev nD) : Y2 m c main_v55 = (dat2 (asV (X2 m)) c).arrAt 6 cfg2.N := by
  unfold Y2
  exact Function.update_self _ _ _

theorem hF2 (c : Dev nD) (w : Fin cfg2.W) :
    (dat2 (asV (X2 m)) c).arrAt w cfg2.N = asV (Y2 m) c (Pipeline.arrRef spec2 w) :=
  exit2 (asV (X2 m)) c (Y2 m c) (Y2_of_ne m c) (Y2_out m c) w
/-- and every other buffer what it held at entry. -/
theorem hrest2 (c : Dev nD) : ∀ b, b ∉ Finset.univ.image (Pipeline.arrRef spec2) → asV (Y2 m) c b = asV (X2 m) c b :=
  fun b hb => Y2_of_ne m c b fun e => hb (Finset.mem_image.mpr ⟨6, Finset.mem_univ _, e.symm⟩)

theorem Y3_of_ne (c : Dev nD) (b : Ref sig .tc) (h0 : b ≠ main_v73_0) (h1 : b ≠ main_v73_1) : Y3 m c b = X3 m c b := by
  unfold Y3
  simp only [Function.update_of_ne (StableHlo.devRef_ne_of_ne h1 : (Proc.devRef .tc b : DevRef τ sig) ≠ Proc.devRef .tc main_v73_1),
    Function.update_of_ne (StableHlo.devRef_ne_of_ne h0 : (Proc.devRef .tc b : DevRef τ sig) ≠ Proc.devRef .tc main_v73_0)]
theorem Y3_out0 (c : Dev nD) : Y3 m c main_v73_0 = (dat3 (asV (X3 m)) c).arrAt 10 cfg3.N := by
  unfold Y3
  exact (Function.update_of_ne ne_73 _ _).trans (Function.update_self _ _ _)
theorem Y3_out1 (c : Dev nD) : Y3 m c main_v73_1 = (dat3 (asV (X3 m)) c).arrAt 11 cfg3.N := by
  unfold Y3
  exact Function.update_self _ _ _

theorem hF3 (c : Dev nD) (w : Fin cfg3.W) :
    (dat3 (asV (X3 m)) c).arrAt w cfg3.N = asV (Y3 m) c (Pipeline.arrRef spec3 w) :=
  exit3 (asV (X3 m)) c (Y3 m c) (Y3_of_ne m c) (Y3_out0 m c) (Y3_out1 m c) w
theorem hrest3 (c : Dev nD) : ∀ b, b ∉ Finset.univ.image (Pipeline.arrRef spec3) → asV (Y3 m) c b = asV (X3 m) c b :=
  fun b hb => Y3_of_ne m c b (fun e => hb (Finset.mem_image.mpr ⟨10, Finset.mem_univ _, e.symm⟩))
    (fun e => hb (Finset.mem_image.mpr ⟨11, Finset.mem_univ _, e.symm⟩))

theorem Y4_of_ne (c : Dev nD) (b : Ref sig .tc) (h : b ≠ main_v96) : Y4 m c b = X4 m c b := by
  unfold Y4
  simp only [Function.update_of_ne (StableHlo.devRef_ne_of_ne h : (Proc.devRef .tc b : DevRef τ sig) ≠ Proc.devRef .tc main_v96)]
theorem Y4_out (c : Dev nD) : Y4 m c main_v96 = (dat4 (asV (X4 m)) c).arrAt 9 cfg4.N := by
  unfold Y4
  exact Function.update_self _ _ _

theorem hF4 (c : Dev nD) (w : Fin cfg4.W) :
    (dat4 (asV (X4 m)) c).arrAt w cfg4.N = asV (Y4 m) c (Pipeline.arrRef spec4 w) :=
  exit4 (asV (X4 m)) c (Y4 m c) (Y4_of_ne m c) (Y4_out m c) w
/-- and every other buffer what it held at entry. -/
theorem hrest4 (c : Dev nD) : ∀ b, b ∉ Finset.univ.image (Pipeline.arrRef spec4) → asV (Y4 m) c b = asV (X4 m) c b :=
  fun b hb => Y4_of_ne m c b fun e => hb (Finset.mem_image.mpr ⟨9, Finset.mem_univ _, e.symm⟩)

/-! ## The launches as segments -/

-- the library's lemmas are stated over the pinned configuration; unifying them with the printed one takes
-- unfolding plain definitions in a metavariable's type
set_option backward.isDefEq.respectTransparency.types false in
/-- Launch 0 as a segment: entered with every unscoped buffer at `X0`, left with them at `Y0`. Its arrays are
    split out of the unscoped buffers at entry and put back, at their final contents, at exit; the generator
    register goes into the launch's invariant and comes back; nothing is owed; the kernel has no semaphore
    of its own. -/
def reg0 : Pipeline.RegionSeg (pcfgs (F := F)) Gen.adm (pdats m) () defs₀ 𝒱₀ L0 lv0 0 where
  win := launch0.win.to₀
  block_pos := launch0.block_pos
  stage_whole := launch0.stage_whole
  K := PEmpty
  osem k := k.elim
  ho := Pipeline.OwnSemFacts.none _
  hbody c := (body_obligation0 (asV (X0 m)) c).loose
  hwaits := Pipeline.hwaits_of_owed_zero _ _ _ _ L0 lv0 0 fun _ _ => rfl
  pre c := iprop(StableHlo.held (c : Thread nD τ) (Pipeline.ucRefs τ sig) (X0 m c) ∗ Rr c)
  post c := iprop(StableHlo.held (c : Thread nD τ) (Pipeline.ucRefs τ sig) (Y0 m c) ∗ Rr c)
  X c := iprop(∃ r, prngReg c r)
  Y c := iprop(∃ r, prngReg c r)
  Z c := Pipeline.unscopedRest (Ix := Unit) (Name := ℕ) (U := Pipeline.UD sig nD τ) (Lvl := ℕ) spec0 c (asV (X0 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (asV (X0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (asV (X0 m) c) (asV (Y0 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying them with the printed one takes
-- unfolding plain definitions in a metavariable's type
set_option backward.isDefEq.respectTransparency.types false in
/-- Launch 1 as a segment: entered with every unscoped buffer at `X1`, left with them at `Y1`. Its arrays are
    split out of the unscoped buffers at entry and put back, at their final contents, at exit; the generator
    register goes into the launch's invariant and comes back; nothing is owed; the kernel has no semaphore
    of its own. -/
def reg1 : Pipeline.RegionSeg (pcfgs (F := F)) Gen.adm (pdats m) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (asV (X1 m)) c).loose
  hwaits := Pipeline.hwaits_of_owed_zero _ _ _ _ L0 lv0 1 fun _ _ => rfl
  pre c := iprop(StableHlo.held (c : Thread nD τ) (Pipeline.ucRefs τ sig) (X1 m c) ∗ Rr c)
  post c := iprop(StableHlo.held (c : Thread nD τ) (Pipeline.ucRefs τ sig) (Y1 m c) ∗ Rr c)
  X c := iprop(∃ r, prngReg c r)
  Y c := iprop(∃ r, prngReg c r)
  Z c := Pipeline.unscopedRest (Ix := Unit) (Name := ℕ) (U := Pipeline.UD sig nD τ) (Lvl := ℕ) spec1 c (asV (X1 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (asV (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (asV (X1 m) c) (asV (Y1 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying them with the printed one takes
-- unfolding plain definitions in a metavariable's type
set_option backward.isDefEq.respectTransparency.types false in
/-- Launch 2 as a segment: entered with every unscoped buffer at `X2`, left with them at `Y2`. Its arrays are
    split out of the unscoped buffers at entry and put back, at their final contents, at exit; the generator
    register goes into the launch's invariant and comes back; nothing is owed; the kernel has no semaphore
    of its own. -/
def reg2 : Pipeline.RegionSeg (pcfgs (F := F)) Gen.adm (pdats m) () defs₀ 𝒱₀ L0 lv0 2 where
  win := launch2.win.to₀
  block_pos := launch2.block_pos
  stage_whole := launch2.stage_whole
  K := PEmpty
  osem k := k.elim
  ho := Pipeline.OwnSemFacts.none _
  hbody c := (body_obligation2 (asV (X2 m)) c).loose
  hwaits := Pipeline.hwaits_of_owed_zero _ _ _ _ L0 lv0 2 fun _ _ => rfl
  pre c := iprop(StableHlo.held (c : Thread nD τ) (Pipeline.ucRefs τ sig) (X2 m c) ∗ Rr c)
  post c := iprop(StableHlo.held (c : Thread nD τ) (Pipeline.ucRefs τ sig) (Y2 m c) ∗ Rr c)
  X c := iprop(∃ r, prngReg c r)
  Y c := iprop(∃ r, prngReg c r)
  Z c := Pipeline.unscopedRest (Ix := Unit) (Name := ℕ) (U := Pipeline.UD sig nD τ) (Lvl := ℕ) spec2 c (asV (X2 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (asV (X2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := Pipeline.UD sig nD τ) (Lvl := ℕ)
      launch2.win launch2.arr_whole c (pdats m) ((pdats m 2 c).share_full fun _ => rfl)
      (asV (X2 m) c) (asV (Y2 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying them with the printed one takes
-- unfolding plain definitions in a metavariable's type
set_option backward.isDefEq.respectTransparency.types false in
/-- Launch 3 as a segment: entered with every unscoped buffer at `X3`, left with them at `Y3`. Its arrays are
    split out of the unscoped buffers at entry and put back, at their final contents, at exit; the generator
    register goes into the launch's invariant and comes back; nothing is owed; the kernel has no semaphore
    of its own. -/
def reg3 : Pipeline.RegionSeg (pcfgs (F := F)) Gen.adm (pdats m) () defs₀ 𝒱₀ L0 lv0 3 where
  win := launch3.win.to₀
  block_pos := launch3.block_pos
  stage_whole := launch3.stage_whole
  K := PEmpty
  osem k := k.elim
  ho := Pipeline.OwnSemFacts.none _
  hbody c := (body_obligation3 (asV (X3 m)) c).loose
  hwaits := Pipeline.hwaits_of_owed_zero _ _ _ _ L0 lv0 3 fun _ _ => rfl
  pre c := iprop(StableHlo.held (c : Thread nD τ) (Pipeline.ucRefs τ sig) (X3 m c) ∗ Rr c)
  post c := iprop(StableHlo.held (c : Thread nD τ) (Pipeline.ucRefs τ sig) (Y3 m c) ∗ Rr c)
  X c := iprop(∃ r, prngReg c r)
  Y c := iprop(∃ r, prngReg c r)
  Z c := Pipeline.unscopedRest (Ix := Unit) (Name := ℕ) (U := Pipeline.UD sig nD τ) (Lvl := ℕ) spec3 c (asV (X3 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (asV (X3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := Pipeline.UD sig nD τ) (Lvl := ℕ)
      launch3.win launch3.arr_whole c (pdats m) ((pdats m 3 c).share_full fun _ => rfl)
      (asV (X3 m) c) (asV (Y3 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying them with the printed one takes
-- unfolding plain definitions in a metavariable's type
set_option backward.isDefEq.respectTransparency.types false in
/-- Launch 4 as a segment: entered with every unscoped buffer at `X4`, left with them at `Y4`. Its arrays are
    split out of the unscoped buffers at entry and put back, at their final contents, at exit; the generator
    register goes into the launch's invariant and comes back; nothing is owed; the kernel has no semaphore
    of its own. -/
def reg4 : Pipeline.RegionSeg (pcfgs (F := F)) Gen.adm (pdats m) () defs₀ 𝒱₀ L0 lv0 4 where
  win := launch4.win.to₀
  block_pos := launch4.block_pos
  stage_whole := launch4.stage_whole
  K := PEmpty
  osem k := k.elim
  ho := Pipeline.OwnSemFacts.none _
  hbody c := (body_obligation4 (asV (X4 m)) c).loose
  hwaits := Pipeline.hwaits_of_owed_zero _ _ _ _ L0 lv0 4 fun _ _ => rfl
  pre c := iprop(StableHlo.held (c : Thread nD τ) (Pipeline.ucRefs τ sig) (X4 m c) ∗ Rr c)
  post c := iprop(StableHlo.held (c : Thread nD τ) (Pipeline.ucRefs τ sig) (Y4 m c) ∗ Rr c)
  X c := iprop(∃ r, prngReg c r)
  Y c := iprop(∃ r, prngReg c r)
  Z c := Pipeline.unscopedRest (Ix := Unit) (Name := ℕ) (U := Pipeline.UD sig nD τ) (Lvl := ℕ) spec4 c (asV (X4 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (asV (X4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := Pipeline.UD sig nD τ) (Lvl := ℕ)
      launch4.win launch4.arr_whole c (pdats m) ((pdats m 4 c).share_full fun _ => rfl)
      (asV (X4 m) c) (asV (Y4 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Two names of one valuation hold the same buffers. -/
theorem held_congr {c : Dev nD} {W W' : Valuation τ sig (Elt F)} (h : W' = W) :
    (iprop(StableHlo.held (c : Thread nD τ) (Pipeline.ucRefs τ sig) W ∗ Rr c) : sProp 𝕄)
      ⊢ iprop(StableHlo.held (c : Thread nD τ) (Pipeline.ucRefs τ sig) W' ∗ Rr c) := by
  subst h; exact .rfl

/-! ## The run -/

-- the launch theorem's implicit arguments are found by unifying its conclusion with this one, which takes
-- unfolding plain definitions in a metavariable's type
set_option backward.isDefEq.respectTransparency.types false in
/-- From any launch memory with zero counters, every weakly fair execution of the program terminates, nothing
    faulting, and at the end every unscoped buffer of every core holds what the last item leaves there:
    `X5`, the launch memory carried through six host stretches and five kernel launches. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = X5 m c b) := by
  refine Pipeline.θ_run_regions_kit_dev (pcfgs (F := F)) Gen.adm (pdats m) () cellOf_inj embL defs₀ 𝒱₀ L0 lv0 m ρ main
    (Gen.segs m (outs m) 𝒱₀ L0 lv0 Es () (pdats m) (reg0 m) (reg1 m) (reg2 m) (reg3 m) (reg4 m))
    (fun c Q => ?hmain) (fun c => ?hnd) (O₀ := 0) (hL := fun _ _ => rfl) (G := fun _ => iprop(emp))
    (u₀ := (initOf (Pipeline.cells cfgs cellOf_inj) (Pipeline.launchToks cfgs cellOf_inj), 1)) (hu₀ := ?hu)
    (T₀ := fun c => iprop(StableHlo.held (c : Thread nD τ) (Pipeline.ucRefs τ sig) (Gen.V0 m c) ∗ Rr c))
    (Tₙ := fun c => iprop(StableHlo.held (c : Thread nD τ) (Pipeline.ucRefs τ sig) (X5 m c) ∗ ∃ r, prngReg c r))
    (hch := fun c => ?hch) (hinit := ?hinit)
    (QY := fun c s => ∀ b ∈ Pipeline.ucRefs τ sig, s.mem ((c : Thread nD τ).1, b) = X5 m c b)
    (hfin := fun c s' => ?hfin) (hQ := fun _ h => h)
  case hmain =>
    -- the program is the run of its items, in order
    rw [main_chain c, Pipeline.Seg.run_eq_chain]
    exact .rfl
  case hnd =>
    simp only [Gen.segs, Pipeline.Seg.pipes_host, Pipeline.Seg.pipes_region, Pipeline.Seg.pipes_nil]; decide
  case hu =>
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case hch =>
    -- each item is entered from what the one before it leaves
    refine ⟨.rfl, .rfl, held_congr (V2_eq m c), held_congr (V3_eq m c).symm, held_congr (V4_eq m c), held_congr (V5_eq m c).symm,
      held_congr (V6_eq m c), held_congr (V7_eq m c).symm, held_congr (V8_eq m c), held_congr (V9_eq m c).symm, held_congr (V10_eq m c), ?_⟩
    show (iprop(StableHlo.held (c : Thread nD τ) (Pipeline.ucRefs τ sig) (Gen.V11 m (outs m) c) ∗ Rr c) : sProp 𝕄) ⊢ _
    rw [V11_eq]
    iintro ⟨Hh, Hp, Ho⟩
    isplitr [Ho]
    · isplitl [Hh]; · iexact Hh
      iexact Hp
    iexact Ho
  case hinit =>
    refine Pipeline.initEach L0 lv0 fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  case hfin =>
    iintro ⟨⟨Hh, -⟩, HSI⟩
    unfold StableHlo.held
    imodintro
    iapply (pointsTo_read_all (Pipeline.ucRefs τ sig) (fun b => (((c : Thread nD τ)).1, b)) (X5 m c) s')
    isplitl [Hh] <;> iassumption

/-- An unscoped TensorCore reference is among those the last state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- An argument array reaches the end as launched: no host stretch writes it and no launch may change it. -/
theorem X5_of_V11 (c : Dev nD) (b : Ref sig .tc) (h : Gen.V11 m (outs m) c b = m ((c : Thread nD τ).loc b)) :
    X5 m c b = m ((c : Thread nD τ).loc b) := by rw [← V11_eq]; exact h

end Cert.Kernel.Fr

end
-- ==== Proof.Carry.lean ====
/-
  Which buffers an item leaves alone.

  A host stretch changes only the buffers its operations write; a kernel launch changes only its output
  arrays. So a buffer written once — the edge-index vectors, the reciprocal degrees, every argument — is
  read by a later launch exactly as it was left. This module says so for the valuations `X0 … X5`, `Y0 … Y4`
  of the run, in the form the comparison with the reference uses.
-/
import proofs.«175741_j7894149890553_2_alg».proof.Proof.RunAll

noncomputable section

namespace Cert.KernelIdeal.Fr

open Idealize.ShloMosaic Idealize.ShloMosaic.TcCoe
open Idealize.SL.Sem
open Cert.KernelIdeal Cert.KernelIdeal.Gen

variable {F : FTy → Type} [FloatOps F]
variable (m : (ℓ : Loc nD τ sig) → Buf (Elt F) ℓ) (c : Dev nD)

/-- The first host stretch leaves what it does not write as launched. -/
theorem X0_of (b : Ref sig .tc) (h : b ∉ hostOps0_W) : X0 m c b = m ((c : Thread nD τ).loc b) :=
  Gen.V1_of m c b h
theorem X1_of (b : Ref sig .tc) (h : b ∉ hostOps1_W) : X1 m c b = Y0 m c b := by
  rw [← V3_eq, ← V2_eq]; exact Gen.V3_of m (outs m) c b h
theorem X2_of (b : Ref sig .tc) (h : b ∉ hostOps2_W) : X2 m c b = Y1 m c b := by
  rw [← V5_eq, ← V4_eq]; exact Gen.V5_of m (outs m) c b h
theorem X3_of (b : Ref sig .tc) (h : b ∉ hostOps3_W) : X3 m c b = Y2 m c b := by
  rw [← V7_eq, ← V6_eq]; exact Gen.V7_of m (outs m) c b h
theorem X4_of (b : Ref sig .tc) (h : b ∉ hostOps4_W) : X4 m c b = Y3 m c b := by
  rw [← V9_eq, ← V8_eq]; exact Gen.V9_of m (outs m) c b h
theorem X5_of (b : Ref sig .tc) (h : b ∉ hostOps5_W) : X5 m c b = Y4 m c b := by
  rw [← V11_eq, ← V10_eq]; exact Gen.V11_of m (outs m) c b h

/-- Read before launch 1, 2, 3, 4: a buffer nothing since the first stretch has written. -/
theorem carry1 (b : Ref sig .tc) (h0 : b ≠ main_v19) (h1 : b ∉ hostOps1_W) : X1 m c b = X0 m c b :=
  (X1_of m c b h1).trans (Y0_of_ne m c b h0)
theorem carry2 (b : Ref sig .tc) (h0 : b ≠ main_v19) (h1 : b ∉ hostOps1_W) (h2 : b ≠ main_v37) (h3 : b ∉ hostOps2_W) :
    X2 m c b = X0 m c b :=
  (X2_of m c b h3).trans ((Y1_of_ne m c b h2).trans (carry1 m c b h0 h1))
theorem carry3 (b : Ref sig .tc) (h0 : b ≠ main_v19) (h1 : b ∉ hostOps1_W) (h2 : b ≠ main_v37) (h3 : b ∉ hostOps2_W)
    (h4 : b ≠ main_v55) (h5 : b ∉ hostOps3_W) : X3 m c b = X0 m c b :=
  (X3_of m c b h5).trans ((Y2_of_ne m c b h4).trans (carry2 m c b h0 h1 h2 h3))
theorem carry4 (b : Ref sig .tc) (h0 : b ≠ main_v19) (h1 : b ∉ hostOps1_W) (h2 : b ≠ main_v37) (h3 : b ∉ hostOps2_W)
    (h4 : b ≠ main_v55) (h5 : b ∉ hostOps3_W) (h6 : b ≠ main_v73_0) (h7 : b ≠ main_v73_1) (h8 : b ∉ hostOps4_W) :
    X4 m c b = X0 m c b :=
  (X4_of m c b h8).trans ((Y3_of_ne m c b h6 h7).trans (carry3 m c b h0 h1 h2 h3 h4 h5))
/-- The same down to the value before launch 0's own write: before launch 0 nothing but the first stretch ran. -/
theorem carryY0 (b : Ref sig .tc) (h0 : b ≠ main_v19) : Y0 m c b = X0 m c b := Y0_of_ne m c b h0
theorem carryY1 (b : Ref sig .tc) (h0 : b ≠ main_v19) (h1 : b ∉ hostOps1_W) (h2 : b ≠ main_v37) : Y1 m c b = X0 m c b :=
  (Y1_of_ne m c b h2).trans (carry1 m c b h0 h1)
theorem carryY2 (b : Ref sig .tc) (h0 : b ≠ main_v19) (h1 : b ∉ hostOps1_W) (h2 : b ≠ main_v37) (h3 : b ∉ hostOps2_W)
    (h4 : b ≠ main_v55) : Y2 m c b = X0 m c b :=
  (Y2_of_ne m c b h4).trans (carry2 m c b h0 h1 h2 h3)
theorem carryY3 (b : Ref sig .tc) (h0 : b ≠ main_v19) (h1 : b ∉ hostOps1_W) (h2 : b ≠ main_v37) (h3 : b ∉ hostOps2_W)
    (h4 : b ≠ main_v55) (h5 : b ∉ hostOps3_W) (h6 : b ≠ main_v73_0) (h7 : b ≠ main_v73_1) : Y3 m c b = X0 m c b :=
  (Y3_of_ne m c b h6 h7).trans (carry3 m c b h0 h1 h2 h3 h4 h5)

end Cert.KernelIdeal.Fr

end
-- ==== Proof.Spec.lean ====
/-
  The network both programs compute, entry by entry, on the extended reals.

  Nodes carry 8 input features, encoded to 128 by one affine map. Three graph layers follow: a node's
  new row is its own row times one weight matrix, plus the sum of its neighbours' rows scaled by the
  reciprocal of its degree times a second weight matrix, plus a bias; the first two layers end in a
  rectifier. A node head (affine, rectifier, affine to one number) reads the last layer's rows; an edge
  head does the same on the rows of an edge's two end points laid beside six edge features.

  Everything here is a scalar formula at explicit coordinates; arrays enter only as arguments. The sums
  are associated exactly as both programs associate them, so that neither side has to reorder anything
  except where the edge head's one long contraction is cut into consecutive blocks.
-/
import Mathlib
import Idealize.ShloMosaic.Lib.ValueIdx
import Idealize.ShloMosaic.PureOps.Ideal

noncomputable section

namespace Cert.Spec

open Idealize.ShloMosaic Idealize.ShloMosaic.ValueIdx

/-- An `a × b` array of extended reals. -/
abbrev Mat (a b : Nat) : Type := (⟨2, ![a, b]⟩ : Shape).Idx → EReal
/-- A length-`a` vector of extended reals. -/
abbrev Vct (a : Nat) : Type := (⟨1, ![a]⟩ : Shape).Idx → EReal

/-- The array whose entry at `(p, q)` is `f p q`. -/
def mk2 {a b : Nat} (f : Fin a → Fin b → EReal) : Mat a b := fun i => f (i 0) (i 1)
@[simp] theorem mk2_apply {a b : Nat} (f : Fin a → Fin b → EReal) (p : Fin a) (q : Fin b) :
    mk2 f (ix2 p q) = f p q := rfl

/-- The zero both programs compare against in their rectifiers, as the word they write. -/
abbrev zeroWord : EReal := Ideal.ofBits .f32 0x00000000#32

/-- The rectifier: the larger of `y` and zero. -/
def relu (y : EReal) : EReal := max y zeroWord

/-- One entry of a matrix product: row `p` of `x` against column `q` of `w`. -/
def dot {n k d : Nat} (x : Mat n k) (w : Mat k d) (p : Fin n) (q : Fin d) : EReal :=
  ∑ j : Fin k, x (ix2 p j) * w (ix2 j q)

/-- The node encoder: features times weights, plus the bias of the output column. -/
def enc {n : Nat} (nf : Mat n 8) (w : Mat 8 128) (b : Vct 128) (p : Fin n) (q : Fin 128) : EReal :=
  dot nf w p q + b (ix1 q)

/-- One graph layer before any rectifier. `x` holds the nodes' rows, `a` the sums of their neighbours'
    rows, `d` the reciprocal degrees; the neighbour sum is scaled entry by entry before it meets `wr`. -/
def sagePre {n : Nat} (x a : Mat n 128) (d : Fin n → EReal) (wl wr : Mat 128 128) (b : Vct 128)
    (p : Fin n) (q : Fin 128) : EReal :=
  (dot x wl p q + ∑ j : Fin 128, (a (ix2 p j) * d p) * wr (ix2 j q)) + b (ix1 q)

/-- A graph layer followed by the rectifier. -/
def sage {n : Nat} (x a : Mat n 128) (d : Fin n → EReal) (wl wr : Mat 128 128) (b : Vct 128)
    (p : Fin n) (q : Fin 128) : EReal :=
  relu (sagePre x a d wl wr b p q)

/-- The hidden row of either head: an affine map of a 128-wide row, then the rectifier. -/
def hidden {n : Nat} (e : Mat n 128) (w1 : Mat 128 128) (b1 : Vct 128) (p : Fin n) (k : Fin 128) : EReal :=
  relu (dot e w1 p k + b1 (ix1 k))

/-- The node head's output for node `p`: the hidden row against the one output column, plus its bias. -/
def nodeOut {n : Nat} (e : Mat n 128) (w1 : Mat 128 128) (b1 : Vct 128) (w2 : Mat 128 1) (b2 : Vct 1)
    (p : Fin n) : EReal :=
  (∑ k : Fin 128, hidden e w1 b1 p k * w2 (ix2 k 0)) + b2 (ix1 0)

/-- Rows `off … off + k − 1` of a matrix, as a matrix of their own. -/
def rows {r k d : Nat} (off : Nat) (h : off + k ≤ r) (w : Mat r d) : Mat k d :=
  mk2 fun j q => w (ix2 ⟨off + j.val, by omega⟩ q)
theorem rows_apply {r k d : Nat} (off : Nat) (h : off + k ≤ r) (w : Mat r d) (j : Fin k) (q : Fin d) :
    rows off h w (ix2 j q) = w (ix2 ⟨off + j.val, by omega⟩ q) := rfl

/-- An edge's six features side by side: four given ones, then one observed value, then one flag. -/
def feat6 {m : Nat} (es : Mat m 4) (qo qm : Mat m 1) : Mat m 6 :=
  mk2 fun e j => if h : j.val < 4 then es (ix2 e ⟨j.val, h⟩) else if j.val = 4 then qo (ix2 e 0) else qm (ix2 e 0)

/-- The edge head's pre-activation for edge `e`, column `q`: the source end's row against `ws`, the target
    end's row against `wd`, the six features against `we`; the three partial sums added left to right,
    then the bias. -/
def edgePre {m : Nat} (gs gd : Mat m 128) (ex : Mat m 6) (ws wd : Mat 128 128) (we : Mat 6 128) (b : Vct 128)
    (e : Fin m) (q : Fin 128) : EReal :=
  ((dot gs ws e q + dot gd wd e q) + dot ex we e q) + b (ix1 q)

/-- The edge head's output for edge `e`: the rectified pre-activation row against the one output column,
    plus its bias. -/
def edgeOut {m : Nat} (gs gd : Mat m 128) (ex : Mat m 6) (ws wd : Mat 128 128) (we : Mat 6 128) (b : Vct 128)
    (w2 : Mat 128 1) (b2 : Vct 1) (e : Fin m) : EReal :=
  (∑ k : Fin 128, relu (edgePre gs gd ex ws wd we b e k) * w2 (ix2 k 0)) + b2 (ix1 0)

end Cert.Spec

end
-- ==== Proof.LibPlainMatmul.lean ====
/-
  A plain matrix product read at a row and a column.

  For a product of an `[M, K]` matrix by a `[K, N]` matrix that contracts the first operand's second axis with the second
  operand's first axis and has no batch axis, accumulated into the zero matrix, the entry at `(i, o)` is, on the extended
  reals, the sum over `k` of the first operand at `(i, k)` times the second at `(k, o)`.  The lemma takes the four
  coordinate facts of the dimension record (which operand coordinate reads the result index, which the contraction index) as
  hypotheses, so that it serves any record with this layout, whatever its extents.
-/
import Idealize.ShloMosaic.PureOps.Ideal.Laws
import Idealize.ShloMosaic.Lib.ValueIdx

noncomputable section

open scoped BigOperators

namespace Cert.Lib.PlainMatmul

open Idealize.ShloMosaic Idealize.ShloMosaic.ValueIdx

/-- The entry `(i, o)` of `lhs · rhs` accumulated into zero is `∑ k, lhs (i, k) * rhs (k, o)`. -/
theorem matmul_zero_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (lhs : FVec Ideal ⟨2, ![M, K]⟩ φ₁) (rhs : FVec Ideal ⟨2, ![K, N]⟩ φ₂)
    (i : Fin M) (o : Fin N) :
    matmul d prec lhs rhs (constant ⟨2, ![M, N]⟩ .f32 0x00000000#32) (ix2 i o)
      = ∑ k : Fin K, lhs (ix2 i k) * rhs (ix2 k o) := by
  refine (Ideal.matmul_constant_zero_apply d prec lhs rhs (ix2 i o)).trans ?_
  rw [← Equiv.sum_comp (contrEquiv1 d K hr hs).symm]
  refine Finset.sum_congr rfl fun k _ => ?_
  have hk := contrEquiv1_symm_val d K hr hs k
  have el : d.lhsIdx (ix2 i o) ((contrEquiv1 d K hr hs).symm k) = ix2 i k := funext fun a => Fin.ext (by
    match a with
    | ⟨0, _⟩ => exact l0 _ _
    | ⟨1, _⟩ => exact (l1 _ _).trans hk)
  have er : d.rhsIdx (ix2 i o) ((contrEquiv1 d K hr hs).symm k) = ix2 k o := funext fun a => Fin.ext (by
    match a with
    | ⟨0, _⟩ => exact (r0 _ _).trans hk
    | ⟨1, _⟩ => exact r1 _ _)
  rw [el, er]

end Cert.Lib.PlainMatmul

end
-- ==== Proof.LibCombine.lean ====
/-
  The last step of a graph-convolution layer, as one function of whole arrays.

  `combine a x d b` is, entry by entry, `max ((a + d · x) + b) 0` on the extended reals, where `a` and `x` are
  `[N, D]` arrays (the aggregated neighbours and the transformed features), `d` is an `[N, 1]` column (one scale per
  row: the self-loop weight) and `b` a `[1, D]` row (the bias).  Two programs compute it: a kernel body, on vectors,
  with `vector.broadcast` of the column and of the row and a splat zero; and the host, on tensors, with
  `broadcast_in_dim` of the column, of the row and of the scalar zero.  Both are this function: the broadcasts read the
  column at the row's coordinate and the row at the column's, and the operations are pointwise.
-/
import Idealize.ShloMosaic.PureOps.Ideal.Laws
import Idealize.ShloMosaic.Lib.ValueIdx
import Idealize.ShloMosaic.Lib.Pipeline.Value
import Idealize.ShloMosaic.Lib.IdealHost

noncomputable section

namespace Cert.Lib.Combine

open Idealize.ShloMosaic Idealize.ShloMosaic.ValueIdx

/-- `max ((a + d · x) + b) 0`, the column `d` read at the entry's row and the row `b` at its column. -/
def combine {N D : ℕ} (a x : (⟨2, ![N, D]⟩ : Shape).Idx → EReal) (d : (⟨2, ![N, 1]⟩ : Shape).Idx → EReal)
    (b : (⟨2, ![1, D]⟩ : Shape).Idx → EReal) : (⟨2, ![N, D]⟩ : Shape).Idx → EReal :=
  fun i => max (a i + d (ix2 (i 0) (0 : Fin 1)) * x i + b (ix2 (0 : Fin 1) (i 1))) (Ideal.ofBits .f32 0x00000000#32)

theorem combine_apply {N D : ℕ} (a x : (⟨2, ![N, D]⟩ : Shape).Idx → EReal) (d : (⟨2, ![N, 1]⟩ : Shape).Idx → EReal)
    (b : (⟨2, ![1, D]⟩ : Shape).Idx → EReal) (p : Fin N) (q : Fin D) :
    combine a x d b (ix2 p q)
      = max (a (ix2 p q) + d (ix2 p (0 : Fin 1)) * x (ix2 p q) + b (ix2 (0 : Fin 1) q)) (Ideal.ofBits .f32 0x00000000#32) := rfl

/-- A column broadcast across the columns, read at `(p, q)`, is the column at row `p`. -/
theorem broadcastTo_col_apply {N D : ℕ} {α : Type} (v : (⟨2, ![N, 1]⟩ : Shape).Idx → α)
    (h : (⟨2, ![N, 1]⟩ : Shape).Broadcasts ⟨2, ![N, D]⟩) (p : Fin N) (q : Fin D) :
    broadcastTo ⟨2, ![N, D]⟩ v h (ix2 p q) = v (ix2 p (0 : Fin 1)) := by
  refine broadcastTo_apply v h (ix2 p q) (ix2 p (0 : Fin 1)) fun ax => ?_
  match ax with
  | ⟨0, _⟩ =>
    show p.val = if N = 1 then 0 else p.val
    split
    · have := p.isLt; omega
    · rfl
  | ⟨1, _⟩ => rfl

/-- A row broadcast down the rows, read at `(p, q)`, is the row at column `q`. -/
theorem broadcastTo_row_apply {N D : ℕ} {α : Type} (v : (⟨2, ![1, D]⟩ : Shape).Idx → α)
    (h : (⟨2, ![1, D]⟩ : Shape).Broadcasts ⟨2, ![N, D]⟩) (p : Fin N) (q : Fin D) :
    broadcastTo ⟨2, ![N, D]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if D = 1 then 0 else q.val
    split
    · have := q.isLt; omega
    · rfl

/-- The kernel body's spelling, on vectors. -/
theorem vector_form {N D : ℕ} (a x : FVec Ideal ⟨2, ![N, D]⟩ .f32) (d : FVec Ideal ⟨2, ![N, 1]⟩ .f32)
    (b : FVec Ideal ⟨2, ![1, D]⟩ .f32) (hd : (⟨2, ![N, 1]⟩ : Shape).Broadcasts ⟨2, ![N, D]⟩)
    (hb : (⟨2, ![1, D]⟩ : Shape).Broadcasts ⟨2, ![N, D]⟩) :
    maximumf (addf (addf a (mulf (broadcastTo ⟨2, ![N, D]⟩ d hd) x)) (broadcastTo ⟨2, ![N, D]⟩ b hb))
        (broadcast ⟨2, ![N, D]⟩ (Scalar.ofBits (F := Ideal) .f32 0x00000000#32))
      = combine a x d b := by
  funext j
  obtain ⟨p, q, rfl⟩ : ∃ (p : Fin N) (q : Fin D), j = ix2 p q := ⟨j 0, j 1, eq_ix2 j⟩
  rw [combine_apply, maximumf_apply, addf_apply, addf_apply, mulf_apply, broadcastTo_col_apply, broadcastTo_row_apply,
    broadcast_apply]
  rfl

/-- A column broadcast in dimensions `[0, 1]`, read at `(p, q)`, is the column at row `p`. -/
theorem broadcastInDim_col_apply {N D : ℕ} {α : Type} (v : (⟨2, ![N, 1]⟩ : Shape).Idx → α)
    (h : (⟨2, ![N, 1]⟩ : Shape).BroadcastsInDim ⟨2, ![N, D]⟩ ![0, 1]) (p : Fin N) (q : Fin D) :
    broadcastInDim ⟨2, ![N, D]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if N = 1 then 0 else p.val
    split
    · have := p.isLt; omega
    · rfl
  | ⟨1, _⟩ => rfl

/-- A row broadcast in dimensions `[0, 1]`, read at `(p, q)`, is the row at column `q`. -/
theorem broadcastInDim_row_apply {N D : ℕ} {α : Type} (v : (⟨2, ![1, D]⟩ : Shape).Idx → α)
    (h : (⟨2, ![1, D]⟩ : Shape).BroadcastsInDim ⟨2, ![N, D]⟩ ![0, 1]) (p : Fin N) (q : Fin D) :
    broadcastInDim ⟨2, ![N, D]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if D = 1 then 0 else q.val
    split
    · have := q.isLt; omega
    · rfl

/-- The host's spelling, on tensors. -/
theorem host_form {N D : ℕ} (a x : FVec Ideal ⟨2, ![N, D]⟩ .f32) (d : FVec Ideal ⟨2, ![N, 1]⟩ .f32)
    (b : FVec Ideal ⟨2, ![1, D]⟩ .f32) (hd : (⟨2, ![N, 1]⟩ : Shape).BroadcastsInDim ⟨2, ![N, D]⟩ ![0, 1])
    (hb : (⟨2, ![1, D]⟩ : Shape).BroadcastsInDim ⟨2, ![N, D]⟩ ![0, 1])
    (hz : (⟨0, ![]⟩ : Shape).BroadcastsInDim ⟨2, ![N, D]⟩ ![]) :
    maximumf (addf (addf a (mulf (broadcastInDim ⟨2, ![N, D]⟩ ![0, 1] hd d) x)) (broadcastInDim ⟨2, ![N, D]⟩ ![0, 1] hb b))
        (broadcastInDim ⟨2, ![N, D]⟩ ![] hz (constant (F := Ideal) ⟨0, ![]⟩ .f32 0x00000000#32))
      = combine a x d b := by
  funext j
  obtain ⟨p, q, rfl⟩ : ∃ (p : Fin N) (q : Fin D), j = ix2 p q := ⟨j 0, j 1, eq_ix2 j⟩
  rw [combine_apply, maximumf_apply, addf_apply, addf_apply, mulf_apply, broadcastInDim_col_apply, broadcastInDim_row_apply,
    broadcastInDim_scalar_apply]
  rfl

/-! ## The bias row

The host lays a `[D]` vector out as the `[1, D]` row in two ways: by a reshape, or by a broadcast in dimension 1.
Both read the vector at the column's coordinate. -/

/-- A vector reshaped to a one-row matrix, read at `(0, q)`, is the vector at `q`. -/
theorem shapeCast_row_apply {D : ℕ} {α : Type} (v : (⟨1, ![D]⟩ : Shape).Idx → α)
    (h : (⟨1, ![D]⟩ : Shape).ShapeCasts ⟨2, ![1, D]⟩) (q : Fin D) :
    shapeCast ⟨2, ![1, D]⟩ v h (ix2 (0 : Fin 1) q) = v (ix1 q) :=
  shapeCast_apply v h _ _ (by
    rw [Shape.rowMajor_val_one, Shape.rowMajor_val_two]
    show q.val = 0 * D + q.val
    omega)

/-- A vector broadcast in dimension 1 to a one-row matrix, read at `(0, q)`, is the vector at `q`. -/
theorem broadcastInDim_row1_apply {D : ℕ} {α : Type} (v : (⟨1, ![D]⟩ : Shape).Idx → α)
    (h : (⟨1, ![D]⟩ : Shape).BroadcastsInDim ⟨2, ![1, D]⟩ ![1]) (q : Fin D) :
    broadcastInDim ⟨2, ![1, D]⟩ ![1] h v (ix2 (0 : Fin 1) q) = v (ix1 q) := by
  refine broadcastInDim_apply ![1] h v (ix2 (0 : Fin 1) q) (ix1 q) fun ax => ?_
  match ax with
  | ⟨0, _⟩ =>
    show q.val = if D = 1 then 0 else q.val
    split
    · have := q.isLt; omega
    · rfl

/-- The two layouts of the bias row are one array. -/
theorem row_reshape_eq_broadcast {D : ℕ} {α : Type} (v : (⟨1, ![D]⟩ : Shape).Idx → α)
    (h : (⟨1, ![D]⟩ : Shape).ShapeCasts ⟨2, ![1, D]⟩) (h' : (⟨1, ![D]⟩ : Shape).BroadcastsInDim ⟨2, ![1, D]⟩ ![1]) :
    shapeCast ⟨2, ![1, D]⟩ v h = broadcastInDim ⟨2, ![1, D]⟩ ![1] h' v := by
  funext j
  obtain ⟨p, q, rfl⟩ : ∃ (p : Fin 1) (q : Fin D), j = ix2 p q := ⟨j 0, j 1, eq_ix2 j⟩
  obtain rfl : p = 0 := Subsingleton.elim _ _
  rw [shapeCast_row_apply, broadcastInDim_row1_apply]

end Cert.Lib.Combine

end
-- ==== Proof.Pay0.lean ====
/-
  The value the node encoder's body stores, read at a row and a column, on the extended reals.

  The body multiplies the eight input features of each node by the weight matrix and adds the bias of the column.
  On the extended reals the roundings around the product are the identity and the product into the zero accumulator
  is the exact sum over the eight features.
-/
import proofs.«175741_j7894149890553_2_alg».proof.Proof.Gen.KernelIdeal.Skeleton
import proofs.«175741_j7894149890553_2_alg».proof.Proof.Spec
import proofs.«175741_j7894149890553_2_alg».proof.Proof.LibPlainMatmul
import proofs.«175741_j7894149890553_2_alg».proof.Proof.LibCombine
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen

/-! The coordinate facts of the 8-deep product's dimension record. -/

private theorem d8_l0 (j : S2000x128.Idx) (k : dot_S2000x8_S8x128_S2000x128_1_0_0_1_n_n.contr.Idx) :
    (dot_S2000x8_S8x128_S2000x128_1_0_0_1_n_n.lhsIdx j k ⟨0, Nat.zero_lt_two⟩).val = (j ⟨0, Nat.zero_lt_two⟩).val := by
  unfold DotDims.lhsIdx
  rw [dif_neg (show ¬(⟨0, Nat.zero_lt_two⟩ : Fin 2) ∈ dot_S2000x8_S8x128_S2000x128_1_0_0_1_n_n.lhsBatch by decide),
    dif_pos (show (⟨0, Nat.zero_lt_two⟩ : Fin 2) ∈ dot_S2000x8_S8x128_S2000x128_1_0_0_1_n_n.lhsNonContracting by decide)]
  rfl
private theorem d8_l1 (j : S2000x128.Idx) (k : dot_S2000x8_S8x128_S2000x128_1_0_0_1_n_n.contr.Idx) :
    (dot_S2000x8_S8x128_S2000x128_1_0_0_1_n_n.lhsIdx j k ⟨1, Nat.one_lt_two⟩).val = (k ⟨0, by decide⟩).val :=
  dot_S2000x8_S8x128_S2000x128_1_0_0_1_n_n.lhsIdx_val_of_single rfl j k
private theorem d8_r0 (j : S2000x128.Idx) (k : dot_S2000x8_S8x128_S2000x128_1_0_0_1_n_n.contr.Idx) :
    (dot_S2000x8_S8x128_S2000x128_1_0_0_1_n_n.rhsIdx j k ⟨0, Nat.zero_lt_two⟩).val = (k ⟨0, by decide⟩).val :=
  dot_S2000x8_S8x128_S2000x128_1_0_0_1_n_n.rhsIdx_val_of_single rfl j k
private theorem d8_r1 (j : S2000x128.Idx) (k : dot_S2000x8_S8x128_S2000x128_1_0_0_1_n_n.contr.Idx) :
    (dot_S2000x8_S8x128_S2000x128_1_0_0_1_n_n.rhsIdx j k ⟨1, Nat.one_lt_two⟩).val = (j ⟨1, Nat.one_lt_two⟩).val := by
  unfold DotDims.rhsIdx
  rw [dif_neg (show ¬(⟨1, Nat.one_lt_two⟩ : Fin 2) ∈ dot_S2000x8_S8x128_S2000x128_1_0_0_1_n_n.rhsBatch by decide),
    dif_pos (show (⟨1, Nat.one_lt_two⟩ : Fin 2) ∈ dot_S2000x8_S8x128_S2000x128_1_0_0_1_n_n.rhsNonContracting by decide)]
  rfl

theorem pay0 (v0 : Vec Ideal S2000x8 .f32) (v3 : Vec Ideal S8x128 .f32) (v6 : Vec Ideal S128 .f32) (r : Fin 2000) (q : Fin 128) :
    k0_pay1 (F := Ideal) v0 v3 v6 (ix2 r q) = Cert.Spec.enc (n := 2000) v0 v3 v6 r q := by
  unfold k0_pay1
  simp only [shapeCast_self]
  rw [truncf_apply, addf_apply]
  refine (congrArg₂ (· + ·)
    (Cert.Lib.PlainMatmul.matmul_zero_apply dot_S2000x8_S8x128_S2000x128_1_0_0_1_n_n rfl rfl d8_l0 d8_l1 d8_r0 d8_r1 none _ _ r q)
    ((broadcastTo_1b_ab_apply _ _ r q).trans (Cert.Lib.Combine.shapeCast_row_apply v6 _ q))).trans ?_
  rfl

end Cert.KernelIdeal.Pay

end
-- ==== Proof.Final0.lean ====
/-
  Launch 0 of the kernel program (the node encoder), from blocks to the array.

  The launch walks 50 tiles of 2000 nodes. At tile `t` the body reads rows `2000 t … 2000 t + 1999` of the node
  features, the whole weight matrix and the whole bias, and writes the encoder's value of them back as rows
  `2000 t … 2000 t + 1999` of the output. The encoder's value at node `p` reads only row `p` of the features, so what
  tile `t` writes back is block `t` of ONE array, the encoder of the whole feature array; the 50 blocks cover the
  output, which therefore ends holding that array.
-/
import proofs.«175741_j7894149890553_2_alg».proof.Proof.FrameK0
import proofs.«175741_j7894149890553_2_alg».proof.Proof.Pay0
import proofs.«175741_j7894149890553_2_alg».proof.Proof.Spec
import Idealize.ShloMosaic.Lib.Pipeline.Value

noncomputable section

open scoped BigOperators

namespace Cert.KernelIdeal.Fin

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The index maps over the grid -/

/-- The printed index maps, decided once over the 50 points: the row-tiled windows (the features, the output) are at
    block `(t, 0)`, the resident ones (weights, bias) at block zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `r` of tile `t` is row `2000 t + r` of the array. -/
def row0 (t : Fin cfg0.N) (r : Fin 2000) : Fin 100000 :=
  ⟨t.val * 2000 + r.val, by have h : t.val < 50 := lt_of_lt_of_eq t.isLt N_0; omega⟩

/-! ## The blocks as reads of the arrays -/

/-- The feature block of tile `t` at `(r, j)` is the feature array at `(2000 t + r, j)`. -/
theorem blk0_0 (c : Dev nD) (t : Fin cfg0.N) (r : Fin 2000) (j : Fin 8) :
    (Fr.iblk0 V c 0 t : Vec Ideal S2000x8 .f32) (ix2 r j) = (V c main_v18 : S100000x8.Idx → EReal) (ix2 (row0 t r) j) := by
  show V c main_v18 (((cfg0.win 0).blk t).view.emb (ix2 r j)) = V c main_v18 _
  refine congrArg _ ?_
  funext a; apply Fin.ext
  match a with
  | ⟨0, _⟩ => show win0_0.index t (0 : Fin 2) * 2000 + 1 * r.val = t.val * 2000 + r.val; rw [(idx0 t).1]; omega
  | ⟨1, _⟩ => show win0_0.index t (1 : Fin 2) * 8 + 1 * j.val = j.val; rw [(idx0 t).2.1]; omega

/-- The weight block of every tile is the weight array. -/
theorem blk0_1 (c : Dev nD) (t : Fin cfg0.N) :
    (Fr.iblk0 V c 1 t : Vec Ideal S8x128 .f32) = (V c main_arg7 : S8x128.Idx → EReal) := by
  funext y
  show V c main_arg7 (((cfg0.win 1).blk t).view.emb y) = V c main_arg7 y
  refine congrArg _ ?_
  funext a; apply Fin.ext
  match a with
  | ⟨0, _⟩ => show win0_1.index t (0 : Fin 2) * 8 + 1 * (y 0).val = (y 0).val; rw [(idx0 t).2.2.1]; omega
  | ⟨1, _⟩ => show win0_1.index t (1 : Fin 2) * 128 + 1 * (y 1).val = (y 1).val; rw [(idx0 t).2.2.2.1]; omega

/-- The bias block of every tile is the bias array. -/
theorem blk0_2 (c : Dev nD) (t : Fin cfg0.N) :
    (Fr.iblk0 V c 2 t : Vec Ideal S128 .f32) = (V c main_arg8 : S128.Idx → EReal) := by
  funext y
  show V c main_arg8 (((cfg0.win 2).blk t).view.emb y) = V c main_arg8 y
  refine congrArg _ ?_
  funext a; apply Fin.ext
  match a with
  | ⟨0, _⟩ => show win0_2.index t (0 : Fin 1) * 128 + 1 * (y 0).val = (y 0).val; rw [(idx0 t).2.2.2.2.1]; omega

/-- An element `(r, q)` of the output block of tile `t` sits at `(2000 t + r, q)` of the output array. -/
theorem emb0_3 (t : Fin cfg0.N) (r : Fin 2000) (q : Fin 128) :
    ((cfg0.win 3).blk t).view.emb (ix2 r q) = (ix2 (row0 t r) q : S100000x128.Idx) := by
  funext a; apply Fin.ext
  match a with
  | ⟨0, _⟩ => show win0_3.index t (0 : Fin 2) * 2000 + 1 * r.val = t.val * 2000 + r.val; rw [(idx0 t).2.2.2.2.2.1]; omega
  | ⟨1, _⟩ => show win0_3.index t (1 : Fin 2) * 128 + 1 * q.val = q.val; rw [(idx0 t).2.2.2.2.2.2]; omega

/-! ## The encoder reads one row -/

/-- The encoder's value at a node reads only that node's row of the features: two feature arrays that agree on a row
    give the same value there, with equal weights and biases. -/
theorem enc_of_row {n n' : Nat} (x : Cert.Spec.Mat n 8) (X : Cert.Spec.Mat n' 8) (w w' : Cert.Spec.Mat 8 128)
    (b b' : Cert.Spec.Vct 128) (r : Fin n) (p : Fin n') (hx : ∀ j, x (ix2 r j) = X (ix2 p j)) (hw : w = w') (hb : b = b')
    (q : Fin 128) : Cert.Spec.enc x w b r q = Cert.Spec.enc X w' b' p q := by
  subst hw hb
  unfold Cert.Spec.enc Cert.Spec.dot
  simp only [hx]

/-! ## What each tile writes back, and the array at the end -/

/-- The array the output ends holding: the encoder of the whole feature array. -/
def G0 (c : Dev nD) : Cert.Spec.Mat 100000 128 :=
  Cert.Spec.mk2 fun p q => Cert.Spec.enc (n := 100000) (V c main_v18) (V c main_arg7) (V c main_arg8) p q

/-- What tile `t` writes back is block `t` of that array. -/
theorem flushed0 (c : Dev nD) (t : Fin cfg0.N) :
    (Fr.dat0 V c).flushed 3 t = ((cfg0.win 3).blk t).view.read (Elt Ideal) (G0 V c) := by
  show (cfg0.win 3).cut (grid0.coords t) ((Fr.dat0 V c).after 3 t) = _
  rw [Fr.after0_3]
  funext j
  obtain ⟨r, q, rfl⟩ : ∃ (r : Fin 2000) (q : Fin 128), j = ix2 r q := ⟨j 0, j 1, eq_ix2 j⟩
  refine (Pay.pay0 _ _ _ r q).trans ?_
  show _ = G0 V c (((cfg0.win 3).blk t).view.emb (ix2 r q))
  rw [emb0_3]
  exact enc_of_row _ _ _ _ _ _ r (row0 t r) (blk0_0 V c t r) (blk0_1 V c t) (blk0_2 V c t) q

/-- An index of the output array is in tile `t`'s block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v19).slice (win0_3.rect t)).set ↔ _
  rw [View.set_slice_whole, Rect.mem_set_unit]
  exact Iff.rfl

/-- Every index of the output array is in the block of the tile its row falls in, and every tile writes back. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  have ht : (i 0).val / 2000 < cfg0.N := by rw [hN]; omega
  refine ⟨⟨(i 0).val / 2000, ht⟩, flush0_3 _, ?_⟩
  rw [mem_blk0]
  obtain ⟨-, -, -, -, -, e5, e6⟩ := idx0 ⟨(i 0).val / 2000, ht⟩
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e5]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    rw [e6]; omega

/-- The output array after the launch: the encoder of the feature array as the launch found it. -/
theorem final0 (c : Dev nD) :
    (Fr.dat0 V c).arrAt 3 cfg0.N = Cert.Spec.mk2 fun p q => Cert.Spec.enc (n := 100000) (V c main_v18) (V c main_arg7) (V c main_arg8) p q :=
  (Fr.dat0 V c).arrAt_eq_of_cover 3 (G0 V c) (fun t _ => flushed0 V c t) cover0

end Cert.KernelIdeal.Fin

end
-- ==== Proof.LibLayerEntry.lean ====
/-
  One layer of a mean-aggregating graph convolution, entry by entry, on the extended reals.

  Row `r` of a layer's output depends on row `r` of the aggregated features `a` and of the node features `x`: the entry at
  column `o` is the product of row `r` of `a` with column `o` of the neighbour weights, plus the product of row `r` of `x`
  with column `o` of the root weights, plus the bias at `o`.  The three terms are added in one of two orders; addition of
  extended reals is commutative and associative, so the two orders agree, at the infinities too.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«175741_j7894149890553_2_alg».proof.Proof.LibPlainMatmul

noncomputable section

open scoped BigOperators

namespace Cert.Sage

open Idealize.ShloMosaic Idealize.ShloMosaic.ValueIdx

/-- The entry `(r, o)` of a layer before its activation: the two products first, then the bias. -/
def pre {N D H : ℕ} (a x : (⟨2, ![N, D]⟩ : Shape).Idx → EReal) (wl wr : (⟨2, ![D, H]⟩ : Shape).Idx → EReal)
    (b : (⟨2, ![1, H]⟩ : Shape).Idx → EReal) (r : Fin N) (o : Fin H) : EReal :=
  ((∑ k : Fin D, a (ix2 r k) * wl (ix2 k o)) + (∑ k : Fin D, x (ix2 r k) * wr (ix2 k o))) + b (ix2 (0 : Fin 1) o)

/-- The same three terms with the bias added before the second product. -/
theorem pre_eq_bias_first {N D H : ℕ} (a x : (⟨2, ![N, D]⟩ : Shape).Idx → EReal) (wl wr : (⟨2, ![D, H]⟩ : Shape).Idx → EReal)
    (b : (⟨2, ![1, H]⟩ : Shape).Idx → EReal) (r : Fin N) (o : Fin H) :
    ((∑ k : Fin D, a (ix2 r k) * wl (ix2 k o)) + b (ix2 (0 : Fin 1) o)) + (∑ k : Fin D, x (ix2 r k) * wr (ix2 k o))
      = pre a x wl wr b r o := by
  unfold pre; exact add_right_comm _ _ _

/-- Two matrix products into zero accumulators, added, plus a row broadcast over the rows, read at `(p, q)`:
    the sum over `k` of the first pair, plus the sum over `k` of the second pair, plus the row's entry at `q`. -/
theorem products_bias_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (A B : FVec Ideal ⟨2, ![M, K]⟩ φ₁) (Wl Wr : FVec Ideal ⟨2, ![K, N]⟩ φ₂) (bias : FVec Ideal ⟨2, ![1, N]⟩ .f32)
    (hb : (⟨2, ![1, N]⟩ : Shape).Broadcasts ⟨2, ![M, N]⟩) (p : Fin M) (q : Fin N) :
    addf (addf (matmul d none A Wl (constant ⟨2, ![M, N]⟩ .f32 0x00000000#32))
               (matmul d none B Wr (constant ⟨2, ![M, N]⟩ .f32 0x00000000#32)))
         (broadcastTo ⟨2, ![M, N]⟩ bias hb) (ix2 p q)
      = ((∑ k : Fin K, A (ix2 p k) * Wl (ix2 k q)) + (∑ k : Fin K, B (ix2 p k) * Wr (ix2 k q))) + bias (ix2 (0 : Fin 1) q) := by
  show (matmul d none A Wl (constant ⟨2, ![M, N]⟩ .f32 0x00000000#32) (ix2 p q)
        + matmul d none B Wr (constant ⟨2, ![M, N]⟩ .f32 0x00000000#32) (ix2 p q))
       + broadcastTo ⟨2, ![M, N]⟩ bias hb (ix2 p q) = _
  rw [Cert.Lib.PlainMatmul.matmul_zero_apply d hr hs l0 l1 r0 r1 none A Wl p q,
    Cert.Lib.PlainMatmul.matmul_zero_apply d hr hs l0 l1 r0 r1 none B Wr p q,
    broadcastTo_1b_ab_apply bias hb p q]

end Cert.Sage

end
-- ==== Proof.Pay12.lean ====
/-
  The value a graph layer's body stores, read at a row and a column, on the extended reals.

  The body multiplies the node rows by one weight matrix, the neighbour sums (each row first scaled by the row's
  reciprocal degree) by a second one, adds the two products and the bias of the column, and ends in the rectifier.
  On the extended reals the roundings between the steps are the identity and a matrix product into the zero
  accumulator is the exact sum over the contraction index, so the stored entry is the layer's formula.
-/
import proofs.«175741_j7894149890553_2_alg».proof.Proof.Gen.KernelIdeal.Skeleton
import proofs.«175741_j7894149890553_2_alg».proof.Proof.Spec
import proofs.«175741_j7894149890553_2_alg».proof.Proof.LibPlainMatmul
import proofs.«175741_j7894149890553_2_alg».proof.Proof.LibLayerEntry
import proofs.«175741_j7894149890553_2_alg».proof.Proof.LibCombine
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen

/-! The coordinate facts of the 128-deep product's dimension record: the result's row and column index the
    operands' outer axes, the contraction index their inner ones. -/

private theorem d128_l0 (j : S2000x128.Idx) (k : dot_S2000x128_S128x128_S2000x128_1_0_0_1_n_n.contr.Idx) :
    (dot_S2000x128_S128x128_S2000x128_1_0_0_1_n_n.lhsIdx j k ⟨0, Nat.zero_lt_two⟩).val = (j ⟨0, Nat.zero_lt_two⟩).val := by
  unfold DotDims.lhsIdx
  rw [dif_neg (show ¬(⟨0, Nat.zero_lt_two⟩ : Fin 2) ∈ dot_S2000x128_S128x128_S2000x128_1_0_0_1_n_n.lhsBatch by decide),
    dif_pos (show (⟨0, Nat.zero_lt_two⟩ : Fin 2) ∈ dot_S2000x128_S128x128_S2000x128_1_0_0_1_n_n.lhsNonContracting by decide)]
  rfl
private theorem d128_l1 (j : S2000x128.Idx) (k : dot_S2000x128_S128x128_S2000x128_1_0_0_1_n_n.contr.Idx) :
    (dot_S2000x128_S128x128_S2000x128_1_0_0_1_n_n.lhsIdx j k ⟨1, Nat.one_lt_two⟩).val = (k ⟨0, by decide⟩).val :=
  dot_S2000x128_S128x128_S2000x128_1_0_0_1_n_n.lhsIdx_val_of_single rfl j k
private theorem d128_r0 (j : S2000x128.Idx) (k : dot_S2000x128_S128x128_S2000x128_1_0_0_1_n_n.contr.Idx) :
    (dot_S2000x128_S128x128_S2000x128_1_0_0_1_n_n.rhsIdx j k ⟨0, Nat.zero_lt_two⟩).val = (k ⟨0, by decide⟩).val :=
  dot_S2000x128_S128x128_S2000x128_1_0_0_1_n_n.rhsIdx_val_of_single rfl j k
private theorem d128_r1 (j : S2000x128.Idx) (k : dot_S2000x128_S128x128_S2000x128_1_0_0_1_n_n.contr.Idx) :
    (dot_S2000x128_S128x128_S2000x128_1_0_0_1_n_n.rhsIdx j k ⟨1, Nat.one_lt_two⟩).val = (j ⟨1, Nat.one_lt_two⟩).val := by
  unfold DotDims.rhsIdx
  rw [dif_neg (show ¬(⟨1, Nat.one_lt_two⟩ : Fin 2) ∈ dot_S2000x128_S128x128_S2000x128_1_0_0_1_n_n.rhsBatch by decide),
    dif_pos (show (⟨1, Nat.one_lt_two⟩ : Fin 2) ∈ dot_S2000x128_S128x128_S2000x128_1_0_0_1_n_n.rhsNonContracting by decide)]
  rfl

/-- The layer before its rectifier, in the body's spelling, read at `(r, q)`. -/
private theorem layer_apply (x : FVec Ideal S2000x128 .bf16) (a : FVec Ideal S2000x128 .f32) (d : FVec Ideal S2000x1 .f32)
    (wl wr : FVec Ideal S128x128 .f32) (b : FVec Ideal S128 .f32) (r : Fin 2000) (q : Fin 128) :
    addf
        (addf
          (matmul dot_S2000x128_S128x128_S2000x128_1_0_0_1_n_n none x (truncf .bf16 wl bitsLt_bf16_f32) (constant S2000x128 .f32 0x00000000#32))
          (matmul dot_S2000x128_S128x128_S2000x128_1_0_0_1_n_n none
            (truncf .bf16 (mulf a (broadcastTo S2000x128 d broadcasts_S2000x1_S2000x128)) bitsLt_bf16_f32)
            (truncf .bf16 wr bitsLt_bf16_f32) (constant S2000x128 .f32 0x00000000#32)))
        (broadcastTo S2000x128 (shapeCast S1x128 b shapeCasts_S128_S1x128) broadcasts_S1x128_S2000x128) (ix2 r q)
      = Cert.Spec.sagePre (n := 2000) x a (fun p => d (ix2 p 0)) wl wr b r q := by
  refine (Cert.Sage.products_bias_apply dot_S2000x128_S128x128_S2000x128_1_0_0_1_n_n rfl rfl d128_l0 d128_l1 d128_r0 d128_r1 _ _ _ _ _ _ r q).trans ?_
  rw [Cert.Lib.Combine.shapeCast_row_apply]
  unfold Cert.Spec.sagePre Cert.Spec.dot
  refine congrArg (· + b (ix1 q)) (congrArg₂ (· + ·) rfl (Finset.sum_congr rfl fun k _ => ?_))
  rw [truncf_apply, truncf_apply, mulf_apply, Cert.Lib.Combine.broadcastTo_col_apply]

theorem pay1 (v0 : Vec Ideal S2000x128 .bf16) (v2 : Vec Ideal S2000x128 .f32) (v4 : Vec Ideal S2000x1 .f32)
    (v9 v12 : Vec Ideal S128x128 .f32) (v18 : Vec Ideal S128 .f32) (r : Fin 2000) (q : Fin 128) :
    k1_pay1 (F := Ideal) v0 v2 v4 v9 v12 v18 (ix2 r q)
      = Cert.Spec.sage (n := 2000) v0 v2 (fun p => v4 (ix2 p 0)) v9 v12 v18 r q := by
  unfold k1_pay1
  simp only [shapeCast_self]
  rw [truncf_apply, maximumf_apply, broadcast_apply, layer_apply]
  rfl

theorem pay2 (v0 : Vec Ideal S2000x128 .bf16) (v2 : Vec Ideal S2000x128 .f32) (v4 : Vec Ideal S2000x1 .f32)
    (v9 v12 : Vec Ideal S128x128 .f32) (v18 : Vec Ideal S128 .f32) (r : Fin 2000) (q : Fin 128) :
    k2_pay1 (F := Ideal) v0 v2 v4 v9 v12 v18 (ix2 r q)
      = Cert.Spec.sage (n := 2000) v0 v2 (fun p => v4 (ix2 p 0)) v9 v12 v18 r q := by
  unfold k2_pay1
  simp only [shapeCast_self]
  rw [truncf_apply, maximumf_apply, broadcast_apply, layer_apply]
  rfl

end Cert.KernelIdeal.Pay

end
-- ==== Proof.Final1.lean ====
/-
  The array the first graph layer's launch leaves: every entry the layer's formula of the launch's input arrays.

  The launch cuts the node rows into fifty tiles of 2000 rows.  At tile `t` the body reads rows `2000 t … 2000 t + 1999`
  of the node features, of the neighbour sums and of the reciprocal degrees, and the whole weight matrices and bias;
  what it stores at `(r, q)` is the layer's formula at row `r` of those tiles, and the formula reads only that row,
  so it is the formula of the whole arrays at row `2000 t + r`.  The fifty tiles cover every row, so the array after
  the launch is the formula everywhere.
-/
import proofs.«175741_j7894149890553_2_alg».proof.Proof.FrameK1
import proofs.«175741_j7894149890553_2_alg».proof.Proof.Pay12
import proofs.«175741_j7894149890553_2_alg».proof.Proof.Spec

set_option maxRecDepth 16384

noncomputable section

open scoped BigOperators

namespace Cert.KernelIdeal.Fin

open Idealize.ShloMosaic Idealize.ShloMosaic.ValueIdx Cert.KernelIdeal Cert.KernelIdeal.Gen
open Idealize.ShloMosaic.TcCoe
open Idealize.ShloMosaic.Pipeline (Dat Cfg Window)

/-- The layer's formula reads only row `p` of the node rows, the neighbour sums and the reciprocal degrees: two sets of
    arrays that agree on that row give the same entry. -/
theorem sage_row1 {n n' : Nat} (x a : Cert.Spec.Mat n 128) (d : Fin n → EReal) (x' a' : Cert.Spec.Mat n' 128) (d' : Fin n' → EReal)
    (wl wr : Cert.Spec.Mat 128 128) (b : Cert.Spec.Vct 128) (p : Fin n) (p' : Fin n') (q : Fin 128)
    (hx : ∀ j : Fin 128, x (ix2 p j) = x' (ix2 p' j)) (ha : ∀ j : Fin 128, a (ix2 p j) = a' (ix2 p' j)) (hd : d p = d' p') :
    Cert.Spec.sage x a d wl wr b p q = Cert.Spec.sage x' a' d' wl wr b p' q := by
  unfold Cert.Spec.sage Cert.Spec.sagePre Cert.Spec.dot
  simp only [hx, ha, hd]

/-- The windows' block indices, decided over the fifty points: the row-tiled windows (node rows, neighbour sums,
    reciprocal degrees, the output) sit at block `(t, 0)`, the resident ones (weights, bias) at block zero. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem lt50_1 (t : Fin cfg1.N) : t.val < 50 := N_1 ▸ t.isLt

variable (V : (c : Dev nD) → (b : Ref sig .tc) → Buf (Elt Ideal) ((c : Thread nD τ).loc b)) (c : Dev nD)

/-- Tile `t` of the node rows, read at `(r, j)`, is the array at row `2000 t + r`. -/
theorem blk1_0 (t : Fin cfg1.N) (r : Fin 2000) (j : Fin 128) :
    Fr.iblk1 V c 0 t (ix2 r j) = V c main_v19 (ix2 (⟨t.val * 2000 + r.val, by have := lt50_1 t; omega⟩ : Fin 100000) j) := by
  show V c main_v19 (((cfg1.win 0).blk t).view.emb (ix2 r j)) = V c main_v19 _
  refine congrArg _ ?_
  funext a; apply Fin.ext
  have e := idx1 t
  match a with
  | ⟨0, _⟩ => show win1_0.index t (0 : Fin 2) * 2000 + 1 * r.val = t.val * 2000 + r.val; omega
  | ⟨1, _⟩ => show win1_0.index t (1 : Fin 2) * 128 + 1 * j.val = j.val; omega

/-- Tile `t` of the neighbour sums, read at `(r, j)`, is the array at row `2000 t + r`. -/
theorem blk1_1 (t : Fin cfg1.N) (r : Fin 2000) (j : Fin 128) :
    Fr.iblk1 V c 1 t (ix2 r j) = V c main_v30 (ix2 (⟨t.val * 2000 + r.val, by have := lt50_1 t; omega⟩ : Fin 100000) j) := by
  show V c main_v30 (((cfg1.win 1).blk t).view.emb (ix2 r j)) = V c main_v30 _
  refine congrArg _ ?_
  funext a; apply Fin.ext
  have e := idx1 t
  match a with
  | ⟨0, _⟩ => show win1_1.index t (0 : Fin 2) * 2000 + 1 * r.val = t.val * 2000 + r.val; omega
  | ⟨1, _⟩ => show win1_1.index t (1 : Fin 2) * 128 + 1 * j.val = j.val; omega

/-- Tile `t` of the reciprocal degrees, read at `(r, 0)`, is the array at row `2000 t + r`. -/
theorem blk1_2 (t : Fin cfg1.N) (r : Fin 2000) (j : Fin 1) :
    Fr.iblk1 V c 2 t (ix2 r j) = V c main_v14 (ix2 (⟨t.val * 2000 + r.val, by have := lt50_1 t; omega⟩ : Fin 100000) j) := by
  show V c main_v14 (((cfg1.win 2).blk t).view.emb (ix2 r j)) = V c main_v14 _
  refine congrArg _ ?_
  funext a; apply Fin.ext
  have e := idx1 t
  match a with
  | ⟨0, _⟩ => show win1_2.index t (0 : Fin 2) * 2000 + 1 * r.val = t.val * 2000 + r.val; omega
  | ⟨1, _⟩ => show win1_2.index t (1 : Fin 2) * 1 + 1 * j.val = j.val; omega

/-- The first weight matrix is read whole at every tile. -/
theorem blk1_3 (t : Fin cfg1.N) : Fr.iblk1 V c 3 t = V c main_v32 := by
  funext y
  show V c main_v32 (((cfg1.win 3).blk t).view.emb y) = V c main_v32 y
  refine congrArg _ ?_
  funext a; apply Fin.ext
  have e := idx1 t
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The second weight matrix is read whole at every tile. -/
theorem blk1_4 (t : Fin cfg1.N) : Fr.iblk1 V c 4 t = V c main_v34 := by
  funext y
  show V c main_v34 (((cfg1.win 4).blk t).view.emb y) = V c main_v34 y
  refine congrArg _ ?_
  funext a; apply Fin.ext
  have e := idx1 t
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The bias is read whole at every tile. -/
theorem blk1_5 (t : Fin cfg1.N) : Fr.iblk1 V c 5 t = V c main_v36 := by
  funext y
  show V c main_v36 (((cfg1.win 5).blk t).view.emb y) = V c main_v36 y
  refine congrArg _ ?_
  funext a; apply Fin.ext
  have e := idx1 t
  match a with
  | ⟨0, _⟩ => show win1_5.index t (0 : Fin 1) * 128 + 1 * (y 0).val = (y 0).val; omega

/-- The layer's formula of the launch's input arrays, as an array. -/
abbrev G1 : Cert.Spec.Mat 100000 128 :=
  Cert.Spec.mk2 fun p q => Cert.Spec.sage (n := 100000) (V c main_v19) (V c main_v30) (fun p => V c main_v14 (ix2 p 0))
    (V c main_v32) (V c main_v34) (V c main_v36) p q

/-- What tile `t` writes back is tile `t` of the formula's array. -/
theorem flushed1 (t : Fin cfg1.N) :
    (Fr.dat1 V c).flushed 6 t = ((cfg1.win 6).blk t).view.read (Elt Ideal) (G1 V c) := by
  show (cfg1.win 6).cut (grid1.coords t) ((Fr.dat1 V c).after 6 t) = _
  rw [Fr.after1_6]
  refine funext fun (j : S2000x128.Idx) => ?_
  obtain ⟨r, q, rfl⟩ : ∃ (r : Fin 2000) (q : Fin 128), j = ix2 r q := ⟨j 0, j 1, eq_ix2 j⟩
  have he : ((cfg1.win 6).blk t).view.emb (ix2 r q)
      = ix2 (⟨t.val * 2000 + r.val, by have := lt50_1 t; omega⟩ : Fin 100000) q := by
    funext a; apply Fin.ext
    have e := idx1 t
    match a with
    | ⟨0, _⟩ => show win1_6.index t (0 : Fin 2) * 2000 + 1 * r.val = t.val * 2000 + r.val; omega
    | ⟨1, _⟩ => show win1_6.index t (1 : Fin 2) * 128 + 1 * q.val = q.val; omega
  show k1_pay1 (F := Ideal) (Fr.iblk1 V c 0 t) (Fr.iblk1 V c 1 t) (Fr.iblk1 V c 2 t) (Fr.iblk1 V c 3 t) (Fr.iblk1 V c 4 t)
      (Fr.iblk1 V c 5 t) (ix2 r q) = G1 V c (((cfg1.win 6).blk t).view.emb (ix2 r q))
  rw [he, blk1_3, blk1_4, blk1_5]
  refine (Pay.pay1 _ _ _ _ _ _ r q).trans ?_
  exact sage_row1 _ _ _ _ _ _ _ _ _ r _ q (fun j => blk1_0 V c t r j) (fun j => blk1_1 V c t r j) (blk1_2 V c t r 0)

/-- An index of the array is in tile `t` iff each coordinate is in the tile's range on its axis. -/
theorem mem_blk1 (t : Fin cfg1.N) (i : S100000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v37).slice (win1_6.rect t)).set ↔ _
  rw [View.set_slice_whole, Rect.mem_set_unit]
  exact Iff.rfl

/-- Every index of the array is in the tile of its row's quotient by 2000, and every tile is written back. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_6 _, ?_⟩
  rw [mem_blk1]
  have e := idx1 ⟨(i 0).val / 2000, by rw [hN]; omega⟩
  intro a
  match a with
  | ⟨0, _⟩ =>
    show win1_6.index _ (0 : Fin 2) * 2000 ≤ (i 0).val ∧ (i 0).val < win1_6.index _ (0 : Fin 2) * 2000 + 2000
    rw [e.2.2.2.2.2.2.2.2.2.2.2.1]; show (i 0).val / 2000 * 2000 ≤ (i 0).val ∧ (i 0).val < (i 0).val / 2000 * 2000 + 2000; omega
  | ⟨1, _⟩ =>
    show win1_6.index _ (1 : Fin 2) * 128 ≤ (i 1).val ∧ (i 1).val < win1_6.index _ (1 : Fin 2) * 128 + 128
    rw [e.2.2.2.2.2.2.2.2.2.2.2.2]; omega

/-- The array after the launch is the layer's formula of the launch's input arrays. -/
theorem final1 :
    (Fr.dat1 V c).arrAt 6 cfg1.N = Cert.Spec.mk2 fun p q => Cert.Spec.sage (n := 100000) (V c main_v19) (V c main_v30)
      (fun p => V c main_v14 (ix2 p 0)) (V c main_v32) (V c main_v34) (V c main_v36) p q :=
  (Fr.dat1 V c).arrAt_eq_of_cover 6 (G1 V c) (fun t _ => flushed1 V c t) (cover1)

end Cert.KernelIdeal.Fin

end
-- ==== Proof.Final2.lean ====
/-
  The array the second graph layer's launch leaves: every entry the layer's formula of the launch's input arrays.

  The launch cuts the node rows into fifty tiles of 2000 rows.  At tile `t` the body reads rows `2000 t … 2000 t + 1999`
  of the node features, of the neighbour sums and of the reciprocal degrees, and the whole weight matrices and bias;
  what it stores at `(r, q)` is the layer's formula at row `r` of those tiles, and the formula reads only that row,
  so it is the formula of the whole arrays at row `2000 t + r`.  The fifty tiles cover every row, so the array after
  the launch is the formula everywhere.
-/
import proofs.«175741_j7894149890553_2_alg».proof.Proof.FrameK2
import proofs.«175741_j7894149890553_2_alg».proof.Proof.Pay12
import proofs.«175741_j7894149890553_2_alg».proof.Proof.Spec

set_option maxRecDepth 16384

noncomputable section

open scoped BigOperators

namespace Cert.KernelIdeal.Fin

open Idealize.ShloMosaic Idealize.ShloMosaic.ValueIdx Cert.KernelIdeal Cert.KernelIdeal.Gen
open Idealize.ShloMosaic.TcCoe
open Idealize.ShloMosaic.Pipeline (Dat Cfg Window)

/-- The layer's formula reads only row `p` of the node rows, the neighbour sums and the reciprocal degrees: two sets of
    arrays that agree on that row give the same entry. -/
theorem sage_row2 {n n' : Nat} (x a : Cert.Spec.Mat n 128) (d : Fin n → EReal) (x' a' : Cert.Spec.Mat n' 128) (d' : Fin n' → EReal)
    (wl wr : Cert.Spec.Mat 128 128) (b : Cert.Spec.Vct 128) (p : Fin n) (p' : Fin n') (q : Fin 128)
    (hx : ∀ j : Fin 128, x (ix2 p j) = x' (ix2 p' j)) (ha : ∀ j : Fin 128, a (ix2 p j) = a' (ix2 p' j)) (hd : d p = d' p') :
    Cert.Spec.sage x a d wl wr b p q = Cert.Spec.sage x' a' d' wl wr b p' q := by
  unfold Cert.Spec.sage Cert.Spec.sagePre Cert.Spec.dot
  simp only [hx, ha, hd]

/-- The windows' block indices, decided over the fifty points: the row-tiled windows (node rows, neighbour sums,
    reciprocal degrees, the output) sit at block `(t, 0)`, the resident ones (weights, bias) at block zero. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

theorem lt50_2 (t : Fin cfg2.N) : t.val < 50 := N_2 ▸ t.isLt

variable (V : (c : Dev nD) → (b : Ref sig .tc) → Buf (Elt Ideal) ((c : Thread nD τ).loc b)) (c : Dev nD)

/-- Tile `t` of the node rows, read at `(r, j)`, is the array at row `2000 t + r`. -/
theorem blk2_0 (t : Fin cfg2.N) (r : Fin 2000) (j : Fin 128) :
    Fr.iblk2 V c 0 t (ix2 r j) = V c main_v37 (ix2 (⟨t.val * 2000 + r.val, by have := lt50_2 t; omega⟩ : Fin 100000) j) := by
  show V c main_v37 (((cfg2.win 0).blk t).view.emb (ix2 r j)) = V c main_v37 _
  refine congrArg _ ?_
  funext a; apply Fin.ext
  have e := idx2 t
  match a with
  | ⟨0, _⟩ => show win2_0.index t (0 : Fin 2) * 2000 + 1 * r.val = t.val * 2000 + r.val; omega
  | ⟨1, _⟩ => show win2_0.index t (1 : Fin 2) * 128 + 1 * j.val = j.val; omega

/-- Tile `t` of the neighbour sums, read at `(r, j)`, is the array at row `2000 t + r`. -/
theorem blk2_1 (t : Fin cfg2.N) (r : Fin 2000) (j : Fin 128) :
    Fr.iblk2 V c 1 t (ix2 r j) = V c main_v48 (ix2 (⟨t.val * 2000 + r.val, by have := lt50_2 t; omega⟩ : Fin 100000) j) := by
  show V c main_v48 (((cfg2.win 1).blk t).view.emb (ix2 r j)) = V c main_v48 _
  refine congrArg _ ?_
  funext a; apply Fin.ext
  have e := idx2 t
  match a with
  | ⟨0, _⟩ => show win2_1.index t (0 : Fin 2) * 2000 + 1 * r.val = t.val * 2000 + r.val; omega
  | ⟨1, _⟩ => show win2_1.index t (1 : Fin 2) * 128 + 1 * j.val = j.val; omega

/-- Tile `t` of the reciprocal degrees, read at `(r, 0)`, is the array at row `2000 t + r`. -/
theorem blk2_2 (t : Fin cfg2.N) (r : Fin 2000) (j : Fin 1) :
    Fr.iblk2 V c 2 t (ix2 r j) = V c main_v14 (ix2 (⟨t.val * 2000 + r.val, by have := lt50_2 t; omega⟩ : Fin 100000) j) := by
  show V c main_v14 (((cfg2.win 2).blk t).view.emb (ix2 r j)) = V c main_v14 _
  refine congrArg _ ?_
  funext a; apply Fin.ext
  have e := idx2 t
  match a with
  | ⟨0, _⟩ => show win2_2.index t (0 : Fin 2) * 2000 + 1 * r.val = t.val * 2000 + r.val; omega
  | ⟨1, _⟩ => show win2_2.index t (1 : Fin 2) * 1 + 1 * j.val = j.val; omega

/-- The first weight matrix is read whole at every tile. -/
theorem blk2_3 (t : Fin cfg2.N) : Fr.iblk2 V c 3 t = V c main_v50 := by
  funext y
  show V c main_v50 (((cfg2.win 3).blk t).view.emb y) = V c main_v50 y
  refine congrArg _ ?_
  funext a; apply Fin.ext
  have e := idx2 t
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The second weight matrix is read whole at every tile. -/
theorem blk2_4 (t : Fin cfg2.N) : Fr.iblk2 V c 4 t = V c main_v52 := by
  funext y
  show V c main_v52 (((cfg2.win 4).blk t).view.emb y) = V c main_v52 y
  refine congrArg _ ?_
  funext a; apply Fin.ext
  have e := idx2 t
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- The bias is read whole at every tile. -/
theorem blk2_5 (t : Fin cfg2.N) : Fr.iblk2 V c 5 t = V c main_v54 := by
  funext y
  show V c main_v54 (((cfg2.win 5).blk t).view.emb y) = V c main_v54 y
  refine congrArg _ ?_
  funext a; apply Fin.ext
  have e := idx2 t
  match a with
  | ⟨0, _⟩ => show win2_5.index t (0 : Fin 1) * 128 + 1 * (y 0).val = (y 0).val; omega

/-- The layer's formula of the launch's input arrays, as an array. -/
abbrev G2 : Cert.Spec.Mat 100000 128 :=
  Cert.Spec.mk2 fun p q => Cert.Spec.sage (n := 100000) (V c main_v37) (V c main_v48) (fun p => V c main_v14 (ix2 p 0))
    (V c main_v50) (V c main_v52) (V c main_v54) p q

/-- What tile `t` writes back is tile `t` of the formula's array. -/
theorem flushed2 (t : Fin cfg2.N) :
    (Fr.dat2 V c).flushed 6 t = ((cfg2.win 6).blk t).view.read (Elt Ideal) (G2 V c) := by
  show (cfg2.win 6).cut (grid2.coords t) ((Fr.dat2 V c).after 6 t) = _
  rw [Fr.after2_6]
  refine funext fun (j : S2000x128.Idx) => ?_
  obtain ⟨r, q, rfl⟩ : ∃ (r : Fin 2000) (q : Fin 128), j = ix2 r q := ⟨j 0, j 1, eq_ix2 j⟩
  have he : ((cfg2.win 6).blk t).view.emb (ix2 r q)
      = ix2 (⟨t.val * 2000 + r.val, by have := lt50_2 t; omega⟩ : Fin 100000) q := by
    funext a; apply Fin.ext
    have e := idx2 t
    match a with
    | ⟨0, _⟩ => show win2_6.index t (0 : Fin 2) * 2000 + 1 * r.val = t.val * 2000 + r.val; omega
    | ⟨1, _⟩ => show win2_6.index t (1 : Fin 2) * 128 + 1 * q.val = q.val; omega
  show k2_pay1 (F := Ideal) (Fr.iblk2 V c 0 t) (Fr.iblk2 V c 1 t) (Fr.iblk2 V c 2 t) (Fr.iblk2 V c 3 t) (Fr.iblk2 V c 4 t)
      (Fr.iblk2 V c 5 t) (ix2 r q) = G2 V c (((cfg2.win 6).blk t).view.emb (ix2 r q))
  rw [he, blk2_3, blk2_4, blk2_5]
  refine (Pay.pay2 _ _ _ _ _ _ r q).trans ?_
  exact sage_row2 _ _ _ _ _ _ _ _ _ r _ q (fun j => blk2_0 V c t r j) (fun j => blk2_1 V c t r j) (blk2_2 V c t r 0)

/-- An index of the array is in tile `t` iff each coordinate is in the tile's range on its axis. -/
theorem mem_blk2 (t : Fin cfg2.N) (i : S100000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v55).slice (win2_6.rect t)).set ↔ _
  rw [View.set_slice_whole, Rect.mem_set_unit]
  exact Iff.rfl

/-- Every index of the array is in the tile of its row's quotient by 2000, and every tile is written back. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 50 := N_2
  refine ⟨⟨(i 0).val / 2000, by rw [hN]; omega⟩, flush2_6 _, ?_⟩
  rw [mem_blk2]
  have e := idx2 ⟨(i 0).val / 2000, by rw [hN]; omega⟩
  intro a
  match a with
  | ⟨0, _⟩ =>
    show win2_6.index _ (0 : Fin 2) * 2000 ≤ (i 0).val ∧ (i 0).val < win2_6.index _ (0 : Fin 2) * 2000 + 2000
    rw [e.2.2.2.2.2.2.2.2.2.2.2.1]; show (i 0).val / 2000 * 2000 ≤ (i 0).val ∧ (i 0).val < (i 0).val / 2000 * 2000 + 2000; omega
  | ⟨1, _⟩ =>
    show win2_6.index _ (1 : Fin 2) * 128 ≤ (i 1).val ∧ (i 1).val < win2_6.index _ (1 : Fin 2) * 128 + 128
    rw [e.2.2.2.2.2.2.2.2.2.2.2.2]; omega

/-- The array after the launch is the layer's formula of the launch's input arrays. -/
theorem final2 :
    (Fr.dat2 V c).arrAt 6 cfg2.N = Cert.Spec.mk2 fun p q => Cert.Spec.sage (n := 100000) (V c main_v37) (V c main_v48)
      (fun p => V c main_v14 (ix2 p 0)) (V c main_v50) (V c main_v52) (V c main_v54) p q :=
  (Fr.dat2 V c).arrAt_eq_of_cover 6 (G2 V c) (fun t _ => flushed2 V c t) (cover2)

end Cert.KernelIdeal.Fin

end
-- ==== Proof.Pay3.lean ====
/-
  The values the last graph layer's body stores, read at an index, on the extended reals.

  The body computes the third graph layer without a rectifier and stores its rows; it then feeds those rows to the
  node head: an affine map and the rectifier give a hidden row, and the hidden row against the one output column,
  plus its bias, is the node's output.  On the extended reals the roundings between the steps are the identity and
  each matrix product into the zero accumulator is the exact sum over its contraction index.
-/
import proofs.«175741_j7894149890553_2_alg».proof.Proof.Gen.KernelIdeal.Skeleton
import proofs.«175741_j7894149890553_2_alg».proof.Proof.Spec
import proofs.«175741_j7894149890553_2_alg».proof.Proof.LibPlainMatmul
import proofs.«175741_j7894149890553_2_alg».proof.Proof.LibLayerEntry
import proofs.«175741_j7894149890553_2_alg».proof.Proof.LibCombine
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen

/-! The coordinate facts of the two dimension records: the 128-deep product into 128 columns, and into one column. -/

private theorem d128_l0 (j : S2000x128.Idx) (k : dot_S2000x128_S128x128_S2000x128_1_0_0_1_n_n.contr.Idx) :
    (dot_S2000x128_S128x128_S2000x128_1_0_0_1_n_n.lhsIdx j k ⟨0, Nat.zero_lt_two⟩).val = (j ⟨0, Nat.zero_lt_two⟩).val := by
  unfold DotDims.lhsIdx
  rw [dif_neg (show ¬(⟨0, Nat.zero_lt_two⟩ : Fin 2) ∈ dot_S2000x128_S128x128_S2000x128_1_0_0_1_n_n.lhsBatch by decide),
    dif_pos (show (⟨0, Nat.zero_lt_two⟩ : Fin 2) ∈ dot_S2000x128_S128x128_S2000x128_1_0_0_1_n_n.lhsNonContracting by decide)]
  rfl
private theorem d128_l1 (j : S2000x128.Idx) (k : dot_S2000x128_S128x128_S2000x128_1_0_0_1_n_n.contr.Idx) :
    (dot_S2000x128_S128x128_S2000x128_1_0_0_1_n_n.lhsIdx j k ⟨1, Nat.one_lt_two⟩).val = (k ⟨0, by decide⟩).val :=
  dot_S2000x128_S128x128_S2000x128_1_0_0_1_n_n.lhsIdx_val_of_single rfl j k
private theorem d128_r0 (j : S2000x128.Idx) (k : dot_S2000x128_S128x128_S2000x128_1_0_0_1_n_n.contr.Idx) :
    (dot_S2000x128_S128x128_S2000x128_1_0_0_1_n_n.rhsIdx j k ⟨0, Nat.zero_lt_two⟩).val = (k ⟨0, by decide⟩).val :=
  dot_S2000x128_S128x128_S2000x128_1_0_0_1_n_n.rhsIdx_val_of_single rfl j k
private theorem d128_r1 (j : S2000x128.Idx) (k : dot_S2000x128_S128x128_S2000x128_1_0_0_1_n_n.contr.Idx) :
    (dot_S2000x128_S128x128_S2000x128_1_0_0_1_n_n.rhsIdx j k ⟨1, Nat.one_lt_two⟩).val = (j ⟨1, Nat.one_lt_two⟩).val := by
  unfold DotDims.rhsIdx
  rw [dif_neg (show ¬(⟨1, Nat.one_lt_two⟩ : Fin 2) ∈ dot_S2000x128_S128x128_S2000x128_1_0_0_1_n_n.rhsBatch by decide),
    dif_pos (show (⟨1, Nat.one_lt_two⟩ : Fin 2) ∈ dot_S2000x128_S128x128_S2000x128_1_0_0_1_n_n.rhsNonContracting by decide)]
  rfl

private theorem d1_l0 (j : S2000x1.Idx) (k : dot_S2000x128_S128x1_S2000x1_1_0_0_1_n_n.contr.Idx) :
    (dot_S2000x128_S128x1_S2000x1_1_0_0_1_n_n.lhsIdx j k ⟨0, Nat.zero_lt_two⟩).val = (j ⟨0, Nat.zero_lt_two⟩).val := by
  unfold DotDims.lhsIdx
  rw [dif_neg (show ¬(⟨0, Nat.zero_lt_two⟩ : Fin 2) ∈ dot_S2000x128_S128x1_S2000x1_1_0_0_1_n_n.lhsBatch by decide),
    dif_pos (show (⟨0, Nat.zero_lt_two⟩ : Fin 2) ∈ dot_S2000x128_S128x1_S2000x1_1_0_0_1_n_n.lhsNonContracting by decide)]
  rfl
private theorem d1_l1 (j : S2000x1.Idx) (k : dot_S2000x128_S128x1_S2000x1_1_0_0_1_n_n.contr.Idx) :
    (dot_S2000x128_S128x1_S2000x1_1_0_0_1_n_n.lhsIdx j k ⟨1, Nat.one_lt_two⟩).val = (k ⟨0, by decide⟩).val :=
  dot_S2000x128_S128x1_S2000x1_1_0_0_1_n_n.lhsIdx_val_of_single rfl j k
private theorem d1_r0 (j : S2000x1.Idx) (k : dot_S2000x128_S128x1_S2000x1_1_0_0_1_n_n.contr.Idx) :
    (dot_S2000x128_S128x1_S2000x1_1_0_0_1_n_n.rhsIdx j k ⟨0, Nat.zero_lt_two⟩).val = (k ⟨0, by decide⟩).val :=
  dot_S2000x128_S128x1_S2000x1_1_0_0_1_n_n.rhsIdx_val_of_single rfl j k
private theorem d1_r1 (j : S2000x1.Idx) (k : dot_S2000x128_S128x1_S2000x1_1_0_0_1_n_n.contr.Idx) :
    (dot_S2000x128_S128x1_S2000x1_1_0_0_1_n_n.rhsIdx j k ⟨1, Nat.one_lt_two⟩).val = (j ⟨1, Nat.one_lt_two⟩).val := by
  unfold DotDims.rhsIdx
  rw [dif_neg (show ¬(⟨1, Nat.one_lt_two⟩ : Fin 2) ∈ dot_S2000x128_S128x1_S2000x1_1_0_0_1_n_n.rhsBatch by decide),
    dif_pos (show (⟨1, Nat.one_lt_two⟩ : Fin 2) ∈ dot_S2000x128_S128x1_S2000x1_1_0_0_1_n_n.rhsNonContracting by decide)]
  rfl

/-- The layer before its rectifier, in the body's spelling, read at `(r, q)`. -/
private theorem layer_apply (x : FVec Ideal S2000x128 .bf16) (a : FVec Ideal S2000x128 .f32) (d : FVec Ideal S2000x1 .f32)
    (wl wr : FVec Ideal S128x128 .f32) (b : FVec Ideal S128 .f32) (r : Fin 2000) (q : Fin 128) :
    addf
        (addf
          (matmul dot_S2000x128_S128x128_S2000x128_1_0_0_1_n_n none x (truncf .bf16 wl bitsLt_bf16_f32) (constant S2000x128 .f32 0x00000000#32))
          (matmul dot_S2000x128_S128x128_S2000x128_1_0_0_1_n_n none
            (truncf .bf16 (mulf a (broadcastTo S2000x128 d broadcasts_S2000x1_S2000x128)) bitsLt_bf16_f32)
            (truncf .bf16 wr bitsLt_bf16_f32) (constant S2000x128 .f32 0x00000000#32)))
        (broadcastTo S2000x128 (shapeCast S1x128 b shapeCasts_S128_S1x128) broadcasts_S1x128_S2000x128) (ix2 r q)
      = Cert.Spec.sagePre (n := 2000) x a (fun p => d (ix2 p 0)) wl wr b r q := by
  refine (Cert.Sage.products_bias_apply dot_S2000x128_S128x128_S2000x128_1_0_0_1_n_n rfl rfl d128_l0 d128_l1 d128_r0 d128_r1 _ _ _ _ _ _ r q).trans ?_
  rw [Cert.Lib.Combine.shapeCast_row_apply]
  unfold Cert.Spec.sagePre Cert.Spec.dot
  refine congrArg (· + b (ix1 q)) (congrArg₂ (· + ·) rfl (Finset.sum_congr rfl fun k _ => ?_))
  rw [truncf_apply, truncf_apply, mulf_apply, Cert.Lib.Combine.broadcastTo_col_apply]

/-- The stored rows of the third layer. -/
theorem pay3_emb (v0 : Vec Ideal S2000x128 .bf16) (v2 : Vec Ideal S2000x128 .f32) (v4 : Vec Ideal S2000x1 .f32)
    (v9 v12 : Vec Ideal S128x128 .f32) (v18 : Vec Ideal S128 .f32) (r : Fin 2000) (q : Fin 128) :
    k3_pay2 (F := Ideal) v0 v2 v4 v9 v12 v18 (ix2 r q)
      = Cert.Spec.sagePre (n := 2000) v0 v2 (fun p => v4 (ix2 p 0)) v9 v12 v18 r q := by
  unfold k3_pay2
  simp only [shapeCast_self]
  rw [truncf_apply, layer_apply]

/-- The node head's hidden row: the stored rows against the first weight matrix, plus the bias, rectified. -/
theorem pay3_hid (v0 : Vec Ideal S2000x128 .bf16) (v2 : Vec Ideal S2000x128 .f32) (v4 : Vec Ideal S2000x1 .f32)
    (v9 v12 : Vec Ideal S128x128 .f32) (v18 : Vec Ideal S128 .f32) (v25 : Vec Ideal S128x128 .f32) (v28 : Vec Ideal S128 .f32)
    (r : Fin 2000) (k : Fin 128) :
    k3_pay3 (F := Ideal) v0 v2 v4 v9 v12 v18 v25 v28 (ix2 r k)
      = Cert.Spec.hidden (n := 2000)
          (Cert.Spec.mk2 fun p q => Cert.Spec.sagePre v0 v2 (fun p => v4 (ix2 p 0)) v9 v12 v18 p q) v25 v28 r k := by
  unfold k3_pay3
  rw [truncf_apply, maximumf_apply, broadcast_apply, addf_apply]
  refine (congrArg (max · _) (congrArg₂ (· + ·)
    (Cert.Lib.PlainMatmul.matmul_zero_apply dot_S2000x128_S128x128_S2000x128_1_0_0_1_n_n rfl rfl d128_l0 d128_l1 d128_r0 d128_r1 none _ _ r k)
    ((broadcastTo_1b_ab_apply _ _ r k).trans (Cert.Lib.Combine.shapeCast_row_apply v28 _ k)))).trans ?_
  unfold Cert.Spec.hidden Cert.Spec.relu Cert.Spec.dot
  refine congrArg (max · _) (congrArg (· + v28 (ix1 k)) (Finset.sum_congr rfl fun j _ => ?_))
  rw [pay3_emb, truncf_apply, Cert.Spec.mk2_apply]

/-- The node head's output. -/
theorem pay3_out (v0 : Vec Ideal S2000x128 .bf16) (v2 : Vec Ideal S2000x128 .f32) (v4 : Vec Ideal S2000x1 .f32)
    (v9 v12 : Vec Ideal S128x128 .f32) (v18 : Vec Ideal S128 .f32) (v25 : Vec Ideal S128x128 .f32) (v28 : Vec Ideal S128 .f32)
    (v35 : Vec Ideal S128x1 .f32) (v38 : Vec Ideal S1 .f32) (r : Fin 2000) :
    k3_pay1 (F := Ideal) (k3_pay3 v0 v2 v4 v9 v12 v18 v25 v28) v35 v38 (ix2 r 0)
      = Cert.Spec.nodeOut (n := 2000)
          (Cert.Spec.mk2 fun p q => Cert.Spec.sagePre v0 v2 (fun p => v4 (ix2 p 0)) v9 v12 v18 p q) v25 v28 v35 v38 r := by
  unfold k3_pay1
  rw [addf_apply]
  refine (congrArg₂ (· + ·)
    (Cert.Lib.PlainMatmul.matmul_zero_apply dot_S2000x128_S128x1_S2000x1_1_0_0_1_n_n rfl rfl d1_l0 d1_l1 d1_r0 d1_r1 none _ _ r (0 : Fin 1))
    ((broadcastTo_1b_ab_apply _ _ r (0 : Fin 1)).trans (Cert.Lib.Combine.shapeCast_row_apply v38 _ (0 : Fin 1)))).trans ?_
  unfold Cert.Spec.nodeOut
  refine congrArg (· + v38 (ix1 0)) (Finset.sum_congr rfl fun k _ => ?_)
  rw [pay3_hid, truncf_apply]

end Cert.KernelIdeal.Pay

end
-- ==== Proof.SpecLocal.lean ====
/-
  Each formula of the network reads only one row of the arrays that are indexed by node or by edge.

  The encoder, a graph layer, and the two heads compute the value for node `p` (or edge `e`) from row `p` of
  the node-indexed arrays (row `e` of the edge-indexed ones) and from the weights.  So two families of arrays,
  possibly with different numbers of rows, that agree on one row each give the same value there.  This is what
  lets a value computed on a tile of rows be compared with the value computed on the whole array.
-/
import proofs.«175741_j7894149890553_2_alg».proof.Proof.Spec

open scoped BigOperators

noncomputable section

namespace Cert.Spec

open Idealize.ShloMosaic Idealize.ShloMosaic.ValueIdx

/-- A matrix product's entry in row `p` reads only row `p` of the left factor. -/
theorem dot_local {n n' k d : Nat} (x : Mat n k) (x' : Mat n' k) (w : Mat k d) (p : Fin n) (p' : Fin n')
    (h : ∀ j : Fin k, x (ix2 p j) = x' (ix2 p' j)) (q : Fin d) : dot x w p q = dot x' w p' q := by
  unfold dot
  exact Finset.sum_congr rfl fun j _ => by rw [h j]

/-- The encoder's row `p` reads only row `p` of the features. -/
theorem enc_local {n n' : Nat} (nf : Mat n 8) (nf' : Mat n' 8) (w : Mat 8 128) (b : Vct 128) (p : Fin n) (p' : Fin n')
    (h : ∀ j : Fin 8, nf (ix2 p j) = nf' (ix2 p' j)) (q : Fin 128) : enc nf w b p q = enc nf' w b p' q := by
  unfold enc
  rw [dot_local nf nf' w p p' h q]

/-- A graph layer's row `p`, before the rectifier, reads only row `p` of the nodes' rows and of the neighbour sums,
    and the reciprocal degree of `p`. -/
theorem sagePre_local {n n' : Nat} (x a : Mat n 128) (x' a' : Mat n' 128) (d : Fin n → EReal) (d' : Fin n' → EReal)
    (wl wr : Mat 128 128) (b : Vct 128) (p : Fin n) (p' : Fin n')
    (hx : ∀ j : Fin 128, x (ix2 p j) = x' (ix2 p' j)) (ha : ∀ j : Fin 128, a (ix2 p j) = a' (ix2 p' j))
    (hd : d p = d' p') (q : Fin 128) : sagePre x a d wl wr b p q = sagePre x' a' d' wl wr b p' q := by
  have hs : (∑ j : Fin 128, (a (ix2 p j) * d p) * wr (ix2 j q))
      = ∑ j : Fin 128, (a' (ix2 p' j) * d' p') * wr (ix2 j q) :=
    Finset.sum_congr rfl fun j _ => by rw [ha j, hd]
  unfold sagePre
  rw [dot_local x x' wl p p' hx q, hs]

/-- The same for a graph layer followed by the rectifier. -/
theorem sage_local {n n' : Nat} (x a : Mat n 128) (x' a' : Mat n' 128) (d : Fin n → EReal) (d' : Fin n' → EReal)
    (wl wr : Mat 128 128) (b : Vct 128) (p : Fin n) (p' : Fin n')
    (hx : ∀ j : Fin 128, x (ix2 p j) = x' (ix2 p' j)) (ha : ∀ j : Fin 128, a (ix2 p j) = a' (ix2 p' j))
    (hd : d p = d' p') (q : Fin 128) : sage x a d wl wr b p q = sage x' a' d' wl wr b p' q := by
  unfold sage
  rw [sagePre_local x a x' a' d d' wl wr b p p' hx ha hd q]

/-- A head's hidden row `p` reads only row `p` of its input. -/
theorem hidden_local {n n' : Nat} (e : Mat n 128) (e' : Mat n' 128) (w1 : Mat 128 128) (b1 : Vct 128) (p : Fin n) (p' : Fin n')
    (h : ∀ j : Fin 128, e (ix2 p j) = e' (ix2 p' j)) (k : Fin 128) : hidden e w1 b1 p k = hidden e' w1 b1 p' k := by
  unfold hidden
  rw [dot_local e e' w1 p p' h k]

/-- The node head's output for node `p` reads only row `p` of its input. -/
theorem nodeOut_local {n n' : Nat} (e : Mat n 128) (e' : Mat n' 128) (w1 : Mat 128 128) (b1 : Vct 128) (w2 : Mat 128 1)
    (b2 : Vct 1) (p : Fin n) (p' : Fin n') (h : ∀ j : Fin 128, e (ix2 p j) = e' (ix2 p' j)) :
    nodeOut e w1 b1 w2 b2 p = nodeOut e' w1 b1 w2 b2 p' := by
  have hs : (∑ k : Fin 128, hidden e w1 b1 p k * w2 (ix2 k 0)) = ∑ k : Fin 128, hidden e' w1 b1 p' k * w2 (ix2 k 0) :=
    Finset.sum_congr rfl fun k _ => by rw [hidden_local e e' w1 b1 p p' h k]
  unfold nodeOut
  rw [hs]

/-- The edge head's pre-activation for edge `e` reads only row `e` of the two end points' rows and of the edge features. -/
theorem edgePre_local {m m' : Nat} (gs gd : Mat m 128) (ex : Mat m 6) (gs' gd' : Mat m' 128) (ex' : Mat m' 6)
    (ws wd : Mat 128 128) (we : Mat 6 128) (b : Vct 128) (e : Fin m) (e' : Fin m')
    (hs : ∀ j : Fin 128, gs (ix2 e j) = gs' (ix2 e' j)) (hd : ∀ j : Fin 128, gd (ix2 e j) = gd' (ix2 e' j))
    (hx : ∀ j : Fin 6, ex (ix2 e j) = ex' (ix2 e' j)) (q : Fin 128) :
    edgePre gs gd ex ws wd we b e q = edgePre gs' gd' ex' ws wd we b e' q := by
  unfold edgePre
  rw [dot_local gs gs' ws e e' hs q, dot_local gd gd' wd e e' hd q, dot_local ex ex' we e e' hx q]

/-- The edge head's output for edge `e` reads only row `e` of the two end points' rows and of the edge features. -/
theorem edgeOut_local {m m' : Nat} (gs gd : Mat m 128) (ex : Mat m 6) (gs' gd' : Mat m' 128) (ex' : Mat m' 6)
    (ws wd : Mat 128 128) (we : Mat 6 128) (b : Vct 128) (w2 : Mat 128 1) (b2 : Vct 1) (e : Fin m) (e' : Fin m')
    (hs : ∀ j : Fin 128, gs (ix2 e j) = gs' (ix2 e' j)) (hd : ∀ j : Fin 128, gd (ix2 e j) = gd' (ix2 e' j))
    (hx : ∀ j : Fin 6, ex (ix2 e j) = ex' (ix2 e' j)) :
    edgeOut gs gd ex ws wd we b w2 b2 e = edgeOut gs' gd' ex' ws wd we b w2 b2 e' := by
  have hsum : (∑ k : Fin 128, relu (edgePre gs gd ex ws wd we b e k) * w2 (ix2 k 0))
      = ∑ k : Fin 128, relu (edgePre gs' gd' ex' ws wd we b e' k) * w2 (ix2 k 0) :=
    Finset.sum_congr rfl fun k _ => by rw [edgePre_local gs gd ex gs' gd' ex' ws wd we b e e' hs hd hx k]
  unfold edgeOut
  rw [hsum]

end Cert.Spec

end
-- ==== Proof.Final3.lean ====
/-
  Launch 3 of the kernel program (the last graph layer and the node head), from blocks to the arrays.

  The launch walks 50 tiles of 2000 nodes. At tile `t` the body reads rows `2000 t … 2000 t + 1999` of the previous
  layer's rows, of the neighbour sums and of the reciprocal degrees, and the whole of the layer's and the head's
  parameters; it writes the layer's value back as rows `2000 t … 2000 t + 1999` of the first output and the head's value
  of those rows as the same rows of the second. The layer's value at node `p` reads only row `p` of the node-indexed
  arrays, and the head's value at `p` only row `p` of the layer's, so what tile `t` writes back is block `t` of ONE
  array per output: the layer of the whole arrays, and the head of that. The 50 blocks cover each output, which
  therefore ends holding that array.
-/
import proofs.«175741_j7894149890553_2_alg».proof.Proof.FrameK3
import proofs.«175741_j7894149890553_2_alg».proof.Proof.Pay3
import proofs.«175741_j7894149890553_2_alg».proof.Proof.Spec
import proofs.«175741_j7894149890553_2_alg».proof.Proof.SpecLocal
import Idealize.ShloMosaic.Lib.Pipeline.Value

noncomputable section

open scoped BigOperators

namespace Cert.KernelIdeal.Fin

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The windows' arrays and the index maps over the grid -/

/-- The arrays of the launch's twelve windows, in operand order. -/
theorem arrRef3 : Pipeline.arrRef spec3 0 = main_v55
    ∧ Pipeline.arrRef spec3 1 = main_v66
    ∧ Pipeline.arrRef spec3 2 = main_v14
    ∧ Pipeline.arrRef spec3 3 = main_v68
    ∧ Pipeline.arrRef spec3 4 = main_v70
    ∧ Pipeline.arrRef spec3 5 = main_v72
    ∧ Pipeline.arrRef spec3 6 = main_arg12
    ∧ Pipeline.arrRef spec3 7 = main_arg13
    ∧ Pipeline.arrRef spec3 8 = main_arg14
    ∧ Pipeline.arrRef spec3 9 = main_arg15
    ∧ Pipeline.arrRef spec3 10 = main_v73_0
    ∧ Pipeline.arrRef spec3 11 = main_v73_1 :=
  ⟨rfl, rfl, rfl, rfl, rfl, rfl, rfl, rfl, rfl, rfl, rfl, rfl⟩

/-- The printed index map of window 0, decided over the 50 points: block `(t, 0)`. -/
theorem idx3_0 : ∀ t : Fin cfg3.N, win3_0.index t (0 : Fin 2) = t.val ∧ win3_0.index t (1 : Fin 2) = 0 :=
  (by decide +kernel : ∀ t : Fin grid3.N, _)
/-- The printed index map of window 1, decided over the 50 points: block `(t, 0)`. -/
theorem idx3_1 : ∀ t : Fin cfg3.N, win3_1.index t (0 : Fin 2) = t.val ∧ win3_1.index t (1 : Fin 2) = 0 :=
  (by decide +kernel : ∀ t : Fin grid3.N, _)
/-- The printed index map of window 2, decided over the 50 points: block `(t, 0)`. -/
theorem idx3_2 : ∀ t : Fin cfg3.N, win3_2.index t (0 : Fin 2) = t.val ∧ win3_2.index t (1 : Fin 2) = 0 :=
  (by decide +kernel : ∀ t : Fin grid3.N, _)
/-- The printed index map of window 3, decided over the 50 points: block zero. -/
theorem idx3_3 : ∀ t : Fin cfg3.N, win3_3.index t (0 : Fin 2) = 0 ∧ win3_3.index t (1 : Fin 2) = 0 :=
  (by decide +kernel : ∀ t : Fin grid3.N, _)
/-- The printed index map of window 4, decided over the 50 points: block zero. -/
theorem idx3_4 : ∀ t : Fin cfg3.N, win3_4.index t (0 : Fin 2) = 0 ∧ win3_4.index t (1 : Fin 2) = 0 :=
  (by decide +kernel : ∀ t : Fin grid3.N, _)
/-- The printed index map of window 5, decided over the 50 points: block zero. -/
theorem idx3_5 : ∀ t : Fin cfg3.N, win3_5.index t (0 : Fin 1) = 0 :=
  (by decide +kernel : ∀ t : Fin grid3.N, _)
/-- The printed index map of window 6, decided over the 50 points: block zero. -/
theorem idx3_6 : ∀ t : Fin cfg3.N, win3_6.index t (0 : Fin 2) = 0 ∧ win3_6.index t (1 : Fin 2) = 0 :=
  (by decide +kernel : ∀ t : Fin grid3.N, _)
/-- The printed index map of window 7, decided over the 50 points: block zero. -/
theorem idx3_7 : ∀ t : Fin cfg3.N, win3_7.index t (0 : Fin 1) = 0 :=
  (by decide +kernel : ∀ t : Fin grid3.N, _)
/-- The printed index map of window 8, decided over the 50 points: block zero. -/
theorem idx3_8 : ∀ t : Fin cfg3.N, win3_8.index t (0 : Fin 2) = 0 ∧ win3_8.index t (1 : Fin 2) = 0 :=
  (by decide +kernel : ∀ t : Fin grid3.N, _)
/-- The printed index map of window 9, decided over the 50 points: block zero. -/
theorem idx3_9 : ∀ t : Fin cfg3.N, win3_9.index t (0 : Fin 1) = 0 :=
  (by decide +kernel : ∀ t : Fin grid3.N, _)
/-- The printed index map of window 10, decided over the 50 points: block `(t, 0)`. -/
theorem idx3_10 : ∀ t : Fin cfg3.N, win3_10.index t (0 : Fin 2) = t.val ∧ win3_10.index t (1 : Fin 2) = 0 :=
  (by decide +kernel : ∀ t : Fin grid3.N, _)
/-- The printed index map of window 11, decided over the 50 points: block `(t, 0)`. -/
theorem idx3_11 : ∀ t : Fin cfg3.N, win3_11.index t (0 : Fin 2) = t.val ∧ win3_11.index t (1 : Fin 2) = 0 :=
  (by decide +kernel : ∀ t : Fin grid3.N, _)

/-- Row `r` of tile `t` is row `2000 t + r` of the array. -/
def row3 (t : Fin cfg3.N) (r : Fin 2000) : Fin 100000 :=
  ⟨t.val * 2000 + r.val, by have h : t.val < 50 := lt_of_lt_of_eq t.isLt N_3; omega⟩

/-! ## The blocks as reads of the arrays -/

/-- Window 0's block of tile `t` at `(r, j)` is its array at `(2000 t + r, j)`. -/
theorem blk3_0 (c : Dev nD) (t : Fin cfg3.N) (r : Fin 2000) (j : Fin 128) :
    (Fr.iblk3 V c 0 t : Vec Ideal S2000x128 .bf16) (ix2 r j) = (V c main_v55 : S100000x128.Idx → EReal) (ix2 (row3 t r) j) := by
  show V c main_v55 (((cfg3.win 0).blk t).view.emb (ix2 r j)) = V c main_v55 _
  refine congrArg _ ?_
  funext a; apply Fin.ext
  match a with
  | ⟨0, _⟩ => show win3_0.index t (0 : Fin 2) * 2000 + 1 * r.val = t.val * 2000 + r.val; rw [(idx3_0 t).1]; omega
  | ⟨1, _⟩ => show win3_0.index t (1 : Fin 2) * 128 + 1 * j.val = j.val; rw [(idx3_0 t).2]; omega

/-- Window 1's block of tile `t` at `(r, j)` is its array at `(2000 t + r, j)`. -/
theorem blk3_1 (c : Dev nD) (t : Fin cfg3.N) (r : Fin 2000) (j : Fin 128) :
    (Fr.iblk3 V c 1 t : Vec Ideal S2000x128 .f32) (ix2 r j) = (V c main_v66 : S100000x128.Idx → EReal) (ix2 (row3 t r) j) := by
  show V c main_v66 (((cfg3.win 1).blk t).view.emb (ix2 r j)) = V c main_v66 _
  refine congrArg _ ?_
  funext a; apply Fin.ext
  match a with
  | ⟨0, _⟩ => show win3_1.index t (0 : Fin 2) * 2000 + 1 * r.val = t.val * 2000 + r.val; rw [(idx3_1 t).1]; omega
  | ⟨1, _⟩ => show win3_1.index t (1 : Fin 2) * 128 + 1 * j.val = j.val; rw [(idx3_1 t).2]; omega

/-- Window 2's block of tile `t` at `(r, j)` is its array at `(2000 t + r, j)`. -/
theorem blk3_2 (c : Dev nD) (t : Fin cfg3.N) (r : Fin 2000) (j : Fin 1) :
    (Fr.iblk3 V c 2 t : Vec Ideal S2000x1 .f32) (ix2 r j) = (V c main_v14 : S100000x1.Idx → EReal) (ix2 (row3 t r) j) := by
  show V c main_v14 (((cfg3.win 2).blk t).view.emb (ix2 r j)) = V c main_v14 _
  refine congrArg _ ?_
  funext a; apply Fin.ext
  match a with
  | ⟨0, _⟩ => show win3_2.index t (0 : Fin 2) * 2000 + 1 * r.val = t.val * 2000 + r.val; rw [(idx3_2 t).1]; omega
  | ⟨1, _⟩ => show win3_2.index t (1 : Fin 2) * 1 + 1 * j.val = j.val; rw [(idx3_2 t).2]; omega

/-- Window 3's block of every tile is its whole array. -/
theorem blk3_3 (c : Dev nD) (t : Fin cfg3.N) :
    (Fr.iblk3 V c 3 t : Vec Ideal S128x128 .f32) = (V c main_v68 : S128x128.Idx → EReal) := by
  funext y
  show V c main_v68 (((cfg3.win 3).blk t).view.emb y) = V c main_v68 y
  refine congrArg _ ?_
  funext a; apply Fin.ext
  match a with
  | ⟨0, _⟩ => show win3_3.index t (0 : Fin 2) * 128 + 1 * (y 0).val = (y 0).val; rw [(idx3_3 t).1]; omega
  | ⟨1, _⟩ => show win3_3.index t (1 : Fin 2) * 128 + 1 * (y 1).val = (y 1).val; rw [(idx3_3 t).2]; omega

/-- Window 4's block of every tile is its whole array. -/
theorem blk3_4 (c : Dev nD) (t : Fin cfg3.N) :
    (Fr.iblk3 V c 4 t : Vec Ideal S128x128 .f32) = (V c main_v70 : S128x128.Idx → EReal) := by
  funext y
  show V c main_v70 (((cfg3.win 4).blk t).view.emb y) = V c main_v70 y
  refine congrArg _ ?_
  funext a; apply Fin.ext
  match a with
  | ⟨0, _⟩ => show win3_4.index t (0 : Fin 2) * 128 + 1 * (y 0).val = (y 0).val; rw [(idx3_4 t).1]; omega
  | ⟨1, _⟩ => show win3_4.index t (1 : Fin 2) * 128 + 1 * (y 1).val = (y 1).val; rw [(idx3_4 t).2]; omega

/-- Window 5's block of every tile is its whole array. -/
theorem blk3_5 (c : Dev nD) (t : Fin cfg3.N) :
    (Fr.iblk3 V c 5 t : Vec Ideal S128 .f32) = (V c main_v72 : S128.Idx → EReal) := by
  funext y
  show V c main_v72 (((cfg3.win 5).blk t).view.emb y) = V c main_v72 y
  refine congrArg _ ?_
  funext a; apply Fin.ext
  match a with
  | ⟨0, _⟩ => show win3_5.index t (0 : Fin 1) * 128 + 1 * (y 0).val = (y 0).val; rw [(idx3_5 t)]; omega

/-- Window 6's block of every tile is its whole array. -/
theorem blk3_6 (c : Dev nD) (t : Fin cfg3.N) :
    (Fr.iblk3 V c 6 t : Vec Ideal S128x128 .f32) = (V c main_arg12 : S128x128.Idx → EReal) := by
  funext y
  show V c main_arg12 (((cfg3.win 6).blk t).view.emb y) = V c main_arg12 y
  refine congrArg _ ?_
  funext a; apply Fin.ext
  match a with
  | ⟨0, _⟩ => show win3_6.index t (0 : Fin 2) * 128 + 1 * (y 0).val = (y 0).val; rw [(idx3_6 t).1]; omega
  | ⟨1, _⟩ => show win3_6.index t (1 : Fin 2) * 128 + 1 * (y 1).val = (y 1).val; rw [(idx3_6 t).2]; omega

/-- Window 7's block of every tile is its whole array. -/
theorem blk3_7 (c : Dev nD) (t : Fin cfg3.N) :
    (Fr.iblk3 V c 7 t : Vec Ideal S128 .f32) = (V c main_arg13 : S128.Idx → EReal) := by
  funext y
  show V c main_arg13 (((cfg3.win 7).blk t).view.emb y) = V c main_arg13 y
  refine congrArg _ ?_
  funext a; apply Fin.ext
  match a with
  | ⟨0, _⟩ => show win3_7.index t (0 : Fin 1) * 128 + 1 * (y 0).val = (y 0).val; rw [(idx3_7 t)]; omega

/-- Window 8's block of every tile is its whole array. -/
theorem blk3_8 (c : Dev nD) (t : Fin cfg3.N) :
    (Fr.iblk3 V c 8 t : Vec Ideal S128x1 .f32) = (V c main_arg14 : S128x1.Idx → EReal) := by
  funext y
  show V c main_arg14 (((cfg3.win 8).blk t).view.emb y) = V c main_arg14 y
  refine congrArg _ ?_
  funext a; apply Fin.ext
  match a with
  | ⟨0, _⟩ => show win3_8.index t (0 : Fin 2) * 128 + 1 * (y 0).val = (y 0).val; rw [(idx3_8 t).1]; omega
  | ⟨1, _⟩ => show win3_8.index t (1 : Fin 2) * 1 + 1 * (y 1).val = (y 1).val; rw [(idx3_8 t).2]; omega

/-- Window 9's block of every tile is its whole array. -/
theorem blk3_9 (c : Dev nD) (t : Fin cfg3.N) :
    (Fr.iblk3 V c 9 t : Vec Ideal S1 .f32) = (V c main_arg15 : S1.Idx → EReal) := by
  funext y
  show V c main_arg15 (((cfg3.win 9).blk t).view.emb y) = V c main_arg15 y
  refine congrArg _ ?_
  funext a; apply Fin.ext
  match a with
  | ⟨0, _⟩ => show win3_9.index t (0 : Fin 1) * 1 + 1 * (y 0).val = (y 0).val; rw [(idx3_9 t)]; omega

/-- An element `(r, q)` of output window 10's block of tile `t` sits at `(2000 t + r, q)` of its array. -/
theorem emb3_10 (t : Fin cfg3.N) (r : Fin 2000) (q : Fin 128) :
    ((cfg3.win 10).blk t).view.emb (ix2 r q) = (ix2 (row3 t r) q : S100000x128.Idx) := by
  funext a; apply Fin.ext
  match a with
  | ⟨0, _⟩ => show win3_10.index t (0 : Fin 2) * 2000 + 1 * r.val = t.val * 2000 + r.val; rw [(idx3_10 t).1]; omega
  | ⟨1, _⟩ => show win3_10.index t (1 : Fin 2) * 128 + 1 * q.val = q.val; rw [(idx3_10 t).2]; omega

/-- An element `(r, q)` of output window 11's block of tile `t` sits at `(2000 t + r, q)` of its array. -/
theorem emb3_11 (t : Fin cfg3.N) (r : Fin 2000) (q : Fin 1) :
    ((cfg3.win 11).blk t).view.emb (ix2 r q) = (ix2 (row3 t r) q : S100000x1.Idx) := by
  funext a; apply Fin.ext
  match a with
  | ⟨0, _⟩ => show win3_11.index t (0 : Fin 2) * 2000 + 1 * r.val = t.val * 2000 + r.val; rw [(idx3_11 t).1]; omega
  | ⟨1, _⟩ => show win3_11.index t (1 : Fin 2) * 1 + 1 * q.val = q.val; rw [(idx3_11 t).2]; omega

/-! ## The layer and the head read one row -/

/-- The layer's value at a node reads only that node's row of the node-indexed arrays: two families that agree on a
    row give the same value there, with equal parameters. -/
theorem sagePre_of_row3 {n n' : Nat} (x a : Cert.Spec.Mat n 128) (X A : Cert.Spec.Mat n' 128) (d : Fin n → EReal)
    (D : Fin n' → EReal) (wl wl' wr wr' : Cert.Spec.Mat 128 128) (b b' : Cert.Spec.Vct 128) (r : Fin n) (p : Fin n')
    (hx : ∀ j, x (ix2 r j) = X (ix2 p j)) (ha : ∀ j, a (ix2 r j) = A (ix2 p j)) (hd : d r = D p)
    (hwl : wl = wl') (hwr : wr = wr') (hb : b = b') (q : Fin 128) :
    Cert.Spec.sagePre x a d wl wr b r q = Cert.Spec.sagePre X A D wl' wr' b' p q := by
  subst hwl hwr hb
  exact Cert.Spec.sagePre_local x a X A d D wl wr b r p hx ha hd q

/-- The head's value at a node reads only that node's row of its input, with equal parameters. -/
theorem nodeOut_of_row3 {n n' : Nat} (e : Cert.Spec.Mat n 128) (E : Cert.Spec.Mat n' 128) (w1 w1' : Cert.Spec.Mat 128 128)
    (b1 b1' : Cert.Spec.Vct 128) (w2 w2' : Cert.Spec.Mat 128 1) (b2 b2' : Cert.Spec.Vct 1) (r : Fin n) (p : Fin n')
    (he : ∀ j, e (ix2 r j) = E (ix2 p j)) (hw1 : w1 = w1') (hb1 : b1 = b1') (hw2 : w2 = w2') (hb2 : b2 = b2') :
    Cert.Spec.nodeOut e w1 b1 w2 b2 r = Cert.Spec.nodeOut E w1' b1' w2' b2' p := by
  subst hw1 hb1 hw2 hb2
  exact Cert.Spec.nodeOut_local e E w1 b1 w2 b2 r p he

/-! ## What each tile writes back, and the arrays at the end -/

/-- The array the first output ends holding: the layer of the whole arrays. -/
def G3e (c : Dev nD) : Cert.Spec.Mat 100000 128 :=
  Cert.Spec.mk2 fun p q => Cert.Spec.sagePre (n := 100000) (V c main_v55) (V c main_v66) (fun p => V c main_v14 (ix2 p 0))
    (V c main_v68) (V c main_v70) (V c main_v72) p q

/-- The array the second output ends holding: the head of the first. -/
def G3o (c : Dev nD) : Cert.Spec.Mat 100000 1 :=
  Cert.Spec.mk2 fun p _ => Cert.Spec.nodeOut (n := 100000) (G3e V c) (V c main_arg12) (V c main_arg13) (V c main_arg14)
    (V c main_arg15) p

/-- The layer on tile `t`'s blocks at row `r` is the layer on the whole arrays at row `2000 t + r`. -/
theorem layer_blk3 (c : Dev nD) (t : Fin cfg3.N) (r : Fin 2000) (q : Fin 128) :
    Cert.Spec.sagePre (n := 2000) (Fr.iblk3 V c 0 t : Vec Ideal S2000x128 .bf16) (Fr.iblk3 V c 1 t : Vec Ideal S2000x128 .f32)
        (fun p => (Fr.iblk3 V c 2 t : Vec Ideal S2000x1 .f32) (ix2 p (0 : Fin 1)))
        (Fr.iblk3 V c 3 t : Vec Ideal S128x128 .f32) (Fr.iblk3 V c 4 t : Vec Ideal S128x128 .f32)
        (Fr.iblk3 V c 5 t : Vec Ideal S128 .f32) r q
      = G3e V c (ix2 (row3 t r) q) := by
  unfold G3e
  rw [Cert.Spec.mk2_apply]
  exact sagePre_of_row3 _ _ _ _ _ _ _ _ _ _ _ _ r (row3 t r) (blk3_0 V c t r) (blk3_1 V c t r) (blk3_2 V c t r (0 : Fin 1))
    (blk3_3 V c t) (blk3_4 V c t) (blk3_5 V c t) q

/-- What tile `t` writes back to the first output is block `t` of the layer's array. -/
theorem flushed3_10 (c : Dev nD) (t : Fin cfg3.N) :
    (Fr.dat3 V c).flushed 10 t = ((cfg3.win 10).blk t).view.read (Elt Ideal) (G3e V c) := by
  show (cfg3.win 10).cut (grid3.coords t) ((Fr.dat3 V c).after 10 t) = _
  rw [Fr.after3_10]
  funext j
  obtain ⟨r, q, rfl⟩ : ∃ (r : Fin 2000) (q : Fin 128), j = ix2 r q := ⟨j 0, j 1, eq_ix2 j⟩
  refine (Pay.pay3_emb _ _ _ _ _ _ r q).trans ?_
  show _ = G3e V c (((cfg3.win 10).blk t).view.emb (ix2 r q))
  rw [emb3_10]
  exact layer_blk3 V c t r q

/-- What tile `t` writes back to the second output is block `t` of the head's array. -/
theorem flushed3_11 (c : Dev nD) (t : Fin cfg3.N) :
    (Fr.dat3 V c).flushed 11 t = ((cfg3.win 11).blk t).view.read (Elt Ideal) (G3o V c) := by
  show (cfg3.win 11).cut (grid3.coords t) ((Fr.dat3 V c).after 11 t) = _
  rw [Fr.after3_11]
  funext j
  obtain ⟨r, q, rfl⟩ : ∃ (r : Fin 2000) (q : Fin 1), j = ix2 r q := ⟨j 0, j 1, eq_ix2 j⟩
  obtain rfl : q = 0 := Subsingleton.elim _ _
  refine (Pay.pay3_out _ _ _ _ _ _ _ _ _ _ r).trans ?_
  show _ = G3o V c (((cfg3.win 11).blk t).view.emb (ix2 r (0 : Fin 1)))
  rw [emb3_11]
  exact nodeOut_of_row3 _ _ _ _ _ _ _ _ _ _ r (row3 t r) (fun j => layer_blk3 V c t r j)
    (blk3_6 V c t) (blk3_7 V c t) (blk3_8 V c t) (blk3_9 V c t)

/-- An index of output 10's array is in tile `t`'s block iff each coordinate is in the block's range on its axis. -/
theorem mem_blk3_10 (t : Fin cfg3.N) (i : S100000x128.Idx) :
    i ∈ ((cfg3.win 10).blk t).view.set ↔ ∀ a : Fin 2, win3_10.index t a * S2000x128.size a ≤ (i a).val ∧ (i a).val < win3_10.index t a * S2000x128.size a + S2000x128.size a := by
  show i ∈ ((View.whole main_v73_0).slice (win3_10.rect t)).set ↔ _
  rw [View.set_slice_whole, Rect.mem_set_unit]
  exact Iff.rfl

/-- Every index of output 10's array is in the block of the tile its row falls in, and every tile writes back. -/
theorem cover3_10 (i : S100000x128.Idx) :
    ∃ t : Fin cfg3.N, (cfg3.win 10).flush t = true ∧ i ∈ ((cfg3.win 10).blk t).view.set := by
  have hi0 : (i 0).val < 100000 := (i 0).isLt
  have hi1 : (i 1).val < 128 := (i 1).isLt
  have hN : cfg3.N = 50 := N_3
  have ht : (i 0).val / 2000 < cfg3.N := by rw [hN]; omega
  refine ⟨⟨(i 0).val / 2000, ht⟩, flush3_10 _, ?_⟩
  rw [mem_blk3_10]
  obtain ⟨e0, e1⟩ := idx3_10 ⟨(i 0).val / 2000, ht⟩
  intro a
  match a with
  | ⟨0, _⟩ =>
    show win3_10.index ⟨(i 0).val / 2000, ht⟩ (0 : Fin 2) * 2000 ≤ (i 0).val ∧ (i 0).val < win3_10.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_10.index ⟨(i 0).val / 2000, ht⟩ (1 : Fin 2) * 128 ≤ (i 1).val ∧ (i 1).val < win3_10.index ⟨(i 0).val / 2000, ht⟩ (1 : Fin 2) * 128 + 128
    rw [e1]; omega

/-- An index of output 11's array is in tile `t`'s block iff each coordinate is in the block's range on its axis. -/
theorem mem_blk3_11 (t : Fin cfg3.N) (i : S100000x1.Idx) :
    i ∈ ((cfg3.win 11).blk t).view.set ↔ ∀ a : Fin 2, win3_11.index t a * S2000x1.size a ≤ (i a).val ∧ (i a).val < win3_11.index t a * S2000x1.size a + S2000x1.size a := by
  show i ∈ ((View.whole main_v73_1).slice (win3_11.rect t)).set ↔ _
  rw [View.set_slice_whole, Rect.mem_set_unit]
  exact Iff.rfl

/-- Every index of output 11's array is in the block of the tile its row falls in, and every tile writes back. -/
theorem cover3_11 (i : S100000x1.Idx) :
    ∃ t : Fin cfg3.N, (cfg3.win 11).flush t = true ∧ i ∈ ((cfg3.win 11).blk t).view.set := by
  have hi0 : (i 0).val < 100000 := (i 0).isLt
  have hi1 : (i 1).val < 1 := (i 1).isLt
  have hN : cfg3.N = 50 := N_3
  have ht : (i 0).val / 2000 < cfg3.N := by rw [hN]; omega
  refine ⟨⟨(i 0).val / 2000, ht⟩, flush3_11 _, ?_⟩
  rw [mem_blk3_11]
  obtain ⟨e0, e1⟩ := idx3_11 ⟨(i 0).val / 2000, ht⟩
  intro a
  match a with
  | ⟨0, _⟩ =>
    show win3_11.index ⟨(i 0).val / 2000, ht⟩ (0 : Fin 2) * 2000 ≤ (i 0).val ∧ (i 0).val < win3_11.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_11.index ⟨(i 0).val / 2000, ht⟩ (1 : Fin 2) * 1 ≤ (i 1).val ∧ (i 1).val < win3_11.index ⟨(i 0).val / 2000, ht⟩ (1 : Fin 2) * 1 + 1
    rw [e1]; omega

/-- The first output after the launch: the layer of the arrays as the launch found them. -/
theorem final3_emb (c : Dev nD) :
    (Fr.dat3 V c).arrAt 10 cfg3.N = Cert.Spec.mk2 fun p q => Cert.Spec.sagePre (n := 100000) (V c main_v55) (V c main_v66)
      (fun p => V c main_v14 (ix2 p 0)) (V c main_v68) (V c main_v70) (V c main_v72) p q :=
  (Fr.dat3 V c).arrAt_eq_of_cover 10 (G3e V c) (fun t _ => flushed3_10 V c t) cover3_10

/-- The second output after the launch, as an array: the head of the layer's array. -/
theorem final3_out_arr (c : Dev nD) : (Fr.dat3 V c).arrAt 11 cfg3.N = G3o V c :=
  (Fr.dat3 V c).arrAt_eq_of_cover 11 (G3o V c) (fun t _ => flushed3_11 V c t) cover3_11

/-- The second output after the launch at node `p`: the head's value of the layer's array. -/
theorem final3_out (c : Dev nD) (p : Fin 100000) :
    ((Fr.dat3 V c).arrAt 11 cfg3.N : S100000x1.Idx → EReal) (ix2 p 0)
      = Cert.Spec.nodeOut (n := 100000)
          (Cert.Spec.mk2 fun p q => Cert.Spec.sagePre (n := 100000) (V c main_v55) (V c main_v66)
            (fun p => V c main_v14 (ix2 p 0)) (V c main_v68) (V c main_v70) (V c main_v72) p q)
          (V c main_arg12) (V c main_arg13) (V c main_arg14) (V c main_arg15) p := by
  rw [final3_out_arr]
  rfl

end Cert.KernelIdeal.Fin

end
-- ==== Proof.Pay4.lean ====
/-
  The value the edge head's body produces for an edge, on the extended reals.

  The body multiplies the rows of the edge's two end points by their weight matrices and the six edge features by
  a third, adds the three products left to right, adds the bias of the column and applies the rectifier; the
  rectified row against the one output column, plus its bias, is the edge's output.  On the extended reals the
  roundings between the steps are the identity and each matrix product into the zero accumulator is the exact sum
  over its contraction index.
-/
import proofs.«175741_j7894149890553_2_alg».proof.Proof.Gen.KernelIdeal.Skeleton
import proofs.«175741_j7894149890553_2_alg».proof.Proof.Spec
import proofs.«175741_j7894149890553_2_alg».proof.Proof.LibPlainMatmul
import proofs.«175741_j7894149890553_2_alg».proof.Proof.LibCombine
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen

/-! The coordinate facts of the three dimension records: the 128-deep and the 6-deep product into 128 columns, and
    the 128-deep product into one column. -/

private theorem d128_l0 (j : S2000x128.Idx) (k : dot_S2000x128_S128x128_S2000x128_1_0_0_1_n_n.contr.Idx) :
    (dot_S2000x128_S128x128_S2000x128_1_0_0_1_n_n.lhsIdx j k ⟨0, Nat.zero_lt_two⟩).val = (j ⟨0, Nat.zero_lt_two⟩).val := by
  unfold DotDims.lhsIdx
  rw [dif_neg (show ¬(⟨0, Nat.zero_lt_two⟩ : Fin 2) ∈ dot_S2000x128_S128x128_S2000x128_1_0_0_1_n_n.lhsBatch by decide),
    dif_pos (show (⟨0, Nat.zero_lt_two⟩ : Fin 2) ∈ dot_S2000x128_S128x128_S2000x128_1_0_0_1_n_n.lhsNonContracting by decide)]
  rfl
private theorem d128_l1 (j : S2000x128.Idx) (k : dot_S2000x128_S128x128_S2000x128_1_0_0_1_n_n.contr.Idx) :
    (dot_S2000x128_S128x128_S2000x128_1_0_0_1_n_n.lhsIdx j k ⟨1, Nat.one_lt_two⟩).val = (k ⟨0, by decide⟩).val :=
  dot_S2000x128_S128x128_S2000x128_1_0_0_1_n_n.lhsIdx_val_of_single rfl j k
private theorem d128_r0 (j : S2000x128.Idx) (k : dot_S2000x128_S128x128_S2000x128_1_0_0_1_n_n.contr.Idx) :
    (dot_S2000x128_S128x128_S2000x128_1_0_0_1_n_n.rhsIdx j k ⟨0, Nat.zero_lt_two⟩).val = (k ⟨0, by decide⟩).val :=
  dot_S2000x128_S128x128_S2000x128_1_0_0_1_n_n.rhsIdx_val_of_single rfl j k
private theorem d128_r1 (j : S2000x128.Idx) (k : dot_S2000x128_S128x128_S2000x128_1_0_0_1_n_n.contr.Idx) :
    (dot_S2000x128_S128x128_S2000x128_1_0_0_1_n_n.rhsIdx j k ⟨1, Nat.one_lt_two⟩).val = (j ⟨1, Nat.one_lt_two⟩).val := by
  unfold DotDims.rhsIdx
  rw [dif_neg (show ¬(⟨1, Nat.one_lt_two⟩ : Fin 2) ∈ dot_S2000x128_S128x128_S2000x128_1_0_0_1_n_n.rhsBatch by decide),
    dif_pos (show (⟨1, Nat.one_lt_two⟩ : Fin 2) ∈ dot_S2000x128_S128x128_S2000x128_1_0_0_1_n_n.rhsNonContracting by decide)]
  rfl

private theorem d6_l0 (j : S2000x128.Idx) (k : dot_S2000x6_S6x128_S2000x128_1_0_0_1_n_n.contr.Idx) :
    (dot_S2000x6_S6x128_S2000x128_1_0_0_1_n_n.lhsIdx j k ⟨0, Nat.zero_lt_two⟩).val = (j ⟨0, Nat.zero_lt_two⟩).val := by
  unfold DotDims.lhsIdx
  rw [dif_neg (show ¬(⟨0, Nat.zero_lt_two⟩ : Fin 2) ∈ dot_S2000x6_S6x128_S2000x128_1_0_0_1_n_n.lhsBatch by decide),
    dif_pos (show (⟨0, Nat.zero_lt_two⟩ : Fin 2) ∈ dot_S2000x6_S6x128_S2000x128_1_0_0_1_n_n.lhsNonContracting by decide)]
  rfl
private theorem d6_l1 (j : S2000x128.Idx) (k : dot_S2000x6_S6x128_S2000x128_1_0_0_1_n_n.contr.Idx) :
    (dot_S2000x6_S6x128_S2000x128_1_0_0_1_n_n.lhsIdx j k ⟨1, Nat.one_lt_two⟩).val = (k ⟨0, by decide⟩).val :=
  dot_S2000x6_S6x128_S2000x128_1_0_0_1_n_n.lhsIdx_val_of_single rfl j k
private theorem d6_r0 (j : S2000x128.Idx) (k : dot_S2000x6_S6x128_S2000x128_1_0_0_1_n_n.contr.Idx) :
    (dot_S2000x6_S6x128_S2000x128_1_0_0_1_n_n.rhsIdx j k ⟨0, Nat.zero_lt_two⟩).val = (k ⟨0, by decide⟩).val :=
  dot_S2000x6_S6x128_S2000x128_1_0_0_1_n_n.rhsIdx_val_of_single rfl j k
private theorem d6_r1 (j : S2000x128.Idx) (k : dot_S2000x6_S6x128_S2000x128_1_0_0_1_n_n.contr.Idx) :
    (dot_S2000x6_S6x128_S2000x128_1_0_0_1_n_n.rhsIdx j k ⟨1, Nat.one_lt_two⟩).val = (j ⟨1, Nat.one_lt_two⟩).val := by
  unfold DotDims.rhsIdx
  rw [dif_neg (show ¬(⟨1, Nat.one_lt_two⟩ : Fin 2) ∈ dot_S2000x6_S6x128_S2000x128_1_0_0_1_n_n.rhsBatch by decide),
    dif_pos (show (⟨1, Nat.one_lt_two⟩ : Fin 2) ∈ dot_S2000x6_S6x128_S2000x128_1_0_0_1_n_n.rhsNonContracting by decide)]
  rfl

private theorem d1_l0 (j : S2000x1.Idx) (k : dot_S2000x128_S128x1_S2000x1_1_0_0_1_n_n.contr.Idx) :
    (dot_S2000x128_S128x1_S2000x1_1_0_0_1_n_n.lhsIdx j k ⟨0, Nat.zero_lt_two⟩).val = (j ⟨0, Nat.zero_lt_two⟩).val := by
  unfold DotDims.lhsIdx
  rw [dif_neg (show ¬(⟨0, Nat.zero_lt_two⟩ : Fin 2) ∈ dot_S2000x128_S128x1_S2000x1_1_0_0_1_n_n.lhsBatch by decide),
    dif_pos (show (⟨0, Nat.zero_lt_two⟩ : Fin 2) ∈ dot_S2000x128_S128x1_S2000x1_1_0_0_1_n_n.lhsNonContracting by decide)]
  rfl
private theorem d1_l1 (j : S2000x1.Idx) (k : dot_S2000x128_S128x1_S2000x1_1_0_0_1_n_n.contr.Idx) :
    (dot_S2000x128_S128x1_S2000x1_1_0_0_1_n_n.lhsIdx j k ⟨1, Nat.one_lt_two⟩).val = (k ⟨0, by decide⟩).val :=
  dot_S2000x128_S128x1_S2000x1_1_0_0_1_n_n.lhsIdx_val_of_single rfl j k
private theorem d1_r0 (j : S2000x1.Idx) (k : dot_S2000x128_S128x1_S2000x1_1_0_0_1_n_n.contr.Idx) :
    (dot_S2000x128_S128x1_S2000x1_1_0_0_1_n_n.rhsIdx j k ⟨0, Nat.zero_lt_two⟩).val = (k ⟨0, by decide⟩).val :=
  dot_S2000x128_S128x1_S2000x1_1_0_0_1_n_n.rhsIdx_val_of_single rfl j k
private theorem d1_r1 (j : S2000x1.Idx) (k : dot_S2000x128_S128x1_S2000x1_1_0_0_1_n_n.contr.Idx) :
    (dot_S2000x128_S128x1_S2000x1_1_0_0_1_n_n.rhsIdx j k ⟨1, Nat.one_lt_two⟩).val = (j ⟨1, Nat.one_lt_two⟩).val := by
  unfold DotDims.rhsIdx
  rw [dif_neg (show ¬(⟨1, Nat.one_lt_two⟩ : Fin 2) ∈ dot_S2000x128_S128x1_S2000x1_1_0_0_1_n_n.rhsBatch by decide),
    dif_pos (show (⟨1, Nat.one_lt_two⟩ : Fin 2) ∈ dot_S2000x128_S128x1_S2000x1_1_0_0_1_n_n.rhsNonContracting by decide)]
  rfl

/-- The rectified hidden row of the edge head, in the body's spelling, read at `(r, k)`. -/
private theorem hid_apply (gs gd : FVec Ideal S2000x128 .bf16) (ex : FVec Ideal S2000x6 .f32)
    (ws wd : FVec Ideal S128x128 .f32) (we : FVec Ideal S6x128 .f32) (b : FVec Ideal S128 .f32) (r : Fin 2000) (k : Fin 128) :
    maximumf
        (addf
          (addf
            (addf
              (matmul dot_S2000x128_S128x128_S2000x128_1_0_0_1_n_n none gs (truncf .bf16 ws bitsLt_bf16_f32) (constant S2000x128 .f32 0x00000000#32))
              (matmul dot_S2000x128_S128x128_S2000x128_1_0_0_1_n_n none gd (truncf .bf16 wd bitsLt_bf16_f32) (constant S2000x128 .f32 0x00000000#32)))
            (matmul dot_S2000x6_S6x128_S2000x128_1_0_0_1_n_n none (truncf .bf16 ex bitsLt_bf16_f32) (truncf .bf16 we bitsLt_bf16_f32)
              (constant S2000x128 .f32 0x00000000#32)))
          (broadcastTo S2000x128 (shapeCast S1x128 b shapeCasts_S128_S1x128) broadcasts_S1x128_S2000x128))
        (broadcast S2000x128 (Scalar.ofBits (F := Ideal) .f32 0x00000000#32)) (ix2 r k)
      = Cert.Spec.relu (Cert.Spec.edgePre (m := 2000) gs gd ex ws wd we b r k) := by
  rw [maximumf_apply, broadcast_apply, addf_apply, addf_apply, addf_apply]
  refine (congrArg (max · _) (congrArg₂ (· + ·) (congrArg₂ (· + ·) (congrArg₂ (· + ·)
    (Cert.Lib.PlainMatmul.matmul_zero_apply dot_S2000x128_S128x128_S2000x128_1_0_0_1_n_n rfl rfl d128_l0 d128_l1 d128_r0 d128_r1 none _ _ r k)
    (Cert.Lib.PlainMatmul.matmul_zero_apply dot_S2000x128_S128x128_S2000x128_1_0_0_1_n_n rfl rfl d128_l0 d128_l1 d128_r0 d128_r1 none _ _ r k))
    (Cert.Lib.PlainMatmul.matmul_zero_apply dot_S2000x6_S6x128_S2000x128_1_0_0_1_n_n rfl rfl d6_l0 d6_l1 d6_r0 d6_r1 none _ _ r k))
    ((broadcastTo_1b_ab_apply _ _ r k).trans (Cert.Lib.Combine.shapeCast_row_apply b _ k)))).trans ?_
  rfl

theorem pay4 (v0 v2 : Vec Ideal S2000x128 .bf16) (v4 : Vec Ideal S2000x6 .f32) (v7 v10 : Vec Ideal S128x128 .f32)
    (v13 : Vec Ideal S6x128 .f32) (v21 : Vec Ideal S128 .f32) (v28 : Vec Ideal S128x1 .f32) (v31 : Vec Ideal S1 .f32)
    (r : Fin 2000) :
    k4_pay1 (F := Ideal) v0 v2 v4 v7 v10 v13 v21 v28 v31 (ix2 r 0)
      = Cert.Spec.edgeOut (m := 2000) v0 v2 v4 v7 v10 v13 v21 v28 v31 r := by
  unfold k4_pay1
  simp only [shapeCast_self]
  rw [addf_apply]
  refine (congrArg₂ (· + ·)
    (Cert.Lib.PlainMatmul.matmul_zero_apply dot_S2000x128_S128x1_S2000x1_1_0_0_1_n_n rfl rfl d1_l0 d1_l1 d1_r0 d1_r1 none _ _ r (0 : Fin 1))
    ((broadcastTo_1b_ab_apply _ _ r (0 : Fin 1)).trans (Cert.Lib.Combine.shapeCast_row_apply v31 _ (0 : Fin 1)))).trans ?_
  unfold Cert.Spec.edgeOut
  refine congrArg (· + v31 (ix1 0)) (Finset.sum_congr rfl fun k _ => ?_)
  rw [truncf_apply, truncf_apply, hid_apply]

end Cert.KernelIdeal.Pay

end
-- ==== Proof.Final4.lean ====
/-
  The edge head's output array, from what each grid point writes back.

  The launch runs 400 grid points; point `t` is handed rows `2000·t … 2000·t + 1999` of the two end points' rows and
  of the edge features, and the whole of every weight and bias, and writes back rows `2000·t … 2000·t + 1999` of the
  output column.  What it writes for row `r` of its tile is the edge head's formula on the tile; the formula reads
  one row of each edge-indexed array, so it is the formula on the whole arrays at edge `2000·t + r`.  The tiles
  cover every edge, so the output array is the formula at every edge.
-/
import proofs.«175741_j7894149890553_2_alg».proof.Proof.FrameK4
import proofs.«175741_j7894149890553_2_alg».proof.Proof.Pay4
import proofs.«175741_j7894149890553_2_alg».proof.Proof.Spec
import proofs.«175741_j7894149890553_2_alg».proof.Proof.SpecLocal
import Idealize.ShloMosaic.Lib.Pipeline.Value
import Idealize.ShloMosaic.Lib.ValueIdx

noncomputable section

namespace Cert.KernelIdeal.Fin

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The windows' arrays, and where each point's blocks sit -/

example : Pipeline.arrRef spec4 0 = main_v81 := rfl
example : Pipeline.arrRef spec4 1 = main_v88 := rfl
example : Pipeline.arrRef spec4 2 = main_v92 := rfl
example : Pipeline.arrRef spec4 3 = main_v93 := rfl
example : Pipeline.arrRef spec4 4 = main_v94 := rfl
example : Pipeline.arrRef spec4 5 = main_v95 := rfl
example : Pipeline.arrRef spec4 6 = main_arg17 := rfl
example : Pipeline.arrRef spec4 7 = main_arg18 := rfl
example : Pipeline.arrRef spec4 8 = main_arg19 := rfl
example : Pipeline.arrRef spec4 9 = main_v96 := rfl

/-- The printed index maps, decided over the grid: the three edge-indexed inputs and the output are at block row `t`,
    block column 0; every weight and bias is at block 0 on every axis. -/
theorem idx4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ win4_6.index t (0 : Fin 1) = 0
    ∧ (win4_7.index t (0 : Fin 2) = 0 ∧ win4_7.index t (1 : Fin 2) = 0)
    ∧ win4_8.index t (0 : Fin 1) = 0
    ∧ (win4_9.index t (0 : Fin 2) = t.val ∧ win4_9.index t (1 : Fin 2) = 0) :=
  (by decide +kernel : ∀ t : Fin grid4.N, _)

/-! ## The blocks, read off the arrays -/

/-- Row `r` of point `t`'s block of the first end points' rows is row `2000·t + r` of the array. -/
theorem blk4_0 (c : Dev nD) (t : Fin cfg4.N) (r : Fin 2000) (j : Fin 128) (h : t.val * 2000 + r.val < 800000) :
    Fr.iblk4 V c 0 t (ix2 r j) = V c main_v81 (ix2 ⟨t.val * 2000 + r.val, h⟩ j) := by
  obtain ⟨⟨e0, e1⟩, -⟩ := idx4 t
  show V c main_v81 (((cfg4.win 0).blk t).view.emb (ix2 r j)) = _
  refine congrArg _ ?_
  funext a; apply Fin.ext
  match a with
  | ⟨0, _⟩ => show win4_0.index t (0 : Fin 2) * 2000 + 1 * r.val = t.val * 2000 + r.val; rw [e0]; omega
  | ⟨1, _⟩ => show win4_0.index t (1 : Fin 2) * 128 + 1 * j.val = j.val; rw [e1]; omega

/-- Row `r` of point `t`'s block of the second end points' rows is row `2000·t + r` of the array. -/
theorem blk4_1 (c : Dev nD) (t : Fin cfg4.N) (r : Fin 2000) (j : Fin 128) (h : t.val * 2000 + r.val < 800000) :
    Fr.iblk4 V c 1 t (ix2 r j) = V c main_v88 (ix2 ⟨t.val * 2000 + r.val, h⟩ j) := by
  obtain ⟨-, ⟨e0, e1⟩, -⟩ := idx4 t
  show V c main_v88 (((cfg4.win 1).blk t).view.emb (ix2 r j)) = _
  refine congrArg _ ?_
  funext a; apply Fin.ext
  match a with
  | ⟨0, _⟩ => show win4_1.index t (0 : Fin 2) * 2000 + 1 * r.val = t.val * 2000 + r.val; rw [e0]; omega
  | ⟨1, _⟩ => show win4_1.index t (1 : Fin 2) * 128 + 1 * j.val = j.val; rw [e1]; omega

/-- Row `r` of point `t`'s block of the edge features is row `2000·t + r` of the array. -/
theorem blk4_2 (c : Dev nD) (t : Fin cfg4.N) (r : Fin 2000) (j : Fin 6) (h : t.val * 2000 + r.val < 800000) :
    Fr.iblk4 V c 2 t (ix2 r j) = V c main_v92 (ix2 ⟨t.val * 2000 + r.val, h⟩ j) := by
  obtain ⟨-, -, ⟨e0, e1⟩, -⟩ := idx4 t
  show V c main_v92 (((cfg4.win 2).blk t).view.emb (ix2 r j)) = _
  refine congrArg _ ?_
  funext a; apply Fin.ext
  match a with
  | ⟨0, _⟩ => show win4_2.index t (0 : Fin 2) * 2000 + 1 * r.val = t.val * 2000 + r.val; rw [e0]; omega
  | ⟨1, _⟩ => show win4_2.index t (1 : Fin 2) * 6 + 1 * j.val = j.val; rw [e1]; omega

/-- Every point's block of the weights for the first end point's row is the whole array. -/
theorem blk4_3 (c : Dev nD) (t : Fin cfg4.N) : Fr.iblk4 V c 3 t = V c main_v93 := by
  obtain ⟨-, -, -, ⟨e0, e1⟩, -⟩ := idx4 t
  funext y
  show V c main_v93 (((cfg4.win 3).blk t).view.emb y) = V c main_v93 y
  refine congrArg _ ?_
  funext a; apply Fin.ext
  match a with
  | ⟨0, _⟩ => show win4_3.index t (0 : Fin 2) * 128 + 1 * (y 0).val = (y 0).val; rw [e0]; omega
  | ⟨1, _⟩ => show win4_3.index t (1 : Fin 2) * 128 + 1 * (y 1).val = (y 1).val; rw [e1]; omega

/-- Every point's block of the weights for the second end point's row is the whole array. -/
theorem blk4_4 (c : Dev nD) (t : Fin cfg4.N) : Fr.iblk4 V c 4 t = V c main_v94 := by
  obtain ⟨-, -, -, -, ⟨e0, e1⟩, -⟩ := idx4 t
  funext y
  show V c main_v94 (((cfg4.win 4).blk t).view.emb y) = V c main_v94 y
  refine congrArg _ ?_
  funext a; apply Fin.ext
  match a with
  | ⟨0, _⟩ => show win4_4.index t (0 : Fin 2) * 128 + 1 * (y 0).val = (y 0).val; rw [e0]; omega
  | ⟨1, _⟩ => show win4_4.index t (1 : Fin 2) * 128 + 1 * (y 1).val = (y 1).val; rw [e1]; omega

/-- Every point's block of the weights for the edge features is the whole array. -/
theorem blk4_5 (c : Dev nD) (t : Fin cfg4.N) : Fr.iblk4 V c 5 t = V c main_v95 := by
  obtain ⟨-, -, -, -, -, ⟨e0, e1⟩, -⟩ := idx4 t
  funext y
  show V c main_v95 (((cfg4.win 5).blk t).view.emb y) = V c main_v95 y
  refine congrArg _ ?_
  funext a; apply Fin.ext
  match a with
  | ⟨0, _⟩ => show win4_5.index t (0 : Fin 2) * 6 + 1 * (y 0).val = (y 0).val; rw [e0]; omega
  | ⟨1, _⟩ => show win4_5.index t (1 : Fin 2) * 128 + 1 * (y 1).val = (y 1).val; rw [e1]; omega

/-- Every point's block of the hidden bias is the whole array. -/
theorem blk4_6 (c : Dev nD) (t : Fin cfg4.N) : Fr.iblk4 V c 6 t = V c main_arg17 := by
  obtain ⟨-, -, -, -, -, -, e0, -⟩ := idx4 t
  funext y
  show V c main_arg17 (((cfg4.win 6).blk t).view.emb y) = V c main_arg17 y
  refine congrArg _ ?_
  funext a; apply Fin.ext
  match a with
  | ⟨0, _⟩ => show win4_6.index t (0 : Fin 1) * 128 + 1 * (y 0).val = (y 0).val; rw [e0]; omega

/-- Every point's block of the output column's weights is the whole array. -/
theorem blk4_7 (c : Dev nD) (t : Fin cfg4.N) : Fr.iblk4 V c 7 t = V c main_arg18 := by
  obtain ⟨-, -, -, -, -, -, -, ⟨e0, e1⟩, -⟩ := idx4 t
  funext y
  show V c main_arg18 (((cfg4.win 7).blk t).view.emb y) = V c main_arg18 y
  refine congrArg _ ?_
  funext a; apply Fin.ext
  match a with
  | ⟨0, _⟩ => show win4_7.index t (0 : Fin 2) * 128 + 1 * (y 0).val = (y 0).val; rw [e0]; omega
  | ⟨1, _⟩ => show win4_7.index t (1 : Fin 2) * 1 + 1 * (y 1).val = (y 1).val; rw [e1]; omega

/-- Every point's block of the output bias is the whole array. -/
theorem blk4_8 (c : Dev nD) (t : Fin cfg4.N) : Fr.iblk4 V c 8 t = V c main_arg19 := by
  obtain ⟨-, -, -, -, -, -, -, -, e0, -⟩ := idx4 t
  funext y
  show V c main_arg19 (((cfg4.win 8).blk t).view.emb y) = V c main_arg19 y
  refine congrArg _ ?_
  funext a; apply Fin.ext
  match a with
  | ⟨0, _⟩ => show win4_8.index t (0 : Fin 1) * 1 + 1 * (y 0).val = (y 0).val; rw [e0]; omega

/-! ## What a point writes back -/

/-- The output array the launch should leave: the edge head's formula at every edge. -/
def G4 (c : Dev nD) : S800000x1.Idx → EReal :=
  Cert.Spec.mk2 fun (e : Fin 800000) (_ : Fin 1) =>
    Cert.Spec.edgeOut (m := 800000) (V c main_v81) (V c main_v88) (V c main_v92) (V c main_v93) (V c main_v94)
      (V c main_v95) (V c main_arg17) (V c main_arg18) (V c main_arg19) e

/-- Row `r` of point `t`'s output block sits at row `2000·t + r` of the output array. -/
theorem emb4_9 (t : Fin cfg4.N) (r : Fin 2000) (h : t.val * 2000 + r.val < 800000) :
    ((cfg4.win 9).blk t).view.emb (ix2 r (0 : Fin 1)) = ix2 ⟨t.val * 2000 + r.val, h⟩ (0 : Fin 1) := by
  obtain ⟨-, -, -, -, -, -, -, -, -, e0, e1⟩ := idx4 t
  funext a; apply Fin.ext
  match a with
  | ⟨0, _⟩ => show win4_9.index t (0 : Fin 2) * 2000 + 1 * r.val = t.val * 2000 + r.val; rw [e0]; omega
  | ⟨1, _⟩ => show win4_9.index t (1 : Fin 2) * 1 + 1 * 0 = 0; rw [e1]

/-- What point `t` writes back is block `t` of the formula's array. -/
theorem flushed4_9 (c : Dev nD) (t : Fin cfg4.N) :
    (Fr.dat4 V c).flushed 9 t = ((cfg4.win 9).blk t).view.read (Elt Ideal) (G4 V c) := by
  show (cfg4.win 9).cut (grid4.coords t) ((Fr.dat4 V c).after 9 t) = _
  rw [Fr.after4_9]
  funext j
  obtain ⟨r, z, rfl⟩ : ∃ (r : Fin 2000) (z : Fin 1), j = ix2 r z := ⟨j 0, j 1, eq_ix2 j⟩
  obtain rfl : z = 0 := Subsingleton.elim _ _
  have ht : t.val < 400 := lt_of_lt_of_eq t.isLt N_4
  have h : t.val * 2000 + r.val < 800000 := by have := r.isLt; omega
  show k4_pay1 (F := Ideal) (Fr.iblk4 V c 0 t) (Fr.iblk4 V c 1 t) (Fr.iblk4 V c 2 t) (Fr.iblk4 V c 3 t) (Fr.iblk4 V c 4 t)
      (Fr.iblk4 V c 5 t) (Fr.iblk4 V c 6 t) (Fr.iblk4 V c 7 t) (Fr.iblk4 V c 8 t) (ix2 r 0)
    = G4 V c (((cfg4.win 9).blk t).view.emb (ix2 r (0 : Fin 1)))
  rw [emb4_9 t r h]
  refine (Pay.pay4 _ _ _ _ _ _ _ _ _ r).trans ?_
  rw [blk4_3 V c t, blk4_4 V c t, blk4_5 V c t, blk4_6 V c t, blk4_7 V c t, blk4_8 V c t]
  exact Cert.Spec.edgeOut_local _ _ _ (V c main_v81) (V c main_v88) (V c main_v92) _ _ _ _ _ _ r ⟨t.val * 2000 + r.val, h⟩
    (fun j => blk4_0 V c t r j h) (fun j => blk4_1 V c t r j h) (fun j => blk4_2 V c t r j h)

/-! ## The blocks cover the array -/

/-- An index of the output array is in point `t`'s block iff each coordinate is in the block's range on its axis. -/
theorem mem_blk4_9 (t : Fin cfg4.N) (i : S800000x1.Idx) :
    i ∈ ((cfg4.win 9).blk t).view.set ↔ ∀ a : Fin 2, win4_9.index t a * S2000x1.size a ≤ (i a).val ∧ (i a).val < win4_9.index t a * S2000x1.size a + S2000x1.size a := by
  show i ∈ ((View.whole main_v96).slice (win4_9.rect t)).set ↔ _
  rw [View.set_slice_whole, Rect.mem_set_unit]
  exact Iff.rfl

/-- Every edge's row is in the block of the point that holds its tile, and every point writes back. -/
theorem cover4_9 (i : S800000x1.Idx) :
    ∃ t : Fin cfg4.N, (cfg4.win 9).flush t = true ∧ i ∈ ((cfg4.win 9).blk t).view.set := by
  have hi0 : (i 0).val < 800000 := (i 0).isLt
  have hi1 : (i 1).val < 1 := (i 1).isLt
  have hN : (i 0).val / 2000 < cfg4.N := by rw [show cfg4.N = 400 from N_4]; omega
  obtain ⟨-, -, -, -, -, -, -, -, -, e0, e1⟩ := idx4 ⟨(i 0).val / 2000, hN⟩
  refine ⟨⟨(i 0).val / 2000, hN⟩, flush4_9 _, ?_⟩
  rw [mem_blk4_9]
  intro a
  match a with
  | ⟨0, _⟩ =>
    show win4_9.index ⟨(i 0).val / 2000, hN⟩ (0 : Fin 2) * 2000 ≤ (i 0).val ∧ (i 0).val < win4_9.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win4_9.index ⟨(i 0).val / 2000, hN⟩ (1 : Fin 2) * 1 ≤ (i 1).val ∧ (i 1).val < win4_9.index ⟨(i 0).val / 2000, hN⟩ (1 : Fin 2) * 1 + 1
    rw [e1]; omega

/-! ## The output array -/

/-- The output array after the launch is the formula's array. -/
theorem final4_arr (c : Dev nD) : (Fr.dat4 V c).arrAt 9 cfg4.N = G4 V c :=
  (Fr.dat4 V c).arrAt_eq_of_cover 9 (G4 V c) (fun t _ => flushed4_9 V c t) cover4_9

/-- The edge head's output for edge `e`, after the launch: the network's formula on the arrays the launch found. -/
theorem final4 (c : Dev nD) (e : Fin 800000) :
    (Fr.dat4 V c).arrAt 9 cfg4.N (ix2 e 0)
      = Cert.Spec.edgeOut (m := 800000) (V c main_v81) (V c main_v88) (V c main_v92) (V c main_v93) (V c main_v94)
          (V c main_v95) (V c main_arg17) (V c main_arg18) (V c main_arg19) e := by
  rw [final4_arr V c]
  rfl

end Cert.KernelIdeal.Fin

end
-- ==== Proof.LibHostLine.lean ====
/-
  Two small tools for reading what a buffer holds after a line of host operations when the line contains a
  concatenation of three operands.  A concatenation takes its operands as a list of (shape, array) pairs together
  with a proof about the list's shapes, so a rewriting pass cannot enter the list; the congruence below splits such a
  goal into its three operands, each of which is then computed on its own.
-/
import Idealize.ShloMosaic.Lib.StableHlo.Run

namespace Cert.HostLine

open Idealize.ShloMosaic Idealize.ShloMosaic.StableHlo

/-- Two concatenations of three operands of the same shapes along the same axis are equal when the operands are. -/
theorem concat3_congr {α : Type} (t : Shape) (a : Fin t.rank) (s1 s2 s3 : Shape)
    (x1 y1 : s1.Idx → α) (x2 y2 : s2.Idx → α) (x3 y3 : s3.Idx → α) (h h')
    (e1 : x1 = y1) (e2 : x2 = y2) (e3 : x3 = y3) :
    concatenate t a [⟨s1, x1⟩, ⟨s2, x2⟩, ⟨s3, x3⟩] h = concatenate t a [⟨s1, y1⟩, ⟨s2, y2⟩, ⟨s3, y3⟩] h' := by
  subst e1 e2 e3; rfl

/-- An operand of a three-operand operation is read at the reference `![a, b, c] k`; at a literal `k` this reduces it
    to the reference itself (β first: the operand family is applied to the literal index). -/
macro "operand_ref" : tactic =>
  `(tactic| dsimp only [Matrix.cons_val_zero, Matrix.cons_val_one, Matrix.cons_val])

end Cert.HostLine
-- ==== Proof.LibConcat2.lean ====
/-
  Reading what a buffer holds after a line of host operations.

  A line of host operations is a fold: each operation overwrites its result buffer with its function of its operand
  buffers.  What a buffer holds afterwards is therefore a nest of those functions over the contents the line started
  from, and one rewriting pass computes it: at an operation's own result buffer the fold gives the function's value, at
  any other buffer what was there before.

  One operation stops such a pass: a concatenation takes its operands as a LIST of (shape, array) pairs, and a rewriting
  pass does not enter that list.  For two operands we give the concatenation a form with the operands as plain
  arguments; the pass folds a concatenation into this form as soon as it meets one and then continues inside the two
  operands.
-/
import Idealize.ShloMosaic.Lib.StableHlo.Run

namespace Cert.HostLine

open Idealize.ShloMosaic Idealize.ShloMosaic.StableHlo

/-- The concatenation of two arrays along an axis, the two arrays as plain arguments. -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- A concatenation of two operands is `concat2` of them. -/
theorem concat2_fold {α : Type} (t : Shape) (a : Fin t.rank) (s1 s2 : Shape) (h : Shape.Concatenates [s1, s2] t a)
    (x : s1.Idx → α) (y : s2.Idx → α) :
    concatenate t a [⟨s1, x⟩, ⟨s2, y⟩] h = concat2 t a s1 s2 h x y := rfl

/-- Computes `after ops V b` for a literal line `ops`, as the operations' functions nested over `V` at the buffers the
    line reads but does not write; two-operand concatenations come out as `concat2`. -/
macro "host_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_fold]))

end Cert.HostLine
-- ==== Proof.Host0.lean ====
/-
  What the buffers hold after the host operations that precede the first launch.

  The edge index is cut into its two rows; the directed edge list is the two rows one after the other, in both
  orders; a node's degree counts the directed edges that end at it, and the column handed to the graph layers is
  the reciprocal of that count, with an isolated node counted as one; the node feature array is the six given
  columns, the observed value and the flag laid side by side.  Each statement gives one buffer's contents as the
  operations' own term over the starting contents.
-/
import proofs.«175741_j7894149890553_2_alg».proof.Proof.Gen.KernelIdeal.Launch
import proofs.«175741_j7894149890553_2_alg».proof.Proof.LibHostLine
import proofs.«175741_j7894149890553_2_alg».proof.Proof.LibConcat2

noncomputable section

namespace Cert.KernelIdeal.HostVal

open Cert.KernelIdeal Cert.KernelIdeal.Gen Idealize.ShloMosaic Idealize.ShloMosaic.StableHlo Idealize.SL.Sem Cert.HostLine

variable {F : FTy → Type} [FloatOps F]

/-- Row 0 of the edge index, as a vector: the edges' first end points. -/
theorem after0_v1 (W : Valuation τ sig (Elt F)) :
    after hostOps0 W (Proc.devRef .tc main_v1)
      = shapeCast S800000 (extractStridedSlice S1x800000 ![0, 0] (W (Proc.devRef .tc main_arg0)) slices_S2x800000_S1x800000_0_0) shapeCasts_S1x800000_S800000 := by
  host_line <;> rfl

/-- Row 1 of the edge index, as a vector: the edges' second end points. -/
theorem after0_v3 (W : Valuation τ sig (Elt F)) :
    after hostOps0 W (Proc.devRef .tc main_v3)
      = shapeCast S800000 (extractStridedSlice S1x800000 ![1, 0] (W (Proc.devRef .tc main_arg0)) slices_S2x800000_S1x800000_1_0) shapeCasts_S1x800000_S800000 := by
  host_line <;> rfl

/-- First end points followed by second end points: where each directed edge's row is read. -/
theorem after0_v4 (W : Valuation τ sig (Elt F)) :
    after hostOps0 W (Proc.devRef .tc main_v4)
      = concatenate S1600000 0 [⟨S800000, (shapeCast S800000 (extractStridedSlice S1x800000 ![0, 0] (W (Proc.devRef .tc main_arg0)) slices_S2x800000_S1x800000_0_0) shapeCasts_S1x800000_S800000)⟩, ⟨S800000, (shapeCast S800000 (extractStridedSlice S1x800000 ![1, 0] (W (Proc.devRef .tc main_arg0)) slices_S2x800000_S1x800000_1_0) shapeCasts_S1x800000_S800000)⟩] concatenates_S800000_S800000_S1600000_d0 := by
  host_line <;> rfl

/-- Second end points followed by first end points: where each directed edge's row is added. -/
theorem after0_v5 (W : Valuation τ sig (Elt F)) :
    after hostOps0 W (Proc.devRef .tc main_v5)
      = concatenate S1600000 0 [⟨S800000, (shapeCast S800000 (extractStridedSlice S1x800000 ![1, 0] (W (Proc.devRef .tc main_arg0)) slices_S2x800000_S1x800000_1_0) shapeCasts_S1x800000_S800000)⟩, ⟨S800000, (shapeCast S800000 (extractStridedSlice S1x800000 ![0, 0] (W (Proc.devRef .tc main_arg0)) slices_S2x800000_S1x800000_0_0) shapeCasts_S1x800000_S800000)⟩] concatenates_S800000_S800000_S1600000_d0 := by
  host_line <;> rfl

/-- The reciprocal-degree column: one over the larger of a node's count of incoming directed edges and one. -/
theorem after0_v14 (W : Valuation τ sig (Elt F)) :
    after hostOps0 W (Proc.devRef .tc main_v14)
      = shapeCast S100000x1 (Host.divf (broadcastInDim S100000 ![] bcast_S_S100000 (constant S_ .f32 0x3F800000#32))
        (maximumf (Host.scatterAdd scatter_S100000_S1600000x1_S1600000_n_0_0_1
            (broadcastInDim S100000 ![] bcast_S_S100000 (constant S_ .f32 0x00000000#32))
            (broadcastInDim S1600000x1 ![0] bcast_S1600000_S1600000x1_0 (concatenate S1600000 0 [⟨S800000, (shapeCast S800000 (extractStridedSlice S1x800000 ![1, 0] (W (Proc.devRef .tc main_arg0)) slices_S2x800000_S1x800000_1_0) shapeCasts_S1x800000_S800000)⟩, ⟨S800000, (shapeCast S800000 (extractStridedSlice S1x800000 ![0, 0] (W (Proc.devRef .tc main_arg0)) slices_S2x800000_S1x800000_0_0) shapeCasts_S1x800000_S800000)⟩] concatenates_S800000_S800000_S1600000_d0))
            (broadcastInDim S1600000 ![] bcast_S_S1600000 (constant S_ .f32 0x3F800000#32)))
          (broadcastInDim S100000 ![] bcast_S_S100000 (constant S_ .f32 0x3F800000#32)))) shapeCasts_S100000_S100000x1 := by
  host_line <;> rfl

/-- The node features: six given columns, then the observed value, then the flag as a number. -/
theorem after0_v18 (W : Valuation τ sig (Elt F)) :
    after hostOps0 W (Proc.devRef .tc main_v18)
      = concatenate S100000x8 1 [⟨S100000x6, (W (Proc.devRef .tc main_arg1))⟩, ⟨S100000x1, broadcastInDim S100000x1 ![0] bcast_S100000_S100000x1_0 (W (Proc.devRef .tc main_arg3))⟩, ⟨S100000x1, uitofp .f32 (broadcastInDim S100000x1 ![0] bcast_S100000_S100000x1_0 (W (Proc.devRef .tc main_arg5)))⟩] concatenates_S100000x6_S100000x1_S100000x1_S100000x8_d1 := by
  host_line
  refine concat3_congr _ _ _ _ _ _ _ _ _ _ _ _ _ ?_ ?_ ?_
  · operand_ref
    host_line
  · operand_ref
    host_line
  · operand_ref
    host_line

end Cert.KernelIdeal.HostVal

end
-- ==== Proof.Host1.lean ====
/-
  What the buffers hold after the host operations that precede each of the three graph-layer launches.

  Before a graph layer the rows of the previous launch's output are read along the directed edge list (an index
  below zero counts from the end), widened, and added into the row of each edge's target node: the neighbour
  sums.  The layer's two weight matrices and its bias are cut out of the arrays that stack the three layers'
  parameters.  Each statement gives one buffer's contents as the operations' own term over the starting contents,
  which include the previous launch's output and the two directed edge lists.
-/
import proofs.«175741_j7894149890553_2_alg».proof.Proof.Gen.KernelIdeal.Launch
import proofs.«175741_j7894149890553_2_alg».proof.Proof.LibHostLine
import proofs.«175741_j7894149890553_2_alg».proof.Proof.LibConcat2

noncomputable section

namespace Cert.KernelIdeal.HostVal

open Cert.KernelIdeal Cert.KernelIdeal.Gen Idealize.ShloMosaic Idealize.ShloMosaic.StableHlo Idealize.SL.Sem Cert.HostLine

variable {F : FTy → Type} [FloatOps F]

/-- The first graph layer's neighbour sums: each directed edge's source row, widened, added into the row of the edge's target; a negative source index is first moved up by the number of nodes. -/
theorem after1_v30 (W : Valuation τ sig (Elt F)) :
    after hostOps1 W (Proc.devRef .tc main_v30)
      = Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 (W (Proc.devRef .tc main_v5)))
        (extf .f32 (Host.gather gather_S100000x128_S1600000x1_S1600000x128_1_0_n_n_0_1_1128 (W (Proc.devRef .tc main_v19))
            (broadcastInDim S1600000x1 ![0] bcast_S1600000_S1600000x1_0 (select (cmpi .slt (W (Proc.devRef .tc main_v4)) (broadcastInDim S1600000 ![] bcast_S_S1600000 (constantI S_ 32 0#32))) (addi (W (Proc.devRef .tc main_v4)) (broadcastInDim S1600000 ![] bcast_S_S1600000 (constantI S_ 32 100000#32))) (W (Proc.devRef .tc main_v4))))) bitsLt_bf16_f32) := by
  host_line <;> rfl

/-- The first graph layer's own-row weights: block 0 of the stacked array. -/
theorem after1_v32 (W : Valuation τ sig (Elt F)) :
    after hostOps1 W (Proc.devRef .tc main_v32)
      = shapeCast S128x128 (extractStridedSlice S1x128x128 ![0, 0, 0] (W (Proc.devRef .tc main_arg9)) slices_S3x128x128_S1x128x128_0_0_0) shapeCasts_S1x128x128_S128x128 := by
  host_line <;> rfl

/-- The first graph layer's neighbour weights: block 0 of the stacked array. -/
theorem after1_v34 (W : Valuation τ sig (Elt F)) :
    after hostOps1 W (Proc.devRef .tc main_v34)
      = shapeCast S128x128 (extractStridedSlice S1x128x128 ![0, 0, 0] (W (Proc.devRef .tc main_arg10)) slices_S3x128x128_S1x128x128_0_0_0) shapeCasts_S1x128x128_S128x128 := by
  host_line <;> rfl

/-- The first graph layer's bias: row 0 of the stacked array. -/
theorem after1_v36 (W : Valuation τ sig (Elt F)) :
    after hostOps1 W (Proc.devRef .tc main_v36)
      = shapeCast S128 (extractStridedSlice S1x128 ![0, 0] (W (Proc.devRef .tc main_arg11)) slices_S3x128_S1x128_0_0) shapeCasts_S1x128_S128 := by
  host_line <;> rfl

/-- The second graph layer's neighbour sums: each directed edge's source row, widened, added into the row of the edge's target; a negative source index is first moved up by the number of nodes. -/
theorem after2_v48 (W : Valuation τ sig (Elt F)) :
    after hostOps2 W (Proc.devRef .tc main_v48)
      = Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 (W (Proc.devRef .tc main_v5)))
        (extf .f32 (Host.gather gather_S100000x128_S1600000x1_S1600000x128_1_0_n_n_0_1_1128 (W (Proc.devRef .tc main_v37))
            (broadcastInDim S1600000x1 ![0] bcast_S1600000_S1600000x1_0 (select (cmpi .slt (W (Proc.devRef .tc main_v4)) (broadcastInDim S1600000 ![] bcast_S_S1600000 (constantI S_ 32 0#32))) (addi (W (Proc.devRef .tc main_v4)) (broadcastInDim S1600000 ![] bcast_S_S1600000 (constantI S_ 32 100000#32))) (W (Proc.devRef .tc main_v4))))) bitsLt_bf16_f32) := by
  host_line <;> rfl

/-- The second graph layer's own-row weights: block 1 of the stacked array. -/
theorem after2_v50 (W : Valuation τ sig (Elt F)) :
    after hostOps2 W (Proc.devRef .tc main_v50)
      = shapeCast S128x128 (extractStridedSlice S1x128x128 ![1, 0, 0] (W (Proc.devRef .tc main_arg9)) slices_S3x128x128_S1x128x128_1_0_0) shapeCasts_S1x128x128_S128x128 := by
  host_line <;> rfl

/-- The second graph layer's neighbour weights: block 1 of the stacked array. -/
theorem after2_v52 (W : Valuation τ sig (Elt F)) :
    after hostOps2 W (Proc.devRef .tc main_v52)
      = shapeCast S128x128 (extractStridedSlice S1x128x128 ![1, 0, 0] (W (Proc.devRef .tc main_arg10)) slices_S3x128x128_S1x128x128_1_0_0) shapeCasts_S1x128x128_S128x128 := by
  host_line <;> rfl

/-- The second graph layer's bias: row 1 of the stacked array. -/
theorem after2_v54 (W : Valuation τ sig (Elt F)) :
    after hostOps2 W (Proc.devRef .tc main_v54)
      = shapeCast S128 (extractStridedSlice S1x128 ![1, 0] (W (Proc.devRef .tc main_arg11)) slices_S3x128_S1x128_1_0) shapeCasts_S1x128_S128 := by
  host_line <;> rfl

/-- The third graph layer's neighbour sums: each directed edge's source row, widened, added into the row of the edge's target; a negative source index is first moved up by the number of nodes. -/
theorem after3_v66 (W : Valuation τ sig (Elt F)) :
    after hostOps3 W (Proc.devRef .tc main_v66)
      = Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 (W (Proc.devRef .tc main_v5)))
        (extf .f32 (Host.gather gather_S100000x128_S1600000x1_S1600000x128_1_0_n_n_0_1_1128 (W (Proc.devRef .tc main_v55))
            (broadcastInDim S1600000x1 ![0] bcast_S1600000_S1600000x1_0 (select (cmpi .slt (W (Proc.devRef .tc main_v4)) (broadcastInDim S1600000 ![] bcast_S_S1600000 (constantI S_ 32 0#32))) (addi (W (Proc.devRef .tc main_v4)) (broadcastInDim S1600000 ![] bcast_S_S1600000 (constantI S_ 32 100000#32))) (W (Proc.devRef .tc main_v4))))) bitsLt_bf16_f32) := by
  host_line <;> rfl

/-- The third graph layer's own-row weights: block 2 of the stacked array. -/
theorem after3_v68 (W : Valuation τ sig (Elt F)) :
    after hostOps3 W (Proc.devRef .tc main_v68)
      = shapeCast S128x128 (extractStridedSlice S1x128x128 ![2, 0, 0] (W (Proc.devRef .tc main_arg9)) slices_S3x128x128_S1x128x128_2_0_0) shapeCasts_S1x128x128_S128x128 := by
  host_line <;> rfl

/-- The third graph layer's neighbour weights: block 2 of the stacked array. -/
theorem after3_v70 (W : Valuation τ sig (Elt F)) :
    after hostOps3 W (Proc.devRef .tc main_v70)
      = shapeCast S128x128 (extractStridedSlice S1x128x128 ![2, 0, 0] (W (Proc.devRef .tc main_arg10)) slices_S3x128x128_S1x128x128_2_0_0) shapeCasts_S1x128x128_S128x128 := by
  host_line <;> rfl

/-- The third graph layer's bias: row 2 of the stacked array. -/
theorem after3_v72 (W : Valuation τ sig (Elt F)) :
    after hostOps3 W (Proc.devRef .tc main_v72)
      = shapeCast S128 (extractStridedSlice S1x128 ![2, 0] (W (Proc.devRef .tc main_arg11)) slices_S3x128_S1x128_2_0) shapeCasts_S1x128_S128 := by
  host_line <;> rfl

end Cert.KernelIdeal.HostVal

end
-- ==== Proof.Host4.lean ====
/-
  What the buffers hold after the host operations that precede the edge-head launch, and after the one that
  follows it.

  The node head's output column becomes a vector.  For the edge head the last graph layer's rows are read at each
  edge's two end points (an index below zero counts from the end), the edge feature array is the four given
  columns, the observed value and the flag laid side by side, and the long first-layer weight array is cut into
  the block that meets the first end point's row, the block that meets the second's, and the six rows that meet
  the edge features.  Last, the edge head's output column becomes a vector.  Each statement gives one buffer's
  contents as the operations' own term over the starting contents.
-/
import proofs.«175741_j7894149890553_2_alg».proof.Proof.Gen.KernelIdeal.Launch
import proofs.«175741_j7894149890553_2_alg».proof.Proof.LibHostLine
import proofs.«175741_j7894149890553_2_alg».proof.Proof.LibConcat2

noncomputable section

namespace Cert.KernelIdeal.HostVal

open Cert.KernelIdeal Cert.KernelIdeal.Gen Idealize.ShloMosaic Idealize.ShloMosaic.StableHlo Idealize.SL.Sem Cert.HostLine

variable {F : FTy → Type} [FloatOps F]

/-- The node head's output column, as a vector. -/
theorem after4_v74 (W : Valuation τ sig (Elt F)) :
    after hostOps4 W (Proc.devRef .tc main_v74)
      = shapeCast S100000 (W (Proc.devRef .tc main_v73_1)) shapeCasts_S100000x1_S100000 := by
  host_line <;> rfl

/-- The last graph layer's rows read at the edges' first end points; a negative index is first moved up by the number of nodes. -/
theorem after4_v81 (W : Valuation τ sig (Elt F)) :
    after hostOps4 W (Proc.devRef .tc main_v81)
      = Host.gather gather_S100000x128_S800000x1_S800000x128_1_0_n_n_0_1_1128 (W (Proc.devRef .tc main_v73_0))
        (broadcastInDim S800000x1 ![0] bcast_S800000_S800000x1_0 (select (cmpi .slt (W (Proc.devRef .tc main_v1)) (broadcastInDim S800000 ![] bcast_S_S800000 (constantI S_ 32 0#32))) (addi (W (Proc.devRef .tc main_v1)) (broadcastInDim S800000 ![] bcast_S_S800000 (constantI S_ 32 100000#32))) (W (Proc.devRef .tc main_v1)))) := by
  host_line <;> rfl

/-- The last graph layer's rows read at the edges' second end points. -/
theorem after4_v88 (W : Valuation τ sig (Elt F)) :
    after hostOps4 W (Proc.devRef .tc main_v88)
      = Host.gather gather_S100000x128_S800000x1_S800000x128_1_0_n_n_0_1_1128 (W (Proc.devRef .tc main_v73_0))
        (broadcastInDim S800000x1 ![0] bcast_S800000_S800000x1_0 (select (cmpi .slt (W (Proc.devRef .tc main_v3)) (broadcastInDim S800000 ![] bcast_S_S800000 (constantI S_ 32 0#32))) (addi (W (Proc.devRef .tc main_v3)) (broadcastInDim S800000 ![] bcast_S_S800000 (constantI S_ 32 100000#32))) (W (Proc.devRef .tc main_v3)))) := by
  host_line <;> rfl

/-- The edge features: four given columns, then the observed value, then the flag as a number. -/
theorem after4_v92 (W : Valuation τ sig (Elt F)) :
    after hostOps4 W (Proc.devRef .tc main_v92)
      = concatenate S800000x6 1 [⟨S800000x4, (W (Proc.devRef .tc main_arg2))⟩, ⟨S800000x1, broadcastInDim S800000x1 ![0] bcast_S800000_S800000x1_0 (W (Proc.devRef .tc main_arg4))⟩, ⟨S800000x1, uitofp .f32 (broadcastInDim S800000x1 ![0] bcast_S800000_S800000x1_0 (W (Proc.devRef .tc main_arg6)))⟩] concatenates_S800000x4_S800000x1_S800000x1_S800000x6_d1 := by
  host_line
  refine concat3_congr _ _ _ _ _ _ _ _ _ _ _ _ _ ?_ ?_ ?_
  · operand_ref
    host_line
  · operand_ref
    host_line
  · operand_ref
    host_line

/-- The edge head's weights for the first end point's row: rows 0 to 127 of the long weight array. -/
theorem after4_v93 (W : Valuation τ sig (Elt F)) :
    after hostOps4 W (Proc.devRef .tc main_v93)
      = extractStridedSlice S128x128 ![0, 0] (W (Proc.devRef .tc main_arg16)) slices_S262x128_S128x128_0_0 := by
  host_line <;> rfl

/-- The edge head's weights for the second end point's row: rows 128 to 255. -/
theorem after4_v94 (W : Valuation τ sig (Elt F)) :
    after hostOps4 W (Proc.devRef .tc main_v94)
      = extractStridedSlice S128x128 ![128, 0] (W (Proc.devRef .tc main_arg16)) slices_S262x128_S128x128_128_0 := by
  host_line <;> rfl

/-- The edge head's weights for the six edge features: rows 256 to 261. -/
theorem after4_v95 (W : Valuation τ sig (Elt F)) :
    after hostOps4 W (Proc.devRef .tc main_v95)
      = extractStridedSlice S6x128 ![256, 0] (W (Proc.devRef .tc main_arg16)) slices_S262x128_S6x128_256_0 := by
  host_line <;> rfl

/-- The edge head's output column, as a vector. -/
theorem after5_v97 (W : Valuation τ sig (Elt F)) :
    after hostOps5 W (Proc.devRef .tc main_v97)
      = shapeCast S800000 (W (Proc.devRef .tc main_v96)) shapeCasts_S800000x1_S800000 := by
  host_line <;> rfl

end Cert.KernelIdeal.HostVal

end
-- ==== Proof.LibSplitConcat.lean ====
/-
  Two facts used to read a dense layer that is fed a concatenation of feature rows.

  A sum over an index range that is laid out as two or three consecutive blocks is the sum of the
  blocks' sums.  An array obtained by joining two or three arrays along their second axis, read at a
  row and a column, is the piece whose block of columns holds the column, read at the same row and at
  the column counted from the start of that block.
-/
import Idealize.ShloMosaic.Lib.Pipeline.Value
import Idealize.ShloMosaic.Lib.ValueIdx

open scoped BigOperators

namespace Cert.ReferenceIdeal.Stages

open Idealize.ShloMosaic Idealize.ShloMosaic.ValueIdx

/-! ## A sum over consecutive blocks -/

/-- A sum over `A + B` consecutive positions is the sum over the first `A` plus the sum over the last `B`. -/
theorem sum_split2 {M : Type} [AddCommMonoid M] {A B N : Nat} (h : A + B = N) (f : Fin N → M) :
    ∑ k : Fin N, f k
      = (∑ k : Fin A, f ⟨k.val, by omega⟩) + ∑ k : Fin B, f ⟨A + k.val, by omega⟩ := by
  subst h
  rw [Fin.sum_univ_add]
  rfl

/-- A sum over `A + B + C` consecutive positions is the sum of the three blocks' sums. -/
theorem sum_split3 {M : Type} [AddCommMonoid M] {A B C N : Nat} (h : A + B + C = N) (f : Fin N → M) :
    ∑ k : Fin N, f k
      = (∑ k : Fin A, f ⟨k.val, by omega⟩) + (∑ k : Fin B, f ⟨A + k.val, by omega⟩)
          + ∑ k : Fin C, f ⟨A + B + k.val, by omega⟩ := by
  subst h
  rw [Fin.sum_univ_add, Fin.sum_univ_add]
  rfl

/-! ## Arrays joined along the second axis, read at a row and a column -/

section Cat
variable {α : Type}

/-- Two arrays joined along the second axis: a column in the first block reads the first array. -/
theorem cat2_left {E A B N : Nat} (x₁ : (⟨2, ![E, A]⟩ : Shape).Idx → α) (x₂ : (⟨2, ![E, B]⟩ : Shape).Idx → α)
    (h : Shape.Concatenates [⟨2, ![E, A]⟩, ⟨2, ![E, B]⟩] ⟨2, ![E, N]⟩ 1) (e : Fin E) (k : Fin A) (hk : k.val < N) :
    concatenate ⟨2, ![E, N]⟩ 1 [⟨⟨2, ![E, A]⟩, x₁⟩, ⟨⟨2, ![E, B]⟩, x₂⟩] h (ix2 e ⟨k.val, hk⟩) = x₁ (ix2 e k) :=
  concatenate_pair_apply_left 1 x₁ x₂ h _ rfl _ (fun b => by
    match b with
    | ⟨0, _⟩ => rfl
    | ⟨1, _⟩ => rfl)

/-- Two arrays joined along the second axis: a column in the second block reads the second array. -/
theorem cat2_right {E A B N : Nat} (x₁ : (⟨2, ![E, A]⟩ : Shape).Idx → α) (x₂ : (⟨2, ![E, B]⟩ : Shape).Idx → α)
    (h : Shape.Concatenates [⟨2, ![E, A]⟩, ⟨2, ![E, B]⟩] ⟨2, ![E, N]⟩ 1) (e : Fin E) (k : Fin B) (hk : A + k.val < N) :
    concatenate ⟨2, ![E, N]⟩ 1 [⟨⟨2, ![E, A]⟩, x₁⟩, ⟨⟨2, ![E, B]⟩, x₂⟩] h (ix2 e ⟨A + k.val, hk⟩) = x₂ (ix2 e k) :=
  concatenate_pair_apply_right 1 x₁ x₂ h _ rfl rfl _
    (fun b hb => by
      match b with
      | ⟨0, _⟩ => rfl
      | ⟨1, _⟩ => exact absurd rfl hb)
    (Nat.add_comm _ _)

/-- Three arrays joined along the second axis: a column in the first block reads the first array. -/
theorem cat3_first {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin A)
    (hk : k.val < N) :
    concatenate ⟨2, ![E, N]⟩ 1 [⟨⟨2, ![E, A]⟩, x₁⟩, ⟨⟨2, ![E, B]⟩, x₂⟩, ⟨⟨2, ![E, C]⟩, x₃⟩] h (ix2 e ⟨k.val, hk⟩)
      = x₁ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 0 (show (0 : Nat) < 3 by omega) ⟨2, ![E, A]⟩ x₁ rfl rfl 0 rfl (ix2 e k)
    (fun b hb => by
      match b with
      | ⟨0, _⟩ => rfl
      | ⟨1, _⟩ => exact absurd rfl hb)
    (Nat.zero_add _)

/-- Three arrays joined along the second axis: a column in the second block reads the second array. -/
theorem cat3_second {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin B)
    (hk : A + k.val < N) :
    concatenate ⟨2, ![E, N]⟩ 1 [⟨⟨2, ![E, A]⟩, x₁⟩, ⟨⟨2, ![E, B]⟩, x₂⟩, ⟨⟨2, ![E, C]⟩, x₃⟩] h (ix2 e ⟨A + k.val, hk⟩)
      = x₂ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 1 (show (1 : Nat) < 3 by omega) ⟨2, ![E, B]⟩ x₂ rfl rfl A (Nat.add_zero A) (ix2 e k)
    (fun b hb => by
      match b with
      | ⟨0, _⟩ => rfl
      | ⟨1, _⟩ => exact absurd rfl hb)
    rfl

/-- Three arrays joined along the second axis: a column in the third block reads the third array. -/
theorem cat3_third {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin C)
    (hk : A + B + k.val < N) :
    concatenate ⟨2, ![E, N]⟩ 1 [⟨⟨2, ![E, A]⟩, x₁⟩, ⟨⟨2, ![E, B]⟩, x₂⟩, ⟨⟨2, ![E, C]⟩, x₃⟩] h
        (ix2 e ⟨A + B + k.val, hk⟩)
      = x₃ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 2 (show (2 : Nat) < 3 by omega) ⟨2, ![E, C]⟩ x₃ rfl rfl (A + B) (show A + (B + 0) = A + B from rfl) (ix2 e k)
    (fun b hb => by
      match b with
      | ⟨0, _⟩ => rfl
      | ⟨1, _⟩ => exact absurd rfl hb)
    rfl

end Cat

end Cert.ReferenceIdeal.Stages
-- ==== Proof.HostRead.lean ====
/-
  The host operations that only rearrange an array, read at a row and a column.

  A vector stood up as a one-column array, or a one-column array laid down as a vector, keeps its entries: entry
  `p` of the one is entry `(p, 0)` of the other.  The edge feature array, which lays four given columns, the
  observed value and the flag side by side, is the six-column array of the network's formulas.  The three pieces
  cut out of the edge head's long first-layer weight array are its rows 0 to 127, 128 to 255 and 256 to 261.
-/
import proofs.«175741_j7894149890553_2_alg».proof.Proof.Gen.KernelIdeal.Launch
import proofs.«175741_j7894149890553_2_alg».proof.Proof.Spec
import proofs.«175741_j7894149890553_2_alg».proof.Proof.LibSplitConcat
import Idealize.ShloMosaic.Lib.Pipeline.Value
import Idealize.ShloMosaic.Lib.ValueIdx

noncomputable section

namespace Cert.KernelIdeal.HostVal

open Cert.KernelIdeal Cert.KernelIdeal.Gen Idealize.ShloMosaic Idealize.ShloMosaic.ValueIdx Idealize.SL.Sem
open Cert.ReferenceIdeal.Stages

/-! ## A vector as a one-column array, and back -/

section Column
variable {α : Type}

/-- A length-`n` vector reshaped to `n` rows of one column reads, at row `p`, the vector's entry `p`. -/
theorem column_of_vector_apply {n : Nat} (x : (⟨1, ![n]⟩ : Shape).Idx → α)
    (h : (⟨1, ![n]⟩ : Shape).ShapeCasts ⟨2, ![n, 1]⟩) (p : Fin n) :
    shapeCast ⟨2, ![n, 1]⟩ x h (ix2 p 0) = x (ix1 p) :=
  shapeCast_apply x h (ix2 p 0) (ix1 p) (by
    rw [Shape.rowMajor_val_one, Shape.rowMajor_val_two]
    show p.val = p.val * 1 + 0
    omega)

/-- An array of `n` rows of one column reshaped to a length-`n` vector reads, at `p`, the array's entry `(p, 0)`. -/
theorem vector_of_column_apply {n : Nat} (x : (⟨2, ![n, 1]⟩ : Shape).Idx → α)
    (h : (⟨2, ![n, 1]⟩ : Shape).ShapeCasts ⟨1, ![n]⟩) (p : Fin n) :
    shapeCast ⟨1, ![n]⟩ x h (ix1 p) = x (ix2 p 0) :=
  shapeCast_apply x h (ix1 p) (ix2 p 0) (by
    rw [Shape.rowMajor_val_one, Shape.rowMajor_val_two]
    show p.val * 1 + 0 = p.val
    omega)

/-- The reciprocal-degree column at row `p` is the reciprocal-degree vector at `p`. -/
theorem v14_read (x : S100000.Idx → α) (p : Fin 100000) :
    shapeCast S100000x1 x shapeCasts_S100000_S100000x1 (ix2 p 0) = x (ix1 p) :=
  column_of_vector_apply x _ p

/-- The node head's output vector at `p` is its output column at row `p`. -/
theorem v74_read (x : S100000x1.Idx → α) (p : Fin 100000) :
    shapeCast S100000 x shapeCasts_S100000x1_S100000 (ix1 p) = x (ix2 p 0) :=
  vector_of_column_apply x _ p

/-- The edge head's output vector at `p` is its output column at row `p`. -/
theorem v97_read (x : S800000x1.Idx → α) (p : Fin 800000) :
    shapeCast S800000 x shapeCasts_S800000x1_S800000 (ix1 p) = x (ix2 p 0) :=
  vector_of_column_apply x _ p

end Column

/-! ## The edge features side by side -/

/-- Four given columns, the observed value and the flag laid side by side are the six-column edge feature array. -/
theorem v92_feat6 (es : Cert.Spec.Mat 800000 4) (qo qm : Cert.Spec.Mat 800000 1) :
    concatenate S800000x6 1 [⟨S800000x4, es⟩, ⟨S800000x1, qo⟩, ⟨S800000x1, qm⟩]
        concatenates_S800000x4_S800000x1_S800000x1_S800000x6_d1
      = Cert.Spec.feat6 es qo qm := by
  funext i
  obtain ⟨e, j, rfl⟩ : ∃ (e : Fin 800000) (j : Fin 6), i = ix2 e j := ⟨i 0, i 1, eq_ix2 i⟩
  unfold Cert.Spec.feat6
  rw [Cert.Spec.mk2_apply]
  by_cases h4 : j.val < 4
  · rw [dif_pos h4]
    exact cat3_first es qo qm _ e ⟨j.val, h4⟩ (by have := j.isLt; omega)
  · rw [dif_neg h4]
    by_cases h5 : j.val = 4
    · rw [if_pos h5]
      obtain rfl : j = ⟨4 + (0 : Fin 1).val, by decide⟩ := Fin.ext h5
      exact cat3_second es qo qm _ e 0 _
    · rw [if_neg h5]
      obtain rfl : j = ⟨4 + 1 + (0 : Fin 1).val, by decide⟩ := Fin.ext (by have := j.isLt; show j.val = 5; omega)
      exact cat3_third es qo qm _ e 0 _

/-! ## The edge head's first-layer weights, cut in three -/

/-- The piece that meets the first end point's row: rows 0 to 127. -/
theorem v93_rows (w : Cert.Spec.Mat 262 128) :
    extractStridedSlice S128x128 ![0, 0] w slices_S262x128_S128x128_0_0 = Cert.Spec.rows 0 (by omega) w := by
  funext i
  obtain ⟨j, q, rfl⟩ : ∃ (j : Fin 128) (q : Fin 128), i = ix2 j q := ⟨i 0, i 1, eq_ix2 i⟩
  rw [Cert.Spec.rows_apply]
  exact extractStridedSlice_apply _ w _ (ix2 j q) (ix2 ⟨0 + j.val, by have := j.isLt; omega⟩ q)
    (fun a => match a with | ⟨0, _⟩ => rfl | ⟨1, _⟩ => (Nat.zero_add _).symm)

/-- The piece that meets the second end point's row: rows 128 to 255. -/
theorem v94_rows (w : Cert.Spec.Mat 262 128) :
    extractStridedSlice S128x128 ![128, 0] w slices_S262x128_S128x128_128_0 = Cert.Spec.rows 128 (by omega) w := by
  funext i
  obtain ⟨j, q, rfl⟩ : ∃ (j : Fin 128) (q : Fin 128), i = ix2 j q := ⟨i 0, i 1, eq_ix2 i⟩
  rw [Cert.Spec.rows_apply]
  exact extractStridedSlice_apply _ w _ (ix2 j q) (ix2 ⟨128 + j.val, by have := j.isLt; omega⟩ q)
    (fun a => match a with | ⟨0, _⟩ => rfl | ⟨1, _⟩ => (Nat.zero_add _).symm)

/-- The piece that meets the six edge features: rows 256 to 261. -/
theorem v95_rows (w : Cert.Spec.Mat 262 128) :
    extractStridedSlice S6x128 ![256, 0] w slices_S262x128_S6x128_256_0 = Cert.Spec.rows 256 (by omega) w := by
  funext i
  obtain ⟨j, q, rfl⟩ : ∃ (j : Fin 6) (q : Fin 128), i = ix2 j q := ⟨i 0, i 1, eq_ix2 i⟩
  rw [Cert.Spec.rows_apply]
  exact extractStridedSlice_apply _ w _ (ix2 j q) (ix2 ⟨256 + j.val, by have := j.isLt; omega⟩ q)
    (fun a => match a with | ⟨0, _⟩ => rfl | ⟨1, _⟩ => (Nat.zero_add _).symm)

end Cert.KernelIdeal.HostVal

end
-- ==== Proof.HostIdeal.lean ====
/-
  The rearranging host operations on the extended reals, joined to what the buffers hold.

  Each statement takes one buffer's contents after a stretch of host operations and reads it the way the
  network's formulas do: the reciprocal-degree column and the two output vectors entry by entry, the edge feature
  array as the six-column array, the three pieces of the edge head's first-layer weights as blocks of rows.
-/
import proofs.«175741_j7894149890553_2_alg».proof.Proof.Host0
import proofs.«175741_j7894149890553_2_alg».proof.Proof.Host4
import proofs.«175741_j7894149890553_2_alg».proof.Proof.HostRead

noncomputable section

namespace Cert.KernelIdeal.HostVal

open Cert.KernelIdeal Cert.KernelIdeal.Gen Idealize.ShloMosaic Idealize.ShloMosaic.StableHlo Idealize.ShloMosaic.ValueIdx Idealize.SL.Sem

/-- The reciprocal-degree column at row `p` is the reciprocal-degree vector at `p`. -/
theorem after0_v14_apply (W : Valuation τ sig (Elt Ideal)) (p : Fin 100000) :
    after hostOps0 W (Proc.devRef .tc main_v14) (ix2 p 0)
      = Host.divf (F := Ideal) (broadcastInDim S100000 ![] bcast_S_S100000 (constant S_ .f32 0x3F800000#32))
        (maximumf (Host.scatterAdd scatter_S100000_S1600000x1_S1600000_n_0_0_1
            (broadcastInDim S100000 ![] bcast_S_S100000 (constant S_ .f32 0x00000000#32))
            (broadcastInDim S1600000x1 ![0] bcast_S1600000_S1600000x1_0 (concatenate S1600000 0 [⟨S800000, (shapeCast S800000 (extractStridedSlice S1x800000 ![1, 0] (W (Proc.devRef .tc main_arg0)) slices_S2x800000_S1x800000_1_0) shapeCasts_S1x800000_S800000)⟩, ⟨S800000, (shapeCast S800000 (extractStridedSlice S1x800000 ![0, 0] (W (Proc.devRef .tc main_arg0)) slices_S2x800000_S1x800000_0_0) shapeCasts_S1x800000_S800000)⟩] concatenates_S800000_S800000_S1600000_d0))
            (broadcastInDim S1600000 ![] bcast_S_S1600000 (constant S_ .f32 0x3F800000#32)))
          (broadcastInDim S100000 ![] bcast_S_S100000 (constant S_ .f32 0x3F800000#32))) (ix1 p) :=
  (congrFun (after0_v14 W) (ix2 p 0)).trans (v14_read _ p)

/-- The node head's output vector at `p` is the launch's output column at row `p`. -/
theorem after4_v74_apply (W : Valuation τ sig (Elt Ideal)) (p : Fin 100000) :
    after hostOps4 W (Proc.devRef .tc main_v74) (ix1 p) = W (Proc.devRef .tc main_v73_1) (ix2 p 0) :=
  (congrFun (after4_v74 W) (ix1 p)).trans (v74_read _ p)

/-- The edge features the edge head reads are the six-column array of the network's formulas. -/
theorem after4_v92_feat6 (W : Valuation τ sig (Elt Ideal)) :
    after hostOps4 W (Proc.devRef .tc main_v92)
      = Cert.Spec.feat6 (W (Proc.devRef .tc main_arg2))
          (broadcastInDim S800000x1 ![0] bcast_S800000_S800000x1_0 (W (Proc.devRef .tc main_arg4)))
          (uitofp (F := Ideal) .f32 (broadcastInDim S800000x1 ![0] bcast_S800000_S800000x1_0 (W (Proc.devRef .tc main_arg6)))) :=
  (after4_v92 W).trans (v92_feat6 _ _ _)

/-- The weights that meet the first end point's row are rows 0 to 127 of the long weight array. -/
theorem after4_v93_rows (W : Valuation τ sig (Elt Ideal)) :
    after hostOps4 W (Proc.devRef .tc main_v93) = Cert.Spec.rows 0 (by omega) (W (Proc.devRef .tc main_arg16)) :=
  (after4_v93 W).trans (v93_rows _)

/-- The weights that meet the second end point's row are rows 128 to 255. -/
theorem after4_v94_rows (W : Valuation τ sig (Elt Ideal)) :
    after hostOps4 W (Proc.devRef .tc main_v94) = Cert.Spec.rows 128 (by omega) (W (Proc.devRef .tc main_arg16)) :=
  (after4_v94 W).trans (v94_rows _)

/-- The weights that meet the six edge features are rows 256 to 261. -/
theorem after4_v95_rows (W : Valuation τ sig (Elt Ideal)) :
    after hostOps4 W (Proc.devRef .tc main_v95) = Cert.Spec.rows 256 (by omega) (W (Proc.devRef .tc main_arg16)) :=
  (after4_v95 W).trans (v95_rows _)

/-- The edge head's output vector at `p` is the launch's output column at row `p`. -/
theorem after5_v97_apply (W : Valuation τ sig (Elt Ideal)) (p : Fin 800000) :
    after hostOps5 W (Proc.devRef .tc main_v97) (ix1 p) = W (Proc.devRef .tc main_v96) (ix2 p 0) :=
  (congrFun (after5_v97 W) (ix1 p)).trans (v97_read _ p)

end Cert.KernelIdeal.HostVal

end
-- ==== Proof.HostMatch.lean ====
/-
  The arrays the kernel program computes on the host are the reference program's stages.

  Both programs prepare the same things outside the launches, with the same operations: the two rows of the edge
  index and the two directed edge lists, the reciprocal degrees, the node and edge feature columns, each layer's
  weights and bias cut out of the stacked arrays, the neighbour sums (rows read along one edge list, added along the
  other) and the rows read at the edges' end points.  The kernel program widens the rows it has read for the neighbour
  sums, which on the extended reals changes nothing.  So each of the kernel program's terms, with the reference's
  stage put where the kernel program has the previous launch's output, is the reference's next stage.
-/
import proofs.«175741_j7894149890553_2_alg».proof.Proof.Gen.KernelIdeal.Launch
import proofs.«175741_j7894149890553_2_alg».proof.Proof.Gen.ReferenceIdeal.Read
import Idealize.ShloMosaic.PureOps.Ideal
import Idealize.ShloMosaic.Lib.ValueIdx

noncomputable section

namespace Cert.Proof.HostMatch

open Cert.KernelIdeal Cert.KernelIdeal.Gen Idealize.ShloMosaic Idealize.ShloMosaic.StableHlo Idealize.ShloMosaic.ValueIdx Idealize.SL.Sem

/-- Widening is the identity on the extended reals. -/
theorem extf_id {s : Shape} {φ ψ : FTy} (a : FVec Ideal s φ) (h : φ.bits < ψ.bits) : (extf ψ a h : FVec Ideal s ψ) = a := rfl

/-! ## The node features and the reciprocal degrees -/

/-- The node features: six given columns, the observed value, the flag as a number. -/
theorem node_features (x1 : (⟨S100000x6, .f32⟩ : BufTy).Contents (Elt Ideal)) (x3 : (⟨S100000, .f32⟩ : BufTy).Contents (Elt Ideal)) (x5 : (⟨S100000, .i1⟩ : BufTy).Contents (Elt Ideal)) :
    concatenate S100000x8 1 [⟨S100000x6, x1⟩, ⟨S100000x1, broadcastInDim S100000x1 ![0] bcast_S100000_S100000x1_0 x3⟩, ⟨S100000x1, uitofp (F := Ideal) .f32 (broadcastInDim S100000x1 ![0] bcast_S100000_S100000x1_0 x5)⟩] concatenates_S100000x6_S100000x1_S100000x1_S100000x8_d1
      = Cert.ReferenceIdeal.Read.val_main_v3 (F := Ideal) x1 x3 x5 := rfl

/-- The reciprocal degrees, as a vector. -/
theorem recip_degrees (x0 : (⟨S2x800000, .i32⟩ : BufTy).Contents (Elt Ideal)) :
    Host.divf (F := Ideal) (broadcastInDim S100000 ![] bcast_S_S100000 (constant S_ .f32 0x3F800000#32))
        (maximumf (Host.scatterAdd scatter_S100000_S1600000x1_S1600000_n_0_0_1
            (broadcastInDim S100000 ![] bcast_S_S100000 (constant S_ .f32 0x00000000#32))
            (broadcastInDim S1600000x1 ![0] bcast_S1600000_S1600000x1_0 (concatenate S1600000 0 [⟨S800000, (shapeCast S800000 (extractStridedSlice S1x800000 ![1, 0] x0 slices_S2x800000_S1x800000_1_0) shapeCasts_S1x800000_S800000)⟩, ⟨S800000, (shapeCast S800000 (extractStridedSlice S1x800000 ![0, 0] x0 slices_S2x800000_S1x800000_0_0) shapeCasts_S1x800000_S800000)⟩] concatenates_S800000_S800000_S1600000_d0))
            (broadcastInDim S1600000 ![] bcast_S_S1600000 (constant S_ .f32 0x3F800000#32)))
          (broadcastInDim S100000 ![] bcast_S_S100000 (constant S_ .f32 0x3F800000#32)))
      = Cert.ReferenceIdeal.Read.val_main_v21 (F := Ideal) x0 := rfl

/-- The two directed edge lists. -/
theorem edge_sources (x0 : (⟨S2x800000, .i32⟩ : BufTy).Contents (Elt Ideal)) : (concatenate S1600000 0 [⟨S800000, (shapeCast S800000 (extractStridedSlice S1x800000 ![0, 0] x0 slices_S2x800000_S1x800000_0_0) shapeCasts_S1x800000_S800000)⟩, ⟨S800000, (shapeCast S800000 (extractStridedSlice S1x800000 ![1, 0] x0 slices_S2x800000_S1x800000_1_0) shapeCasts_S1x800000_S800000)⟩] concatenates_S800000_S800000_S1600000_d0) = Cert.ReferenceIdeal.Read.val_main_v12 (F := Ideal) x0 := rfl
theorem edge_targets (x0 : (⟨S2x800000, .i32⟩ : BufTy).Contents (Elt Ideal)) : (concatenate S1600000 0 [⟨S800000, (shapeCast S800000 (extractStridedSlice S1x800000 ![1, 0] x0 slices_S2x800000_S1x800000_1_0) shapeCasts_S1x800000_S800000)⟩, ⟨S800000, (shapeCast S800000 (extractStridedSlice S1x800000 ![0, 0] x0 slices_S2x800000_S1x800000_0_0) shapeCasts_S1x800000_S800000)⟩] concatenates_S800000_S800000_S1600000_d0) = Cert.ReferenceIdeal.Read.val_main_v13 (F := Ideal) x0 := rfl
/-- The two rows of the edge index. -/
theorem edge_row0 (x0 : (⟨S2x800000, .i32⟩ : BufTy).Contents (Elt Ideal)) : (shapeCast S800000 (extractStridedSlice S1x800000 ![0, 0] x0 slices_S2x800000_S1x800000_0_0) shapeCasts_S1x800000_S800000) = Cert.ReferenceIdeal.Read.val_main_v9 (F := Ideal) x0 := rfl
theorem edge_row1 (x0 : (⟨S2x800000, .i32⟩ : BufTy).Contents (Elt Ideal)) : (shapeCast S800000 (extractStridedSlice S1x800000 ![1, 0] x0 slices_S2x800000_S1x800000_1_0) shapeCasts_S1x800000_S800000) = Cert.ReferenceIdeal.Read.val_main_v11 (F := Ideal) x0 := rfl

/-! ## The neighbour sums -/

/-- Layer 0: rows of the encoder's output read along the source list and added along the target list. -/
theorem nbr_sums0 (x0 : (⟨S2x800000, .i32⟩ : BufTy).Contents (Elt Ideal)) (x1 : (⟨S100000x6, .f32⟩ : BufTy).Contents (Elt Ideal)) (x3 : (⟨S100000, .f32⟩ : BufTy).Contents (Elt Ideal)) (x5 : (⟨S100000, .i1⟩ : BufTy).Contents (Elt Ideal)) (x7 : (⟨S8x128, .f32⟩ : BufTy).Contents (Elt Ideal)) (x8 : (⟨S128, .f32⟩ : BufTy).Contents (Elt Ideal)) :
    Host.scatterAdd (F := Ideal) scatter_S100000x128_S1600000x1_S1600000x128_1_0_0_1
        (broadcastInDim S100000x128 ![] bcast_S_S100000x128 (constant S_ .f32 0x00000000#32))
        (broadcastInDim S1600000x1 ![0] bcast_S1600000_S1600000x1_0 (concatenate S1600000 0 [⟨S800000, (shapeCast S800000 (extractStridedSlice S1x800000 ![1, 0] x0 slices_S2x800000_S1x800000_1_0) shapeCasts_S1x800000_S800000)⟩, ⟨S800000, (shapeCast S800000 (extractStridedSlice S1x800000 ![0, 0] x0 slices_S2x800000_S1x800000_0_0) shapeCasts_S1x800000_S800000)⟩] concatenates_S800000_S800000_S1600000_d0))
        (extf .f32 (Host.gather gather_S100000x128_S1600000x1_S1600000x128_1_0_n_n_0_1_1128 (Cert.ReferenceIdeal.Read.val_main_v7 (F := Ideal) x1 x3 x5 x7 x8)
            (broadcastInDim S1600000x1 ![0] bcast_S1600000_S1600000x1_0 (select (cmpi .slt (concatenate S1600000 0 [⟨S800000, (shapeCast S800000 (extractStridedSlice S1x800000 ![0, 0] x0 slices_S2x800000_S1x800000_0_0) shapeCasts_S1x800000_S800000)⟩, ⟨S800000, (shapeCast S800000 (extractStridedSlice S1x800000 ![1, 0] x0 slices_S2x800000_S1x800000_1_0) shapeCasts_S1x800000_S800000)⟩] concatenates_S800000_S800000_S1600000_d0) (broadcastInDim S1600000 ![] bcast_S_S1600000 (constantI S_ 32 0#32))) (addi (concatenate S1600000 0 [⟨S800000, (shapeCast S800000 (extractStridedSlice S1x800000 ![0, 0] x0 slices_S2x800000_S1x800000_0_0) shapeCasts_S1x800000_S800000)⟩, ⟨S800000, (shapeCast S800000 (extractStridedSlice S1x800000 ![1, 0] x0 slices_S2x800000_S1x800000_1_0) shapeCasts_S1x800000_S800000)⟩] concatenates_S800000_S800000_S1600000_d0) (broadcastInDim S1600000 ![] bcast_S_S1600000 (constantI S_ 32 100000#32))) (concatenate S1600000 0 [⟨S800000, (shapeCast S800000 (extractStridedSlice S1x800000 ![0, 0] x0 slices_S2x800000_S1x800000_0_0) shapeCasts_S1x800000_S800000)⟩, ⟨S800000, (shapeCast S800000 (extractStridedSlice S1x800000 ![1, 0] x0 slices_S2x800000_S1x800000_1_0) shapeCasts_S1x800000_S800000)⟩] concatenates_S800000_S800000_S1600000_d0)))) bitsLt_bf16_f32)
      = Cert.ReferenceIdeal.Read.val_main_v31 (F := Ideal) x0 x1 x3 x5 x7 x8 := rfl

/-- Layer 1: the same of the first layer's output. -/
theorem nbr_sums1 (x0 : (⟨S2x800000, .i32⟩ : BufTy).Contents (Elt Ideal)) (x1 : (⟨S100000x6, .f32⟩ : BufTy).Contents (Elt Ideal)) (x3 : (⟨S100000, .f32⟩ : BufTy).Contents (Elt Ideal)) (x5 : (⟨S100000, .i1⟩ : BufTy).Contents (Elt Ideal)) (x7 : (⟨S8x128, .f32⟩ : BufTy).Contents (Elt Ideal)) (x8 : (⟨S128, .f32⟩ : BufTy).Contents (Elt Ideal)) (x9 : (⟨S3x128x128, .f32⟩ : BufTy).Contents (Elt Ideal)) (x10 : (⟨S3x128x128, .f32⟩ : BufTy).Contents (Elt Ideal)) (x11 : (⟨S3x128, .f32⟩ : BufTy).Contents (Elt Ideal)) :
    Host.scatterAdd (F := Ideal) scatter_S100000x128_S1600000x1_S1600000x128_1_0_0_1
        (broadcastInDim S100000x128 ![] bcast_S_S100000x128 (constant S_ .f32 0x00000000#32))
        (broadcastInDim S1600000x1 ![0] bcast_S1600000_S1600000x1_0 (concatenate S1600000 0 [⟨S800000, (shapeCast S800000 (extractStridedSlice S1x800000 ![1, 0] x0 slices_S2x800000_S1x800000_1_0) shapeCasts_S1x800000_S800000)⟩, ⟨S800000, (shapeCast S800000 (extractStridedSlice S1x800000 ![0, 0] x0 slices_S2x800000_S1x800000_0_0) shapeCasts_S1x800000_S800000)⟩] concatenates_S800000_S800000_S1600000_d0))
        (extf .f32 (Host.gather gather_S100000x128_S1600000x1_S1600000x128_1_0_n_n_0_1_1128 (Cert.ReferenceIdeal.Read.val_main_v47 (F := Ideal) x0 x1 x3 x5 x7 x8 x9 x10 x11)
            (broadcastInDim S1600000x1 ![0] bcast_S1600000_S1600000x1_0 (select (cmpi .slt (concatenate S1600000 0 [⟨S800000, (shapeCast S800000 (extractStridedSlice S1x800000 ![0, 0] x0 slices_S2x800000_S1x800000_0_0) shapeCasts_S1x800000_S800000)⟩, ⟨S800000, (shapeCast S800000 (extractStridedSlice S1x800000 ![1, 0] x0 slices_S2x800000_S1x800000_1_0) shapeCasts_S1x800000_S800000)⟩] concatenates_S800000_S800000_S1600000_d0) (broadcastInDim S1600000 ![] bcast_S_S1600000 (constantI S_ 32 0#32))) (addi (concatenate S1600000 0 [⟨S800000, (shapeCast S800000 (extractStridedSlice S1x800000 ![0, 0] x0 slices_S2x800000_S1x800000_0_0) shapeCasts_S1x800000_S800000)⟩, ⟨S800000, (shapeCast S800000 (extractStridedSlice S1x800000 ![1, 0] x0 slices_S2x800000_S1x800000_1_0) shapeCasts_S1x800000_S800000)⟩] concatenates_S800000_S800000_S1600000_d0) (broadcastInDim S1600000 ![] bcast_S_S1600000 (constantI S_ 32 100000#32))) (concatenate S1600000 0 [⟨S800000, (shapeCast S800000 (extractStridedSlice S1x800000 ![0, 0] x0 slices_S2x800000_S1x800000_0_0) shapeCasts_S1x800000_S800000)⟩, ⟨S800000, (shapeCast S800000 (extractStridedSlice S1x800000 ![1, 0] x0 slices_S2x800000_S1x800000_1_0) shapeCasts_S1x800000_S800000)⟩] concatenates_S800000_S800000_S1600000_d0)))) bitsLt_bf16_f32)
      = Cert.ReferenceIdeal.Read.val_main_v57 (F := Ideal) x0 x1 x3 x5 x7 x8 x9 x10 x11 := rfl

/-- Layer 2: the same of the second layer's output. -/
theorem nbr_sums2 (x0 : (⟨S2x800000, .i32⟩ : BufTy).Contents (Elt Ideal)) (x1 : (⟨S100000x6, .f32⟩ : BufTy).Contents (Elt Ideal)) (x3 : (⟨S100000, .f32⟩ : BufTy).Contents (Elt Ideal)) (x5 : (⟨S100000, .i1⟩ : BufTy).Contents (Elt Ideal)) (x7 : (⟨S8x128, .f32⟩ : BufTy).Contents (Elt Ideal)) (x8 : (⟨S128, .f32⟩ : BufTy).Contents (Elt Ideal)) (x9 : (⟨S3x128x128, .f32⟩ : BufTy).Contents (Elt Ideal)) (x10 : (⟨S3x128x128, .f32⟩ : BufTy).Contents (Elt Ideal)) (x11 : (⟨S3x128, .f32⟩ : BufTy).Contents (Elt Ideal)) :
    Host.scatterAdd (F := Ideal) scatter_S100000x128_S1600000x1_S1600000x128_1_0_0_1
        (broadcastInDim S100000x128 ![] bcast_S_S100000x128 (constant S_ .f32 0x00000000#32))
        (broadcastInDim S1600000x1 ![0] bcast_S1600000_S1600000x1_0 (concatenate S1600000 0 [⟨S800000, (shapeCast S800000 (extractStridedSlice S1x800000 ![1, 0] x0 slices_S2x800000_S1x800000_1_0) shapeCasts_S1x800000_S800000)⟩, ⟨S800000, (shapeCast S800000 (extractStridedSlice S1x800000 ![0, 0] x0 slices_S2x800000_S1x800000_0_0) shapeCasts_S1x800000_S800000)⟩] concatenates_S800000_S800000_S1600000_d0))
        (extf .f32 (Host.gather gather_S100000x128_S1600000x1_S1600000x128_1_0_n_n_0_1_1128 (Cert.ReferenceIdeal.Read.val_main_v73 (F := Ideal) x0 x1 x3 x5 x7 x8 x9 x10 x11)
            (broadcastInDim S1600000x1 ![0] bcast_S1600000_S1600000x1_0 (select (cmpi .slt (concatenate S1600000 0 [⟨S800000, (shapeCast S800000 (extractStridedSlice S1x800000 ![0, 0] x0 slices_S2x800000_S1x800000_0_0) shapeCasts_S1x800000_S800000)⟩, ⟨S800000, (shapeCast S800000 (extractStridedSlice S1x800000 ![1, 0] x0 slices_S2x800000_S1x800000_1_0) shapeCasts_S1x800000_S800000)⟩] concatenates_S800000_S800000_S1600000_d0) (broadcastInDim S1600000 ![] bcast_S_S1600000 (constantI S_ 32 0#32))) (addi (concatenate S1600000 0 [⟨S800000, (shapeCast S800000 (extractStridedSlice S1x800000 ![0, 0] x0 slices_S2x800000_S1x800000_0_0) shapeCasts_S1x800000_S800000)⟩, ⟨S800000, (shapeCast S800000 (extractStridedSlice S1x800000 ![1, 0] x0 slices_S2x800000_S1x800000_1_0) shapeCasts_S1x800000_S800000)⟩] concatenates_S800000_S800000_S1600000_d0) (broadcastInDim S1600000 ![] bcast_S_S1600000 (constantI S_ 32 100000#32))) (concatenate S1600000 0 [⟨S800000, (shapeCast S800000 (extractStridedSlice S1x800000 ![0, 0] x0 slices_S2x800000_S1x800000_0_0) shapeCasts_S1x800000_S800000)⟩, ⟨S800000, (shapeCast S800000 (extractStridedSlice S1x800000 ![1, 0] x0 slices_S2x800000_S1x800000_1_0) shapeCasts_S1x800000_S800000)⟩] concatenates_S800000_S800000_S1600000_d0)))) bitsLt_bf16_f32)
      = Cert.ReferenceIdeal.Read.val_main_v83 (F := Ideal) x0 x1 x3 x5 x7 x8 x9 x10 x11 := rfl

/-! ## Each layer's weights and bias -/

theorem own_weights0 (x9 : (⟨S3x128x128, .f32⟩ : BufTy).Contents (Elt Ideal)) : shapeCast S128x128 (extractStridedSlice S1x128x128 ![0, 0, 0] x9 slices_S3x128x128_S1x128x128_0_0_0) shapeCasts_S1x128x128_S128x128 = Cert.ReferenceIdeal.Read.val_main_v36 (F := Ideal) x9 := rfl
theorem nbr_weights0 (x10 : (⟨S3x128x128, .f32⟩ : BufTy).Contents (Elt Ideal)) : shapeCast S128x128 (extractStridedSlice S1x128x128 ![0, 0, 0] x10 slices_S3x128x128_S1x128x128_0_0_0) shapeCasts_S1x128x128_S128x128 = Cert.ReferenceIdeal.Read.val_main_v39 (F := Ideal) x10 := rfl
theorem bias0 (x11 : (⟨S3x128, .f32⟩ : BufTy).Contents (Elt Ideal)) : shapeCast S128 (extractStridedSlice S1x128 ![0, 0] x11 slices_S3x128_S1x128_0_0) shapeCasts_S1x128_S128 = Cert.ReferenceIdeal.Read.val_main_v43 (F := Ideal) x11 := rfl
theorem own_weights1 (x9 : (⟨S3x128x128, .f32⟩ : BufTy).Contents (Elt Ideal)) : shapeCast S128x128 (extractStridedSlice S1x128x128 ![1, 0, 0] x9 slices_S3x128x128_S1x128x128_1_0_0) shapeCasts_S1x128x128_S128x128 = Cert.ReferenceIdeal.Read.val_main_v62 (F := Ideal) x9 := rfl
theorem nbr_weights1 (x10 : (⟨S3x128x128, .f32⟩ : BufTy).Contents (Elt Ideal)) : shapeCast S128x128 (extractStridedSlice S1x128x128 ![1, 0, 0] x10 slices_S3x128x128_S1x128x128_1_0_0) shapeCasts_S1x128x128_S128x128 = Cert.ReferenceIdeal.Read.val_main_v65 (F := Ideal) x10 := rfl
theorem bias1 (x11 : (⟨S3x128, .f32⟩ : BufTy).Contents (Elt Ideal)) : shapeCast S128 (extractStridedSlice S1x128 ![1, 0] x11 slices_S3x128_S1x128_1_0) shapeCasts_S1x128_S128 = Cert.ReferenceIdeal.Read.val_main_v69 (F := Ideal) x11 := rfl
theorem own_weights2 (x9 : (⟨S3x128x128, .f32⟩ : BufTy).Contents (Elt Ideal)) : shapeCast S128x128 (extractStridedSlice S1x128x128 ![2, 0, 0] x9 slices_S3x128x128_S1x128x128_2_0_0) shapeCasts_S1x128x128_S128x128 = Cert.ReferenceIdeal.Read.val_main_v88 (F := Ideal) x9 := rfl
theorem nbr_weights2 (x10 : (⟨S3x128x128, .f32⟩ : BufTy).Contents (Elt Ideal)) : shapeCast S128x128 (extractStridedSlice S1x128x128 ![2, 0, 0] x10 slices_S3x128x128_S1x128x128_2_0_0) shapeCasts_S1x128x128_S128x128 = Cert.ReferenceIdeal.Read.val_main_v91 (F := Ideal) x10 := rfl
theorem bias2 (x11 : (⟨S3x128, .f32⟩ : BufTy).Contents (Elt Ideal)) : shapeCast S128 (extractStridedSlice S1x128 ![2, 0] x11 slices_S3x128_S1x128_2_0) shapeCasts_S1x128_S128 = Cert.ReferenceIdeal.Read.val_main_v95 (F := Ideal) x11 := rfl

/-! ## The edge head's inputs -/

/-- The last layer's rows at the edges' first end points. -/
theorem rows_at_first (x0 : (⟨S2x800000, .i32⟩ : BufTy).Contents (Elt Ideal)) (x1 : (⟨S100000x6, .f32⟩ : BufTy).Contents (Elt Ideal)) (x3 : (⟨S100000, .f32⟩ : BufTy).Contents (Elt Ideal)) (x5 : (⟨S100000, .i1⟩ : BufTy).Contents (Elt Ideal)) (x7 : (⟨S8x128, .f32⟩ : BufTy).Contents (Elt Ideal)) (x8 : (⟨S128, .f32⟩ : BufTy).Contents (Elt Ideal)) (x9 : (⟨S3x128x128, .f32⟩ : BufTy).Contents (Elt Ideal)) (x10 : (⟨S3x128x128, .f32⟩ : BufTy).Contents (Elt Ideal)) (x11 : (⟨S3x128, .f32⟩ : BufTy).Contents (Elt Ideal)) :
    Host.gather gather_S100000x128_S800000x1_S800000x128_1_0_n_n_0_1_1128 (Cert.ReferenceIdeal.Read.val_main_v98 (F := Ideal) x0 x1 x3 x5 x7 x8 x9 x10 x11)
        (broadcastInDim S800000x1 ![0] bcast_S800000_S800000x1_0 (select (cmpi .slt (shapeCast S800000 (extractStridedSlice S1x800000 ![0, 0] x0 slices_S2x800000_S1x800000_0_0) shapeCasts_S1x800000_S800000) (broadcastInDim S800000 ![] bcast_S_S800000 (constantI S_ 32 0#32))) (addi (shapeCast S800000 (extractStridedSlice S1x800000 ![0, 0] x0 slices_S2x800000_S1x800000_0_0) shapeCasts_S1x800000_S800000) (broadcastInDim S800000 ![] bcast_S_S800000 (constantI S_ 32 100000#32))) (shapeCast S800000 (extractStridedSlice S1x800000 ![0, 0] x0 slices_S2x800000_S1x800000_0_0) shapeCasts_S1x800000_S800000)))
      = Cert.ReferenceIdeal.Read.val_main_v115 (F := Ideal) x0 x1 x3 x5 x7 x8 x9 x10 x11 := rfl

/-- The last layer's rows at the edges' second end points. -/
theorem rows_at_second (x0 : (⟨S2x800000, .i32⟩ : BufTy).Contents (Elt Ideal)) (x1 : (⟨S100000x6, .f32⟩ : BufTy).Contents (Elt Ideal)) (x3 : (⟨S100000, .f32⟩ : BufTy).Contents (Elt Ideal)) (x5 : (⟨S100000, .i1⟩ : BufTy).Contents (Elt Ideal)) (x7 : (⟨S8x128, .f32⟩ : BufTy).Contents (Elt Ideal)) (x8 : (⟨S128, .f32⟩ : BufTy).Contents (Elt Ideal)) (x9 : (⟨S3x128x128, .f32⟩ : BufTy).Contents (Elt Ideal)) (x10 : (⟨S3x128x128, .f32⟩ : BufTy).Contents (Elt Ideal)) (x11 : (⟨S3x128, .f32⟩ : BufTy).Contents (Elt Ideal)) :
    Host.gather gather_S100000x128_S800000x1_S800000x128_1_0_n_n_0_1_1128 (Cert.ReferenceIdeal.Read.val_main_v98 (F := Ideal) x0 x1 x3 x5 x7 x8 x9 x10 x11)
        (broadcastInDim S800000x1 ![0] bcast_S800000_S800000x1_0 (select (cmpi .slt (shapeCast S800000 (extractStridedSlice S1x800000 ![1, 0] x0 slices_S2x800000_S1x800000_1_0) shapeCasts_S1x800000_S800000) (broadcastInDim S800000 ![] bcast_S_S800000 (constantI S_ 32 0#32))) (addi (shapeCast S800000 (extractStridedSlice S1x800000 ![1, 0] x0 slices_S2x800000_S1x800000_1_0) shapeCasts_S1x800000_S800000) (broadcastInDim S800000 ![] bcast_S_S800000 (constantI S_ 32 100000#32))) (shapeCast S800000 (extractStridedSlice S1x800000 ![1, 0] x0 slices_S2x800000_S1x800000_1_0) shapeCasts_S1x800000_S800000)))
      = Cert.ReferenceIdeal.Read.val_main_v122 (F := Ideal) x0 x1 x3 x5 x7 x8 x9 x10 x11 := rfl

/-- The observed value as a column. -/
theorem edge_observed (x4 : (⟨S800000, .f32⟩ : BufTy).Contents (Elt Ideal)) :
    broadcastInDim S800000x1 ![0] bcast_S800000_S800000x1_0 x4 = Cert.ReferenceIdeal.Read.val_main_v123 (F := Ideal) x4 := rfl

/-- The flag as a column of numbers. -/
theorem edge_flag (x6 : (⟨S800000, .i1⟩ : BufTy).Contents (Elt Ideal)) :
    uitofp (F := Ideal) .f32 (broadcastInDim S800000x1 ![0] bcast_S800000_S800000x1_0 x6) = Cert.ReferenceIdeal.Read.val_main_v125 (F := Ideal) x6 := rfl

end Cert.Proof.HostMatch

end
-- ==== Proof.LibPlainDot.lean ====
/-
  A plain matrix product as one function of the whole matrices, and the host's `dot_general` as that function.

  `matProd X W` is the product of an `[M, K]` matrix by a `[K, N]` matrix on the extended reals, entry by entry:
  `(X · W)(i, o) = Σ_k X(i, k) · W(k, o)`.  The host's `dot_general` that contracts the first operand's second axis with
  the second operand's first axis, with no batch axis, IS this function at the ideal values — for any dimension record
  with this layout, given the record's four coordinate facts (which operand coordinate reads the result index, which
  the contraction index), whatever the extents, the precision and the schedule key.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- The matrix product on the extended reals: entry `(i, o)` is `Σ_k X(i, k) · W(k, o)`. -/
def matProd {M K N : ℕ} (X : (⟨2, ![M, K]⟩ : Shape).Idx → EReal) (W : (⟨2, ![K, N]⟩ : Shape).Idx → EReal) :
    (⟨2, ![M, N]⟩ : Shape).Idx → EReal :=
  fun j => ∑ k : Fin K, X (ix2 (j 0) k) * W (ix2 k (j 1))

/-- The product read at a row and a column. -/
theorem matProd_apply {M K N : ℕ} (X : (⟨2, ![M, K]⟩ : Shape).Idx → EReal) (W : (⟨2, ![K, N]⟩ : Shape).Idx → EReal)
    (i : Fin M) (o : Fin N) : matProd X W (ix2 i o) = ∑ k : Fin K, X (ix2 i k) * W (ix2 k o) := rfl

/-- The host's plain `dot_general`, read at `(i, o)`, is `Σ_k lhs(i, k) · rhs(k, o)`. -/
theorem dotGeneral_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (sched : HostSchedule) (lhs : FVec Ideal ⟨2, ![M, K]⟩ φ₁) (rhs : FVec Ideal ⟨2, ![K, N]⟩ φ₂)
    (i : Fin M) (o : Fin N) :
    FloatOps.dotGeneral d prec sched lhs rhs (ix2 i o) = ∑ k : Fin K, lhs (ix2 i k) * rhs (ix2 k o) := by
  refine (Ideal.dotGeneral_apply d prec sched lhs rhs (ix2 i o)).trans ?_
  rw [← Equiv.sum_comp (contrEquiv1 d K hr hs).symm]
  refine Finset.sum_congr rfl fun k _ => ?_
  have hk := contrEquiv1_symm_val d K hr hs k
  have el : d.lhsIdx (ix2 i o) ((contrEquiv1 d K hr hs).symm k) = ix2 i k := funext fun a => Fin.ext (by
    match a with
    | ⟨0, _⟩ => exact l0 _ _
    | ⟨1, _⟩ => exact (l1 _ _).trans hk)
  have er : d.rhsIdx (ix2 i o) ((contrEquiv1 d K hr hs).symm k) = ix2 k o := funext fun a => Fin.ext (by
    match a with
    | ⟨0, _⟩ => exact (r0 _ _).trans hk
    | ⟨1, _⟩ => exact r1 _ _)
  rw [el, er]

/-- The host's plain `dot_general` is the matrix product of its operands. -/
theorem dotGeneral_eq_matProd {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (sched : HostSchedule) (lhs : FVec Ideal ⟨2, ![M, K]⟩ φ₁) (rhs : FVec Ideal ⟨2, ![K, N]⟩ φ₂) :
    FloatOps.dotGeneral d prec sched lhs rhs = matProd lhs rhs :=
  funext fun j => by
    rw [eq_ix2 j]
    exact dotGeneral_apply d hr hs l0 l1 r0 r1 prec sched lhs rhs (j 0) (j 1)

end Cert.Lib.PlainDot

end
-- ==== Proof.RefEnc.lean ====
/-
  The reference's node encoder, read at a row and a column: the eight node features against the weight matrix, plus
  the bias of the output column.
-/
import proofs.«175741_j7894149890553_2_alg».proof.Proof.Gen.ReferenceIdeal.Read
import proofs.«175741_j7894149890553_2_alg».proof.Proof.Spec
import proofs.«175741_j7894149890553_2_alg».proof.Proof.LibPlainDot
import proofs.«175741_j7894149890553_2_alg».proof.Proof.LibCombine

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo

/-- The product of the `[100000, 8]` feature array by the `[8, 128]` weight matrix, read at `(p, q)`: the sum over the
    eight features. -/
theorem enc_dot_apply (x : FVec Ideal S100000x8 .f32) (w : FVec Ideal S8x128 .f32) (p : Fin 100000) (q : Fin 128) :
    Host.dotGeneral (F := Ideal) dot_S100000x8_S8x128_S100000x128_1_0_0_1_n_n none x w (ix2 p q)
      = ∑ k : Fin 8, x (ix2 p k) * w (ix2 k q) :=
  Cert.Lib.PlainDot.dotGeneral_apply dot_S100000x8_S8x128_S100000x128_1_0_0_1_n_n rfl rfl
    lhs_main_v4_0 lhs_main_v4_1 rhs_main_v4_0 rhs_main_v4_1 none .single x w p q

/-- The encoder as the operations the program applies to the node features `nf`, the weights `w` and the bias `b`:
    the product, plus the bias laid out as a row and broadcast down the rows. Read at `(p, q)` it is the encoder's
    formula. -/
theorem enc_ops_apply (nf : FVec Ideal S100000x8 .f32) (w : FVec Ideal S8x128 .f32) (b : FVec Ideal S128 .f32)
    (p : Fin 100000) (q : Fin 128) :
    addf (Host.dotGeneral (F := Ideal) dot_S100000x8_S8x128_S100000x128_1_0_0_1_n_n none nf w)
        (broadcastInDim S100000x128 ![0, 1] bcast_S1x128_S100000x128_0_1
          (broadcastInDim S1x128 ![1] bcast_S128_S1x128_1 b)) (ix2 p q)
      = Cert.Spec.enc (n := 100000) nf w b p q := by
  rw [addf_apply, enc_dot_apply, Cert.Lib.Combine.broadcastInDim_row_apply, Cert.Lib.Combine.broadcastInDim_row1_apply]
  rfl

/-- The encoder's output, in terms of the joined node features, the weights and the bias. -/
theorem main_v7_apply (x1 : (⟨S100000x6, .f32⟩ : BufTy).Contents (Elt Ideal)) (x3 : (⟨S100000, .f32⟩ : BufTy).Contents (Elt Ideal)) (x5 : (⟨S100000, .i1⟩ : BufTy).Contents (Elt Ideal)) (x7 : (⟨S8x128, .f32⟩ : BufTy).Contents (Elt Ideal)) (x8 : (⟨S128, .f32⟩ : BufTy).Contents (Elt Ideal)) (p : Fin 100000) (q : Fin 128) :
    val_main_v7 (F := Ideal) x1 x3 x5 x7 x8 (ix2 p q)
      = Cert.Spec.enc (n := 100000) (val_main_v3 (F := Ideal) x1 x3 x5) x7 x8 p q :=
  enc_ops_apply _ _ _ p q

end Cert.ReferenceIdeal.RefValue

end
-- ==== Proof.RefSage.lean ====
/-
  The reference's three graph layers, read at a row and a column.

  Each layer applies the same operations to the previous layer's rows, the neighbour sums, the reciprocal degrees, two
  weight matrices and a bias. One lemma over arbitrary arrays of those types reads the operations at `(p, q)` as the
  layer's formula; the three layers of the program are instances of it.
-/
import proofs.«175741_j7894149890553_2_alg».proof.Proof.Gen.ReferenceIdeal.Read
import proofs.«175741_j7894149890553_2_alg».proof.Proof.Spec
import proofs.«175741_j7894149890553_2_alg».proof.Proof.LibPlainDot
import proofs.«175741_j7894149890553_2_alg».proof.Proof.LibCombine

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo

/-- The product of a `[100000, 128]` array by a `[128, 128]` matrix, read at `(p, q)`: the sum over the shared axis. -/
theorem sage_dot_apply (x : FVec Ideal S100000x128 .f32) (w : FVec Ideal S128x128 .f32) (p : Fin 100000) (q : Fin 128) :
    Host.dotGeneral (F := Ideal) dot_S100000x128_S128x128_S100000x128_1_0_0_1_n_n none x w (ix2 p q)
      = ∑ k : Fin 128, x (ix2 p k) * w (ix2 k q) :=
  Cert.Lib.PlainDot.dotGeneral_apply dot_S100000x128_S128x128_S100000x128_1_0_0_1_n_n rfl rfl
    lhs_main_v37_0 lhs_main_v37_1 rhs_main_v37_0 rhs_main_v37_1 none .single x w p q

/-- A length-`100000` vector laid out as a column, read at `(p, 0)`, is the vector at `p`. -/
theorem sage_col_apply (dv : FVec Ideal S100000 .f32) (p : Fin 100000) :
    broadcastInDim S100000x1 ![0] bcast_S100000_S100000x1_0 dv (ix2 p (0 : Fin 1)) = dv (ix1 p) :=
  broadcastInDim_apply ![0] bcast_S100000_S100000x1_0 dv (ix2 p (0 : Fin 1)) (ix1 p) (fun a => match a with
    | ⟨0, _⟩ => by show p.val = if (100000 : Nat) = 1 then 0 else p.val; rw [if_neg (by decide)])

/-- One graph layer before the rectifier, as the operations the program applies to the nodes' rows `x`, the
    neighbour sums `a`, the reciprocal degrees `dv`, the two weight matrices and the bias: read at `(p, q)` it is
    the layer's formula. The degree column is broadcast across the columns and multiplies the neighbour sums entry by
    entry; the two products are added, then the bias row, broadcast down the rows. -/
theorem sagePre_ops_apply (x a : FVec Ideal S100000x128 .f32) (dv : FVec Ideal S100000 .f32)
    (wl wr : FVec Ideal S128x128 .f32) (bb : FVec Ideal S128 .f32) (p : Fin 100000) (q : Fin 128) :
    addf (addf (Host.dotGeneral (F := Ideal) dot_S100000x128_S128x128_S100000x128_1_0_0_1_n_n none x wl)
          (Host.dotGeneral (F := Ideal) dot_S100000x128_S128x128_S100000x128_1_0_0_1_n_n none
            (mulf a (broadcastInDim S100000x128 ![0, 1] bcast_S100000x1_S100000x128_0_1
              (broadcastInDim S100000x1 ![0] bcast_S100000_S100000x1_0 dv))) wr))
        (broadcastInDim S100000x128 ![0, 1] bcast_S1x128_S100000x128_0_1
          (broadcastInDim S1x128 ![1] bcast_S128_S1x128_1 bb)) (ix2 p q)
      = Cert.Spec.sagePre (n := 100000) x a (fun p => dv (ix1 p)) wl wr bb p q := by
  rw [addf_apply, addf_apply, sage_dot_apply, sage_dot_apply, Cert.Lib.Combine.broadcastInDim_row_apply,
    Cert.Lib.Combine.broadcastInDim_row1_apply]
  unfold Cert.Spec.sagePre Cert.Spec.dot
  refine congrArg (fun s => (∑ j : Fin 128, x (ix2 p j) * wl (ix2 j q)) + s + bb (ix1 q)) ?_
  refine Finset.sum_congr rfl fun k _ => ?_
  rw [mulf_apply, Cert.Lib.Combine.broadcastInDim_col_apply, sage_col_apply]

/-- The same layer followed by the rectifier: the larger of the pre-activation and the zero word, the zero a scalar
    constant broadcast to the whole array. -/
theorem sage_ops_apply (x a : FVec Ideal S100000x128 .f32) (dv : FVec Ideal S100000 .f32)
    (wl wr : FVec Ideal S128x128 .f32) (bb : FVec Ideal S128 .f32) (p : Fin 100000) (q : Fin 128) :
    maximumf (addf (addf (Host.dotGeneral (F := Ideal) dot_S100000x128_S128x128_S100000x128_1_0_0_1_n_n none x wl)
          (Host.dotGeneral (F := Ideal) dot_S100000x128_S128x128_S100000x128_1_0_0_1_n_n none
            (mulf a (broadcastInDim S100000x128 ![0, 1] bcast_S100000x1_S100000x128_0_1
              (broadcastInDim S100000x1 ![0] bcast_S100000_S100000x1_0 dv))) wr))
        (broadcastInDim S100000x128 ![0, 1] bcast_S1x128_S100000x128_0_1
          (broadcastInDim S1x128 ![1] bcast_S128_S1x128_1 bb)))
        (broadcastInDim S100000x128 ![] bcast_S_S100000x128 (constant (F := Ideal) S_ .f32 0x00000000#32)) (ix2 p q)
      = Cert.Spec.sage (n := 100000) x a (fun p => dv (ix1 p)) wl wr bb p q := by
  rw [maximumf_apply, sagePre_ops_apply, broadcastInDim_scalar_apply]
  rfl

/-- The first graph layer's output, in terms of the encoder's rows, the first neighbour sums, the reciprocal degrees and the layer's parameters. -/
theorem main_v47_apply (x0 : (⟨S2x800000, .i32⟩ : BufTy).Contents (Elt Ideal)) (x1 : (⟨S100000x6, .f32⟩ : BufTy).Contents (Elt Ideal)) (x3 : (⟨S100000, .f32⟩ : BufTy).Contents (Elt Ideal)) (x5 : (⟨S100000, .i1⟩ : BufTy).Contents (Elt Ideal)) (x7 : (⟨S8x128, .f32⟩ : BufTy).Contents (Elt Ideal)) (x8 : (⟨S128, .f32⟩ : BufTy).Contents (Elt Ideal)) (x9 x10 : (⟨S3x128x128, .f32⟩ : BufTy).Contents (Elt Ideal)) (x11 : (⟨S3x128, .f32⟩ : BufTy).Contents (Elt Ideal)) (p : Fin 100000) (q : Fin 128) :
    val_main_v47 (F := Ideal) x0 x1 x3 x5 x7 x8 x9 x10 x11 (ix2 p q)
      = Cert.Spec.sage (n := 100000) (val_main_v7 (F := Ideal) x1 x3 x5 x7 x8) (val_main_v31 (F := Ideal) x0 x1 x3 x5 x7 x8)
          (fun p => val_main_v21 (F := Ideal) x0 (ix1 p)) (val_main_v36 (F := Ideal) x9) (val_main_v39 (F := Ideal) x10) (val_main_v43 (F := Ideal) x11) p q :=
  sage_ops_apply _ _ _ _ _ _ p q

/-- The second graph layer's output, in terms of the first layer's rows, the second neighbour sums, the reciprocal degrees and the layer's parameters. -/
theorem main_v73_apply (x0 : (⟨S2x800000, .i32⟩ : BufTy).Contents (Elt Ideal)) (x1 : (⟨S100000x6, .f32⟩ : BufTy).Contents (Elt Ideal)) (x3 : (⟨S100000, .f32⟩ : BufTy).Contents (Elt Ideal)) (x5 : (⟨S100000, .i1⟩ : BufTy).Contents (Elt Ideal)) (x7 : (⟨S8x128, .f32⟩ : BufTy).Contents (Elt Ideal)) (x8 : (⟨S128, .f32⟩ : BufTy).Contents (Elt Ideal)) (x9 x10 : (⟨S3x128x128, .f32⟩ : BufTy).Contents (Elt Ideal)) (x11 : (⟨S3x128, .f32⟩ : BufTy).Contents (Elt Ideal)) (p : Fin 100000) (q : Fin 128) :
    val_main_v73 (F := Ideal) x0 x1 x3 x5 x7 x8 x9 x10 x11 (ix2 p q)
      = Cert.Spec.sage (n := 100000) (val_main_v47 (F := Ideal) x0 x1 x3 x5 x7 x8 x9 x10 x11) (val_main_v57 (F := Ideal) x0 x1 x3 x5 x7 x8 x9 x10 x11)
          (fun p => val_main_v21 (F := Ideal) x0 (ix1 p)) (val_main_v62 (F := Ideal) x9) (val_main_v65 (F := Ideal) x10) (val_main_v69 (F := Ideal) x11) p q :=
  sage_ops_apply _ _ _ _ _ _ p q

/-- The third graph layer's output (no rectifier), in terms of the second layer's rows, the third neighbour sums, the reciprocal degrees and the layer's parameters. -/
theorem main_v98_apply (x0 : (⟨S2x800000, .i32⟩ : BufTy).Contents (Elt Ideal)) (x1 : (⟨S100000x6, .f32⟩ : BufTy).Contents (Elt Ideal)) (x3 : (⟨S100000, .f32⟩ : BufTy).Contents (Elt Ideal)) (x5 : (⟨S100000, .i1⟩ : BufTy).Contents (Elt Ideal)) (x7 : (⟨S8x128, .f32⟩ : BufTy).Contents (Elt Ideal)) (x8 : (⟨S128, .f32⟩ : BufTy).Contents (Elt Ideal)) (x9 x10 : (⟨S3x128x128, .f32⟩ : BufTy).Contents (Elt Ideal)) (x11 : (⟨S3x128, .f32⟩ : BufTy).Contents (Elt Ideal)) (p : Fin 100000) (q : Fin 128) :
    val_main_v98 (F := Ideal) x0 x1 x3 x5 x7 x8 x9 x10 x11 (ix2 p q)
      = Cert.Spec.sagePre (n := 100000) (val_main_v73 (F := Ideal) x0 x1 x3 x5 x7 x8 x9 x10 x11) (val_main_v83 (F := Ideal) x0 x1 x3 x5 x7 x8 x9 x10 x11)
          (fun p => val_main_v21 (F := Ideal) x0 (ix1 p)) (val_main_v88 (F := Ideal) x9) (val_main_v91 (F := Ideal) x10) (val_main_v95 (F := Ideal) x11) p q :=
  sagePre_ops_apply _ _ _ _ _ _ p q

end Cert.ReferenceIdeal.RefValue

end
-- ==== Proof.RefNode.lean ====
/-
  The reference's node head, read at a node: the last layer's row through an affine map and the rectifier, the
  hidden row against the one output column, plus the output bias.
-/
import proofs.«175741_j7894149890553_2_alg».proof.Proof.Gen.ReferenceIdeal.Read
import proofs.«175741_j7894149890553_2_alg».proof.Proof.Spec
import proofs.«175741_j7894149890553_2_alg».proof.Proof.LibPlainDot
import proofs.«175741_j7894149890553_2_alg».proof.Proof.LibCombine

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo

/-- The product of a `[100000, 128]` array by a `[128, 128]` matrix, read at `(p, q)`. -/
theorem node_dot_apply (x : FVec Ideal S100000x128 .f32) (w : FVec Ideal S128x128 .f32) (p : Fin 100000) (q : Fin 128) :
    Host.dotGeneral (F := Ideal) dot_S100000x128_S128x128_S100000x128_1_0_0_1_n_n none x w (ix2 p q)
      = ∑ k : Fin 128, x (ix2 p k) * w (ix2 k q) :=
  Cert.Lib.PlainDot.dotGeneral_apply dot_S100000x128_S128x128_S100000x128_1_0_0_1_n_n rfl rfl
    lhs_main_v99_0 lhs_main_v99_1 rhs_main_v99_0 rhs_main_v99_1 none .single x w p q

/-- The product of a `[100000, 128]` array by a `[128, 1]` column, read at `(p, 0)`. -/
theorem node_dot1_apply (x : FVec Ideal S100000x128 .f32) (w : FVec Ideal S128x1 .f32) (p : Fin 100000) (q : Fin 1) :
    Host.dotGeneral (F := Ideal) dot_S100000x128_S128x1_S100000x1_1_0_0_1_n_n none x w (ix2 p q)
      = ∑ k : Fin 128, x (ix2 p k) * w (ix2 k q) :=
  Cert.Lib.PlainDot.dotGeneral_apply dot_S100000x128_S128x1_S100000x1_1_0_0_1_n_n rfl rfl
    lhs_main_v104_0 lhs_main_v104_1 rhs_main_v104_0 rhs_main_v104_1 none .single x w p q

/-- The node head's hidden row as the operations the program applies to the last layer's rows `e`, the weights `w1`
    and the bias `b1`: the product, plus the bias row broadcast down the rows, then the larger of that and the zero
    word. Read at `(p, k)` it is the hidden row's formula. -/
theorem node_hidden_ops_apply (e : FVec Ideal S100000x128 .f32) (w1 : FVec Ideal S128x128 .f32) (b1 : FVec Ideal S128 .f32)
    (p : Fin 100000) (k : Fin 128) :
    maximumf (addf (Host.dotGeneral (F := Ideal) dot_S100000x128_S128x128_S100000x128_1_0_0_1_n_n none e w1)
        (broadcastInDim S100000x128 ![0, 1] bcast_S1x128_S100000x128_0_1
          (broadcastInDim S1x128 ![1] bcast_S128_S1x128_1 b1)))
        (broadcastInDim S100000x128 ![] bcast_S_S100000x128 (constant (F := Ideal) S_ .f32 0x00000000#32)) (ix2 p k)
      = Cert.Spec.hidden (n := 100000) e w1 b1 p k := by
  rw [maximumf_apply, addf_apply, node_dot_apply, Cert.Lib.Combine.broadcastInDim_row_apply,
    Cert.Lib.Combine.broadcastInDim_row1_apply, broadcastInDim_scalar_apply]
  rfl

/-- The node head as the operations the program applies: the hidden rows against the one output column, plus the
    one-entry bias broadcast to a column, the column then read as a vector. At node `p` it is the head's formula. -/
theorem nodeOut_ops_apply (e : FVec Ideal S100000x128 .f32) (w1 : FVec Ideal S128x128 .f32) (b1 : FVec Ideal S128 .f32)
    (w2 : FVec Ideal S128x1 .f32) (b2 : FVec Ideal S1 .f32) (p : Fin 100000) :
    shapeCast S100000
        (addf (Host.dotGeneral (F := Ideal) dot_S100000x128_S128x1_S100000x1_1_0_0_1_n_n none
            (maximumf (addf (Host.dotGeneral (F := Ideal) dot_S100000x128_S128x128_S100000x128_1_0_0_1_n_n none e w1)
              (broadcastInDim S100000x128 ![0, 1] bcast_S1x128_S100000x128_0_1
                (broadcastInDim S1x128 ![1] bcast_S128_S1x128_1 b1)))
              (broadcastInDim S100000x128 ![] bcast_S_S100000x128 (constant (F := Ideal) S_ .f32 0x00000000#32))) w2)
          (broadcastInDim S100000x1 ![0, 1] bcast_S1x1_S100000x1_0_1 (broadcastInDim S1x1 ![1] bcast_S1_S1x1_1 b2)))
        shapeCasts_S100000x1_S100000 (ix1 p)
      = Cert.Spec.nodeOut (n := 100000) e w1 b1 w2 b2 p := by
  rw [shapeCast_apply _ shapeCasts_S100000x1_S100000 (ix1 p) (ix2 p (0 : Fin 1))
    (by rewrite [Shape.rowMajor_val_two, Shape.rowMajor_val_one]; show p.val * 1 + 0 = p.val; omega)]
  rw [addf_apply, node_dot1_apply, Cert.Lib.Combine.broadcastInDim_row_apply, Cert.Lib.Combine.broadcastInDim_row1_apply]
  unfold Cert.Spec.nodeOut
  refine congrArg (fun s => s + b2 (ix1 (0 : Fin 1))) ?_
  refine Finset.sum_congr rfl fun k _ => ?_
  rw [node_hidden_ops_apply]

/-- The node head's output, in terms of the last layer's rows and the head's parameters. -/
theorem main_v108_apply (x0 : (⟨S2x800000, .i32⟩ : BufTy).Contents (Elt Ideal)) (x1 : (⟨S100000x6, .f32⟩ : BufTy).Contents (Elt Ideal)) (x3 : (⟨S100000, .f32⟩ : BufTy).Contents (Elt Ideal)) (x5 : (⟨S100000, .i1⟩ : BufTy).Contents (Elt Ideal)) (x7 : (⟨S8x128, .f32⟩ : BufTy).Contents (Elt Ideal)) (x8 : (⟨S128, .f32⟩ : BufTy).Contents (Elt Ideal)) (x9 x10 : (⟨S3x128x128, .f32⟩ : BufTy).Contents (Elt Ideal)) (x11 : (⟨S3x128, .f32⟩ : BufTy).Contents (Elt Ideal)) (x12 : (⟨S128x128, .f32⟩ : BufTy).Contents (Elt Ideal)) (x13 : (⟨S128, .f32⟩ : BufTy).Contents (Elt Ideal)) (x14 : (⟨S128x1, .f32⟩ : BufTy).Contents (Elt Ideal)) (x15 : (⟨S1, .f32⟩ : BufTy).Contents (Elt Ideal)) (p : Fin 100000) :
    val_main_v108 (F := Ideal) x0 x1 x3 x5 x7 x8 x9 x10 x11 x12 x13 x14 x15 (ix1 p)
      = Cert.Spec.nodeOut (n := 100000) (val_main_v98 (F := Ideal) x0 x1 x3 x5 x7 x8 x9 x10 x11) x12 x13 x14 x15 p :=
  nodeOut_ops_apply _ _ _ _ _ p

end Cert.ReferenceIdeal.RefValue

end
-- ==== Proof.RefEdge.lean ====
/-
  The reference's edge head, read at an edge.

  The program lays the rows of an edge's two end points beside the edge's six features (four given ones, an observed
  value, a flag) as one 262-wide row and contracts it with the whole weight matrix at once. Cut into its three
  consecutive blocks of columns — 128, 128 and 6 — that contraction is the sum of three products, each against its own
  block of weight rows; the rectifier, the output column and the output bias follow.
-/
import proofs.«175741_j7894149890553_2_alg».proof.Proof.Gen.ReferenceIdeal.Read
import proofs.«175741_j7894149890553_2_alg».proof.Proof.Spec
import proofs.«175741_j7894149890553_2_alg».proof.Proof.LibPlainDot
import proofs.«175741_j7894149890553_2_alg».proof.Proof.LibCombine
import proofs.«175741_j7894149890553_2_alg».proof.Proof.LibSplitConcat

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo

/-- The product of the `[800000, 262]` joined array by the `[262, 128]` weight matrix, read at `(e, q)`. -/
theorem edge_dot_apply (x : FVec Ideal S800000x262 .f32) (w : FVec Ideal S262x128 .f32) (e : Fin 800000) (q : Fin 128) :
    Host.dotGeneral (F := Ideal) dot_S800000x262_S262x128_S800000x128_1_0_0_1_n_n none x w (ix2 e q)
      = ∑ k : Fin 262, x (ix2 e k) * w (ix2 k q) :=
  Cert.Lib.PlainDot.dotGeneral_apply dot_S800000x262_S262x128_S800000x128_1_0_0_1_n_n rfl rfl
    lhs_main_v127_0 lhs_main_v127_1 rhs_main_v127_0 rhs_main_v127_1 none .single x w e q

/-- The product of an `[800000, 128]` array by a `[128, 1]` column, read at `(e, 0)`. -/
theorem edge_dot1_apply (x : FVec Ideal S800000x128 .f32) (w : FVec Ideal S128x1 .f32) (e : Fin 800000) (q : Fin 1) :
    Host.dotGeneral (F := Ideal) dot_S800000x128_S128x1_S800000x1_1_0_0_1_n_n none x w (ix2 e q)
      = ∑ k : Fin 128, x (ix2 e k) * w (ix2 k q) :=
  Cert.Lib.PlainDot.dotGeneral_apply dot_S800000x128_S128x1_S800000x1_1_0_0_1_n_n rfl rfl
    lhs_main_v132_0 lhs_main_v132_1 rhs_main_v132_0 rhs_main_v132_1 none .single x w e q

/-- The edge head's input: the source end's row, the target end's row, the four given features, the observed value
    and the flag, joined along the second axis into `128 + 128 + 4 + 1 + 1 = 262` columns. -/
abbrev edgeCat (gs gd : FVec Ideal S800000x128 .f32) (es : FVec Ideal S800000x4 .f32) (qo qm : FVec Ideal S800000x1 .f32) :
    FVec Ideal S800000x262 .f32 :=
  concatenate S800000x262 1 [⟨S800000x128, gs⟩, ⟨S800000x128, gd⟩, ⟨S800000x4, es⟩, ⟨S800000x1, qo⟩, ⟨S800000x1, qm⟩] concatenates_S800000x128_S800000x128_S800000x4_S800000x1_S800000x1_S800000x262_d1

/-- Columns `0 … 127` of the joined array are the source end's row. -/
theorem edgeCat_src (gs gd : FVec Ideal S800000x128 .f32) (es : FVec Ideal S800000x4 .f32) (qo qm : FVec Ideal S800000x1 .f32)
    (e : Fin 800000) (k : Fin 128) (hk : k.val < 262) :
    edgeCat gs gd es qo qm (ix2 e ⟨k.val, hk⟩) = gs (ix2 e k) :=
  concatenate_apply_piece (t := S800000x262) 1 [⟨S800000x128, gs⟩, ⟨S800000x128, gd⟩, ⟨S800000x4, es⟩, ⟨S800000x1, qo⟩, ⟨S800000x1, qm⟩] concatenates_S800000x128_S800000x128_S800000x4_S800000x1_S800000x1_S800000x262_d1 _ 0 (show (0 : Nat) < 5 by omega) S800000x128 gs rfl rfl 0 rfl (ix2 e k)
    (fun b hb => by
      match b with
      | ⟨0, _⟩ => rfl
      | ⟨1, _⟩ => exact absurd rfl hb)
    (Nat.zero_add _)

/-- Columns `128 … 255` of the joined array are the target end's row. -/
theorem edgeCat_dst (gs gd : FVec Ideal S800000x128 .f32) (es : FVec Ideal S800000x4 .f32) (qo qm : FVec Ideal S800000x1 .f32)
    (e : Fin 800000) (k : Fin 128) (hk : 128 + k.val < 262) :
    edgeCat gs gd es qo qm (ix2 e ⟨128 + k.val, hk⟩) = gd (ix2 e k) :=
  concatenate_apply_piece (t := S800000x262) 1 [⟨S800000x128, gs⟩, ⟨S800000x128, gd⟩, ⟨S800000x4, es⟩, ⟨S800000x1, qo⟩, ⟨S800000x1, qm⟩] concatenates_S800000x128_S800000x128_S800000x4_S800000x1_S800000x1_S800000x262_d1 _ 1 (show (1 : Nat) < 5 by omega) S800000x128 gd rfl rfl 128 rfl (ix2 e k)
    (fun b hb => by
      match b with
      | ⟨0, _⟩ => rfl
      | ⟨1, _⟩ => exact absurd rfl hb)
    rfl

/-- Columns `256 … 259` of the joined array are the four given features. -/
theorem edgeCat_given (gs gd : FVec Ideal S800000x128 .f32) (es : FVec Ideal S800000x4 .f32) (qo qm : FVec Ideal S800000x1 .f32)
    (e : Fin 800000) (k : Fin 4) (hk : 128 + 128 + k.val < 262) :
    edgeCat gs gd es qo qm (ix2 e ⟨128 + 128 + k.val, hk⟩) = es (ix2 e k) :=
  concatenate_apply_piece (t := S800000x262) 1 [⟨S800000x128, gs⟩, ⟨S800000x128, gd⟩, ⟨S800000x4, es⟩, ⟨S800000x1, qo⟩, ⟨S800000x1, qm⟩] concatenates_S800000x128_S800000x128_S800000x4_S800000x1_S800000x1_S800000x262_d1 _ 2 (show (2 : Nat) < 5 by omega) S800000x4 es rfl rfl 256 rfl (ix2 e k)
    (fun b hb => by
      match b with
      | ⟨0, _⟩ => rfl
      | ⟨1, _⟩ => exact absurd rfl hb)
    rfl

/-- Column `260` of the joined array is the observed value. -/
theorem edgeCat_obs (gs gd : FVec Ideal S800000x128 .f32) (es : FVec Ideal S800000x4 .f32) (qo qm : FVec Ideal S800000x1 .f32)
    (e : Fin 800000) (k : Fin 1) (hk : 128 + 128 + (4 + k.val) < 262) :
    edgeCat gs gd es qo qm (ix2 e ⟨128 + 128 + (4 + k.val), hk⟩) = qo (ix2 e k) :=
  concatenate_apply_piece (t := S800000x262) 1 [⟨S800000x128, gs⟩, ⟨S800000x128, gd⟩, ⟨S800000x4, es⟩, ⟨S800000x1, qo⟩, ⟨S800000x1, qm⟩] concatenates_S800000x128_S800000x128_S800000x4_S800000x1_S800000x1_S800000x262_d1 _ 3 (show (3 : Nat) < 5 by omega) S800000x1 qo rfl rfl 260 rfl (ix2 e k)
    (fun b hb => by
      match b with
      | ⟨0, _⟩ => rfl
      | ⟨1, _⟩ => exact absurd rfl hb)
    (by show 260 + k.val = 128 + 128 + (4 + k.val); omega)

/-- Column `261` of the joined array is the flag. -/
theorem edgeCat_flag (gs gd : FVec Ideal S800000x128 .f32) (es : FVec Ideal S800000x4 .f32) (qo qm : FVec Ideal S800000x1 .f32)
    (e : Fin 800000) (k : Fin 1) (hk : 128 + 128 + (5 + k.val) < 262) :
    edgeCat gs gd es qo qm (ix2 e ⟨128 + 128 + (5 + k.val), hk⟩) = qm (ix2 e k) :=
  concatenate_apply_piece (t := S800000x262) 1 [⟨S800000x128, gs⟩, ⟨S800000x128, gd⟩, ⟨S800000x4, es⟩, ⟨S800000x1, qo⟩, ⟨S800000x1, qm⟩] concatenates_S800000x128_S800000x128_S800000x4_S800000x1_S800000x1_S800000x262_d1 _ 4 (show (4 : Nat) < 5 by omega) S800000x1 qm rfl rfl 261 rfl (ix2 e k)
    (fun b hb => by
      match b with
      | ⟨0, _⟩ => rfl
      | ⟨1, _⟩ => exact absurd rfl hb)
    (by show 261 + k.val = 128 + 128 + (5 + k.val); omega)

/-- Columns `256 … 261` of the joined array are the six edge features side by side. -/
theorem edgeCat_feat6 (gs gd : FVec Ideal S800000x128 .f32) (es : FVec Ideal S800000x4 .f32) (qo qm : FVec Ideal S800000x1 .f32)
    (e : Fin 800000) (k : Fin 6) (hk : 128 + 128 + k.val < 262) :
    edgeCat gs gd es qo qm (ix2 e ⟨128 + 128 + k.val, hk⟩) = Cert.Spec.feat6 es qo qm (ix2 e k) := by
  match k, hk with
  | ⟨0, _⟩, hk => exact edgeCat_given gs gd es qo qm e ⟨0, by omega⟩ hk
  | ⟨1, _⟩, hk => exact edgeCat_given gs gd es qo qm e ⟨1, by omega⟩ hk
  | ⟨2, _⟩, hk => exact edgeCat_given gs gd es qo qm e ⟨2, by omega⟩ hk
  | ⟨3, _⟩, hk => exact edgeCat_given gs gd es qo qm e ⟨3, by omega⟩ hk
  | ⟨4, _⟩, hk => exact edgeCat_obs gs gd es qo qm e ⟨0, by omega⟩ hk
  | ⟨5, _⟩, hk => exact edgeCat_flag gs gd es qo qm e ⟨0, by omega⟩ hk

/-- The edge head's pre-activation as the operations the program applies: the joined array against the whole
    `[262, 128]` weight matrix, plus the bias row broadcast down the rows. The contraction over the 262 columns is the
    sum of its three consecutive blocks: the source row against the first 128 weight rows, the target row against the
    next 128, the six features against the last six. -/
theorem edgePre_ops_apply (gs gd : FVec Ideal S800000x128 .f32) (es : FVec Ideal S800000x4 .f32)
    (qo qm : FVec Ideal S800000x1 .f32) (w : FVec Ideal S262x128 .f32) (b : FVec Ideal S128 .f32)
    (e : Fin 800000) (q : Fin 128) :
    addf (Host.dotGeneral (F := Ideal) dot_S800000x262_S262x128_S800000x128_1_0_0_1_n_n none (edgeCat gs gd es qo qm) w)
        (broadcastInDim S800000x128 ![0, 1] bcast_S1x128_S800000x128_0_1
          (broadcastInDim S1x128 ![1] bcast_S128_S1x128_1 b)) (ix2 e q)
      = Cert.Spec.edgePre (m := 800000) gs gd (Cert.Spec.feat6 es qo qm) (Cert.Spec.rows 0 (by omega) w)
          (Cert.Spec.rows 128 (by omega) w) (Cert.Spec.rows 256 (by omega) w) b e q := by
  rw [addf_apply, edge_dot_apply, Cert.Lib.Combine.broadcastInDim_row_apply, Cert.Lib.Combine.broadcastInDim_row1_apply]
  unfold Cert.Spec.edgePre Cert.Spec.dot
  refine congrArg (fun s => s + b (ix1 q)) ?_
  refine (Cert.ReferenceIdeal.Stages.sum_split3 (A := 128) (B := 128) (C := 6) rfl _).trans ?_
  refine congrArg₂ (· + ·) (congrArg₂ (· + ·) (Finset.sum_congr rfl fun k _ => ?_) (Finset.sum_congr rfl fun k _ => ?_))
    (Finset.sum_congr rfl fun k _ => ?_)
  · show edgeCat gs gd es qo qm (ix2 e ⟨k.val, _⟩) * w (ix2 ⟨k.val, _⟩ q) = gs (ix2 e k) * w (ix2 ⟨0 + k.val, _⟩ q)
    rw [edgeCat_src]
    exact congrArg (fun j => gs (ix2 e k) * w (ix2 j q)) (Fin.ext (Nat.zero_add _).symm)
  · show edgeCat gs gd es qo qm (ix2 e ⟨128 + k.val, _⟩) * w (ix2 ⟨128 + k.val, _⟩ q) = gd (ix2 e k) * w (ix2 ⟨128 + k.val, _⟩ q)
    rw [edgeCat_dst]
  · show edgeCat gs gd es qo qm (ix2 e ⟨128 + 128 + k.val, _⟩) * w (ix2 ⟨128 + 128 + k.val, _⟩ q)
      = Cert.Spec.feat6 es qo qm (ix2 e k) * w (ix2 ⟨256 + k.val, _⟩ q)
    rw [edgeCat_feat6]

/-- The edge head as the operations the program applies: the rectified pre-activation rows against the one output
    column, plus the one-entry bias broadcast to a column, the column then read as a vector. At edge `e` it is the
    head's formula. -/
theorem edgeOut_ops_apply (gs gd : FVec Ideal S800000x128 .f32) (es : FVec Ideal S800000x4 .f32)
    (qo qm : FVec Ideal S800000x1 .f32) (w : FVec Ideal S262x128 .f32) (b : FVec Ideal S128 .f32)
    (w2 : FVec Ideal S128x1 .f32) (b2 : FVec Ideal S1 .f32) (e : Fin 800000) :
    shapeCast S800000
        (addf (Host.dotGeneral (F := Ideal) dot_S800000x128_S128x1_S800000x1_1_0_0_1_n_n none
            (maximumf
              (addf (Host.dotGeneral (F := Ideal) dot_S800000x262_S262x128_S800000x128_1_0_0_1_n_n none (edgeCat gs gd es qo qm) w)
                (broadcastInDim S800000x128 ![0, 1] bcast_S1x128_S800000x128_0_1
                  (broadcastInDim S1x128 ![1] bcast_S128_S1x128_1 b)))
              (broadcastInDim S800000x128 ![] bcast_S_S800000x128 (constant (F := Ideal) S_ .f32 0x00000000#32))) w2)
          (broadcastInDim S800000x1 ![0, 1] bcast_S1x1_S800000x1_0_1 (broadcastInDim S1x1 ![1] bcast_S1_S1x1_1 b2)))
        shapeCasts_S800000x1_S800000 (ix1 e)
      = Cert.Spec.edgeOut (m := 800000) gs gd (Cert.Spec.feat6 es qo qm) (Cert.Spec.rows 0 (by omega) w)
          (Cert.Spec.rows 128 (by omega) w) (Cert.Spec.rows 256 (by omega) w) b w2 b2 e := by
  rw [shapeCast_apply _ shapeCasts_S800000x1_S800000 (ix1 e) (ix2 e (0 : Fin 1))
    (by rewrite [Shape.rowMajor_val_two, Shape.rowMajor_val_one]; show e.val * 1 + 0 = e.val; omega)]
  rw [addf_apply, edge_dot1_apply, Cert.Lib.Combine.broadcastInDim_row_apply, Cert.Lib.Combine.broadcastInDim_row1_apply]
  unfold Cert.Spec.edgeOut
  refine congrArg (fun s => s + b2 (ix1 (0 : Fin 1))) ?_
  refine Finset.sum_congr rfl fun k _ => ?_
  rw [maximumf_apply, edgePre_ops_apply, broadcastInDim_scalar_apply]
  rfl

/-- The edge head's output, in terms of the rows gathered at the edges' two ends, the edge features and the head's
    parameters. -/
theorem main_v136_apply (x0 : (⟨S2x800000, .i32⟩ : BufTy).Contents (Elt Ideal)) (x1 : (⟨S100000x6, .f32⟩ : BufTy).Contents (Elt Ideal)) (x2 : (⟨S800000x4, .f32⟩ : BufTy).Contents (Elt Ideal)) (x3 : (⟨S100000, .f32⟩ : BufTy).Contents (Elt Ideal)) (x4 : (⟨S800000, .f32⟩ : BufTy).Contents (Elt Ideal)) (x5 : (⟨S100000, .i1⟩ : BufTy).Contents (Elt Ideal)) (x6 : (⟨S800000, .i1⟩ : BufTy).Contents (Elt Ideal)) (x7 : (⟨S8x128, .f32⟩ : BufTy).Contents (Elt Ideal)) (x8 : (⟨S128, .f32⟩ : BufTy).Contents (Elt Ideal)) (x9 x10 : (⟨S3x128x128, .f32⟩ : BufTy).Contents (Elt Ideal)) (x11 : (⟨S3x128, .f32⟩ : BufTy).Contents (Elt Ideal)) (x16 : (⟨S262x128, .f32⟩ : BufTy).Contents (Elt Ideal)) (x17 : (⟨S128, .f32⟩ : BufTy).Contents (Elt Ideal)) (x18 : (⟨S128x1, .f32⟩ : BufTy).Contents (Elt Ideal)) (x19 : (⟨S1, .f32⟩ : BufTy).Contents (Elt Ideal)) (e : Fin 800000) :
    val_main_v136 (F := Ideal) x0 x1 x2 x3 x4 x5 x6 x7 x8 x9 x10 x11 x16 x17 x18 x19 (ix1 e)
      = Cert.Spec.edgeOut (m := 800000) (val_main_v115 (F := Ideal) x0 x1 x3 x5 x7 x8 x9 x10 x11) (val_main_v122 (F := Ideal) x0 x1 x3 x5 x7 x8 x9 x10 x11)
          (Cert.Spec.feat6 x2 (val_main_v123 (F := Ideal) x4) (val_main_v125 (F := Ideal) x6)) (Cert.Spec.rows 0 (by omega) x16)
          (Cert.Spec.rows 128 (by omega) x16) (Cert.Spec.rows 256 (by omega) x16) x17 x18 x19 e :=
  edgeOut_ops_apply _ _ _ _ _ _ _ _ _ e

end Cert.ReferenceIdeal.RefValue

end
-- ==== Proof.Bridge.lean ====
/-
  The kernel program's buffers against the reference's stages.

  Launch by launch the output array the write-backs leave is the layer's formula of the launch's input
  arrays; the reference's corresponding stage is the same formula of its own operands. The inputs are, on
  both sides, either an earlier layer's output or the result of the very same host operations (the gathers,
  the scatter-adds, the degree count, the slices of the stacked weights) on the arguments. So the arrays
  agree one layer after the other, and with them the two results.
-/
import proofs.«175741_j7894149890553_2_alg».proof.Proof.Carry
import proofs.«175741_j7894149890553_2_alg».proof.Proof.Final0
import proofs.«175741_j7894149890553_2_alg».proof.Proof.Final1
import proofs.«175741_j7894149890553_2_alg».proof.Proof.Final2
import proofs.«175741_j7894149890553_2_alg».proof.Proof.Final3
import proofs.«175741_j7894149890553_2_alg».proof.Proof.Final4
import proofs.«175741_j7894149890553_2_alg».proof.Proof.Host0
import proofs.«175741_j7894149890553_2_alg».proof.Proof.Host1
import proofs.«175741_j7894149890553_2_alg».proof.Proof.Host4
import proofs.«175741_j7894149890553_2_alg».proof.Proof.HostIdeal
import proofs.«175741_j7894149890553_2_alg».proof.Proof.HostMatch
import proofs.«175741_j7894149890553_2_alg».proof.Proof.RefEnc
import proofs.«175741_j7894149890553_2_alg».proof.Proof.RefSage
import proofs.«175741_j7894149890553_2_alg».proof.Proof.RefNode
import proofs.«175741_j7894149890553_2_alg».proof.Proof.RefEdge

set_option maxRecDepth 16384

noncomputable section

namespace Cert.Proof.Bridge

open Idealize.ShloMosaic Idealize.ShloMosaic.TcCoe Idealize.ShloMosaic.ValueIdx
open Idealize.SL.Sem
open Cert.KernelIdeal Cert.KernelIdeal.Gen Cert.KernelIdeal.Fr
open Cert.ReferenceIdeal.RefValue Cert.Proof

variable (m : (ℓ : Loc nD τ sig) → Buf (Elt Ideal) ℓ) (c : Dev nD)

/-- The argument arrays as launched. -/
abbrev a0 : Buf (Elt Ideal) ((c.tc : Thread nD τ).loc main_arg0) := m ((c.tc : Thread nD τ).loc main_arg0)
abbrev a1 : Buf (Elt Ideal) ((c.tc : Thread nD τ).loc main_arg1) := m ((c.tc : Thread nD τ).loc main_arg1)
abbrev a2 : Buf (Elt Ideal) ((c.tc : Thread nD τ).loc main_arg2) := m ((c.tc : Thread nD τ).loc main_arg2)
abbrev a3 : Buf (Elt Ideal) ((c.tc : Thread nD τ).loc main_arg3) := m ((c.tc : Thread nD τ).loc main_arg3)
abbrev a4 : Buf (Elt Ideal) ((c.tc : Thread nD τ).loc main_arg4) := m ((c.tc : Thread nD τ).loc main_arg4)
abbrev a5 : Buf (Elt Ideal) ((c.tc : Thread nD τ).loc main_arg5) := m ((c.tc : Thread nD τ).loc main_arg5)
abbrev a6 : Buf (Elt Ideal) ((c.tc : Thread nD τ).loc main_arg6) := m ((c.tc : Thread nD τ).loc main_arg6)
abbrev a7 : Buf (Elt Ideal) ((c.tc : Thread nD τ).loc main_arg7) := m ((c.tc : Thread nD τ).loc main_arg7)
abbrev a8 : Buf (Elt Ideal) ((c.tc : Thread nD τ).loc main_arg8) := m ((c.tc : Thread nD τ).loc main_arg8)
abbrev a9 : Buf (Elt Ideal) ((c.tc : Thread nD τ).loc main_arg9) := m ((c.tc : Thread nD τ).loc main_arg9)
abbrev a10 : Buf (Elt Ideal) ((c.tc : Thread nD τ).loc main_arg10) := m ((c.tc : Thread nD τ).loc main_arg10)
abbrev a11 : Buf (Elt Ideal) ((c.tc : Thread nD τ).loc main_arg11) := m ((c.tc : Thread nD τ).loc main_arg11)
abbrev a12 : Buf (Elt Ideal) ((c.tc : Thread nD τ).loc main_arg12) := m ((c.tc : Thread nD τ).loc main_arg12)
abbrev a13 : Buf (Elt Ideal) ((c.tc : Thread nD τ).loc main_arg13) := m ((c.tc : Thread nD τ).loc main_arg13)
abbrev a14 : Buf (Elt Ideal) ((c.tc : Thread nD τ).loc main_arg14) := m ((c.tc : Thread nD τ).loc main_arg14)
abbrev a15 : Buf (Elt Ideal) ((c.tc : Thread nD τ).loc main_arg15) := m ((c.tc : Thread nD τ).loc main_arg15)
abbrev a16 : Buf (Elt Ideal) ((c.tc : Thread nD τ).loc main_arg16) := m ((c.tc : Thread nD τ).loc main_arg16)
abbrev a17 : Buf (Elt Ideal) ((c.tc : Thread nD τ).loc main_arg17) := m ((c.tc : Thread nD τ).loc main_arg17)
abbrev a18 : Buf (Elt Ideal) ((c.tc : Thread nD τ).loc main_arg18) := m ((c.tc : Thread nD τ).loc main_arg18)
abbrev a19 : Buf (Elt Ideal) ((c.tc : Thread nD τ).loc main_arg19) := m ((c.tc : Thread nD τ).loc main_arg19)

/-! ## The node encoder -/

/-- Launch 0's output array is the reference's encoded rows. -/
theorem rows0 : Y0 m c (Proc.devRef .tc main_v19) = Cert.ReferenceIdeal.Read.val_main_v7 (F := Ideal) (a1 m c) (a3 m c) (a5 m c) (a7 m c) (a8 m c) := by
  funext i
  obtain ⟨p, q, rfl⟩ : ∃ (p : Fin 100000) (q : Fin 128), i = ix2 p q := ⟨i 0, i 1, eq_ix2 i⟩
  rw [Y0_out, Cert.KernelIdeal.Fin.final0, main_v7_apply]
  show Cert.Spec.enc (X0 m c (Proc.devRef .tc main_v18)) (X0 m c (Proc.devRef .tc main_arg7)) (X0 m c (Proc.devRef .tc main_arg8)) p q = _
  have h18 : X0 m c (Proc.devRef .tc main_v18) = Cert.ReferenceIdeal.Read.val_main_v3 (F := Ideal) (a1 m c) (a3 m c) (a5 m c) := by
    unfold X0
    rw [HostVal.after0_v18]
    exact HostMatch.node_features (a1 m c) (a3 m c) (a5 m c)
  rw [h18, X0_of m c main_arg7 (by decide), X0_of m c main_arg8 (by decide)]

/-! ## The three graph layers -/

/-- Launch 1's output array is the reference's first graph layer. -/
theorem rows1 : Y1 m c (Proc.devRef .tc main_v37) = Cert.ReferenceIdeal.Read.val_main_v47 (F := Ideal) (a0 m c) (a1 m c) (a3 m c) (a5 m c) (a7 m c) (a8 m c) (a9 m c) (a10 m c) (a11 m c) := by
  funext i
  obtain ⟨p, q, rfl⟩ : ∃ (p : Fin 100000) (q : Fin 128), i = ix2 p q := ⟨i 0, i 1, eq_ix2 i⟩
  rw [Y1_out, Cert.KernelIdeal.Fin.final1, main_v47_apply]
  show Cert.Spec.sage (X1 m c (Proc.devRef .tc main_v19)) (X1 m c (Proc.devRef .tc main_v30))
    (fun p : Fin 100000 => X1 m c (Proc.devRef .tc main_v14) (ix2 p 0)) (X1 m c (Proc.devRef .tc main_v32))
    (X1 m c (Proc.devRef .tc main_v34)) (X1 m c (Proc.devRef .tc main_v36)) p q = _
  have hx : X1 m c (Proc.devRef .tc main_v19) = Cert.ReferenceIdeal.Read.val_main_v7 (F := Ideal) (a1 m c) (a3 m c) (a5 m c) (a7 m c) (a8 m c) :=
    (X1_of m c main_v19 (by decide)).trans (rows0 m c)
  have ha : X1 m c (Proc.devRef .tc main_v30) = Cert.ReferenceIdeal.Read.val_main_v31 (F := Ideal) (a0 m c) (a1 m c) (a3 m c) (a5 m c) (a7 m c) (a8 m c) := by
    unfold X1
    rw [HostVal.after1_v30, rows0 m c, carryY0 m c main_v4 (by decide), carryY0 m c main_v5 (by decide)]
    unfold X0
    rw [HostVal.after0_v4, HostVal.after0_v5]
    exact HostMatch.nbr_sums0 (a0 m c) (a1 m c) (a3 m c) (a5 m c) (a7 m c) (a8 m c)
  have hd : (fun p : Fin 100000 => X1 m c (Proc.devRef .tc main_v14) (ix2 p 0)) = fun p => Cert.ReferenceIdeal.Read.val_main_v21 (F := Ideal) (a0 m c) (ix1 p) := by
    funext p
    rw [carry1 m c main_v14 (by decide) (by decide)]
    unfold X0
    rw [HostVal.after0_v14_apply, HostMatch.recip_degrees]
  have hwl : X1 m c (Proc.devRef .tc main_v32) = Cert.ReferenceIdeal.Read.val_main_v36 (F := Ideal) (a9 m c) := by
    unfold X1
    rw [HostVal.after1_v32, carryY0 m c main_arg9 (by decide), X0_of m c main_arg9 (by decide)]
    exact HostMatch.own_weights0 (a9 m c)
  have hwr : X1 m c (Proc.devRef .tc main_v34) = Cert.ReferenceIdeal.Read.val_main_v39 (F := Ideal) (a10 m c) := by
    unfold X1
    rw [HostVal.after1_v34, carryY0 m c main_arg10 (by decide), X0_of m c main_arg10 (by decide)]
    exact HostMatch.nbr_weights0 (a10 m c)
  have hb : X1 m c (Proc.devRef .tc main_v36) = Cert.ReferenceIdeal.Read.val_main_v43 (F := Ideal) (a11 m c) := by
    unfold X1
    rw [HostVal.after1_v36, carryY0 m c main_arg11 (by decide), X0_of m c main_arg11 (by decide)]
    exact HostMatch.bias0 (a11 m c)
  rw [hx, ha, hd, hwl, hwr, hb]

/-- Launch 2's output array is the reference's second graph layer. -/
theorem rows2 : Y2 m c (Proc.devRef .tc main_v55) = Cert.ReferenceIdeal.Read.val_main_v73 (F := Ideal) (a0 m c) (a1 m c) (a3 m c) (a5 m c) (a7 m c) (a8 m c) (a9 m c) (a10 m c) (a11 m c) := by
  funext i
  obtain ⟨p, q, rfl⟩ : ∃ (p : Fin 100000) (q : Fin 128), i = ix2 p q := ⟨i 0, i 1, eq_ix2 i⟩
  rw [Y2_out, Cert.KernelIdeal.Fin.final2, main_v73_apply]
  show Cert.Spec.sage (X2 m c (Proc.devRef .tc main_v37)) (X2 m c (Proc.devRef .tc main_v48))
    (fun p : Fin 100000 => X2 m c (Proc.devRef .tc main_v14) (ix2 p 0)) (X2 m c (Proc.devRef .tc main_v50))
    (X2 m c (Proc.devRef .tc main_v52)) (X2 m c (Proc.devRef .tc main_v54)) p q = _
  have hx : X2 m c (Proc.devRef .tc main_v37) = Cert.ReferenceIdeal.Read.val_main_v47 (F := Ideal) (a0 m c) (a1 m c) (a3 m c) (a5 m c) (a7 m c) (a8 m c) (a9 m c) (a10 m c) (a11 m c) :=
    (X2_of m c main_v37 (by decide)).trans (rows1 m c)
  have ha : X2 m c (Proc.devRef .tc main_v48) = Cert.ReferenceIdeal.Read.val_main_v57 (F := Ideal) (a0 m c) (a1 m c) (a3 m c) (a5 m c) (a7 m c) (a8 m c) (a9 m c) (a10 m c) (a11 m c) := by
    unfold X2
    rw [HostVal.after2_v48, rows1 m c, carryY1 m c main_v4 (by decide) (by decide) (by decide), carryY1 m c main_v5 (by decide) (by decide) (by decide)]
    unfold X0
    rw [HostVal.after0_v4, HostVal.after0_v5]
    exact HostMatch.nbr_sums1 (a0 m c) (a1 m c) (a3 m c) (a5 m c) (a7 m c) (a8 m c) (a9 m c) (a10 m c) (a11 m c)
  have hd : (fun p : Fin 100000 => X2 m c (Proc.devRef .tc main_v14) (ix2 p 0)) = fun p => Cert.ReferenceIdeal.Read.val_main_v21 (F := Ideal) (a0 m c) (ix1 p) := by
    funext p
    rw [carry2 m c main_v14 (by decide) (by decide) (by decide) (by decide)]
    unfold X0
    rw [HostVal.after0_v14_apply, HostMatch.recip_degrees]
  have hwl : X2 m c (Proc.devRef .tc main_v50) = Cert.ReferenceIdeal.Read.val_main_v62 (F := Ideal) (a9 m c) := by
    unfold X2
    rw [HostVal.after2_v50, carryY1 m c main_arg9 (by decide) (by decide) (by decide), X0_of m c main_arg9 (by decide)]
    exact HostMatch.own_weights1 (a9 m c)
  have hwr : X2 m c (Proc.devRef .tc main_v52) = Cert.ReferenceIdeal.Read.val_main_v65 (F := Ideal) (a10 m c) := by
    unfold X2
    rw [HostVal.after2_v52, carryY1 m c main_arg10 (by decide) (by decide) (by decide), X0_of m c main_arg10 (by decide)]
    exact HostMatch.nbr_weights1 (a10 m c)
  have hb : X2 m c (Proc.devRef .tc main_v54) = Cert.ReferenceIdeal.Read.val_main_v69 (F := Ideal) (a11 m c) := by
    unfold X2
    rw [HostVal.after2_v54, carryY1 m c main_arg11 (by decide) (by decide) (by decide), X0_of m c main_arg11 (by decide)]
    exact HostMatch.bias1 (a11 m c)
  rw [hx, ha, hd, hwl, hwr, hb]

/-- Launch 3's embedding array is the reference's third graph layer. -/
theorem rows3 : Y3 m c (Proc.devRef .tc main_v73_0) = Cert.ReferenceIdeal.Read.val_main_v98 (F := Ideal) (a0 m c) (a1 m c) (a3 m c) (a5 m c) (a7 m c) (a8 m c) (a9 m c) (a10 m c) (a11 m c) := by
  funext i
  obtain ⟨p, q, rfl⟩ : ∃ (p : Fin 100000) (q : Fin 128), i = ix2 p q := ⟨i 0, i 1, eq_ix2 i⟩
  rw [Y3_out0, Cert.KernelIdeal.Fin.final3_emb, main_v98_apply]
  show Cert.Spec.sagePre (X3 m c (Proc.devRef .tc main_v55)) (X3 m c (Proc.devRef .tc main_v66))
    (fun p : Fin 100000 => X3 m c (Proc.devRef .tc main_v14) (ix2 p 0)) (X3 m c (Proc.devRef .tc main_v68))
    (X3 m c (Proc.devRef .tc main_v70)) (X3 m c (Proc.devRef .tc main_v72)) p q = _
  have hx : X3 m c (Proc.devRef .tc main_v55) = Cert.ReferenceIdeal.Read.val_main_v73 (F := Ideal) (a0 m c) (a1 m c) (a3 m c) (a5 m c) (a7 m c) (a8 m c) (a9 m c) (a10 m c) (a11 m c) :=
    (X3_of m c main_v55 (by decide)).trans (rows2 m c)
  have ha : X3 m c (Proc.devRef .tc main_v66) = Cert.ReferenceIdeal.Read.val_main_v83 (F := Ideal) (a0 m c) (a1 m c) (a3 m c) (a5 m c) (a7 m c) (a8 m c) (a9 m c) (a10 m c) (a11 m c) := by
    unfold X3
    rw [HostVal.after3_v66, rows2 m c, carryY2 m c main_v4 (by decide) (by decide) (by decide) (by decide) (by decide), carryY2 m c main_v5 (by decide) (by decide) (by decide) (by decide) (by decide)]
    unfold X0
    rw [HostVal.after0_v4, HostVal.after0_v5]
    exact HostMatch.nbr_sums2 (a0 m c) (a1 m c) (a3 m c) (a5 m c) (a7 m c) (a8 m c) (a9 m c) (a10 m c) (a11 m c)
  have hd : (fun p : Fin 100000 => X3 m c (Proc.devRef .tc main_v14) (ix2 p 0)) = fun p => Cert.ReferenceIdeal.Read.val_main_v21 (F := Ideal) (a0 m c) (ix1 p) := by
    funext p
    rw [carry3 m c main_v14 (by decide) (by decide) (by decide) (by decide) (by decide) (by decide)]
    unfold X0
    rw [HostVal.after0_v14_apply, HostMatch.recip_degrees]
  have hwl : X3 m c (Proc.devRef .tc main_v68) = Cert.ReferenceIdeal.Read.val_main_v88 (F := Ideal) (a9 m c) := by
    unfold X3
    rw [HostVal.after3_v68, carryY2 m c main_arg9 (by decide) (by decide) (by decide) (by decide) (by decide), X0_of m c main_arg9 (by decide)]
    exact HostMatch.own_weights2 (a9 m c)
  have hwr : X3 m c (Proc.devRef .tc main_v70) = Cert.ReferenceIdeal.Read.val_main_v91 (F := Ideal) (a10 m c) := by
    unfold X3
    rw [HostVal.after3_v70, carryY2 m c main_arg10 (by decide) (by decide) (by decide) (by decide) (by decide), X0_of m c main_arg10 (by decide)]
    exact HostMatch.nbr_weights2 (a10 m c)
  have hb : X3 m c (Proc.devRef .tc main_v72) = Cert.ReferenceIdeal.Read.val_main_v95 (F := Ideal) (a11 m c) := by
    unfold X3
    rw [HostVal.after3_v72, carryY2 m c main_arg11 (by decide) (by decide) (by decide) (by decide) (by decide), X0_of m c main_arg11 (by decide)]
    exact HostMatch.bias2 (a11 m c)
  rw [hx, ha, hd, hwl, hwr, hb]

/-! ## The two results -/

/-- The first result, the node output read as a vector, is the reference's. -/
theorem res0 : X5 m c (Proc.devRef .tc main_v74) = Cert.ReferenceIdeal.Read.val_main_v108 (F := Ideal) (a0 m c) (a1 m c) (a3 m c) (a5 m c) (a7 m c) (a8 m c) (a9 m c) (a10 m c) (a11 m c) (a12 m c) (a13 m c) (a14 m c) (a15 m c) := by
  funext i
  obtain ⟨p, rfl⟩ : ∃ p : Fin 100000, i = ix1 p := ⟨i 0, eq_ix1 i⟩
  rw [X5_of m c main_v74 (by decide), Y4_of_ne m c main_v74 (by decide)]
  unfold X4
  rw [HostVal.after4_v74_apply, Y3_out1, Cert.KernelIdeal.Fin.final3_out, main_v108_apply]
  have he : (Cert.Spec.mk2 fun p q => Cert.Spec.sagePre (n := 100000) (X3 m c (Proc.devRef .tc main_v55)) (X3 m c (Proc.devRef .tc main_v66))
      (fun p : Fin 100000 => X3 m c (Proc.devRef .tc main_v14) (ix2 p 0)) (X3 m c (Proc.devRef .tc main_v68)) (X3 m c (Proc.devRef .tc main_v70))
      (X3 m c (Proc.devRef .tc main_v72)) p q) = Cert.ReferenceIdeal.Read.val_main_v98 (F := Ideal) (a0 m c) (a1 m c) (a3 m c) (a5 m c) (a7 m c) (a8 m c) (a9 m c) (a10 m c) (a11 m c) :=
    ((Cert.KernelIdeal.Fin.final3_emb (asV (X3 m)) c).symm.trans (Y3_out0 m c).symm).trans (rows3 m c)
  show Cert.Spec.nodeOut (Cert.Spec.mk2 fun p q => Cert.Spec.sagePre (n := 100000) (X3 m c (Proc.devRef .tc main_v55)) (X3 m c (Proc.devRef .tc main_v66))
      (fun p : Fin 100000 => X3 m c (Proc.devRef .tc main_v14) (ix2 p 0)) (X3 m c (Proc.devRef .tc main_v68)) (X3 m c (Proc.devRef .tc main_v70))
      (X3 m c (Proc.devRef .tc main_v72)) p q) (X3 m c (Proc.devRef .tc main_arg12)) (X3 m c (Proc.devRef .tc main_arg13))
      (X3 m c (Proc.devRef .tc main_arg14)) (X3 m c (Proc.devRef .tc main_arg15)) p = _
  rw [he, carry3 m c main_arg12 (by decide) (by decide) (by decide) (by decide) (by decide) (by decide), carry3 m c main_arg13 (by decide) (by decide) (by decide) (by decide) (by decide) (by decide), carry3 m c main_arg14 (by decide) (by decide) (by decide) (by decide) (by decide) (by decide), carry3 m c main_arg15 (by decide) (by decide) (by decide) (by decide) (by decide) (by decide),
    X0_of m c main_arg12 (by decide), X0_of m c main_arg13 (by decide), X0_of m c main_arg14 (by decide), X0_of m c main_arg15 (by decide)]

/-- The second result, the edge output read as a vector, is the reference's. -/
theorem res1 : X5 m c (Proc.devRef .tc main_v97) = Cert.ReferenceIdeal.Read.val_main_v136 (F := Ideal) (a0 m c) (a1 m c) (a2 m c) (a3 m c) (a4 m c) (a5 m c) (a6 m c)
    (a7 m c) (a8 m c) (a9 m c) (a10 m c) (a11 m c) (a16 m c) (a17 m c) (a18 m c) (a19 m c) := by
  funext i
  obtain ⟨e, rfl⟩ : ∃ e : Fin 800000, i = ix1 e := ⟨i 0, eq_ix1 i⟩
  unfold X5
  rw [HostVal.after5_v97_apply, Y4_out, Cert.KernelIdeal.Fin.final4, main_v136_apply]
  show Cert.Spec.edgeOut (X4 m c (Proc.devRef .tc main_v81)) (X4 m c (Proc.devRef .tc main_v88)) (X4 m c (Proc.devRef .tc main_v92))
    (X4 m c (Proc.devRef .tc main_v93)) (X4 m c (Proc.devRef .tc main_v94)) (X4 m c (Proc.devRef .tc main_v95))
    (X4 m c (Proc.devRef .tc main_arg17)) (X4 m c (Proc.devRef .tc main_arg18)) (X4 m c (Proc.devRef .tc main_arg19)) e = _
  have h81 : X4 m c (Proc.devRef .tc main_v81) = Cert.ReferenceIdeal.Read.val_main_v115 (F := Ideal) (a0 m c) (a1 m c) (a3 m c) (a5 m c) (a7 m c) (a8 m c) (a9 m c) (a10 m c) (a11 m c) := by
    unfold X4
    rw [HostVal.after4_v81, rows3 m c, carryY3 m c main_v1 (by decide) (by decide) (by decide) (by decide) (by decide) (by decide) (by decide) (by decide)]
    unfold X0
    rw [HostVal.after0_v1]
    exact HostMatch.rows_at_first (a0 m c) (a1 m c) (a3 m c) (a5 m c) (a7 m c) (a8 m c) (a9 m c) (a10 m c) (a11 m c)
  have h88 : X4 m c (Proc.devRef .tc main_v88) = Cert.ReferenceIdeal.Read.val_main_v122 (F := Ideal) (a0 m c) (a1 m c) (a3 m c) (a5 m c) (a7 m c) (a8 m c) (a9 m c) (a10 m c) (a11 m c) := by
    unfold X4
    rw [HostVal.after4_v88, rows3 m c, carryY3 m c main_v3 (by decide) (by decide) (by decide) (by decide) (by decide) (by decide) (by decide) (by decide)]
    unfold X0
    rw [HostVal.after0_v3]
    exact HostMatch.rows_at_second (a0 m c) (a1 m c) (a3 m c) (a5 m c) (a7 m c) (a8 m c) (a9 m c) (a10 m c) (a11 m c)
  have h92 : X4 m c (Proc.devRef .tc main_v92) = Cert.Spec.feat6 (a2 m c) (Cert.ReferenceIdeal.Read.val_main_v123 (F := Ideal) (a4 m c)) (Cert.ReferenceIdeal.Read.val_main_v125 (F := Ideal) (a6 m c)) := by
    unfold X4
    rw [HostVal.after4_v92_feat6, carryY3 m c main_arg2 (by decide) (by decide) (by decide) (by decide) (by decide) (by decide) (by decide) (by decide), carryY3 m c main_arg4 (by decide) (by decide) (by decide) (by decide) (by decide) (by decide) (by decide) (by decide), carryY3 m c main_arg6 (by decide) (by decide) (by decide) (by decide) (by decide) (by decide) (by decide) (by decide),
      X0_of m c main_arg2 (by decide), X0_of m c main_arg4 (by decide), X0_of m c main_arg6 (by decide),
      HostMatch.edge_observed, HostMatch.edge_flag]
  have h93 : X4 m c (Proc.devRef .tc main_v93) = Cert.Spec.rows 0 (by omega) (a16 m c) := by
    unfold X4
    rw [HostVal.after4_v93_rows, carryY3 m c main_arg16 (by decide) (by decide) (by decide) (by decide) (by decide) (by decide) (by decide) (by decide), X0_of m c main_arg16 (by decide)]
  have h94 : X4 m c (Proc.devRef .tc main_v94) = Cert.Spec.rows 128 (by omega) (a16 m c) := by
    unfold X4
    rw [HostVal.after4_v94_rows, carryY3 m c main_arg16 (by decide) (by decide) (by decide) (by decide) (by decide) (by decide) (by decide) (by decide), X0_of m c main_arg16 (by decide)]
  have h95 : X4 m c (Proc.devRef .tc main_v95) = Cert.Spec.rows 256 (by omega) (a16 m c) := by
    unfold X4
    rw [HostVal.after4_v95_rows, carryY3 m c main_arg16 (by decide) (by decide) (by decide) (by decide) (by decide) (by decide) (by decide) (by decide), X0_of m c main_arg16 (by decide)]
  rw [h81, h88, h92, h93, h94, h95, carry4 m c main_arg17 (by decide) (by decide) (by decide) (by decide) (by decide) (by decide) (by decide) (by decide) (by decide), carry4 m c main_arg18 (by decide) (by decide) (by decide) (by decide) (by decide) (by decide) (by decide) (by decide) (by decide), carry4 m c main_arg19 (by decide) (by decide) (by decide) (by decide) (by decide) (by decide) (by decide) (by decide) (by decide),
    X0_of m c main_arg17 (by decide), X0_of m c main_arg18 (by decide), X0_of m c main_arg19 (by decide)]

end Cert.Proof.Bridge

end
-- ==== Proof.lean ====
/-
  A graph network — a node encoder, three mean-aggregating graph layers, a node head and an edge head —
  computed two ways: by five tiled kernel launches with gathers and scatter-adds between them, and by plain
  array operations. This file assembles the certificate's five claims.

  Frames. The kernel program, at either float instance, runs as six stretches of host operations around five
  launches; every launch's body is run symbolically once per program (modules FrameK*/FrameB*), the launches
  and stretches are chained from the launch memory (RunAll / RunAllB), and at the end every unscoped buffer
  holds a named function of the launch memory — the arguments, which nothing writes, as launched. The
  reference's frame is its run with the results dropped.

  The values. On the extended reals each launch's output array, reassembled from its row tiles, is the
  layer's formula (module Spec) of the launch's input arrays (modules Pay*, Final*); each dense stage of the
  reference is the same formula of its operands (modules Ref*); and the inputs agree because they are earlier
  outputs or the results of the same host operations on the same arguments (modules Host*, HostMatch,
  Bridge). The one rearrangement is in the edge head, where one contraction over 262 columns on one side is
  three contractions over 128, 128 and 6 consecutive columns added up on the other: a sum cut into consecutive
  blocks, which needs no finiteness. The idealized kernel program is the word-level one read at the extended
  reals, nothing rewritten, so that claim holds trivially.
-/
import proofs.«175741_j7894149890553_2_alg».proof.Defs
import proofs.«175741_j7894149890553_2_alg».proof.Proof.Gen.Kernel
import proofs.«175741_j7894149890553_2_alg».proof.Proof.Gen.Kernel.Skeleton
import proofs.«175741_j7894149890553_2_alg».proof.Proof.Gen.Kernel.Launch
import proofs.«175741_j7894149890553_2_alg».proof.Proof.Gen.Kernel.Regions
import proofs.«175741_j7894149890553_2_alg».proof.Proof.Gen.Kernel.Points
import proofs.«175741_j7894149890553_2_alg».proof.Proof.Gen.KernelIdeal
import proofs.«175741_j7894149890553_2_alg».proof.Proof.Gen.KernelIdeal.Skeleton
import proofs.«175741_j7894149890553_2_alg».proof.Proof.Gen.KernelIdeal.Launch
import proofs.«175741_j7894149890553_2_alg».proof.Proof.Gen.KernelIdeal.Regions
import proofs.«175741_j7894149890553_2_alg».proof.Proof.Gen.KernelIdeal.Points
import proofs.«175741_j7894149890553_2_alg».proof.Proof.Gen.ReferenceIdeal
import proofs.«175741_j7894149890553_2_alg».proof.Proof.Gen.ReferenceIdeal.Run
import proofs.«175741_j7894149890553_2_alg».proof.Proof.Gen.ReferenceIdeal.Read
import proofs.«175741_j7894149890553_2_alg».proof.Proof.Gen.Pre_finite_inputs
import proofs.«175741_j7894149890553_2_alg».proof.Proof.RunAll
import proofs.«175741_j7894149890553_2_alg».proof.Proof.RunAllB
import proofs.«175741_j7894149890553_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ =>
  (θ_run Cert.Kernel.defs _ _).mono (fun r h c =>
    ⟨(h c _ (Cert.Kernel.Fr.mem_uc Cert.Kernel.main_arg0 (by decide))).trans (Cert.Kernel.Fr.X5_of_V11 m c Cert.Kernel.main_arg0 (Cert.Kernel.Gen.V11_main_arg0 m (Cert.Kernel.Fr.outs m) c)),
     (h c _ (Cert.Kernel.Fr.mem_uc Cert.Kernel.main_arg1 (by decide))).trans (Cert.Kernel.Fr.X5_of_V11 m c Cert.Kernel.main_arg1 (Cert.Kernel.Gen.V11_main_arg1 m (Cert.Kernel.Fr.outs m) c)),
     (h c _ (Cert.Kernel.Fr.mem_uc Cert.Kernel.main_arg2 (by decide))).trans (Cert.Kernel.Fr.X5_of_V11 m c Cert.Kernel.main_arg2 (Cert.Kernel.Gen.V11_main_arg2 m (Cert.Kernel.Fr.outs m) c)),
     (h c _ (Cert.Kernel.Fr.mem_uc Cert.Kernel.main_arg3 (by decide))).trans (Cert.Kernel.Fr.X5_of_V11 m c Cert.Kernel.main_arg3 (Cert.Kernel.Gen.V11_main_arg3 m (Cert.Kernel.Fr.outs m) c)),
     (h c _ (Cert.Kernel.Fr.mem_uc Cert.Kernel.main_arg4 (by decide))).trans (Cert.Kernel.Fr.X5_of_V11 m c Cert.Kernel.main_arg4 (Cert.Kernel.Gen.V11_main_arg4 m (Cert.Kernel.Fr.outs m) c)),
     (h c _ (Cert.Kernel.Fr.mem_uc Cert.Kernel.main_arg5 (by decide))).trans (Cert.Kernel.Fr.X5_of_V11 m c Cert.Kernel.main_arg5 (Cert.Kernel.Gen.V11_main_arg5 m (Cert.Kernel.Fr.outs m) c)),
     (h c _ (Cert.Kernel.Fr.mem_uc Cert.Kernel.main_arg6 (by decide))).trans (Cert.Kernel.Fr.X5_of_V11 m c Cert.Kernel.main_arg6 (Cert.Kernel.Gen.V11_main_arg6 m (Cert.Kernel.Fr.outs m) c)),
     (h c _ (Cert.Kernel.Fr.mem_uc Cert.Kernel.main_arg7 (by decide))).trans (Cert.Kernel.Fr.X5_of_V11 m c Cert.Kernel.main_arg7 (Cert.Kernel.Gen.V11_main_arg7 m (Cert.Kernel.Fr.outs m) c)),
     (h c _ (Cert.Kernel.Fr.mem_uc Cert.Kernel.main_arg8 (by decide))).trans (Cert.Kernel.Fr.X5_of_V11 m c Cert.Kernel.main_arg8 (Cert.Kernel.Gen.V11_main_arg8 m (Cert.Kernel.Fr.outs m) c)),
     (h c _ (Cert.Kernel.Fr.mem_uc Cert.Kernel.main_arg9 (by decide))).trans (Cert.Kernel.Fr.X5_of_V11 m c Cert.Kernel.main_arg9 (Cert.Kernel.Gen.V11_main_arg9 m (Cert.Kernel.Fr.outs m) c)),
     (h c _ (Cert.Kernel.Fr.mem_uc Cert.Kernel.main_arg10 (by decide))).trans (Cert.Kernel.Fr.X5_of_V11 m c Cert.Kernel.main_arg10 (Cert.Kernel.Gen.V11_main_arg10 m (Cert.Kernel.Fr.outs m) c)),
     (h c _ (Cert.Kernel.Fr.mem_uc Cert.Kernel.main_arg11 (by decide))).trans (Cert.Kernel.Fr.X5_of_V11 m c Cert.Kernel.main_arg11 (Cert.Kernel.Gen.V11_main_arg11 m (Cert.Kernel.Fr.outs m) c)),
     (h c _ (Cert.Kernel.Fr.mem_uc Cert.Kernel.main_arg12 (by decide))).trans (Cert.Kernel.Fr.X5_of_V11 m c Cert.Kernel.main_arg12 (Cert.Kernel.Gen.V11_main_arg12 m (Cert.Kernel.Fr.outs m) c)),
     (h c _ (Cert.Kernel.Fr.mem_uc Cert.Kernel.main_arg13 (by decide))).trans (Cert.Kernel.Fr.X5_of_V11 m c Cert.Kernel.main_arg13 (Cert.Kernel.Gen.V11_main_arg13 m (Cert.Kernel.Fr.outs m) c)),
     (h c _ (Cert.Kernel.Fr.mem_uc Cert.Kernel.main_arg14 (by decide))).trans (Cert.Kernel.Fr.X5_of_V11 m c Cert.Kernel.main_arg14 (Cert.Kernel.Gen.V11_main_arg14 m (Cert.Kernel.Fr.outs m) c)),
     (h c _ (Cert.Kernel.Fr.mem_uc Cert.Kernel.main_arg15 (by decide))).trans (Cert.Kernel.Fr.X5_of_V11 m c Cert.Kernel.main_arg15 (Cert.Kernel.Gen.V11_main_arg15 m (Cert.Kernel.Fr.outs m) c)),
     (h c _ (Cert.Kernel.Fr.mem_uc Cert.Kernel.main_arg16 (by decide))).trans (Cert.Kernel.Fr.X5_of_V11 m c Cert.Kernel.main_arg16 (Cert.Kernel.Gen.V11_main_arg16 m (Cert.Kernel.Fr.outs m) c)),
     (h c _ (Cert.Kernel.Fr.mem_uc Cert.Kernel.main_arg17 (by decide))).trans (Cert.Kernel.Fr.X5_of_V11 m c Cert.Kernel.main_arg17 (Cert.Kernel.Gen.V11_main_arg17 m (Cert.Kernel.Fr.outs m) c)),
     (h c _ (Cert.Kernel.Fr.mem_uc Cert.Kernel.main_arg18 (by decide))).trans (Cert.Kernel.Fr.X5_of_V11 m c Cert.Kernel.main_arg18 (Cert.Kernel.Gen.V11_main_arg18 m (Cert.Kernel.Fr.outs m) c)),
     (h c _ (Cert.Kernel.Fr.mem_uc Cert.Kernel.main_arg19 (by decide))).trans (Cert.Kernel.Fr.X5_of_V11 m c Cert.Kernel.main_arg19 (Cert.Kernel.Gen.V11_main_arg19 m (Cert.Kernel.Fr.outs m) c))⟩)
    (Cert.Kernel.Fr.run_all (F := Bits) m ρ)

/-- So does the same program read at the extended reals. -/
theorem frame_ki : Cert.frame_KernelIdeal := fun m ρ _ =>
  (θ_run Cert.KernelIdeal.defs _ _).mono (fun r h c =>
    ⟨(h c _ (Cert.KernelIdeal.Fr.mem_uc Cert.KernelIdeal.main_arg0 (by decide))).trans (Cert.KernelIdeal.Fr.X5_of_V11 m c Cert.KernelIdeal.main_arg0 (Cert.KernelIdeal.Gen.V11_main_arg0 m (Cert.KernelIdeal.Fr.outs m) c)),
     (h c _ (Cert.KernelIdeal.Fr.mem_uc Cert.KernelIdeal.main_arg1 (by decide))).trans (Cert.KernelIdeal.Fr.X5_of_V11 m c Cert.KernelIdeal.main_arg1 (Cert.KernelIdeal.Gen.V11_main_arg1 m (Cert.KernelIdeal.Fr.outs m) c)),
     (h c _ (Cert.KernelIdeal.Fr.mem_uc Cert.KernelIdeal.main_arg2 (by decide))).trans (Cert.KernelIdeal.Fr.X5_of_V11 m c Cert.KernelIdeal.main_arg2 (Cert.KernelIdeal.Gen.V11_main_arg2 m (Cert.KernelIdeal.Fr.outs m) c)),
     (h c _ (Cert.KernelIdeal.Fr.mem_uc Cert.KernelIdeal.main_arg3 (by decide))).trans (Cert.KernelIdeal.Fr.X5_of_V11 m c Cert.KernelIdeal.main_arg3 (Cert.KernelIdeal.Gen.V11_main_arg3 m (Cert.KernelIdeal.Fr.outs m) c)),
     (h c _ (Cert.KernelIdeal.Fr.mem_uc Cert.KernelIdeal.main_arg4 (by decide))).trans (Cert.KernelIdeal.Fr.X5_of_V11 m c Cert.KernelIdeal.main_arg4 (Cert.KernelIdeal.Gen.V11_main_arg4 m (Cert.KernelIdeal.Fr.outs m) c)),
     (h c _ (Cert.KernelIdeal.Fr.mem_uc Cert.KernelIdeal.main_arg5 (by decide))).trans (Cert.KernelIdeal.Fr.X5_of_V11 m c Cert.KernelIdeal.main_arg5 (Cert.KernelIdeal.Gen.V11_main_arg5 m (Cert.KernelIdeal.Fr.outs m) c)),
     (h c _ (Cert.KernelIdeal.Fr.mem_uc Cert.KernelIdeal.main_arg6 (by decide))).trans (Cert.KernelIdeal.Fr.X5_of_V11 m c Cert.KernelIdeal.main_arg6 (Cert.KernelIdeal.Gen.V11_main_arg6 m (Cert.KernelIdeal.Fr.outs m) c)),
     (h c _ (Cert.KernelIdeal.Fr.mem_uc Cert.KernelIdeal.main_arg7 (by decide))).trans (Cert.KernelIdeal.Fr.X5_of_V11 m c Cert.KernelIdeal.main_arg7 (Cert.KernelIdeal.Gen.V11_main_arg7 m (Cert.KernelIdeal.Fr.outs m) c)),
     (h c _ (Cert.KernelIdeal.Fr.mem_uc Cert.KernelIdeal.main_arg8 (by decide))).trans (Cert.KernelIdeal.Fr.X5_of_V11 m c Cert.KernelIdeal.main_arg8 (Cert.KernelIdeal.Gen.V11_main_arg8 m (Cert.KernelIdeal.Fr.outs m) c)),
     (h c _ (Cert.KernelIdeal.Fr.mem_uc Cert.KernelIdeal.main_arg9 (by decide))).trans (Cert.KernelIdeal.Fr.X5_of_V11 m c Cert.KernelIdeal.main_arg9 (Cert.KernelIdeal.Gen.V11_main_arg9 m (Cert.KernelIdeal.Fr.outs m) c)),
     (h c _ (Cert.KernelIdeal.Fr.mem_uc Cert.KernelIdeal.main_arg10 (by decide))).trans (Cert.KernelIdeal.Fr.X5_of_V11 m c Cert.KernelIdeal.main_arg10 (Cert.KernelIdeal.Gen.V11_main_arg10 m (Cert.KernelIdeal.Fr.outs m) c)),
     (h c _ (Cert.KernelIdeal.Fr.mem_uc Cert.KernelIdeal.main_arg11 (by decide))).trans (Cert.KernelIdeal.Fr.X5_of_V11 m c Cert.KernelIdeal.main_arg11 (Cert.KernelIdeal.Gen.V11_main_arg11 m (Cert.KernelIdeal.Fr.outs m) c)),
     (h c _ (Cert.KernelIdeal.Fr.mem_uc Cert.KernelIdeal.main_arg12 (by decide))).trans (Cert.KernelIdeal.Fr.X5_of_V11 m c Cert.KernelIdeal.main_arg12 (Cert.KernelIdeal.Gen.V11_main_arg12 m (Cert.KernelIdeal.Fr.outs m) c)),
     (h c _ (Cert.KernelIdeal.Fr.mem_uc Cert.KernelIdeal.main_arg13 (by decide))).trans (Cert.KernelIdeal.Fr.X5_of_V11 m c Cert.KernelIdeal.main_arg13 (Cert.KernelIdeal.Gen.V11_main_arg13 m (Cert.KernelIdeal.Fr.outs m) c)),
     (h c _ (Cert.KernelIdeal.Fr.mem_uc Cert.KernelIdeal.main_arg14 (by decide))).trans (Cert.KernelIdeal.Fr.X5_of_V11 m c Cert.KernelIdeal.main_arg14 (Cert.KernelIdeal.Gen.V11_main_arg14 m (Cert.KernelIdeal.Fr.outs m) c)),
     (h c _ (Cert.KernelIdeal.Fr.mem_uc Cert.KernelIdeal.main_arg15 (by decide))).trans (Cert.KernelIdeal.Fr.X5_of_V11 m c Cert.KernelIdeal.main_arg15 (Cert.KernelIdeal.Gen.V11_main_arg15 m (Cert.KernelIdeal.Fr.outs m) c)),
     (h c _ (Cert.KernelIdeal.Fr.mem_uc Cert.KernelIdeal.main_arg16 (by decide))).trans (Cert.KernelIdeal.Fr.X5_of_V11 m c Cert.KernelIdeal.main_arg16 (Cert.KernelIdeal.Gen.V11_main_arg16 m (Cert.KernelIdeal.Fr.outs m) c)),
     (h c _ (Cert.KernelIdeal.Fr.mem_uc Cert.KernelIdeal.main_arg17 (by decide))).trans (Cert.KernelIdeal.Fr.X5_of_V11 m c Cert.KernelIdeal.main_arg17 (Cert.KernelIdeal.Gen.V11_main_arg17 m (Cert.KernelIdeal.Fr.outs m) c)),
     (h c _ (Cert.KernelIdeal.Fr.mem_uc Cert.KernelIdeal.main_arg18 (by decide))).trans (Cert.KernelIdeal.Fr.X5_of_V11 m c Cert.KernelIdeal.main_arg18 (Cert.KernelIdeal.Gen.V11_main_arg18 m (Cert.KernelIdeal.Fr.outs m) c)),
     (h c _ (Cert.KernelIdeal.Fr.mem_uc Cert.KernelIdeal.main_arg19 (by decide))).trans (Cert.KernelIdeal.Fr.X5_of_V11 m c Cert.KernelIdeal.main_arg19 (Cert.KernelIdeal.Gen.V11_main_arg19 m (Cert.KernelIdeal.Fr.outs m) c))⟩)
    (Cert.KernelIdeal.Fr.run_all (F := Ideal) m ρ)

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten between the two readings of the kernel program. -/
theorem preserves : Cert.preserves_Kernel_KernelIdeal := trivial

/-- From memories agreeing on the arguments both programs run and end with equal results: the kernel program's
    two result buffers, named by its run, are the reference's stages of the same arguments. -/
theorem algebraic : Cert.algebraic_KernelIdeal_ReferenceIdeal := by
  intro m ρ m' ρ' _ hagree
  refine ⟨fun c => Cert.KernelIdeal.Fr.X5 m c (Proc.devRef .tc Cert.KernelIdeal.main_v74),
    fun c => Cert.KernelIdeal.Fr.X5 m c (Proc.devRef .tc Cert.KernelIdeal.main_v97), ?_, ?_⟩
  · exact (θ_run Cert.KernelIdeal.defs _ _).mono (fun r h c =>
      ⟨h c _ (Cert.KernelIdeal.Fr.mem_uc Cert.KernelIdeal.main_v74 (by decide)),
       h c _ (Cert.KernelIdeal.Fr.mem_uc Cert.KernelIdeal.main_v97 (by decide)),
       (h c _ (Cert.KernelIdeal.Fr.mem_uc Cert.KernelIdeal.main_arg0 (by decide))).trans (Cert.KernelIdeal.Fr.X5_of_V11 m c Cert.KernelIdeal.main_arg0 (Cert.KernelIdeal.Gen.V11_main_arg0 m (Cert.KernelIdeal.Fr.outs m) c)),
       (h c _ (Cert.KernelIdeal.Fr.mem_uc Cert.KernelIdeal.main_arg1 (by decide))).trans (Cert.KernelIdeal.Fr.X5_of_V11 m c Cert.KernelIdeal.main_arg1 (Cert.KernelIdeal.Gen.V11_main_arg1 m (Cert.KernelIdeal.Fr.outs m) c)),
       (h c _ (Cert.KernelIdeal.Fr.mem_uc Cert.KernelIdeal.main_arg2 (by decide))).trans (Cert.KernelIdeal.Fr.X5_of_V11 m c Cert.KernelIdeal.main_arg2 (Cert.KernelIdeal.Gen.V11_main_arg2 m (Cert.KernelIdeal.Fr.outs m) c)),
       (h c _ (Cert.KernelIdeal.Fr.mem_uc Cert.KernelIdeal.main_arg3 (by decide))).trans (Cert.KernelIdeal.Fr.X5_of_V11 m c Cert.KernelIdeal.main_arg3 (Cert.KernelIdeal.Gen.V11_main_arg3 m (Cert.KernelIdeal.Fr.outs m) c)),
       (h c _ (Cert.KernelIdeal.Fr.mem_uc Cert.KernelIdeal.main_arg4 (by decide))).trans (Cert.KernelIdeal.Fr.X5_of_V11 m c Cert.KernelIdeal.main_arg4 (Cert.KernelIdeal.Gen.V11_main_arg4 m (Cert.KernelIdeal.Fr.outs m) c)),
       (h c _ (Cert.KernelIdeal.Fr.mem_uc Cert.KernelIdeal.main_arg5 (by decide))).trans (Cert.KernelIdeal.Fr.X5_of_V11 m c Cert.KernelIdeal.main_arg5 (Cert.KernelIdeal.Gen.V11_main_arg5 m (Cert.KernelIdeal.Fr.outs m) c)),
       (h c _ (Cert.KernelIdeal.Fr.mem_uc Cert.KernelIdeal.main_arg6 (by decide))).trans (Cert.KernelIdeal.Fr.X5_of_V11 m c Cert.KernelIdeal.main_arg6 (Cert.KernelIdeal.Gen.V11_main_arg6 m (Cert.KernelIdeal.Fr.outs m) c)),
       (h c _ (Cert.KernelIdeal.Fr.mem_uc Cert.KernelIdeal.main_arg7 (by decide))).trans (Cert.KernelIdeal.Fr.X5_of_V11 m c Cert.KernelIdeal.main_arg7 (Cert.KernelIdeal.Gen.V11_main_arg7 m (Cert.KernelIdeal.Fr.outs m) c)),
       (h c _ (Cert.KernelIdeal.Fr.mem_uc Cert.KernelIdeal.main_arg8 (by decide))).trans (Cert.KernelIdeal.Fr.X5_of_V11 m c Cert.KernelIdeal.main_arg8 (Cert.KernelIdeal.Gen.V11_main_arg8 m (Cert.KernelIdeal.Fr.outs m) c)),
       (h c _ (Cert.KernelIdeal.Fr.mem_uc Cert.KernelIdeal.main_arg9 (by decide))).trans (Cert.KernelIdeal.Fr.X5_of_V11 m c Cert.KernelIdeal.main_arg9 (Cert.KernelIdeal.Gen.V11_main_arg9 m (Cert.KernelIdeal.Fr.outs m) c)),
       (h c _ (Cert.KernelIdeal.Fr.mem_uc Cert.KernelIdeal.main_arg10 (by decide))).trans (Cert.KernelIdeal.Fr.X5_of_V11 m c Cert.KernelIdeal.main_arg10 (Cert.KernelIdeal.Gen.V11_main_arg10 m (Cert.KernelIdeal.Fr.outs m) c)),
       (h c _ (Cert.KernelIdeal.Fr.mem_uc Cert.KernelIdeal.main_arg11 (by decide))).trans (Cert.KernelIdeal.Fr.X5_of_V11 m c Cert.KernelIdeal.main_arg11 (Cert.KernelIdeal.Gen.V11_main_arg11 m (Cert.KernelIdeal.Fr.outs m) c)),
       (h c _ (Cert.KernelIdeal.Fr.mem_uc Cert.KernelIdeal.main_arg12 (by decide))).trans (Cert.KernelIdeal.Fr.X5_of_V11 m c Cert.KernelIdeal.main_arg12 (Cert.KernelIdeal.Gen.V11_main_arg12 m (Cert.KernelIdeal.Fr.outs m) c)),
       (h c _ (Cert.KernelIdeal.Fr.mem_uc Cert.KernelIdeal.main_arg13 (by decide))).trans (Cert.KernelIdeal.Fr.X5_of_V11 m c Cert.KernelIdeal.main_arg13 (Cert.KernelIdeal.Gen.V11_main_arg13 m (Cert.KernelIdeal.Fr.outs m) c)),
       (h c _ (Cert.KernelIdeal.Fr.mem_uc Cert.KernelIdeal.main_arg14 (by decide))).trans (Cert.KernelIdeal.Fr.X5_of_V11 m c Cert.KernelIdeal.main_arg14 (Cert.KernelIdeal.Gen.V11_main_arg14 m (Cert.KernelIdeal.Fr.outs m) c)),
       (h c _ (Cert.KernelIdeal.Fr.mem_uc Cert.KernelIdeal.main_arg15 (by decide))).trans (Cert.KernelIdeal.Fr.X5_of_V11 m c Cert.KernelIdeal.main_arg15 (Cert.KernelIdeal.Gen.V11_main_arg15 m (Cert.KernelIdeal.Fr.outs m) c)),
       (h c _ (Cert.KernelIdeal.Fr.mem_uc Cert.KernelIdeal.main_arg16 (by decide))).trans (Cert.KernelIdeal.Fr.X5_of_V11 m c Cert.KernelIdeal.main_arg16 (Cert.KernelIdeal.Gen.V11_main_arg16 m (Cert.KernelIdeal.Fr.outs m) c)),
       (h c _ (Cert.KernelIdeal.Fr.mem_uc Cert.KernelIdeal.main_arg17 (by decide))).trans (Cert.KernelIdeal.Fr.X5_of_V11 m c Cert.KernelIdeal.main_arg17 (Cert.KernelIdeal.Gen.V11_main_arg17 m (Cert.KernelIdeal.Fr.outs m) c)),
       (h c _ (Cert.KernelIdeal.Fr.mem_uc Cert.KernelIdeal.main_arg18 (by decide))).trans (Cert.KernelIdeal.Fr.X5_of_V11 m c Cert.KernelIdeal.main_arg18 (Cert.KernelIdeal.Gen.V11_main_arg18 m (Cert.KernelIdeal.Fr.outs m) c)),
       (h c _ (Cert.KernelIdeal.Fr.mem_uc Cert.KernelIdeal.main_arg19 (by decide))).trans (Cert.KernelIdeal.Fr.X5_of_V11 m c Cert.KernelIdeal.main_arg19 (Cert.KernelIdeal.Gen.V11_main_arg19 m (Cert.KernelIdeal.Fr.outs m) c))⟩)
      (Cert.KernelIdeal.Fr.run_all (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16, h17, h18, h19⟩ := hagree c
      rw [Cert.ReferenceIdeal.Read.val_main_v108_eq]
      simp only [h0, h1, h2, h3, h4, h5, h6, h7, h8, h9, h10, h11, h12, h13, h14, h15, h16, h17, h18, h19]
      exact (Cert.Proof.Bridge.res0 m c).symm
    · obtain ⟨h0, h1, h2, h3, h4, h5, h6, h7, h8, h9, h10, h11, h12, h13, h14, h15, h16, h17, h18, h19⟩ := hagree c
      rw [Cert.ReferenceIdeal.Read.val_main_v136_eq]
      simp only [h0, h1, h2, h3, h4, h5, h6, h7, h8, h9, h10, h11, h12, h13, h14, h15, h16, h17, h18, h19]
      exact (Cert.Proof.Bridge.res1 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
